-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S3x64 .f32) (main_arg7 : FVec F S64x64 .f32) (main_arg8 : FVec F S64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S100000 32) (main_arg3 : FVec F S3x64x64 .f32) (main_arg4 : FVec F S3x64 .f32) (main_arg5 : FVec F S3x64 .f32) (main_arg6 : FVec F S3x64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x64x64 : Shape := ⟨3, ![1, 64, 64]⟩
abbrev S10000x64 : Shape := ⟨2, ![10000, 64]⟩
abbrev S1600000x64 : Shape := ⟨2, ![1600000, 64]⟩
abbrev S1x64 : Shape := ⟨2, ![1, 64]⟩
abbrev S10000x1 : Shape := ⟨2, ![10000, 1]⟩
abbrev S512 : Shape := ⟨1, ![512]⟩
abbrev S512x64 : Shape := ⟨2, ![512, 64]⟩
abbrev S512x1 : Shape := ⟨2, ![512, 1]⟩

abbrev nBuf : Space → Nat
  | .hbm => 193
  | .vmem => 76
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S64x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S100000, .f32⟩
  | 43 => ⟨S100000x1, .f32⟩
  | 44 => ⟨S1x64x64, .f32⟩
  | 45 => ⟨S64x64, .f32⟩
  | 46 => ⟨S100000x64, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x1, .f32⟩
  | 57 => ⟨S1600000x64, .f32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S1x64, .f32⟩
  | 64 => ⟨S64, .f32⟩
  | 65 => ⟨S1x64, .f32⟩
  | 66 => ⟨S100000x64, .f32⟩
  | 67 => ⟨S1x64, .f32⟩
  | 68 => ⟨S1x64, .f32⟩
  | 69 => ⟨S_, .f32⟩
  | 70 => ⟨S1x64, .f32⟩
  | 71 => ⟨S1x64, .f32⟩
  | 72 => ⟨S_, .f32⟩
  | 73 => ⟨S1x64, .f32⟩
  | 74 => ⟨S1x64, .f32⟩
  | 75 => ⟨S1x64, .f32⟩
  | 76 => ⟨S1x64, .f32⟩
  | 77 => ⟨S_, .f32⟩
  | 78 => ⟨S1x64, .f32⟩
  | 79 => ⟨S1x64, .f32⟩
  | 80 => ⟨S1x64, .f32⟩
  | 81 => ⟨S64, .f32⟩
  | 82 => ⟨S1x64, .f32⟩
  | 83 => ⟨S1x64, .f32⟩
  | 84 => ⟨S64, .f32⟩
  | 85 => ⟨S1x64, .f32⟩
  | 86 => ⟨S100000x64, .f32⟩
  | 87 => ⟨S1x64x64, .f32⟩
  | 88 => ⟨S64x64, .f32⟩
  | 89 => ⟨S100000x64, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x64, .f32⟩
  | 99 => ⟨S1600000x1, .f32⟩
  | 100 => ⟨S1600000x64, .f32⟩
  | 101 => ⟨S1600000x64, .f32⟩
  | 102 => ⟨S_, .f32⟩
  | 103 => ⟨S100000x64, .f32⟩
  | 104 => ⟨S1600000x1, .i32⟩
  | 105 => ⟨S100000x64, .f32⟩
  | 106 => ⟨S1x64, .f32⟩
  | 107 => ⟨S64, .f32⟩
  | 108 => ⟨S1x64, .f32⟩
  | 109 => ⟨S100000x64, .f32⟩
  | 110 => ⟨S1x64, .f32⟩
  | 111 => ⟨S1x64, .f32⟩
  | 112 => ⟨S_, .f32⟩
  | 113 => ⟨S1x64, .f32⟩
  | 114 => ⟨S1x64, .f32⟩
  | 115 => ⟨S_, .f32⟩
  | 116 => ⟨S1x64, .f32⟩
  | 117 => ⟨S1x64, .f32⟩
  | 118 => ⟨S1x64, .f32⟩
  | 119 => ⟨S1x64, .f32⟩
  | 120 => ⟨S_, .f32⟩
  | 121 => ⟨S1x64, .f32⟩
  | 122 => ⟨S1x64, .f32⟩
  | 123 => ⟨S1x64, .f32⟩
  | 124 => ⟨S64, .f32⟩
  | 125 => ⟨S1x64, .f32⟩
  | 126 => ⟨S1x64, .f32⟩
  | 127 => ⟨S64, .f32⟩
  | _ => ⟨S100000x64, .f32⟩

abbrev hbmTy0_1 (i : Nat) : BufTy := match i % 128 with
  | 0 => ⟨S1x64, .f32⟩
  | 1 => ⟨S100000x64, .f32⟩
  | 2 => ⟨S1x64x64, .f32⟩
  | 3 => ⟨S64x64, .f32⟩
  | 4 => ⟨S100000x64, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x64, .f32⟩
  | 14 => ⟨S1600000x1, .f32⟩
  | 15 => ⟨S1600000x64, .f32⟩
  | 16 => ⟨S1600000x64, .f32⟩
  | 17 => ⟨S_, .f32⟩
  | 18 => ⟨S100000x64, .f32⟩
  | 19 => ⟨S1600000x1, .i32⟩
  | 20 => ⟨S100000x64, .f32⟩
  | 21 => ⟨S1x64, .f32⟩
  | 22 => ⟨S64, .f32⟩
  | 23 => ⟨S1x64, .f32⟩
  | 24 => ⟨S100000x64, .f32⟩
  | 25 => ⟨S1x64, .f32⟩
  | 26 => ⟨S1x64, .f32⟩
  | 27 => ⟨S_, .f32⟩
  | 28 => ⟨S1x64, .f32⟩
  | 29 => ⟨S1x64, .f32⟩
  | 30 => ⟨S_, .f32⟩
  | 31 => ⟨S1x64, .f32⟩
  | 32 => ⟨S1x64, .f32⟩
  | 33 => ⟨S1x64, .f32⟩
  | 34 => ⟨S1x64, .f32⟩
  | 35 => ⟨S_, .f32⟩
  | 36 => ⟨S1x64, .f32⟩
  | 37 => ⟨S1x64, .f32⟩
  | 38 => ⟨S1x64, .f32⟩
  | 39 => ⟨S64, .f32⟩
  | 40 => ⟨S1x64, .f32⟩
  | 41 => ⟨S1x64, .f32⟩
  | 42 => ⟨S64, .f32⟩
  | 43 => ⟨S1x64, .f32⟩
  | 44 => ⟨S100000x64, .f32⟩
  | 45 => ⟨S_, .f32⟩
  | 46 => ⟨S100000, .f32⟩
  | 47 => ⟨S_, .f32⟩
  | 48 => ⟨S512, .f32⟩
  | 49 => ⟨S100000x1, .i32⟩
  | 50 => ⟨S512, .f32⟩
  | 51 => ⟨S_, .f32⟩
  | 52 => ⟨S512x64, .f32⟩
  | 53 => ⟨S100000x1, .i32⟩
  | 54 => ⟨S512x64, .f32⟩
  | 55 => ⟨S_, .f32⟩
  | 56 => ⟨S_, .f32⟩
  | 57 => ⟨S512, .f32⟩
  | 58 => ⟨S512, .f32⟩
  | 59 => ⟨S512x1, .f32⟩
  | 60 => ⟨S512x64, .f32⟩
  | 61 => ⟨S512x64, .f32⟩
  | 62 => ⟨S64x64, .f32⟩
  | 63 => ⟨S1x64, .f32⟩
  | 64 => ⟨S512x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S1x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x1, .f32⟩
  | .local _ .vmem, ⟨34, _⟩ => ⟨S10000x1, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | .local _ .vmem, ⟨38, _⟩ => ⟨S1x64, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S64x64, .f32⟩
  | .local _ .vmem, ⟨51, _⟩ => ⟨S10000x64, .f32⟩
  | .local _ .vmem, ⟨52, _⟩ => ⟨S10000x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x1, .f32⟩
  | .local _ .vmem, ⟨58, _⟩ => ⟨S10000x1, .f32⟩
  | .local _ .vmem, ⟨59, _⟩ => ⟨S1x64, .f32⟩
  | .local _ .vmem, ⟨60, _⟩ => ⟨S10000x64, .f32⟩
  | .local _ .vmem, ⟨61, _⟩ => ⟨S10000x64, .f32⟩
  | .local _ .vmem, ⟨62, _⟩ => ⟨S1x64, .f32⟩
  | .local _ .vmem, ⟨63, _⟩ => ⟨S1x64, .f32⟩
  | .local _ .vmem, ⟨64, _⟩ => ⟨S10000x64, .f32⟩
  | .local _ .vmem, ⟨65, _⟩ => ⟨S10000x64, .f32⟩
  | .local _ .vmem, ⟨66, _⟩ => ⟨S1x64, .f32⟩
  | .local _ .vmem, ⟨67, _⟩ => ⟨S1x64, .f32⟩
  | .local _ .vmem, ⟨68, _⟩ => ⟨S1x64, .f32⟩
  | .local _ .vmem, ⟨69, _⟩ => ⟨S1x64, .f32⟩
  | .local _ .vmem, ⟨70, _⟩ => ⟨S10000x64, .f32⟩
  | .local _ .vmem, ⟨71, _⟩ => ⟨S10000x64, .f32⟩
  | .local _ .vmem, ⟨72, _⟩ => ⟨S512x64, .f32⟩
  | .local _ .vmem, ⟨73, _⟩ => ⟨S64x64, .f32⟩
  | .local _ .vmem, ⟨74, _⟩ => ⟨S1x64, .f32⟩
  | .local _ .vmem, ⟨75, _⟩ => ⟨S512x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_v47_2 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_11 : Ref sig .tc := ⟨.hbm, 90, rfl⟩
abbrev main_v66 : Ref sig .tc := ⟨.hbm, 91, rfl⟩
abbrev main_v67 : Ref sig .tc := ⟨.hbm, 92, rfl⟩
abbrev main_c_12 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82_0 : Ref sig .tc := ⟨.hbm, 109, rfl⟩
abbrev main_v82_1 : Ref sig .tc := ⟨.hbm, 110, rfl⟩
abbrev main_v82_2 : Ref sig .tc := ⟨.hbm, 111, rfl⟩
abbrev main_cst_14 : Ref sig .tc := ⟨.hbm, 112, rfl⟩
abbrev main_v83 : Ref sig .tc := ⟨.hbm, 113, rfl⟩
abbrev main_v84 : Ref sig .tc := ⟨.hbm, 114, rfl⟩
abbrev main_cst_15 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_16 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_c_17 : Ref sig .tc := ⟨.hbm, 133, rfl⟩
abbrev main_v101 : Ref sig .tc := ⟨.hbm, 134, rfl⟩
abbrev main_v102 : Ref sig .tc := ⟨.hbm, 135, rfl⟩
abbrev main_c_18 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_19 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117_0 : Ref sig .tc := ⟨.hbm, 152, rfl⟩
abbrev main_v117_1 : Ref sig .tc := ⟨.hbm, 153, rfl⟩
abbrev main_v117_2 : Ref sig .tc := ⟨.hbm, 154, rfl⟩
abbrev main_cst_20 : Ref sig .tc := ⟨.hbm, 155, rfl⟩
abbrev main_v118 : Ref sig .tc := ⟨.hbm, 156, rfl⟩
abbrev main_v119 : Ref sig .tc := ⟨.hbm, 157, rfl⟩
abbrev main_cst_21 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_22 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_23 : Ref sig .tc := ⟨.hbm, 173, rfl⟩
abbrev main_v133 : Ref sig .tc := ⟨.hbm, 174, rfl⟩
abbrev main_cst_24 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_25 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_26 : Ref sig .tc := ⟨.hbm, 183, rfl⟩
abbrev main_call0_v0 : Ref sig .tc := ⟨.hbm, 184, rfl⟩
abbrev main_call0_v1 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg4_1 : Ref sig .tc := ⟨.vmem, 37, rfl⟩
abbrev cc4_stg5_0 : Ref sig .tc := ⟨.vmem, 38, rfl⟩
abbrev cc4_stg6_0 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg1_1 : Ref sig .tc := ⟨.vmem, 56, rfl⟩
abbrev cc7_stg2_0 : Ref sig .tc := ⟨.vmem, 57, rfl⟩
abbrev cc7_stg2_1 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg4_1 : Ref sig .tc := ⟨.vmem, 61, rfl⟩
abbrev cc7_stg5_0 : Ref sig .tc := ⟨.vmem, 62, rfl⟩
abbrev cc7_stg6_0 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg1_0 : Ref sig .tc := ⟨.vmem, 73, rfl⟩
abbrev cc9_stg2_0 : Ref sig .tc := ⟨.vmem, 74, rfl⟩
abbrev cc9_stg3_0 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem4_1 : DmaSem sig := 37
abbrev cc4_sem5_0 : DmaSem sig := 38
abbrev cc4_sem6_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem2_1 : DmaSem sig := 58
abbrev cc7_sem3_0 : DmaSem sig := 59
abbrev cc7_sem4_0 : DmaSem sig := 60
abbrev cc7_sem4_1 : DmaSem sig := 61
abbrev cc7_sem5_0 : DmaSem sig := 62
abbrev cc7_sem6_0 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem1_0 : DmaSem sig := 73
abbrev cc9_sem2_0 : DmaSem sig := 74
abbrev cc9_sem3_0 : DmaSem sig := 75

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S10000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S10000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S512x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S512x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  slices_S3x64x64_S1x64x64_0_0_0 : S3x64x64.Slices ![0, 0, 0] S1x64x64
  shapeCasts_S1x64x64_S64x64 : S1x64x64.ShapeCasts S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  shapeCasts_S64_S1x64 : S64.ShapeCasts S1x64
  inb_S1x64_S1x64_0_0 : ∀ a, (![0, 0] : Fin 2 → Nat) a + S1x64.size a ≤ S1x64.size a
  h_S1x64 : 0 < S1x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  shapeCasts_S1x64_S1x64 : S1x64.ShapeCasts S1x64
  broadcasts_S1x64_S10000x64 : S1x64.Broadcasts S10000x64
  shapeCasts_S10000x64_S10000x64 : S10000x64.ShapeCasts S10000x64
  reduces_S10000x64_S64 : S10000x64.Reduces [0] S64
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S512 : S_.BroadcastsInDim S512 (![] : Fin 0 → Fin S512.rank)
  bcast_S100000_S100000x1_0 : S100000.BroadcastsInDim S100000x1 (![0] : Fin 1 → Fin S100000x1.rank)
  bcast_S_S512x64 : S_.BroadcastsInDim S512x64 (![] : Fin 0 → Fin S512x64.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  transposes_S64x64_S64x64_1_0 : S64x64.Transposes [1, 0] S64x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1x64_S512x64 : S1x64.Broadcasts S512x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512_S100000x1_S100000_n_0_0_1_wf : ScatterDims.WF S512 S100000x1 S100000 [] [0] [0] 1
  scatter_S512x64_S100000x1_S100000x64_1_0_0_1_wf : ScatterDims.WF S512x64 S100000x1 S100000x64 [1] [0] [0] 1
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S100000x64.size a
  hwx4_4 : ∀ i : grid4.Coords, EltTy.bits .f32 = 32 ∨ (Rect.block (s := S100000x64) S10000x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x64.size a ≤ S100000x64.size a
  hwx5_5 : ∀ i : grid5.Coords, EltTy.bits .f32 = 32 ∨ (Rect.block (s := S100000x64) S10000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x1.size a ≤ S100000x1.size a
  hwx7_2 : ∀ i : grid7.Coords, EltTy.bits .f32 = 32 ∨ (Rect.block (s := S100000x1) S10000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S10000x64.size a ≤ S100000x64.size a
  hwx7_4 : ∀ i : grid7.Coords, EltTy.bits .f32 = 32 ∨ (Rect.block (s := S100000x64) S10000x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x64.size a ≤ S100000x64.size a
  hwx8_5 : ∀ i : grid8.Coords, EltTy.bits .f32 = 32 ∨ (Rect.block (s := S100000x64) S10000x64.size (cc8_transform_5 i) (hinb8_5 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S512x64.size a ≤ S512x64.size a
  hwx9_0 : ∀ i : grid9.Coords, EltTy.bits .f32 = 32 ∨ (Rect.block (s := S512x64) S512x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S512x64.size a ≤ S512x64.size a
  hwx9_3 : ∀ i : grid9.Coords, EltTy.bits .f32 = 32 ∨ (Rect.block (s := S512x64) S512x64.size (cc9_transform_3 i) (hinb9_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47_0) S10000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v47_1) S1x64.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47_2) S1x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v78) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v65) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v81) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v82_0) S10000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v82_1) S1x64.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v82_2) S1x64.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v82_0) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S10000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v97) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v99) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v100) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v113) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v100) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v27) S10000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v116) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v117_0) S10000x64.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v117_1) S1x64.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v117_2) S1x64.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v117_0) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v119) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v125) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v128) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v131) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v132) S10000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v143) S512x64.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v144) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v145) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v146) S512x64.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S3x64x64 : Shape := ⟨3, ![3, 64, 64]⟩
abbrev S3x64 : Shape := ⟨2, ![3, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x64x64 : Shape := ⟨3, ![1, 64, 64]⟩
abbrev S1600000x64 : Shape := ⟨2, ![1600000, 64]⟩
abbrev S100000x1 : Shape := ⟨2, ![100000, 1]⟩
abbrev S1x64 : Shape := ⟨2, ![1, 64]⟩
abbrev S512 : Shape := ⟨1, ![512]⟩
abbrev S512x64 : Shape := ⟨2, ![512, 64]⟩
abbrev S512x1 : Shape := ⟨2, ![512, 1]⟩

abbrev nBuf : Space → Nat
  | .hbm => 302
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S3x64x64, .f32⟩
  | 4 => ⟨S3x64, .f32⟩
  | 5 => ⟨S3x64, .f32⟩
  | 6 => ⟨S3x64, .f32⟩
  | 7 => ⟨S64x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S100000, .f32⟩
  | 43 => ⟨S1x64x64, .f32⟩
  | 44 => ⟨S64x64, .f32⟩
  | 45 => ⟨S100000x64, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S1600000x1, .f32⟩
  | 56 => ⟨S1600000x64, .f32⟩
  | 57 => ⟨S1600000x64, .f32⟩
  | 58 => ⟨S_, .f32⟩
  | 59 => ⟨S100000x64, .f32⟩
  | 60 => ⟨S1600000x1, .i32⟩
  | 61 => ⟨S100000x64, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S64, .f32⟩
  | 68 => ⟨S1x64, .f32⟩
  | 69 => ⟨S100000x64, .f32⟩
  | 70 => ⟨S100000x64, .f32⟩
  | 71 => ⟨S_, .f32⟩
  | 72 => ⟨S64, .f32⟩
  | 73 => ⟨S_, .f32⟩
  | 74 => ⟨S64, .f32⟩
  | 75 => ⟨S64, .f32⟩
  | 76 => ⟨S_, .i32⟩
  | 77 => ⟨S_, .f32⟩
  | 78 => ⟨S64, .f32⟩
  | 79 => ⟨S1x64, .f32⟩
  | 80 => ⟨S_, .f32⟩
  | 81 => ⟨S1x64, .f32⟩
  | 82 => ⟨S1x64, .f32⟩
  | 83 => ⟨S100000x64, .f32⟩
  | 84 => ⟨S100000x64, .f32⟩
  | 85 => ⟨S100000x64, .f32⟩
  | 86 => ⟨S_, .f32⟩
  | 87 => ⟨S_, .f32⟩
  | 88 => ⟨S_, .f32⟩
  | 89 => ⟨S_, .f32⟩
  | 90 => ⟨S64, .f32⟩
  | 91 => ⟨S64, .f32⟩
  | 92 => ⟨S64, .f32⟩
  | 93 => ⟨S_, .f32⟩
  | 94 => ⟨S_, .i1⟩
  | 95 => ⟨S_, .f32⟩
  | 96 => ⟨S_, .f32⟩
  | 97 => ⟨S64, .f32⟩
  | 98 => ⟨S64, .f32⟩
  | 99 => ⟨S1x64, .f32⟩
  | 100 => ⟨S100000x64, .f32⟩
  | 101 => ⟨S100000x64, .f32⟩
  | 102 => ⟨S_, .f32⟩
  | 103 => ⟨S64, .f32⟩
  | 104 => ⟨S64, .f32⟩
  | 105 => ⟨S64, .f32⟩
  | 106 => ⟨S1x64, .f32⟩
  | 107 => ⟨S100000x64, .f32⟩
  | 108 => ⟨S100000x64, .f32⟩
  | 109 => ⟨S1x64, .f32⟩
  | 110 => ⟨S64, .f32⟩
  | 111 => ⟨S1x64, .f32⟩
  | 112 => ⟨S100000x64, .f32⟩
  | 113 => ⟨S100000x64, .f32⟩
  | 114 => ⟨S1x64, .f32⟩
  | 115 => ⟨S64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S1x64x64, .f32⟩
  | 123 => ⟨S64x64, .f32⟩
  | 124 => ⟨S100000x64, .f32⟩
  | 125 => ⟨S_, .i32⟩
  | 126 => ⟨S1600000, .i32⟩
  | 127 => ⟨S1600000, .i1⟩
  | _ => ⟨S100000x64, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x64, .f32⟩
  | 6 => ⟨S1600000x1, .f32⟩
  | 7 => ⟨S1600000x64, .f32⟩
  | 8 => ⟨S1600000x64, .f32⟩
  | 9 => ⟨S_, .f32⟩
  | 10 => ⟨S100000x64, .f32⟩
  | 11 => ⟨S1600000x1, .i32⟩
  | 12 => ⟨S100000x64, .f32⟩
  | 13 => ⟨S100000x1, .f32⟩
  | 14 => ⟨S100000x64, .f32⟩
  | 15 => ⟨S100000x64, .f32⟩
  | 16 => ⟨S100000x64, .f32⟩
  | 17 => ⟨S1x64, .f32⟩
  | 18 => ⟨S64, .f32⟩
  | 19 => ⟨S1x64, .f32⟩
  | 20 => ⟨S100000x64, .f32⟩
  | 21 => ⟨S100000x64, .f32⟩
  | 22 => ⟨S_, .f32⟩
  | 23 => ⟨S64, .f32⟩
  | 24 => ⟨S_, .f32⟩
  | 25 => ⟨S64, .f32⟩
  | 26 => ⟨S64, .f32⟩
  | 27 => ⟨S_, .i32⟩
  | 28 => ⟨S_, .f32⟩
  | 29 => ⟨S64, .f32⟩
  | 30 => ⟨S1x64, .f32⟩
  | 31 => ⟨S_, .f32⟩
  | 32 => ⟨S1x64, .f32⟩
  | 33 => ⟨S1x64, .f32⟩
  | 34 => ⟨S100000x64, .f32⟩
  | 35 => ⟨S100000x64, .f32⟩
  | 36 => ⟨S100000x64, .f32⟩
  | 37 => ⟨S_, .f32⟩
  | 38 => ⟨S_, .f32⟩
  | 39 => ⟨S_, .f32⟩
  | 40 => ⟨S_, .f32⟩
  | 41 => ⟨S64, .f32⟩
  | 42 => ⟨S64, .f32⟩
  | 43 => ⟨S64, .f32⟩
  | 44 => ⟨S_, .f32⟩
  | 45 => ⟨S_, .i1⟩
  | 46 => ⟨S_, .f32⟩
  | 47 => ⟨S_, .f32⟩
  | 48 => ⟨S64, .f32⟩
  | 49 => ⟨S64, .f32⟩
  | 50 => ⟨S1x64, .f32⟩
  | 51 => ⟨S100000x64, .f32⟩
  | 52 => ⟨S100000x64, .f32⟩
  | 53 => ⟨S_, .f32⟩
  | 54 => ⟨S64, .f32⟩
  | 55 => ⟨S64, .f32⟩
  | 56 => ⟨S64, .f32⟩
  | 57 => ⟨S1x64, .f32⟩
  | 58 => ⟨S100000x64, .f32⟩
  | 59 => ⟨S100000x64, .f32⟩
  | 60 => ⟨S1x64, .f32⟩
  | 61 => ⟨S64, .f32⟩
  | 62 => ⟨S1x64, .f32⟩
  | 63 => ⟨S100000x64, .f32⟩
  | 64 => ⟨S100000x64, .f32⟩
  | 65 => ⟨S1x64, .f32⟩
  | 66 => ⟨S64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S1x64x64, .f32⟩
  | 74 => ⟨S64x64, .f32⟩
  | 75 => ⟨S100000x64, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x64, .f32⟩
  | 85 => ⟨S1600000x1, .f32⟩
  | 86 => ⟨S1600000x64, .f32⟩
  | 87 => ⟨S1600000x64, .f32⟩
  | 88 => ⟨S_, .f32⟩
  | 89 => ⟨S100000x64, .f32⟩
  | 90 => ⟨S1600000x1, .i32⟩
  | 91 => ⟨S100000x64, .f32⟩
  | 92 => ⟨S100000x1, .f32⟩
  | 93 => ⟨S100000x64, .f32⟩
  | 94 => ⟨S100000x64, .f32⟩
  | 95 => ⟨S100000x64, .f32⟩
  | 96 => ⟨S1x64, .f32⟩
  | 97 => ⟨S64, .f32⟩
  | 98 => ⟨S1x64, .f32⟩
  | 99 => ⟨S100000x64, .f32⟩
  | 100 => ⟨S100000x64, .f32⟩
  | 101 => ⟨S_, .f32⟩
  | 102 => ⟨S64, .f32⟩
  | 103 => ⟨S_, .f32⟩
  | 104 => ⟨S64, .f32⟩
  | 105 => ⟨S64, .f32⟩
  | 106 => ⟨S_, .i32⟩
  | 107 => ⟨S_, .f32⟩
  | 108 => ⟨S64, .f32⟩
  | 109 => ⟨S1x64, .f32⟩
  | 110 => ⟨S_, .f32⟩
  | 111 => ⟨S1x64, .f32⟩
  | 112 => ⟨S1x64, .f32⟩
  | 113 => ⟨S100000x64, .f32⟩
  | 114 => ⟨S100000x64, .f32⟩
  | 115 => ⟨S100000x64, .f32⟩
  | 116 => ⟨S_, .f32⟩
  | 117 => ⟨S_, .f32⟩
  | 118 => ⟨S_, .f32⟩
  | 119 => ⟨S_, .f32⟩
  | 120 => ⟨S64, .f32⟩
  | 121 => ⟨S64, .f32⟩
  | 122 => ⟨S64, .f32⟩
  | 123 => ⟨S_, .f32⟩
  | 124 => ⟨S_, .i1⟩
  | 125 => ⟨S_, .f32⟩
  | 126 => ⟨S_, .f32⟩
  | 127 => ⟨S64, .f32⟩
  | _ => ⟨S100000x64, .f32⟩

abbrev hbmTy0_2 (i : Nat) : BufTy := match i % 128 with
  | 0 => ⟨S64, .f32⟩
  | 1 => ⟨S1x64, .f32⟩
  | 2 => ⟨S100000x64, .f32⟩
  | 3 => ⟨S100000x64, .f32⟩
  | 4 => ⟨S_, .f32⟩
  | 5 => ⟨S64, .f32⟩
  | 6 => ⟨S64, .f32⟩
  | 7 => ⟨S64, .f32⟩
  | 8 => ⟨S1x64, .f32⟩
  | 9 => ⟨S100000x64, .f32⟩
  | 10 => ⟨S100000x64, .f32⟩
  | 11 => ⟨S1x64, .f32⟩
  | 12 => ⟨S64, .f32⟩
  | 13 => ⟨S1x64, .f32⟩
  | 14 => ⟨S100000x64, .f32⟩
  | 15 => ⟨S100000x64, .f32⟩
  | 16 => ⟨S1x64, .f32⟩
  | 17 => ⟨S64, .f32⟩
  | 18 => ⟨S1x64, .f32⟩
  | 19 => ⟨S100000x64, .f32⟩
  | 20 => ⟨S100000x64, .f32⟩
  | 21 => ⟨S_, .f32⟩
  | 22 => ⟨S100000x64, .f32⟩
  | 23 => ⟨S100000x64, .f32⟩
  | 24 => ⟨S_, .f32⟩
  | 25 => ⟨S100000, .f32⟩
  | 26 => ⟨S_, .f32⟩
  | 27 => ⟨S512, .f32⟩
  | 28 => ⟨S100000x1, .i32⟩
  | 29 => ⟨S512, .f32⟩
  | 30 => ⟨S_, .f32⟩
  | 31 => ⟨S512x64, .f32⟩
  | 32 => ⟨S100000x1, .i32⟩
  | 33 => ⟨S512x64, .f32⟩
  | 34 => ⟨S_, .f32⟩
  | 35 => ⟨S_, .f32⟩
  | 36 => ⟨S512, .f32⟩
  | 37 => ⟨S512, .f32⟩
  | 38 => ⟨S512x1, .f32⟩
  | 39 => ⟨S512x64, .f32⟩
  | 40 => ⟨S512x64, .f32⟩
  | 41 => ⟨S64x64, .f32⟩
  | 42 => ⟨S512x64, .f32⟩
  | 43 => ⟨S1x64, .f32⟩
  | 44 => ⟨S512x64, .f32⟩
  | 45 => ⟨S512x64, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_cst_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_cst_1 : Ref sig .tc := ⟨.hbm, 87, rfl⟩
abbrev main_call0_v8 : Ref sig .tc := ⟨.hbm, 88, rfl⟩
abbrev main_call0_cst_2 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_cst_3 : Ref sig .tc := ⟨.hbm, 93, rfl⟩
abbrev main_call0_v12 : Ref sig .tc := ⟨.hbm, 94, rfl⟩
abbrev main_call0_cst_4 : Ref sig .tc := ⟨.hbm, 95, rfl⟩
abbrev main_call0_call0_v0 : Ref sig .tc := ⟨.hbm, 96, rfl⟩
abbrev main_call0_call0_v1 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_cst_11 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_call1_cst : Ref sig .tc := ⟨.hbm, 119, rfl⟩
abbrev main_call1_v0 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_c_12 : Ref sig .tc := ⟨.hbm, 125, rfl⟩
abbrev main_v79 : Ref sig .tc := ⟨.hbm, 126, rfl⟩
abbrev main_v80 : Ref sig .tc := ⟨.hbm, 127, rfl⟩
abbrev main_c_13 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_14 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_cst_15 : Ref sig .tc := ⟨.hbm, 150, rfl⟩
abbrev main_v101 : Ref sig .tc := ⟨.hbm, 151, rfl⟩
abbrev main_cst_16 : Ref sig .tc := ⟨.hbm, 152, rfl⟩
abbrev main_v102 : Ref sig .tc := ⟨.hbm, 153, rfl⟩
abbrev main_v103 : Ref sig .tc := ⟨.hbm, 154, rfl⟩
abbrev main_c_17 : Ref sig .tc := ⟨.hbm, 155, rfl⟩
abbrev main_call2_cst : Ref sig .tc := ⟨.hbm, 156, rfl⟩
abbrev main_call2_v0 : Ref sig .tc := ⟨.hbm, 157, rfl⟩
abbrev main_call2_v1 : Ref sig .tc := ⟨.hbm, 158, rfl⟩
abbrev main_call2_cst_0 : Ref sig .tc := ⟨.hbm, 159, rfl⟩
abbrev main_call2_v2 : Ref sig .tc := ⟨.hbm, 160, rfl⟩
abbrev main_call2_v3 : Ref sig .tc := ⟨.hbm, 161, rfl⟩
abbrev main_call2_v4 : Ref sig .tc := ⟨.hbm, 162, rfl⟩
abbrev main_call2_v5 : Ref sig .tc := ⟨.hbm, 163, rfl⟩
abbrev main_call2_v6 : Ref sig .tc := ⟨.hbm, 164, rfl⟩
abbrev main_call2_v7 : Ref sig .tc := ⟨.hbm, 165, rfl⟩
abbrev main_call2_cst_1 : Ref sig .tc := ⟨.hbm, 166, rfl⟩
abbrev main_call2_v8 : Ref sig .tc := ⟨.hbm, 167, rfl⟩
abbrev main_call2_cst_2 : Ref sig .tc := ⟨.hbm, 168, rfl⟩
abbrev main_call2_v9 : Ref sig .tc := ⟨.hbm, 169, rfl⟩
abbrev main_call2_v10 : Ref sig .tc := ⟨.hbm, 170, rfl⟩
abbrev main_call2_v11 : Ref sig .tc := ⟨.hbm, 171, rfl⟩
abbrev main_call2_cst_3 : Ref sig .tc := ⟨.hbm, 172, rfl⟩
abbrev main_call2_v12 : Ref sig .tc := ⟨.hbm, 173, rfl⟩
abbrev main_call2_cst_4 : Ref sig .tc := ⟨.hbm, 174, rfl⟩
abbrev main_call2_call0_v0 : Ref sig .tc := ⟨.hbm, 175, rfl⟩
abbrev main_call2_call0_v1 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_cst_18 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_call3_cst : Ref sig .tc := ⟨.hbm, 198, rfl⟩
abbrev main_call3_v0 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_c_19 : Ref sig .tc := ⟨.hbm, 204, rfl⟩
abbrev main_v128 : Ref sig .tc := ⟨.hbm, 205, rfl⟩
abbrev main_v129 : Ref sig .tc := ⟨.hbm, 206, rfl⟩
abbrev main_c_20 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_cst_21 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_cst_22 : Ref sig .tc := ⟨.hbm, 229, rfl⟩
abbrev main_v150 : Ref sig .tc := ⟨.hbm, 230, rfl⟩
abbrev main_cst_23 : Ref sig .tc := ⟨.hbm, 231, rfl⟩
abbrev main_v151 : Ref sig .tc := ⟨.hbm, 232, rfl⟩
abbrev main_v152 : Ref sig .tc := ⟨.hbm, 233, rfl⟩
abbrev main_c_24 : Ref sig .tc := ⟨.hbm, 234, rfl⟩
abbrev main_call4_cst : Ref sig .tc := ⟨.hbm, 235, rfl⟩
abbrev main_call4_v0 : Ref sig .tc := ⟨.hbm, 236, rfl⟩
abbrev main_call4_v1 : Ref sig .tc := ⟨.hbm, 237, rfl⟩
abbrev main_call4_cst_0 : Ref sig .tc := ⟨.hbm, 238, rfl⟩
abbrev main_call4_v2 : Ref sig .tc := ⟨.hbm, 239, rfl⟩
abbrev main_call4_v3 : Ref sig .tc := ⟨.hbm, 240, rfl⟩
abbrev main_call4_v4 : Ref sig .tc := ⟨.hbm, 241, rfl⟩
abbrev main_call4_v5 : Ref sig .tc := ⟨.hbm, 242, rfl⟩
abbrev main_call4_v6 : Ref sig .tc := ⟨.hbm, 243, rfl⟩
abbrev main_call4_v7 : Ref sig .tc := ⟨.hbm, 244, rfl⟩
abbrev main_call4_cst_1 : Ref sig .tc := ⟨.hbm, 245, rfl⟩
abbrev main_call4_v8 : Ref sig .tc := ⟨.hbm, 246, rfl⟩
abbrev main_call4_cst_2 : Ref sig .tc := ⟨.hbm, 247, rfl⟩
abbrev main_call4_v9 : Ref sig .tc := ⟨.hbm, 248, rfl⟩
abbrev main_call4_v10 : Ref sig .tc := ⟨.hbm, 249, rfl⟩
abbrev main_call4_v11 : Ref sig .tc := ⟨.hbm, 250, rfl⟩
abbrev main_call4_cst_3 : Ref sig .tc := ⟨.hbm, 251, rfl⟩
abbrev main_call4_v12 : Ref sig .tc := ⟨.hbm, 252, rfl⟩
abbrev main_call4_cst_4 : Ref sig .tc := ⟨.hbm, 253, rfl⟩
abbrev main_call4_call0_v0 : Ref sig .tc := ⟨.hbm, 254, rfl⟩
abbrev main_call4_call0_v1 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_cst_25 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_v160 : Ref sig .tc := ⟨.hbm, 264, rfl⟩
abbrev main_v161 : Ref sig .tc := ⟨.hbm, 265, rfl⟩
abbrev main_v162 : Ref sig .tc := ⟨.hbm, 266, rfl⟩
abbrev main_v163 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_call5_cst : Ref sig .tc := ⟨.hbm, 277, rfl⟩
abbrev main_call5_v0 : Ref sig .tc := ⟨.hbm, 278, rfl⟩
abbrev main_v173 : Ref sig .tc := ⟨.hbm, 279, rfl⟩
abbrev main_cst_26 : Ref sig .tc := ⟨.hbm, 280, rfl⟩
abbrev main_v174 : Ref sig .tc := ⟨.hbm, 281, rfl⟩
abbrev main_cst_27 : Ref sig .tc := ⟨.hbm, 282, rfl⟩
abbrev main_v175 : Ref sig .tc := ⟨.hbm, 283, rfl⟩
abbrev main_v176 : Ref sig .tc := ⟨.hbm, 284, rfl⟩
abbrev main_v177 : Ref sig .tc := ⟨.hbm, 285, rfl⟩
abbrev main_cst_28 : Ref sig .tc := ⟨.hbm, 286, rfl⟩
abbrev main_v178 : Ref sig .tc := ⟨.hbm, 287, rfl⟩
abbrev main_v179 : Ref sig .tc := ⟨.hbm, 288, rfl⟩
abbrev main_v180 : Ref sig .tc := ⟨.hbm, 289, rfl⟩
abbrev main_cst_29 : Ref sig .tc := ⟨.hbm, 290, rfl⟩
abbrev main_call6_v0 : Ref sig .tc := ⟨.hbm, 291, rfl⟩
abbrev main_call6_v1 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_v185 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x64x64_S1x64x64_0_0_0 : S3x64x64.Slices ![0, 0, 0] S1x64x64
  shapeCasts_S1x64x64_S64x64 : S1x64x64.ShapeCasts S64x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S512 : S_.BroadcastsInDim S512 (![] : Fin 0 → Fin S512.rank)
  bcast_S_S512x64 : S_.BroadcastsInDim S512x64 (![] : Fin 0 → Fin S512x64.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  transposes_S64x64_S64x64_1_0 : S64x64.Transposes [1, 0] S64x64
  bcast_S1x64_S512x64_0_1 : S1x64.BroadcastsInDim S512x64 (![0, 1] : Fin 2 → Fin S512x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512_S100000x1_S100000_n_0_0_1_wf : ScatterDims.WF S512 S100000x1 S100000 [] [0] [0] 1
  scatter_S512x64_S100000x1_S100000x64_1_0_0_1_wf : ScatterDims.WF S512x64 S100000x1 S100000x64 [1] [0] [0] 1
  dot_S512x64_S64x64_S512x64_1_0_0_1_n_n_wf : DotDims.WF S512x64 S64x64 S512x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

class Facts : Prop extends Facts₀ where

variable [Facts]
-- ==== Proof.RefRun.Part0.lean ====
/- Window 0 of the reference program's @main as a list of host operations, every call of an outlined function
   replaced by the callee's operations over that call's own buffer record; the window is that straight line, and every
   operation touches TensorCore references only. -/
import proofs.«125721_j19146964206336_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 0's 60 operations, in order: the two endpoint rows of the edge table, the symmetric degree normalisation (one plus the scatter-added in-degree, its reciprocal square root gathered at both endpoints and multiplied), its square on the diagonal, and the first layer's product with its weight, gather along edges, scaling, scatter-add onto the targets, self term and the start of the bias. -/
abbrev ops_part0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    nullary main_c (constantI S_ 32 0#32),
    unary main_c main_v11 (broadcastInDim S1600000 ![] bcast_S_S1600000 : (⟨S_, .i32⟩ : BufTy).Contents (Elt F) → (⟨S1600000, .i32⟩ : BufTy).Contents (Elt F)),
    binary main_v1 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v13 (broadcastInDim S1600000 ![] bcast_S_S1600000 : (⟨S_, .i32⟩ : BufTy).Contents (Elt F) → (⟨S1600000, .i32⟩ : BufTy).Contents (Elt F)),
    binary main_v1 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_v10 main_v16 main_v17 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v18 (broadcastInDim S1600000 ![] bcast_S_S1600000 : (⟨S_, .i32⟩ : BufTy).Contents (Elt F) → (⟨S1600000, .i32⟩ : BufTy).Contents (Elt F)),
    binary main_v3 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v20 (broadcastInDim S1600000 ![] bcast_S_S1600000 : (⟨S_, .i32⟩ : BufTy).Contents (Elt F) → (⟨S1600000, .i32⟩ : BufTy).Contents (Elt F)),
    binary main_v3 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_v3 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_v10 main_v23 main_v24 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v17 main_v24 main_v25 (mulf : (⟨S1600000, .f32⟩ : BufTy).Contents (Elt F) → (⟨S1600000, .f32⟩ : BufTy).Contents (Elt F) → (⟨S1600000, .f32⟩ : BufTy).Contents (Elt F)),
    binary main_v10 main_v10 main_v26 (mulf : (⟨S100000, .f32⟩ : BufTy).Contents (Elt F) → (⟨S100000, .f32⟩ : BufTy).Contents (Elt F) → (⟨S100000, .f32⟩ : BufTy).Contents (Elt F)),
    unary main_arg3 main_v27 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v27 main_v28 rfl shapeCasts_S1x64x64_S64x64,
    binary main_arg0 main_v28 main_v29 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_5 (constantI S_ 32 0#32),
    unary main_c_5 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v25 main_v37 (broadcastInDim S1600000x1 ![0] bcast_S1600000_S1600000x1_0 : (⟨S1600000, .f32⟩ : BufTy).Contents (Elt F) → (⟨S1600000x1, .f32⟩ : BufTy).Contents (Elt F)),
    unary main_v37 main_v38 (broadcastInDim S1600000x64 ![0, 1] bcast_S1600000x1_S1600000x64_0_1 : (⟨S1600000x1, .f32⟩ : BufTy).Contents (Elt F) → (⟨S1600000x64, .f32⟩ : BufTy).Contents (Elt F)),
    binary main_v36 main_v38 main_v39 (mulf : (⟨S1600000x64, .f32⟩ : BufTy).Contents (Elt F) → (⟨S1600000x64, .f32⟩ : BufTy).Contents (Elt F) → (⟨S1600000x64, .f32⟩ : BufTy).Contents (Elt F)),
    nullary main_cst_7 (constant S_ .f32 0x00000000#32),
    unary main_cst_7 main_v40 (broadcastInDim S100000x64 ![] bcast_S_S100000x64 : (⟨S_, .f32⟩ : BufTy).Contents (Elt F) → (⟨S100000x64, .f32⟩ : BufTy).Contents (Elt F)),
    unary main_v3 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v26 main_v43 (broadcastInDim S100000x1 ![0] bcast_S100000_S100000x1_0 : (⟨S100000, .f32⟩ : BufTy).Contents (Elt F) → (⟨S100000x1, .f32⟩ : BufTy).Contents (Elt F)),
    unary main_v43 main_v44 (broadcastInDim S100000x64 ![0, 1] bcast_S100000x1_S100000x64_0_1 : (⟨S100000x1, .f32⟩ : BufTy).Contents (Elt F) → (⟨S100000x64, .f32⟩ : BufTy).Contents (Elt F)),
    binary main_v29 main_v44 main_v45 (mulf : (⟨S100000x64, .f32⟩ : BufTy).Contents (Elt F) → (⟨S100000x64, .f32⟩ : BufTy).Contents (Elt F) → (⟨S100000x64, .f32⟩ : BufTy).Contents (Elt F)),
    binary main_v42 main_v45 main_v46 (addf : (⟨S100000x64, .f32⟩ : BufTy).Contents (Elt F) → (⟨S100000x64, .f32⟩ : BufTy).Contents (Elt F) → (⟨S100000x64, .f32⟩ : BufTy).Contents (Elt F)),
    unary main_arg4 main_v47 ((extractStridedSlice S1x64 ![0, 0] · slices_S3x64_S1x64_0_0) : (⟨S3x64, .f32⟩ : BufTy).Contents (Elt F) → (⟨S1x64, .f32⟩ : BufTy).Contents (Elt F)),
    reshape main_v47 main_v48 rfl shapeCasts_S1x64_S64,
    unary main_v48 main_v49 (broadcastInDim S1x64 ![1] bcast_S64_S1x64_1 : (⟨S64, .f32⟩ : BufTy).Contents (Elt F) → (⟨S1x64, .f32⟩ : BufTy).Contents (Elt F)) ]

/-- The window is that straight line: the outlined functions' bodies unfold at their calls, the records at their
    fields, and grafting a continuation onto a chain of steps is computed by the free monad's bind. -/
theorem main_part0_eq (c : Dev nD) : main_part0 (F := F) c = seq ops_part0 := rfl

/-- Every operation of the window touches TensorCore references only. -/
theorem ops_part0_sub : (ops_part0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., binary_bufs_sub .., unary_bufs_sub .., reshape_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., binary_bufs_sub .., unary_bufs_sub .., reshape_bufs_sub .., unary_bufs_sub ..⟩

end Cert.ReferenceIdeal.RefRun

end
-- ==== Proof.RefRun.Part1.lean ====
/- Window 1 of the reference program's @main as a list of host operations, every call of an outlined function
   replaced by the callee's operations over that call's own buffer record; the window is that straight line, and every
   operation touches TensorCore references only. -/
import proofs.«125721_j19146964206336_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 1's 83 operations, in order: the first layer's bias, its mean over the rows, the outlined variance (mean, centred squares, their sum over the rows divided by the count less the correction, kept where that divisor is positive and a NaN otherwise), the normalisation with scale and shift, the outlined rectifier, and the second layer's message passing up to its sum over the rows. -/
abbrev ops_part1 : List (HloOp τ sig (Elt F)) :=
  [ unary main_v49 main_v50 (broadcastInDim S100000x64 ![0, 1] bcast_S1x64_S100000x64_0_1 : (⟨S1x64, .f32⟩ : BufTy).Contents (Elt F) → (⟨S100000x64, .f32⟩ : BufTy).Contents (Elt F)),
    binary main_v46 main_v50 main_v51 (addf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x00000000#32),
    binary main_v51 main_cst_8 main_v52 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_9 (constant S_ .f32 0x47C35000#32),
    unary main_cst_9 main_v53 (broadcastInDim S64 ![] bcast_S_S64 : (⟨S_, .f32⟩ : BufTy).Contents (Elt F) → (⟨S64, .f32⟩ : BufTy).Contents (Elt F)),
    binary main_v52 main_v53 main_v54 (Host.divf : (⟨S64, .f32⟩ : BufTy).Contents (Elt F) → (⟨S64, .f32⟩ : BufTy).Contents (Elt F) → (⟨S64, .f32⟩ : BufTy).Contents (Elt F)),
    nullary main_c_10 (constantI S_ 32 0#32),
    TRef.nullary main_call0.cst (constant S_ .f32 0x00000000#32),
    TRef.binary (.of main_v51 : TRef sig ⟨S100000x64, .f32⟩) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v51 : TRef sig ⟨S100000x64, .f32⟩) main_call0.v4 main_call0.v5 subf,
    TRef.binary main_call0.v5 main_call0.v5 main_call0.v6 mulf,
    TRef.unary (.of main_c_10 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b),
    unary main_v54 main_v56 (broadcastInDim S1x64 ![1] bcast_S64_S1x64_1 : (⟨S64, .f32⟩ : BufTy).Contents (Elt F) → (⟨S1x64, .f32⟩ : BufTy).Contents (Elt F)),
    unary main_v56 main_v57 (broadcastInDim S100000x64 ![0, 1] bcast_S1x64_S100000x64_0_1 : (⟨S1x64, .f32⟩ : BufTy).Contents (Elt F) → (⟨S100000x64, .f32⟩ : BufTy).Contents (Elt F)),
    binary main_v51 main_v57 main_v58 (subf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x3727C5AC#32),
    unary main_cst_11 main_v59 (broadcastInDim S64 ![] bcast_S_S64 : (⟨S_, .f32⟩ : BufTy).Contents (Elt F) → (⟨S64, .f32⟩ : BufTy).Contents (Elt F)),
    binary main_v55 main_v59 main_v60 (addf : (⟨S64, .f32⟩ : BufTy).Contents (Elt F) → (⟨S64, .f32⟩ : BufTy).Contents (Elt F) → (⟨S64, .f32⟩ : BufTy).Contents (Elt F)),
    unary main_v60 main_v61 (Host.rsqrt : (⟨S64, .f32⟩ : BufTy).Contents (Elt F) → (⟨S64, .f32⟩ : BufTy).Contents (Elt F)),
    unary main_v61 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v58 main_v63 main_v64 (mulf : (⟨S100000x64, .f32⟩ : BufTy).Contents (Elt F) → (⟨S100000x64, .f32⟩ : BufTy).Contents (Elt F) → (⟨S100000x64, .f32⟩ : BufTy).Contents (Elt F)),
    unary main_arg5 main_v65 ((extractStridedSlice S1x64 ![0, 0] · slices_S3x64_S1x64_0_0) : (⟨S3x64, .f32⟩ : BufTy).Contents (Elt F) → (⟨S1x64, .f32⟩ : BufTy).Contents (Elt F)),
    reshape main_v65 main_v66 rfl shapeCasts_S1x64_S64,
    unary main_v66 main_v67 (broadcastInDim S1x64 ![1] bcast_S64_S1x64_1 : (⟨S64, .f32⟩ : BufTy).Contents (Elt F) → (⟨S1x64, .f32⟩ : BufTy).Contents (Elt F)),
    unary main_v67 main_v68 (broadcastInDim S100000x64 ![0, 1] bcast_S1x64_S100000x64_0_1 : (⟨S1x64, .f32⟩ : BufTy).Contents (Elt F) → (⟨S100000x64, .f32⟩ : BufTy).Contents (Elt F)),
    binary main_v68 main_v64 main_v69 (mulf : (⟨S100000x64, .f32⟩ : BufTy).Contents (Elt F) → (⟨S100000x64, .f32⟩ : BufTy).Contents (Elt F) → (⟨S100000x64, .f32⟩ : BufTy).Contents (Elt F)),
    unary main_arg6 main_v70 ((extractStridedSlice S1x64 ![0, 0] · slices_S3x64_S1x64_0_0) : (⟨S3x64, .f32⟩ : BufTy).Contents (Elt F) → (⟨S1x64, .f32⟩ : BufTy).Contents (Elt F)),
    reshape main_v70 main_v71 rfl shapeCasts_S1x64_S64,
    unary main_v71 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v69 main_v73 main_v74 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v74 : TRef sig ⟨S100000x64, .f32⟩) main_call1.v0 main_call1.v1 maximumf,
    unary main_arg3 main_v76 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v76 main_v77 rfl shapeCasts_S1x64x64_S64x64,
    binary main_v75 main_v77 main_v78 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_12 (constantI S_ 32 0#32),
    unary main_c_12 main_v79 (broadcastInDim S1600000 ![] bcast_S_S1600000 : (⟨S_, .i32⟩ : BufTy).Contents (Elt F) → (⟨S1600000, .i32⟩ : BufTy).Contents (Elt F)),
    binary main_v1 main_v79 main_v80 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v81 (broadcastInDim S1600000 ![] bcast_S_S1600000 : (⟨S_, .i32⟩ : BufTy).Contents (Elt F) → (⟨S1600000, .i32⟩ : BufTy).Contents (Elt F)),
    binary main_v1 main_v81 main_v82 (addi : (⟨S1600000, .i32⟩ : BufTy).Contents (Elt F) → (⟨S1600000, .i32⟩ : BufTy).Contents (Elt F) → (⟨S1600000, .i32⟩ : BufTy).Contents (Elt F)),
    ternary main_v80 main_v82 main_v1 main_v83 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v83 main_v84 (broadcastInDim S1600000x1 ![0] bcast_S1600000_S1600000x1_0 : (⟨S1600000, .i32⟩ : BufTy).Contents (Elt F) → (⟨S1600000x1, .i32⟩ : BufTy).Contents (Elt F)),
    binary main_v78 main_v84 main_v85 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v25 main_v86 (broadcastInDim S1600000x1 ![0] bcast_S1600000_S1600000x1_0 : (⟨S1600000, .f32⟩ : BufTy).Contents (Elt F) → (⟨S1600000x1, .f32⟩ : BufTy).Contents (Elt F)),
    unary main_v86 main_v87 (broadcastInDim S1600000x64 ![0, 1] bcast_S1600000x1_S1600000x64_0_1 : (⟨S1600000x1, .f32⟩ : BufTy).Contents (Elt F) → (⟨S1600000x64, .f32⟩ : BufTy).Contents (Elt F)),
    binary main_v85 main_v87 main_v88 (mulf : (⟨S1600000x64, .f32⟩ : BufTy).Contents (Elt F) → (⟨S1600000x64, .f32⟩ : BufTy).Contents (Elt F) → (⟨S1600000x64, .f32⟩ : BufTy).Contents (Elt F)),
    nullary main_cst_14 (constant S_ .f32 0x00000000#32),
    unary main_cst_14 main_v89 (broadcastInDim S100000x64 ![] bcast_S_S100000x64 : (⟨S_, .f32⟩ : BufTy).Contents (Elt F) → (⟨S100000x64, .f32⟩ : BufTy).Contents (Elt F)),
    unary main_v3 main_v90 (broadcastInDim S1600000x1 ![0] bcast_S1600000_S1600000x1_0 : (⟨S1600000, .i32⟩ : BufTy).Contents (Elt F) → (⟨S1600000x1, .i32⟩ : BufTy).Contents (Elt F)),
    ternary main_v89 main_v90 main_v88 main_v91 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v26 main_v92 (broadcastInDim S100000x1 ![0] bcast_S100000_S100000x1_0 : (⟨S100000, .f32⟩ : BufTy).Contents (Elt F) → (⟨S100000x1, .f32⟩ : BufTy).Contents (Elt F)),
    unary main_v92 main_v93 (broadcastInDim S100000x64 ![0, 1] bcast_S100000x1_S100000x64_0_1 : (⟨S100000x1, .f32⟩ : BufTy).Contents (Elt F) → (⟨S100000x64, .f32⟩ : BufTy).Contents (Elt F)),
    binary main_v78 main_v93 main_v94 (mulf : (⟨S100000x64, .f32⟩ : BufTy).Contents (Elt F) → (⟨S100000x64, .f32⟩ : BufTy).Contents (Elt F) → (⟨S100000x64, .f32⟩ : BufTy).Contents (Elt F)),
    binary main_v91 main_v94 main_v95 (addf : (⟨S100000x64, .f32⟩ : BufTy).Contents (Elt F) → (⟨S100000x64, .f32⟩ : BufTy).Contents (Elt F) → (⟨S100000x64, .f32⟩ : BufTy).Contents (Elt F)),
    unary main_arg4 main_v96 ((extractStridedSlice S1x64 ![1, 0] · slices_S3x64_S1x64_1_0) : (⟨S3x64, .f32⟩ : BufTy).Contents (Elt F) → (⟨S1x64, .f32⟩ : BufTy).Contents (Elt F)),
    reshape main_v96 main_v97 rfl shapeCasts_S1x64_S64,
    unary main_v97 main_v98 (broadcastInDim S1x64 ![1] bcast_S64_S1x64_1 : (⟨S64, .f32⟩ : BufTy).Contents (Elt F) → (⟨S1x64, .f32⟩ : BufTy).Contents (Elt F)),
    unary main_v98 main_v99 (broadcastInDim S100000x64 ![0, 1] bcast_S1x64_S100000x64_0_1 : (⟨S1x64, .f32⟩ : BufTy).Contents (Elt F) → (⟨S100000x64, .f32⟩ : BufTy).Contents (Elt F)),
    binary main_v95 main_v99 main_v100 (addf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x00000000#32),
    binary main_v100 main_cst_15 main_v101 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)) ]

/-- The window is that straight line: the outlined functions' bodies unfold at their calls, the records at their
    fields, and grafting a continuation onto a chain of steps is computed by the free monad's bind. -/
theorem main_part1_eq (c : Dev nD) : main_part1 (F := F) c = seq ops_part1 := rfl

/-- Every operation of the window touches TensorCore references only. -/
theorem ops_part1_sub : (ops_part1 : List (HloOp τ sig (Elt F))).Forall fun op => op.bufs ⊆ tcRefs τ sig :=
  ⟨unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., reshape_bufs_sub ..,
    unary_bufs_sub .., unary_bufs_sub .., binary_bufs_sub .., unary_bufs_sub .., reshape_bufs_sub .., unary_bufs_sub ..,
    unary_bufs_sub .., binary_bufs_sub .., nullary_bufs_sub .., unary_bufs_sub .., binary_bufs_sub .., unary_bufs_sub ..,
    reshape_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., binary_bufs_sub .., unary_bufs_sub .., reshape_bufs_sub ..,
    unary_bufs_sub .., unary_bufs_sub .., binary_bufs_sub .., nullary_bufs_sub .., binary_bufs_sub ..⟩

end Cert.ReferenceIdeal.RefRun

end
-- ==== Proof.RefRun.Part2.lean ====
/- Window 2 of the reference program's @main as a list of host operations, every call of an outlined function
   replaced by the callee's operations over that call's own buffer record; the window is that straight line, and every
   operation touches TensorCore references only. -/
import proofs.«125721_j19146964206336_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 2's 83 operations, in order: the second layer's mean, outlined variance, normalisation, scale, shift and rectifier, and the third layer's message passing, bias, sum over the rows and mean. -/
abbrev ops_part2 : List (HloOp τ sig (Elt F)) :=
  [ nullary main_cst_16 (constant S_ .f32 0x47C35000#32),
    unary main_cst_16 main_v102 (broadcastInDim S64 ![] bcast_S_S64 : (⟨S_, .f32⟩ : BufTy).Contents (Elt F) → (⟨S64, .f32⟩ : BufTy).Contents (Elt F)),
    binary main_v101 main_v102 main_v103 (Host.divf : (⟨S64, .f32⟩ : BufTy).Contents (Elt F) → (⟨S64, .f32⟩ : BufTy).Contents (Elt F) → (⟨S64, .f32⟩ : BufTy).Contents (Elt F)),
    nullary main_c_17 (constantI S_ 32 0#32),
    TRef.nullary main_call2.cst (constant S_ .f32 0x00000000#32),
    TRef.binary (.of main_v100 : TRef sig ⟨S100000x64, .f32⟩) main_call2.cst main_call2.v0 (fun x v => Host.reduceAdd x v reducesTo_S100000x64_S64_d0 h_S_),
    TRef.unary main_call2.v0 main_call2.v1 (broadcastInDim S1x64 ![1] bcast_S64_S1x64_1),
    TRef.nullary main_call2.cst_0 (constant S_ .f32 0x47C35000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S100000x64 ![0, 1] bcast_S1x64_S100000x64_0_1),
    TRef.binary (.of main_v100 : TRef sig ⟨S100000x64, .f32⟩) main_call2.v4 main_call2.v5 subf,
    TRef.binary main_call2.v5 main_call2.v5 main_call2.v6 mulf,
    TRef.unary (.of main_c_17 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b),
    unary main_v103 main_v105 (broadcastInDim S1x64 ![1] bcast_S64_S1x64_1 : (⟨S64, .f32⟩ : BufTy).Contents (Elt F) → (⟨S1x64, .f32⟩ : BufTy).Contents (Elt F)),
    unary main_v105 main_v106 (broadcastInDim S100000x64 ![0, 1] bcast_S1x64_S100000x64_0_1 : (⟨S1x64, .f32⟩ : BufTy).Contents (Elt F) → (⟨S100000x64, .f32⟩ : BufTy).Contents (Elt F)),
    binary main_v100 main_v106 main_v107 (subf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3727C5AC#32),
    unary main_cst_18 main_v108 (broadcastInDim S64 ![] bcast_S_S64 : (⟨S_, .f32⟩ : BufTy).Contents (Elt F) → (⟨S64, .f32⟩ : BufTy).Contents (Elt F)),
    binary main_v104 main_v108 main_v109 (addf : (⟨S64, .f32⟩ : BufTy).Contents (Elt F) → (⟨S64, .f32⟩ : BufTy).Contents (Elt F) → (⟨S64, .f32⟩ : BufTy).Contents (Elt F)),
    unary main_v109 main_v110 (Host.rsqrt : (⟨S64, .f32⟩ : BufTy).Contents (Elt F) → (⟨S64, .f32⟩ : BufTy).Contents (Elt F)),
    unary main_v110 main_v111 (broadcastInDim S1x64 ![1] bcast_S64_S1x64_1 : (⟨S64, .f32⟩ : BufTy).Contents (Elt F) → (⟨S1x64, .f32⟩ : BufTy).Contents (Elt F)),
    unary main_v111 main_v112 (broadcastInDim S100000x64 ![0, 1] bcast_S1x64_S100000x64_0_1 : (⟨S1x64, .f32⟩ : BufTy).Contents (Elt F) → (⟨S100000x64, .f32⟩ : BufTy).Contents (Elt F)),
    binary main_v107 main_v112 main_v113 (mulf : (⟨S100000x64, .f32⟩ : BufTy).Contents (Elt F) → (⟨S100000x64, .f32⟩ : BufTy).Contents (Elt F) → (⟨S100000x64, .f32⟩ : BufTy).Contents (Elt F)),
    unary main_arg5 main_v114 ((extractStridedSlice S1x64 ![1, 0] · slices_S3x64_S1x64_1_0) : (⟨S3x64, .f32⟩ : BufTy).Contents (Elt F) → (⟨S1x64, .f32⟩ : BufTy).Contents (Elt F)),
    reshape main_v114 main_v115 rfl shapeCasts_S1x64_S64,
    unary main_v115 main_v116 (broadcastInDim S1x64 ![1] bcast_S64_S1x64_1 : (⟨S64, .f32⟩ : BufTy).Contents (Elt F) → (⟨S1x64, .f32⟩ : BufTy).Contents (Elt F)),
    unary main_v116 main_v117 (broadcastInDim S100000x64 ![0, 1] bcast_S1x64_S100000x64_0_1 : (⟨S1x64, .f32⟩ : BufTy).Contents (Elt F) → (⟨S100000x64, .f32⟩ : BufTy).Contents (Elt F)),
    binary main_v117 main_v113 main_v118 (mulf : (⟨S100000x64, .f32⟩ : BufTy).Contents (Elt F) → (⟨S100000x64, .f32⟩ : BufTy).Contents (Elt F) → (⟨S100000x64, .f32⟩ : BufTy).Contents (Elt F)),
    unary main_arg6 main_v119 ((extractStridedSlice S1x64 ![1, 0] · slices_S3x64_S1x64_1_0) : (⟨S3x64, .f32⟩ : BufTy).Contents (Elt F) → (⟨S1x64, .f32⟩ : BufTy).Contents (Elt F)),
    reshape main_v119 main_v120 rfl shapeCasts_S1x64_S64,
    unary main_v120 main_v121 (broadcastInDim S1x64 ![1] bcast_S64_S1x64_1 : (⟨S64, .f32⟩ : BufTy).Contents (Elt F) → (⟨S1x64, .f32⟩ : BufTy).Contents (Elt F)),
    unary main_v121 main_v122 (broadcastInDim S100000x64 ![0, 1] bcast_S1x64_S100000x64_0_1 : (⟨S1x64, .f32⟩ : BufTy).Contents (Elt F) → (⟨S100000x64, .f32⟩ : BufTy).Contents (Elt F)),
    binary main_v118 main_v122 main_v123 (addf : (⟨S100000x64, .f32⟩ : BufTy).Contents (Elt F) → (⟨S100000x64, .f32⟩ : BufTy).Contents (Elt F) → (⟨S100000x64, .f32⟩ : BufTy).Contents (Elt F)),
    TRef.nullary main_call3.cst (constant S_ .f32 0x00000000#32),
    TRef.unary main_call3.cst main_call3.v0 (broadcastInDim S100000x64 ![] bcast_S_S100000x64),
    TRef.binary (.of main_v123 : TRef sig ⟨S100000x64, .f32⟩) main_call3.v0 main_call3.v1 maximumf,
    unary main_arg3 main_v125 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v125 main_v126 rfl shapeCasts_S1x64x64_S64x64,
    binary main_v124 main_v126 main_v127 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_19 (constantI S_ 32 0#32),
    unary main_c_19 main_v128 (broadcastInDim S1600000 ![] bcast_S_S1600000 : (⟨S_, .i32⟩ : BufTy).Contents (Elt F) → (⟨S1600000, .i32⟩ : BufTy).Contents (Elt F)),
    binary main_v1 main_v128 main_v129 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v130 (broadcastInDim S1600000 ![] bcast_S_S1600000 : (⟨S_, .i32⟩ : BufTy).Contents (Elt F) → (⟨S1600000, .i32⟩ : BufTy).Contents (Elt F)),
    binary main_v1 main_v130 main_v131 (addi : (⟨S1600000, .i32⟩ : BufTy).Contents (Elt F) → (⟨S1600000, .i32⟩ : BufTy).Contents (Elt F) → (⟨S1600000, .i32⟩ : BufTy).Contents (Elt F)),
    ternary main_v129 main_v131 main_v1 main_v132 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v132 main_v133 (broadcastInDim S1600000x1 ![0] bcast_S1600000_S1600000x1_0 : (⟨S1600000, .i32⟩ : BufTy).Contents (Elt F) → (⟨S1600000x1, .i32⟩ : BufTy).Contents (Elt F)),
    binary main_v127 main_v133 main_v134 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v25 main_v135 (broadcastInDim S1600000x1 ![0] bcast_S1600000_S1600000x1_0 : (⟨S1600000, .f32⟩ : BufTy).Contents (Elt F) → (⟨S1600000x1, .f32⟩ : BufTy).Contents (Elt F)),
    unary main_v135 main_v136 (broadcastInDim S1600000x64 ![0, 1] bcast_S1600000x1_S1600000x64_0_1 : (⟨S1600000x1, .f32⟩ : BufTy).Contents (Elt F) → (⟨S1600000x64, .f32⟩ : BufTy).Contents (Elt F)),
    binary main_v134 main_v136 main_v137 (mulf : (⟨S1600000x64, .f32⟩ : BufTy).Contents (Elt F) → (⟨S1600000x64, .f32⟩ : BufTy).Contents (Elt F) → (⟨S1600000x64, .f32⟩ : BufTy).Contents (Elt F)),
    nullary main_cst_21 (constant S_ .f32 0x00000000#32),
    unary main_cst_21 main_v138 (broadcastInDim S100000x64 ![] bcast_S_S100000x64 : (⟨S_, .f32⟩ : BufTy).Contents (Elt F) → (⟨S100000x64, .f32⟩ : BufTy).Contents (Elt F)),
    unary main_v3 main_v139 (broadcastInDim S1600000x1 ![0] bcast_S1600000_S1600000x1_0 : (⟨S1600000, .i32⟩ : BufTy).Contents (Elt F) → (⟨S1600000x1, .i32⟩ : BufTy).Contents (Elt F)),
    ternary main_v138 main_v139 main_v137 main_v140 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v26 main_v141 (broadcastInDim S100000x1 ![0] bcast_S100000_S100000x1_0 : (⟨S100000, .f32⟩ : BufTy).Contents (Elt F) → (⟨S100000x1, .f32⟩ : BufTy).Contents (Elt F)),
    unary main_v141 main_v142 (broadcastInDim S100000x64 ![0, 1] bcast_S100000x1_S100000x64_0_1 : (⟨S100000x1, .f32⟩ : BufTy).Contents (Elt F) → (⟨S100000x64, .f32⟩ : BufTy).Contents (Elt F)),
    binary main_v127 main_v142 main_v143 (mulf : (⟨S100000x64, .f32⟩ : BufTy).Contents (Elt F) → (⟨S100000x64, .f32⟩ : BufTy).Contents (Elt F) → (⟨S100000x64, .f32⟩ : BufTy).Contents (Elt F)),
    binary main_v140 main_v143 main_v144 (addf : (⟨S100000x64, .f32⟩ : BufTy).Contents (Elt F) → (⟨S100000x64, .f32⟩ : BufTy).Contents (Elt F) → (⟨S100000x64, .f32⟩ : BufTy).Contents (Elt F)),
    unary main_arg4 main_v145 ((extractStridedSlice S1x64 ![2, 0] · slices_S3x64_S1x64_2_0) : (⟨S3x64, .f32⟩ : BufTy).Contents (Elt F) → (⟨S1x64, .f32⟩ : BufTy).Contents (Elt F)),
    reshape main_v145 main_v146 rfl shapeCasts_S1x64_S64,
    unary main_v146 main_v147 (broadcastInDim S1x64 ![1] bcast_S64_S1x64_1 : (⟨S64, .f32⟩ : BufTy).Contents (Elt F) → (⟨S1x64, .f32⟩ : BufTy).Contents (Elt F)),
    unary main_v147 main_v148 (broadcastInDim S100000x64 ![0, 1] bcast_S1x64_S100000x64_0_1 : (⟨S1x64, .f32⟩ : BufTy).Contents (Elt F) → (⟨S100000x64, .f32⟩ : BufTy).Contents (Elt F)),
    binary main_v144 main_v148 main_v149 (addf : (⟨S100000x64, .f32⟩ : BufTy).Contents (Elt F) → (⟨S100000x64, .f32⟩ : BufTy).Contents (Elt F) → (⟨S100000x64, .f32⟩ : BufTy).Contents (Elt F)),
    nullary main_cst_22 (constant S_ .f32 0x00000000#32),
    binary main_v149 main_cst_22 main_v150 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_23 (constant S_ .f32 0x47C35000#32),
    unary main_cst_23 main_v151 (broadcastInDim S64 ![] bcast_S_S64 : (⟨S_, .f32⟩ : BufTy).Contents (Elt F) → (⟨S64, .f32⟩ : BufTy).Contents (Elt F)),
    binary main_v150 main_v151 main_v152 (Host.divf : (⟨S64, .f32⟩ : BufTy).Contents (Elt F) → (⟨S64, .f32⟩ : BufTy).Contents (Elt F) → (⟨S64, .f32⟩ : BufTy).Contents (Elt F)),
    nullary main_c_24 (constantI S_ 32 0#32) ]

/-- The window is that straight line: the outlined functions' bodies unfold at their calls, the records at their
    fields, and grafting a continuation onto a chain of steps is computed by the free monad's bind. -/
theorem main_part2_eq (c : Dev nD) : main_part2 (F := F) c = seq ops_part2 := rfl

/-- Every operation of the window touches TensorCore references only. -/
theorem ops_part2_sub : (ops_part2 : List (HloOp τ sig (Elt F))).Forall fun op => op.bufs ⊆ tcRefs τ sig :=
  ⟨nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., reshape_bufs_sub .., unary_bufs_sub .., unary_bufs_sub .., binary_bufs_sub .., unary_bufs_sub ..,
    reshape_bufs_sub .., unary_bufs_sub .., unary_bufs_sub .., binary_bufs_sub .., nullary_bufs_sub .., unary_bufs_sub ..,
    binary_bufs_sub .., unary_bufs_sub .., reshape_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., unary_bufs_sub .., binary_bufs_sub .., binary_bufs_sub ..,
    unary_bufs_sub .., reshape_bufs_sub .., unary_bufs_sub .., unary_bufs_sub .., binary_bufs_sub .., nullary_bufs_sub ..,
    binary_bufs_sub .., nullary_bufs_sub .., unary_bufs_sub .., binary_bufs_sub .., nullary_bufs_sub ..⟩

end Cert.ReferenceIdeal.RefRun

end
-- ==== Proof.RefRun.Part3.lean ====
/- Window 3 of the reference program's @main as a list of host operations, every call of an outlined function
   replaced by the callee's operations over that call's own buffer record; the window is that straight line, and every
   operation touches TensorCore references only. -/
import proofs.«125721_j19146964206336_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Window 3's 67 operations, in order: the third layer's outlined variance, normalisation, scale, shift and rectifier; then the pooling: the per-graph counts and sums by scatter-add over the batch vector, the counts clipped below at one, the quotient, and the final affine map (transposed weight, bias). -/
abbrev ops_part3 : List (HloOp τ sig (Elt F)) :=
  [ TRef.nullary main_call4.cst (constant S_ .f32 0x00000000#32),
    TRef.binary (.of main_v149 : TRef sig ⟨S100000x64, .f32⟩) main_call4.cst main_call4.v0 (fun x v => Host.reduceAdd x v reducesTo_S100000x64_S64_d0 h_S_),
    TRef.unary main_call4.v0 main_call4.v1 (broadcastInDim S1x64 ![1] bcast_S64_S1x64_1),
    TRef.nullary main_call4.cst_0 (constant S_ .f32 0x47C35000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S100000x64 ![0, 1] bcast_S1x64_S100000x64_0_1),
    TRef.binary (.of main_v149 : TRef sig ⟨S100000x64, .f32⟩) main_call4.v4 main_call4.v5 subf,
    TRef.binary main_call4.v5 main_call4.v5 main_call4.v6 mulf,
    TRef.unary (.of main_c_24 : TRef sig ⟨S_, .i32⟩) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v152 main_v154 (broadcastInDim S1x64 ![1] bcast_S64_S1x64_1 : (⟨S64, .f32⟩ : BufTy).Contents (Elt F) → (⟨S1x64, .f32⟩ : BufTy).Contents (Elt F)),
    unary main_v154 main_v155 (broadcastInDim S100000x64 ![0, 1] bcast_S1x64_S100000x64_0_1 : (⟨S1x64, .f32⟩ : BufTy).Contents (Elt F) → (⟨S100000x64, .f32⟩ : BufTy).Contents (Elt F)),
    binary main_v149 main_v155 main_v156 (subf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x3727C5AC#32),
    unary main_cst_25 main_v157 (broadcastInDim S64 ![] bcast_S_S64 : (⟨S_, .f32⟩ : BufTy).Contents (Elt F) → (⟨S64, .f32⟩ : BufTy).Contents (Elt F)),
    binary main_v153 main_v157 main_v158 (addf : (⟨S64, .f32⟩ : BufTy).Contents (Elt F) → (⟨S64, .f32⟩ : BufTy).Contents (Elt F) → (⟨S64, .f32⟩ : BufTy).Contents (Elt F)),
    unary main_v158 main_v159 (Host.rsqrt : (⟨S64, .f32⟩ : BufTy).Contents (Elt F) → (⟨S64, .f32⟩ : BufTy).Contents (Elt F)),
    unary main_v159 main_v160 (broadcastInDim S1x64 ![1] bcast_S64_S1x64_1 : (⟨S64, .f32⟩ : BufTy).Contents (Elt F) → (⟨S1x64, .f32⟩ : BufTy).Contents (Elt F)),
    unary main_v160 main_v161 (broadcastInDim S100000x64 ![0, 1] bcast_S1x64_S100000x64_0_1 : (⟨S1x64, .f32⟩ : BufTy).Contents (Elt F) → (⟨S100000x64, .f32⟩ : BufTy).Contents (Elt F)),
    binary main_v156 main_v161 main_v162 (mulf : (⟨S100000x64, .f32⟩ : BufTy).Contents (Elt F) → (⟨S100000x64, .f32⟩ : BufTy).Contents (Elt F) → (⟨S100000x64, .f32⟩ : BufTy).Contents (Elt F)),
    unary main_arg5 main_v163 ((extractStridedSlice S1x64 ![2, 0] · slices_S3x64_S1x64_2_0) : (⟨S3x64, .f32⟩ : BufTy).Contents (Elt F) → (⟨S1x64, .f32⟩ : BufTy).Contents (Elt F)),
    reshape main_v163 main_v164 rfl shapeCasts_S1x64_S64,
    unary main_v164 main_v165 (broadcastInDim S1x64 ![1] bcast_S64_S1x64_1 : (⟨S64, .f32⟩ : BufTy).Contents (Elt F) → (⟨S1x64, .f32⟩ : BufTy).Contents (Elt F)),
    unary main_v165 main_v166 (broadcastInDim S100000x64 ![0, 1] bcast_S1x64_S100000x64_0_1 : (⟨S1x64, .f32⟩ : BufTy).Contents (Elt F) → (⟨S100000x64, .f32⟩ : BufTy).Contents (Elt F)),
    binary main_v166 main_v162 main_v167 (mulf : (⟨S100000x64, .f32⟩ : BufTy).Contents (Elt F) → (⟨S100000x64, .f32⟩ : BufTy).Contents (Elt F) → (⟨S100000x64, .f32⟩ : BufTy).Contents (Elt F)),
    unary main_arg6 main_v168 ((extractStridedSlice S1x64 ![2, 0] · slices_S3x64_S1x64_2_0) : (⟨S3x64, .f32⟩ : BufTy).Contents (Elt F) → (⟨S1x64, .f32⟩ : BufTy).Contents (Elt F)),
    reshape main_v168 main_v169 rfl shapeCasts_S1x64_S64,
    unary main_v169 main_v170 (broadcastInDim S1x64 ![1] bcast_S64_S1x64_1 : (⟨S64, .f32⟩ : BufTy).Contents (Elt F) → (⟨S1x64, .f32⟩ : BufTy).Contents (Elt F)),
    unary main_v170 main_v171 (broadcastInDim S100000x64 ![0, 1] bcast_S1x64_S100000x64_0_1 : (⟨S1x64, .f32⟩ : BufTy).Contents (Elt F) → (⟨S100000x64, .f32⟩ : BufTy).Contents (Elt F)),
    binary main_v167 main_v171 main_v172 (addf : (⟨S100000x64, .f32⟩ : BufTy).Contents (Elt F) → (⟨S100000x64, .f32⟩ : BufTy).Contents (Elt F) → (⟨S100000x64, .f32⟩ : BufTy).Contents (Elt F)),
    TRef.nullary main_call5.cst (constant S_ .f32 0x00000000#32),
    TRef.unary main_call5.cst main_call5.v0 (broadcastInDim S100000x64 ![] bcast_S_S100000x64),
    TRef.binary (.of main_v172 : TRef sig ⟨S100000x64, .f32⟩) main_call5.v0 main_call5.v1 maximumf,
    nullary main_cst_26 (constant S_ .f32 0x3F800000#32),
    unary main_cst_26 main_v174 (broadcastInDim S100000 ![] bcast_S_S100000 : (⟨S_, .f32⟩ : BufTy).Contents (Elt F) → (⟨S100000, .f32⟩ : BufTy).Contents (Elt F)),
    nullary main_cst_27 (constant S_ .f32 0x00000000#32),
    unary main_cst_27 main_v175 (broadcastInDim S512 ![] bcast_S_S512 : (⟨S_, .f32⟩ : BufTy).Contents (Elt F) → (⟨S512, .f32⟩ : BufTy).Contents (Elt F)),
    unary main_arg2 main_v176 (broadcastInDim S100000x1 ![0] bcast_S100000_S100000x1_0 : (⟨S100000, .i32⟩ : BufTy).Contents (Elt F) → (⟨S100000x1, .i32⟩ : BufTy).Contents (Elt F)),
    ternary main_v175 main_v176 main_v174 main_v177 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_28 (constant S_ .f32 0x00000000#32),
    unary main_cst_28 main_v178 (broadcastInDim S512x64 ![] bcast_S_S512x64 : (⟨S_, .f32⟩ : BufTy).Contents (Elt F) → (⟨S512x64, .f32⟩ : BufTy).Contents (Elt F)),
    unary main_arg2 main_v179 (broadcastInDim S100000x1 ![0] bcast_S100000_S100000x1_0 : (⟨S100000, .i32⟩ : BufTy).Contents (Elt F) → (⟨S100000x1, .i32⟩ : BufTy).Contents (Elt F)),
    ternary main_v178 main_v179 main_v173 main_v180 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    nullary main_cst_29 (constant S_ .f32 0x3F800000#32),
    TRef.unary (.of main_cst_29 : TRef sig ⟨S_, .f32⟩) main_call6.v0 id,
    TRef.unary main_call6.v0 main_call6.v1 (broadcastInDim S512 ![] bcast_S_S512),
    TRef.binary main_call6.v1 (.of main_v177 : TRef sig ⟨S512, .f32⟩) main_call6.v2 maximumf,
    unary main_v181 main_v182 (broadcastInDim S512x1 ![0] bcast_S512_S512x1_0 : (⟨S512, .f32⟩ : BufTy).Contents (Elt F) → (⟨S512x1, .f32⟩ : BufTy).Contents (Elt F)),
    unary main_v182 main_v183 (broadcastInDim S512x64 ![0, 1] bcast_S512x1_S512x64_0_1 : (⟨S512x1, .f32⟩ : BufTy).Contents (Elt F) → (⟨S512x64, .f32⟩ : BufTy).Contents (Elt F)),
    binary main_v180 main_v183 main_v184 (Host.divf : (⟨S512x64, .f32⟩ : BufTy).Contents (Elt F) → (⟨S512x64, .f32⟩ : BufTy).Contents (Elt F) → (⟨S512x64, .f32⟩ : BufTy).Contents (Elt F)),
    unary main_arg7 main_v185 ((transpose S64x64 [1, 0] · transposes_S64x64_S64x64_1_0) : (⟨S64x64, .f32⟩ : BufTy).Contents (Elt F) → (⟨S64x64, .f32⟩ : BufTy).Contents (Elt F)),
    binary main_v184 main_v185 main_v186 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg8 main_v187 (broadcastInDim S1x64 ![1] bcast_S64_S1x64_1 : (⟨S64, .f32⟩ : BufTy).Contents (Elt F) → (⟨S1x64, .f32⟩ : BufTy).Contents (Elt F)),
    unary main_v187 main_v188 (broadcastInDim S512x64 ![0, 1] bcast_S1x64_S512x64_0_1 : (⟨S1x64, .f32⟩ : BufTy).Contents (Elt F) → (⟨S512x64, .f32⟩ : BufTy).Contents (Elt F)),
    binary main_v186 main_v188 main_v189 (addf : (⟨S512x64, .f32⟩ : BufTy).Contents (Elt F) → (⟨S512x64, .f32⟩ : BufTy).Contents (Elt F) → (⟨S512x64, .f32⟩ : BufTy).Contents (Elt F)) ]

/-- The window is that straight line: the outlined functions' bodies unfold at their calls, the records at their
    fields, and grafting a continuation onto a chain of steps is computed by the free monad's bind. -/
theorem main_part3_eq (c : Dev nD) : main_part3 (F := F) c = seq ops_part3 := rfl

/-- Every operation of the window touches TensorCore references only. -/
theorem ops_part3_sub : (ops_part3 : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., reshape_bufs_sub .., unary_bufs_sub .., unary_bufs_sub ..,
    binary_bufs_sub .., unary_bufs_sub .., reshape_bufs_sub .., unary_bufs_sub .., unary_bufs_sub .., binary_bufs_sub ..,
    nullary_bufs_sub .., unary_bufs_sub .., binary_bufs_sub .., nullary_bufs_sub .., unary_bufs_sub .., nullary_bufs_sub ..,
    unary_bufs_sub .., unary_bufs_sub .., ternary_bufs_sub .., nullary_bufs_sub .., unary_bufs_sub .., unary_bufs_sub ..,
    ternary_bufs_sub .., nullary_bufs_sub .., unary_bufs_sub .., unary_bufs_sub .., binary_bufs_sub .., unary_bufs_sub ..,
    unary_bufs_sub .., binary_bufs_sub .., unary_bufs_sub .., binary_bufs_sub .., unary_bufs_sub .., unary_bufs_sub ..,
    binary_bufs_sub ..⟩

end Cert.ReferenceIdeal.RefRun

end
-- ==== Proof.RefRun.lean ====
/- The reference program's @main as ONE list of host operations (its four windows in order, every call of an outlined
   function replaced by the callee's operations) and its run: from any memory with zero counters every weakly fair execution
   terminates, and each TensorCore buffer ends at the fold of the operations' results over its launch contents. -/
import proofs.«125721_j19146964206336_2_alg».proof.Proof.RefRun.Part0
import proofs.«125721_j19146964206336_2_alg».proof.Proof.RefRun.Part1
import proofs.«125721_j19146964206336_2_alg».proof.Proof.RefRun.Part2
import proofs.«125721_j19146964206336_2_alg».proof.Proof.RefRun.Part3
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 293 operations, in order: its four windows, each call of an outlined function (the variance with its
    nested selection, the rectifier, the clip) replaced by the callee's operations over that call's buffer record. -/
abbrev ops : List (HloOp τ sig (Elt F)) :=
  ops_part0 ++ (ops_part1 ++ (ops_part2 ++ ops_part3))

/-- @main is that straight line: it runs its four windows in order, each window is the line of its own operations, and
    lines run one after the other are their concatenation run as one. -/
theorem main_eq (c : Dev nD) : main (F := F) c = seq ops := by
  simp only [ops, seq_append, ← main_part0_eq c, ← main_part1_eq c, ← main_part2_eq c, ← main_part3_eq c]
  rfl

/-- The fold over the whole list is the fold over the windows in turn. -/
theorem after_ops (V : Valuation τ sig (Elt F)) :
    after ops V = after ops_part3 (after ops_part2 (after ops_part1 (after ops_part0 V))) := by
  simp only [ops, after_append]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops_part0_sub op h, List.forall_iff_forall_mem.mp ops_part1_sub op h,
      List.forall_iff_forall_mem.mp ops_part2_sub op h, List.forall_iff_forall_mem.mp ops_part3_sub op h]

/-- No operation allocates: each determines its results. -/
theorem ops_fresh : ∀ op ∈ (ops : List (HloOp τ sig (Elt F))), op.fresh = ∅ := by
  intro op h
  simp only [ops, List.mem_append] at h
  rcases h with h | h | h | h <;>
    ((repeat (cases h with | head => rfl | tail _ h => ?_)); exact nomatch h)

/-- At the compiled mesh, for any float values, from any memory with zero counters: every weakly fair execution of
    @main on the TensorCore terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefRun.Args.lean ====
/- No operation of the reference program writes one of @main's nine arguments: the fold of the operations' results at an
   argument's buffer is what the buffer held before. -/
import proofs.«125721_j19146964206336_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's nine argument buffers. -/
abbrev argRefs : List (Ref sig .tc) :=
  [main_arg0, main_arg1, main_arg2, main_arg3, main_arg4, main_arg5, main_arg6, main_arg7, main_arg8]

/-! Window by window: each operation writes exactly its result buffer, and that buffer is not an argument's (the two
references are told apart by computation), so the fold leaves an argument's buffer alone. -/

theorem part0_keeps (V : Valuation τ sig (Elt F)) {r : Ref sig .tc} (hr : r ∈ argRefs) :
    after ops_part0 V (r : DevRef τ sig) = V (r : DevRef τ sig) := by
  simp only [argRefs, List.mem_cons, List.not_mem_nil, or_false] at hr
  rcases hr with rfl | rfl | rfl | rfl | rfl | rfl | rfl | rfl | rfl <;>
    exact after_of_forall_not_mem _ _ (List.forall_iff_forall_mem.mp (by
      simp only [ops_part0, List.Forall, nullary_writes, unary_writes, binary_writes, ternary_writes, reshape_writes,
        Finset.mem_singleton]
      repeat' apply And.intro
      all_goals exact devRef_ne_of_ne (by decide)))

theorem part1_keeps (V : Valuation τ sig (Elt F)) {r : Ref sig .tc} (hr : r ∈ argRefs) :
    after ops_part1 V (r : DevRef τ sig) = V (r : DevRef τ sig) := by
  simp only [argRefs, List.mem_cons, List.not_mem_nil, or_false] at hr
  rcases hr with rfl | rfl | rfl | rfl | rfl | rfl | rfl | rfl | rfl <;>
    exact after_of_forall_not_mem _ _ (List.forall_iff_forall_mem.mp (by
      simp only [ops_part1, List.Forall, nullary_writes, unary_writes, binary_writes, ternary_writes, reshape_writes,
        Finset.mem_singleton]
      repeat' apply And.intro
      all_goals exact devRef_ne_of_ne (by decide)))

theorem part2_keeps (V : Valuation τ sig (Elt F)) {r : Ref sig .tc} (hr : r ∈ argRefs) :
    after ops_part2 V (r : DevRef τ sig) = V (r : DevRef τ sig) := by
  simp only [argRefs, List.mem_cons, List.not_mem_nil, or_false] at hr
  rcases hr with rfl | rfl | rfl | rfl | rfl | rfl | rfl | rfl | rfl <;>
    exact after_of_forall_not_mem _ _ (List.forall_iff_forall_mem.mp (by
      simp only [ops_part2, List.Forall, nullary_writes, unary_writes, binary_writes, ternary_writes, reshape_writes,
        Finset.mem_singleton]
      repeat' apply And.intro
      all_goals exact devRef_ne_of_ne (by decide)))

theorem part3_keeps (V : Valuation τ sig (Elt F)) {r : Ref sig .tc} (hr : r ∈ argRefs) :
    after ops_part3 V (r : DevRef τ sig) = V (r : DevRef τ sig) := by
  simp only [argRefs, List.mem_cons, List.not_mem_nil, or_false] at hr
  rcases hr with rfl | rfl | rfl | rfl | rfl | rfl | rfl | rfl | rfl <;>
    exact after_of_forall_not_mem _ _ (List.forall_iff_forall_mem.mp (by
      simp only [ops_part3, List.Forall, nullary_writes, unary_writes, binary_writes, ternary_writes, reshape_writes,
        Finset.mem_singleton]
      repeat' apply And.intro
      all_goals exact devRef_ne_of_ne (by decide)))

/-- Through the whole line an argument's buffer keeps its contents. -/
theorem keeps (V : Valuation τ sig (Elt F)) {r : Ref sig .tc} (hr : r ∈ argRefs) :
    after ops V (r : DevRef τ sig) = V (r : DevRef τ sig) := by
  rw [after_ops, part3_keeps _ hr, part2_keeps _ hr, part1_keeps _ hr, part0_keeps _ hr]

theorem arg0_eq (V : Valuation τ sig (Elt F)) :
    after ops V (main_arg0 : DevRef τ sig) = V (main_arg0 : DevRef τ sig) := keeps V (by decide)
theorem arg1_eq (V : Valuation τ sig (Elt F)) :
    after ops V (main_arg1 : DevRef τ sig) = V (main_arg1 : DevRef τ sig) := keeps V (by decide)
theorem arg2_eq (V : Valuation τ sig (Elt F)) :
    after ops V (main_arg2 : DevRef τ sig) = V (main_arg2 : DevRef τ sig) := keeps V (by decide)
theorem arg3_eq (V : Valuation τ sig (Elt F)) :
    after ops V (main_arg3 : DevRef τ sig) = V (main_arg3 : DevRef τ sig) := keeps V (by decide)
theorem arg4_eq (V : Valuation τ sig (Elt F)) :
    after ops V (main_arg4 : DevRef τ sig) = V (main_arg4 : DevRef τ sig) := keeps V (by decide)
theorem arg5_eq (V : Valuation τ sig (Elt F)) :
    after ops V (main_arg5 : DevRef τ sig) = V (main_arg5 : DevRef τ sig) := keeps V (by decide)
theorem arg6_eq (V : Valuation τ sig (Elt F)) :
    after ops V (main_arg6 : DevRef τ sig) = V (main_arg6 : DevRef τ sig) := keeps V (by decide)
theorem arg7_eq (V : Valuation τ sig (Elt F)) :
    after ops V (main_arg7 : DevRef τ sig) = V (main_arg7 : DevRef τ sig) := keeps V (by decide)
theorem arg8_eq (V : Valuation τ sig (Elt F)) :
    after ops V (main_arg8 : DevRef τ sig) = V (main_arg8 : DevRef τ sig) := keeps V (by decide)

end Cert.ReferenceIdeal.RefRun

end
-- ==== Proof.RefRunFrame.lean ====
/- The reference program's frame claim: from any memory with zero counters every weakly fair execution of @main
   terminates with each of the nine arguments' buffers holding what it held at launch — the run of the operation list
   read at the arguments, which no operation writes. -/
import proofs.«125721_j19146964206336_2_alg».proof.Defs
import proofs.«125721_j19146964206336_2_alg».proof.Proof.Gen.Pre_finite_inputs
import proofs.«125721_j19146964206336_2_alg».proof.Proof.RefRun.Args

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The frame of the reference: the run ends with every TensorCore buffer at the fold of the operations over the launch
    contents, and at an argument's buffer that fold is the launch contents themselves. The precondition is not used. -/
theorem frame_ri :
    Cert.frame_ReferenceIdeal (hReferenceIdeal := Cert.ReferenceIdeal.Gen.facts)
      (hPre_finite_inputs := Cert.Pre_finite_inputs.Gen.facts) :=
  fun m g _ => (θ_run _ _ _).mono
    (fun _ h c => ⟨(h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _)⟩)
    (run_main (F := Ideal) m g)

end Cert.ReferenceIdeal.RefRun

end
-- ==== Proof.KRun.lean ====
/-
  The idealized kernel program's run with every buffer named.  Its @main is ten kernel regions among
  stretches of host operations; the contents of a TensorCore's unscoped buffers at the return are the last
  boundary's fold `Gen.W22`: each host stretch applied to the contents before it, each region's arrays at
  what its write-backs leave.  Every weakly fair execution terminates, nothing faults, and the final memory
  holds `Gen.W22 m ρ c b` at every unscoped buffer `b`.
-/
import proofs.«125721_j19146964206336_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates without a fault, and
    every unscoped buffer of every TensorCore ends at the last boundary's contents. -/
theorem run_W22 : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W22 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c b hb => h c _ (mem_uc b hb))

end Cert.KernelIdeal.KRun

end
-- ==== Proof.LibVariance.lean ====
/-
  The one-pass and two-pass variances of a finite family of reals agree.

  For reals `a i` indexed by a finite type with `c` elements (`c` a positive real),
  with `s = ∑ a i`, `q = ∑ a i * a i` and `m = s / c`:

    (∑ (a i - m) * (a i - m)) / c = q / c - m * m        and it is ≥ 0,

  hence `max (q / c - m * m) 0 = (∑ (a i - m) * (a i - m)) / c`.

  The same is then stated on the extended reals, with sum, quotient, product, difference and
  maximum spelled as the ideal float instance spells them (`Ideal.div`, `*`, `-`, `max` on
  `EReal`) applied to coerced reals: on finite inputs every intermediate value is the coercion
  of a real, so the real identity transfers.
-/
import Idealize.ShloMosaic.PureOps.Ideal
import Idealize.ShloMosaic.PureOps.Ideal.Laws

namespace Cert.LibVariance

open Idealize.ShloMosaic
open scoped BigOperators

/-! ### Over the reals -/

/-- The sum of squared deviations from the mean: `∑ (a i - s/c)² = ∑ a i² - s²/c`, where `s = ∑ a i`
    and `c` is the number of terms. -/
theorem sum_sq_dev {ι : Type*} [Fintype ι] (a : ι → ℝ) (c : ℝ) (hc : c ≠ 0)
    (hcard : (Fintype.card ι : ℝ) = c) :
    ∑ i, (a i - (∑ k, a k) / c) * (a i - (∑ k, a k) / c)
      = (∑ i, a i * a i) - (∑ k, a k) * (∑ k, a k) / c := by
  have h : ∀ i, (a i - (∑ k, a k) / c) * (a i - (∑ k, a k) / c)
      = a i * a i - 2 * ((∑ k, a k) / c) * a i + ((∑ k, a k) / c) * ((∑ k, a k) / c) := fun i => by ring
  simp only [h]
  rw [Finset.sum_add_distrib, Finset.sum_sub_distrib, ← Finset.mul_sum, Finset.sum_const, Finset.card_univ,
    nsmul_eq_mul, hcard]
  field_simp
  ring

/-- The two-pass variance is the one-pass expression `q / c - m * m`. -/
theorem twoPass_eq_onePass {ι : Type*} [Fintype ι] (a : ι → ℝ) (c : ℝ) (hc : c ≠ 0)
    (hcard : (Fintype.card ι : ℝ) = c) :
    (∑ i, (a i - (∑ k, a k) / c) * (a i - (∑ k, a k) / c)) / c
      = (∑ i, a i * a i) / c - (∑ k, a k) / c * ((∑ k, a k) / c) := by
  rw [sum_sq_dev a c hc hcard]
  field_simp

/-- The two-pass variance is nonnegative: a sum of squares over a positive count. -/
theorem twoPass_nonneg {ι : Type*} [Fintype ι] (a : ι → ℝ) (c : ℝ) (hc : 0 < c) :
    0 ≤ (∑ i, (a i - (∑ k, a k) / c) * (a i - (∑ k, a k) / c)) / c :=
  div_nonneg (Finset.sum_nonneg fun i _ => mul_self_nonneg _) hc.le

/-- (1a) The clamped one-pass variance `max (q / c - m * m) 0` is the two-pass variance. -/
theorem max_onePass_eq_twoPass {ι : Type*} [Fintype ι] (a : ι → ℝ) (c : ℝ) (hc : 0 < c)
    (hcard : (Fintype.card ι : ℝ) = c) :
    max ((∑ i, a i * a i) / c - (∑ k, a k) / c * ((∑ k, a k) / c)) 0
      = (∑ i, (a i - (∑ k, a k) / c) * (a i - (∑ k, a k) / c)) / c := by
  rw [← twoPass_eq_onePass a c hc.ne' hcard]
  exact max_eq_left (twoPass_nonneg a c hc)

/-! ### Coercions into the extended reals -/

/-- A finite sum of coerced reals is the coercion of the real sum. -/
theorem coe_finset_sum {ι : Type*} (s : Finset ι) (a : ι → ℝ) :
    (∑ i ∈ s, ((a i : ℝ) : EReal)) = ((∑ i ∈ s, a i : ℝ) : EReal) := by
  classical
  refine Finset.induction_on s (by simp) ?_
  intro i s hi ih
  rw [Finset.sum_insert hi, Finset.sum_insert hi, ih, EReal.coe_add]

/-- The ideal quotient of two coerced reals, the divisor nonzero, is the coerced real quotient. -/
theorem div_coe_coe {c : ℝ} (hc : c ≠ 0) (x : ℝ) :
    Ideal.div (x : EReal) (c : EReal) = ((x / c : ℝ) : EReal) := by
  rw [Ideal.div_coe hc, ← EReal.coe_mul, mul_one_div]

/-- The maximum of a coerced real and zero is the coerced real maximum. -/
theorem max_coe_zero (x : ℝ) : max (x : EReal) 0 = ((max x 0 : ℝ) : EReal) := by
  rw [EReal.coe_strictMono.monotone.map_max, EReal.coe_zero]

/-! ### On the extended reals, in the ideal instance's operations -/

/-- The mean of coerced reals: the ideal quotient of their ideal sum by the coerced count is the
    coerced real mean. -/
theorem mean_coe {ι : Type*} [Fintype ι] (a : ι → ℝ) {c : ℝ} (hc : c ≠ 0) :
    Ideal.div (∑ i, (a i : EReal)) (c : EReal) = (((∑ i, a i) / c : ℝ) : EReal) := by
  rw [coe_finset_sum, div_coe_coe hc]

/-- The one-pass variance expression on coerced reals is the coercion of the real one. -/
theorem onePass_coe {ι : Type*} [Fintype ι] (a : ι → ℝ) {c : ℝ} (hc : c ≠ 0) :
    Ideal.div (∑ i, (a i : EReal) * (a i : EReal)) (c : EReal)
        - Ideal.div (∑ i, (a i : EReal)) (c : EReal) * Ideal.div (∑ i, (a i : EReal)) (c : EReal)
      = (((∑ i, a i * a i) / c - (∑ k, a k) / c * ((∑ k, a k) / c) : ℝ) : EReal) := by
  rw [mean_coe a hc]
  simp only [← EReal.coe_mul]
  rw [coe_finset_sum, div_coe_coe hc, ← EReal.coe_sub]

/-- The two-pass variance expression on coerced reals is the coercion of the real one. -/
theorem twoPass_coe {ι : Type*} [Fintype ι] (a : ι → ℝ) {c : ℝ} (hc : c ≠ 0) :
    Ideal.div (∑ i, ((a i : EReal) - Ideal.div (∑ k, (a k : EReal)) (c : EReal))
          * ((a i : EReal) - Ideal.div (∑ k, (a k : EReal)) (c : EReal))) (c : EReal)
      = (((∑ i, (a i - (∑ k, a k) / c) * (a i - (∑ k, a k) / c)) / c : ℝ) : EReal) := by
  rw [mean_coe a hc]
  simp only [← EReal.coe_sub, ← EReal.coe_mul]
  rw [coe_finset_sum, div_coe_coe hc]

/-- (1b) On coerced reals, in the ideal instance's operations: the clamped one-pass variance
    `max (q / c - m * m) 0` equals the two-pass variance `(∑ (a i - m) * (a i - m)) / c`, where
    `m = (∑ a i) / c`, `q = ∑ a i * a i` and `c > 0` is the number of terms. -/
theorem max_onePass_eq_twoPass_ereal {ι : Type*} [Fintype ι] (a : ι → ℝ) (c : ℝ) (hc : 0 < c)
    (hcard : (Fintype.card ι : ℝ) = c) :
    max (Ideal.div (∑ i, (a i : EReal) * (a i : EReal)) (c : EReal)
          - Ideal.div (∑ i, (a i : EReal)) (c : EReal) * Ideal.div (∑ i, (a i : EReal)) (c : EReal)) 0
      = Ideal.div (∑ i, ((a i : EReal) - Ideal.div (∑ k, (a k : EReal)) (c : EReal))
          * ((a i : EReal) - Ideal.div (∑ k, (a k : EReal)) (c : EReal))) (c : EReal) := by
  rw [onePass_coe a hc.ne', twoPass_coe a hc.ne', max_coe_zero, max_onePass_eq_twoPass a c hc hcard]

/-- Both variances are the coercion of one nonnegative real: the value, for use downstream. -/
theorem twoPass_ereal_eq_coe_nonneg {ι : Type*} [Fintype ι] (a : ι → ℝ) (c : ℝ) (hc : 0 < c) :
    ∃ v : ℝ, 0 ≤ v ∧
      Ideal.div (∑ i, ((a i : EReal) - Ideal.div (∑ k, (a k : EReal)) (c : EReal))
          * ((a i : EReal) - Ideal.div (∑ k, (a k : EReal)) (c : EReal))) (c : EReal) = (v : EReal) :=
  ⟨_, twoPass_nonneg a c hc, twoPass_coe a hc.ne'⟩

end Cert.LibVariance
-- ==== Proof.LibFinite.lean ====
/-
  Finiteness of arrays of extended reals, and its closure under the array operations.

  An extended real is FINITE when it is the coercion of a real. An array (a function into the
  extended reals) is finite when every entry is. Sums, differences, products and maxima of finite
  values are finite; a quotient by a nonzero finite value is finite; the reciprocal square root of a
  positive finite value is finite and positive; a finite sum of finite values is finite. Every
  re-indexing of an array (broadcast, reshape, slice, transpose, gather) reads entries of its
  operand, so it preserves finiteness whatever the index map. A scatter-add, a reduction and a
  contraction are finite sums of finite values (and products of them).

  Beside finiteness the file carries a LOWER BOUND (`IsFinGe c`: every entry a real `≥ c`) and
  POSITIVITY (`IsFinPos`): a scatter-add of nonnegative updates onto entries `≥ c` stays `≥ c`, so
  "zeros plus ones, plus one" is `≥ 1`, its reciprocal square root is finite and positive, and a
  variance `≥ 0` plus a positive constant is positive.
-/
import Idealize.ShloMosaic.PureOps.Ideal
import Idealize.ShloMosaic.PureOps.Ideal.Laws

namespace Cert.LibFinite

open Idealize.ShloMosaic
open scoped BigOperators

/-! ### One value -/

/-- The extended real `x` is a real. -/
def IsReal (x : EReal) : Prop := ∃ r : ℝ, x = (r : EReal)

/-- The extended real `x` is a real that is at least `c`. -/
def IsRealGe (c : ℝ) (x : EReal) : Prop := ∃ r : ℝ, c ≤ r ∧ x = (r : EReal)

/-- The extended real `x` is a positive real. -/
def IsRealPos (x : EReal) : Prop := ∃ r : ℝ, 0 < r ∧ x = (r : EReal)

theorem isReal_coe (r : ℝ) : IsReal (r : EReal) := ⟨r, rfl⟩
theorem isReal_zero : IsReal 0 := ⟨0, rfl⟩
theorem isReal_one : IsReal 1 := ⟨1, rfl⟩

theorem IsRealGe.isReal {c : ℝ} {x : EReal} (h : IsRealGe c x) : IsReal x :=
  let ⟨r, _, hr⟩ := h; ⟨r, hr⟩
theorem IsRealPos.isReal {x : EReal} (h : IsRealPos x) : IsReal x :=
  let ⟨r, _, hr⟩ := h; ⟨r, hr⟩
theorem IsRealGe.mono {c c' : ℝ} {x : EReal} (hc : c' ≤ c) (h : IsRealGe c x) : IsRealGe c' x :=
  let ⟨r, h1, hr⟩ := h; ⟨r, hc.trans h1, hr⟩
theorem IsRealGe.pos {c : ℝ} {x : EReal} (hc : 0 < c) (h : IsRealGe c x) : IsRealPos x :=
  let ⟨r, h1, hr⟩ := h; ⟨r, hc.trans_le h1, hr⟩
theorem IsRealPos.ge {x : EReal} (h : IsRealPos x) : IsRealGe 0 x :=
  let ⟨r, h1, hr⟩ := h; ⟨r, h1.le, hr⟩
theorem IsRealPos.ne_zero {x : EReal} (h : IsRealPos x) : ∃ r : ℝ, r ≠ 0 ∧ x = (r : EReal) :=
  let ⟨r, h1, hr⟩ := h; ⟨r, h1.ne', hr⟩
theorem isRealGe_coe {c r : ℝ} (h : c ≤ r) : IsRealGe c (r : EReal) := ⟨r, h, rfl⟩
theorem isRealPos_coe {r : ℝ} (h : 0 < r) : IsRealPos (r : EReal) := ⟨r, h, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem coe_max (a b : ℝ) : max (a : EReal) (b : EReal) = ((max a b : ℝ) : EReal) :=
  (EReal.coe_strictMono.monotone.map_max).symm
theorem IsReal.max {x y : EReal} (hx : IsReal x) (hy : IsReal y) : IsReal (max x y) := by
  obtain ⟨a, rfl⟩ := hx; obtain ⟨b, rfl⟩ := hy; exact ⟨_, coe_max a b⟩
/-- The ideal quotient by a nonzero real is the real quotient. -/
theorem div_coe_coe {c : ℝ} (hc : c ≠ 0) (a : ℝ) : Ideal.div (a : EReal) (c : EReal) = ((a / c : ℝ) : EReal) := by
  rw [Ideal.div_coe hc, ← EReal.coe_mul, mul_one_div]
theorem IsReal.div {x y : EReal} (hx : IsReal x) (hy : ∃ c : ℝ, c ≠ 0 ∧ y = (c : EReal)) : IsReal (Ideal.div x y) := by
  obtain ⟨a, rfl⟩ := hx; obtain ⟨c, hc, rfl⟩ := hy; exact ⟨_, div_coe_coe hc a⟩

theorem IsRealGe.add {c d : ℝ} {x y : EReal} (hx : IsRealGe c x) (hy : IsRealGe d y) : IsRealGe (c + d) (x + y) := by
  obtain ⟨a, ha, rfl⟩ := hx; obtain ⟨b, hb, rfl⟩ := hy
  exact ⟨a + b, add_le_add ha hb, (EReal.coe_add a b).symm⟩
/-- Adding a nonnegative real keeps a lower bound. -/
theorem IsRealGe.add_nonneg {c : ℝ} {x y : EReal} (hx : IsRealGe c x) (hy : IsRealGe 0 y) : IsRealGe c (x + y) := by
  obtain ⟨a, ha, rfl⟩ := hx; obtain ⟨b, hb, rfl⟩ := hy
  exact ⟨a + b, le_add_of_le_of_nonneg ha hb, (EReal.coe_add a b).symm⟩
theorem IsRealGe.mul_nonneg {x y : EReal} (hx : IsRealGe 0 x) (hy : IsRealGe 0 y) : IsRealGe 0 (x * y) := by
  obtain ⟨a, ha, rfl⟩ := hx; obtain ⟨b, hb, rfl⟩ := hy
  exact ⟨a * b, _root_.mul_nonneg ha hb, (EReal.coe_mul a b).symm⟩
theorem IsRealGe.max_left {c : ℝ} {x y : EReal} (hx : IsRealGe c x) (hy : IsReal y) : IsRealGe c (max x y) := by
  obtain ⟨a, ha, rfl⟩ := hx; obtain ⟨b, rfl⟩ := hy
  exact ⟨_, ha.trans (le_max_left a b), coe_max a b⟩
theorem IsRealGe.max_right {c : ℝ} {x y : EReal} (hx : IsReal x) (hy : IsRealGe c y) : IsRealGe c (max x y) := by
  obtain ⟨a, rfl⟩ := hx; obtain ⟨b, hb, rfl⟩ := hy
  exact ⟨_, hb.trans (le_max_right a b), coe_max a b⟩
theorem IsRealPos.add_ge {x y : EReal} (hx : IsRealGe 0 x) (hy : IsRealPos y) : IsRealPos (x + y) := by
  obtain ⟨a, ha, rfl⟩ := hx; obtain ⟨b, hb, rfl⟩ := hy
  exact ⟨a + b, add_pos_of_nonneg_of_pos ha hb, (EReal.coe_add a b).symm⟩
theorem IsRealPos.mul {x y : EReal} (hx : IsRealPos x) (hy : IsRealPos y) : IsRealPos (x * y) := by
  obtain ⟨a, ha, rfl⟩ := hx; obtain ⟨b, hb, rfl⟩ := hy
  exact ⟨a * b, mul_pos ha hb, (EReal.coe_mul a b).symm⟩

/-- The ideal reciprocal square root at a positive real: `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']
theorem IsRealPos.rsqrt {x : EReal} (hx : IsRealPos x) : IsRealPos (Ideal.rsqrt x) := by
  obtain ⟨r, hr, rfl⟩ := hx
  exact ⟨_, inv_pos.mpr (Real.sqrt_pos.mpr hr), rsqrt_coe_pos hr⟩

/-- A finite sum of reals is a real. -/
theorem IsReal.sum {ι : Type*} (s : Finset ι) (f : ι → EReal) (h : ∀ i ∈ s, IsReal (f i)) : IsReal (∑ i ∈ s, f i) := by
  classical
  revert h
  refine Finset.induction_on s (fun _ => ⟨0, by simp⟩) ?_
  intro a s ha ih h
  rw [Finset.sum_insert ha]
  exact (h a (Finset.mem_insert_self a s)).add (ih fun i hi => h i (Finset.mem_insert_of_mem hi))

/-- A finite sum of nonnegative reals is a nonnegative real. -/
theorem IsRealGe.sum {ι : Type*} (s : Finset ι) (f : ι → EReal) (h : ∀ i ∈ s, IsRealGe 0 (f i)) :
    IsRealGe 0 (∑ i ∈ s, f i) := by
  classical
  revert h
  refine Finset.induction_on s (fun _ => ⟨0, le_refl 0, by simp⟩) ?_
  intro a s ha ih h
  rw [Finset.sum_insert ha]
  exact (h a (Finset.mem_insert_self a s)).add_nonneg (ih fun i hi => h i (Finset.mem_insert_of_mem hi))

/-! ### Arrays -/

/-- Every entry of the array is a real. -/
def IsFin {ι : Type*} (v : ι → EReal) : Prop := ∀ i, IsReal (v i)
/-- Every entry of the array is a real that is at least `c`. -/
def IsFinGe {ι : Type*} (c : ℝ) (v : ι → EReal) : Prop := ∀ i, IsRealGe c (v i)
/-- Every entry of the array is a positive real. -/
def IsFinPos {ι : Type*} (v : ι → EReal) : Prop := ∀ i, IsRealPos (v i)

section Generic
variable {ι κ : Type*} {v : ι → EReal}

theorem IsFin.apply (h : IsFin v) (i : ι) : ∃ r : ℝ, v i = (r : EReal) := h i
theorem IsFinGe.isFin {c : ℝ} (h : IsFinGe c v) : IsFin v := fun i => (h i).isReal
theorem IsFinPos.isFin (h : IsFinPos v) : IsFin v := fun i => (h i).isReal
theorem IsFinGe.mono {c c' : ℝ} (hc : c' ≤ c) (h : IsFinGe c v) : IsFinGe c' v := fun i => (h i).mono hc
theorem IsFinGe.pos {c : ℝ} (hc : 0 < c) (h : IsFinGe c v) : IsFinPos v := fun i => (h i).pos hc
theorem IsFinPos.ge (h : IsFinPos v) : IsFinGe 0 v := fun i => (h i).ge
/-- A positive array is a legal divisor: every entry a nonzero real. -/
theorem IsFinPos.ne_zero (h : IsFinPos v) : ∀ i, ∃ r : ℝ, r ≠ 0 ∧ v i = (r : EReal) := fun i => (h i).ne_zero

/-- Any re-indexing of a finite array is finite. -/
theorem IsFin.comp (h : IsFin v) (f : κ → ι) : IsFin (fun j => v (f j)) := fun j => h (f j)
theorem IsFinGe.comp {c : ℝ} (h : IsFinGe c v) (f : κ → ι) : IsFinGe c (fun j => v (f j)) := fun j => h (f j)
theorem IsFinPos.comp (h : IsFinPos v) (f : κ → ι) : IsFinPos (fun j => v (f j)) := fun j => h (f j)

theorem isFin_const (r : ℝ) : IsFin (fun _ : ι => (r : EReal)) := fun _ => isReal_coe r
theorem isFinGe_const {c r : ℝ} (h : c ≤ r) : IsFinGe c (fun _ : ι => (r : EReal)) := fun _ => isRealGe_coe h
theorem isFinPos_const {r : ℝ} (h : 0 < r) : IsFinPos (fun _ : ι => (r : EReal)) := fun _ => isRealPos_coe h
end Generic

/-! ### The float constants of the programs -/

theorem ofBits_zero : Ideal.ofBits .f32 0x00000000#32 = ((0 : ℝ) : EReal) := by
  rw [Ideal.ofBits_zero_f32, EReal.coe_zero]
theorem ofBits_one : Ideal.ofBits .f32 0x3F800000#32 = ((1 : ℝ) : EReal) := by
  simp [Ideal.ofBits, Ideal.ieee, -EReal.coe_mul]; norm_num
theorem ofBits_100000 : Ideal.ofBits .f32 0x47C35000#32 = ((100000 : ℝ) : EReal) := by
  simp [Ideal.ofBits, Ideal.ieee, -EReal.coe_mul]; norm_num

/-- The pattern of `1e-5` rounded to binary32: the positive real `10995116 / 2^40`. -/
theorem ofBits_eps : Ideal.ofBits .f32 0x3727C5AC#32 = ((10995116 / 1099511627776 : ℝ) : EReal) := by
  simp [Ideal.ofBits, Ideal.ieee, -EReal.coe_mul]; norm_num

section Ops
variable {s t : Shape} {φ : FTy}

/-! ### Pointwise operations -/

theorem isFin_addf {x y : FVec Ideal s φ} (hx : IsFin x) (hy : IsFin y) : IsFin (addf x y) :=
  fun i => (hx i).add (hy i)
theorem isFin_subf {x y : FVec Ideal s φ} (hx : IsFin x) (hy : IsFin y) : IsFin (subf x y) :=
  fun i => (hx i).sub (hy i)
theorem isFin_mulf {x y : FVec Ideal s φ} (hx : IsFin x) (hy : IsFin y) : IsFin (mulf x y) :=
  fun i => (hx i).mul (hy i)
theorem isFin_maximumf {x y : FVec Ideal s φ} (hx : IsFin x) (hy : IsFin y) : IsFin (maximumf x y) :=
  fun i => (hx i).max (hy i)
/-- The host's quotient by an array of nonzero reals. -/
theorem isFin_hostDivf {x y : FVec Ideal s φ} (hx : IsFin x) (hy : ∀ i, ∃ c : ℝ, c ≠ 0 ∧ y i = (c : EReal)) :
    IsFin (Host.divf x y) :=
  fun i => (hx i).div (hy i)
theorem isFin_divf {x y : FVec Ideal s φ} (hx : IsFin x) (hy : ∀ i, ∃ c : ℝ, c ≠ 0 ∧ y i = (c : EReal)) :
    IsFin (divf x y) :=
  fun i => (hx i).div (hy i)

theorem isFinGe_addf {c d : ℝ} {x y : FVec Ideal s φ} (hx : IsFinGe c x) (hy : IsFinGe d y) : IsFinGe (c + d) (addf x y) :=
  fun i => (hx i).add (hy i)
theorem isFinGe_mulf_nonneg {x y : FVec Ideal s φ} (hx : IsFinGe 0 x) (hy : IsFinGe 0 y) : IsFinGe 0 (mulf x y) :=
  fun i => (hx i).mul_nonneg (hy i)
theorem isFinGe_maximumf_left {c : ℝ} {x y : FVec Ideal s φ} (hx : IsFinGe c x) (hy : IsFin y) : IsFinGe c (maximumf x y) :=
  fun i => (hx i).max_left (hy i)
theorem isFinGe_maximumf_right {c : ℝ} {x y : FVec Ideal s φ} (hx : IsFin x) (hy : IsFinGe c y) : IsFinGe c (maximumf x y) :=
  fun i => IsRealGe.max_right (hx i) (hy i)
/-- A nonnegative array plus a positive one is positive (a variance plus its `ε`). -/
theorem isFinPos_addf {x y : FVec Ideal s φ} (hx : IsFinGe 0 x) (hy : IsFinPos y) : IsFinPos (addf x y) :=
  fun i => IsRealPos.add_ge (hx i) (hy i)
theorem isFinPos_mulf {x y : FVec Ideal s φ} (hx : IsFinPos x) (hy : IsFinPos y) : IsFinPos (mulf x y) :=
  fun i => (hx i).mul (hy i)

/-- The host's reciprocal square root of a positive array is positive, hence finite. -/
theorem isFinPos_hostRsqrt {x : FVec Ideal s φ} (hx : IsFinPos x) : IsFinPos (Host.rsqrt x) :=
  fun i => (hx i).rsqrt
theorem isFin_hostRsqrt {x : FVec Ideal s φ} (hx : IsFinPos x) : IsFin (Host.rsqrt x) :=
  (isFinPos_hostRsqrt hx).isFin
/-- A kernel's reciprocal square root likewise. -/
theorem isFinPos_rsqrt {x : FVec Ideal s φ} (hx : IsFinPos x) : IsFinPos (rsqrt x) :=
  fun i => (hx i).rsqrt
theorem isFin_rsqrt {x : FVec Ideal s φ} (hx : IsFinPos x) : IsFin (rsqrt x) :=
  (isFinPos_rsqrt hx).isFin

/-- A select between two finite arrays is finite, whatever the mask. -/
theorem isFin_select {c : IVec s 1} {a b : FVec Ideal s φ} (ha : IsFin a) (hb : IsFin b) : IsFin (select c a b) := by
  intro i
  show IsReal (if c i = 1 then a i else b i)
  split_ifs
  · exact ha i
  · exact hb i
/-- Where the mask is set everywhere the select is its first branch. -/
theorem select_of_one {α : Type} {c : IVec s 1} (hc : ∀ i, c i = 1) (a b : s.Idx → α) : select c a b = a := by
  funext i
  show (if c i = 1 then a i else b i) = a i
  rw [if_pos (hc i)]
/-- An integer array converted to floats is finite. -/
theorem isFin_sitofp {w : Nat} (x : IVec s w) : IsFin (sitofp (F := Ideal) φ x) :=
  fun i => ⟨((x i).toInt : ℝ), rfl⟩
theorem sitofp_apply {w : Nat} (x : IVec s w) (i : s.Idx) :
    sitofp (F := Ideal) φ x i = (((x i).toInt : ℝ) : EReal) := rfl
/-- The ordered "greater than" comparison of two extended reals answers `1` exactly when it holds. -/
theorem cmpf_ogt_of_lt {x y : Ideal φ} (h : y < x) : FloatOps.cmpf .ogt x y = 1#1 := by
  show BitVec.ofBool (decide (y < x)) = 1#1
  simp [h]

/-! ### Constants and broadcasts -/

theorem constant_zero : (constant s .f32 0x00000000#32 : FVec Ideal s .f32) = fun _ => ((0 : ℝ) : EReal) :=
  funext fun _ => ofBits_zero
theorem constant_one : (constant s .f32 0x3F800000#32 : FVec Ideal s .f32) = fun _ => ((1 : ℝ) : EReal) :=
  funext fun _ => ofBits_one
theorem constant_100000 : (constant s .f32 0x47C35000#32 : FVec Ideal s .f32) = fun _ => ((100000 : ℝ) : EReal) :=
  funext fun _ => ofBits_100000
theorem isFin_constant_zero : IsFin (constant s .f32 0x00000000#32 : FVec Ideal s .f32) := by
  rw [constant_zero]; exact isFin_const 0
theorem isFinGe_constant_zero : IsFinGe 0 (constant s .f32 0x00000000#32 : FVec Ideal s .f32) := by
  rw [constant_zero]; exact isFinGe_const (le_refl 0)
theorem isFin_constant_one : IsFin (constant s .f32 0x3F800000#32 : FVec Ideal s .f32) := by
  rw [constant_one]; exact isFin_const 1
theorem isFinGe_constant_one : IsFinGe 1 (constant s .f32 0x3F800000#32 : FVec Ideal s .f32) := by
  rw [constant_one]; exact isFinGe_const (le_refl 1)
theorem isFin_constant_100000 : IsFin (constant s .f32 0x47C35000#32 : FVec Ideal s .f32) := by
  rw [constant_100000]; exact isFin_const _
theorem isFinPos_constant_100000 : IsFinPos (constant s .f32 0x47C35000#32 : FVec Ideal s .f32) := by
  rw [constant_100000]; exact isFinPos_const (by norm_num)

theorem constant_eps :
    (constant s .f32 0x3727C5AC#32 : FVec Ideal s .f32) = fun _ => ((10995116 / 1099511627776 : ℝ) : EReal) :=
  funext fun _ => ofBits_eps
theorem isFinPos_constant_eps : IsFinPos (constant s .f32 0x3727C5AC#32 : FVec Ideal s .f32) := by
  rw [constant_eps]; exact isFinPos_const (by norm_num)
theorem isFin_constant_eps : IsFin (constant s .f32 0x3727C5AC#32 : FVec Ideal s .f32) :=
  isFinPos_constant_eps.isFin
theorem isFinPos_constant_one : IsFinPos (constant s .f32 0x3F800000#32 : FVec Ideal s .f32) :=
  isFinGe_constant_one.pos one_pos

/-! ### Re-indexings: each reads entries of its operand -/

theorem isFin_broadcastInDim {x : s.Idx → EReal} (hx : IsFin x) (dims : Fin s.rank → Fin t.rank)
    (h : s.BroadcastsInDim t dims) : IsFin (broadcastInDim t dims h x) := fun _ => hx _
theorem isFinGe_broadcastInDim {c : ℝ} {x : s.Idx → EReal} (hx : IsFinGe c x) (dims : Fin s.rank → Fin t.rank)
    (h : s.BroadcastsInDim t dims) : IsFinGe c (broadcastInDim t dims h x) := fun _ => hx _
theorem isFinPos_broadcastInDim {x : s.Idx → EReal} (hx : IsFinPos x) (dims : Fin s.rank → Fin t.rank)
    (h : s.BroadcastsInDim t dims) : IsFinPos (broadcastInDim t dims h x) := fun _ => hx _
theorem isFin_shapeCast {x : s.Idx → EReal} (hx : IsFin x) (h : s.ShapeCasts t) : IsFin (shapeCast t x h) := fun _ => hx _
theorem isFinGe_shapeCast {c : ℝ} {x : s.Idx → EReal} (hx : IsFinGe c x) (h : s.ShapeCasts t) :
    IsFinGe c (shapeCast t x h) := fun _ => hx _
theorem isFinPos_shapeCast {x : s.Idx → EReal} (hx : IsFinPos x) (h : s.ShapeCasts t) :
    IsFinPos (shapeCast t x h) := fun _ => hx _
theorem isFin_extractStridedSlice {x : s.Idx → EReal} (hx : IsFin x) (off : Fin s.rank → Nat) (h : s.Slices off t) :
    IsFin (extractStridedSlice t off x h) := fun _ => hx _
theorem isFin_transpose {x : s.Idx → EReal} (hx : IsFin x) (perm : List (Fin s.rank)) (h : s.Transposes perm t) :
    IsFin (transpose t perm x h) := fun _ => hx _
theorem isFin_broadcast (t : Shape) {x : EReal} (hx : IsReal x) : IsFin (broadcast t x) := fun _ => hx
theorem isFin_broadcastTo {x : s.Idx → EReal} (hx : IsFin x) (h : s.Broadcasts t) : IsFin (broadcastTo t x h) := fun _ => hx _

/-- A gather reads an entry of its operand at every result index, whatever the integer indices are
    (they are read signed and clamped into range): a gather of a finite array is finite. -/
theorem isFin_hostGather {si : Shape} {w : Nat} (d : GatherDims s si t) {x : s.Idx → EReal} (hx : IsFin x) (idx : IVec si w) :
    IsFin (Host.gather d x idx) := fun _ => hx _
theorem isFinPos_hostGather {si : Shape} {w : Nat} (d : GatherDims s si t) {x : s.Idx → EReal} (hx : IsFinPos x)
    (idx : IVec si w) : IsFinPos (Host.gather d x idx) := fun _ => hx _
theorem isFinGe_hostGather {c : ℝ} {si : Shape} {w : Nat} (d : GatherDims s si t) {x : s.Idx → EReal} (hx : IsFinGe c x)
    (idx : IVec si w) : IsFinGe c (Host.gather d x idx) := fun _ => hx _

/-! ### Sums: reductions, contractions, scatter-add -/

/-- The host's sum over some axes: the initial value plus a finite sum of entries. -/
theorem isFin_hostReduceAdd {u : Shape} {axes : List (Fin s.rank)} {x : FVec Ideal s φ} {init : u.Idx → Ideal φ}
    (hx : IsFin x) (hinit : IsFin init) (h : s.ReducesTo axes t) (hu : 0 < u.numel) :
    IsFin (Host.reduceAdd x init h hu) := by
  intro j
  show IsReal (Ideal.hostReduceAdd h x (init (Shape.Idx.first hu)) j)
  unfold Ideal.hostReduceAdd
  exact (hinit _).add (IsReal.sum _ _ fun i _ => hx i)

/-- The host's sum over ONE axis from the zero constant, as the programs spell it: at each reduced index the
    `Fin`-indexed sum over that axis's coordinates (the form the variance lemmas consume). -/
theorem hostReduceAdd_constant_zero_single {u : Shape} {a : Fin s.rank} (x : FVec Ideal s .f32)
    (h' : s.ReducesTo [a] t) (h : s.Reduces [a] t) (hu : 0 < u.numel) (j : t.Idx) :
    Host.reduceAdd x (constant u .f32 0x00000000#32) h' hu j = ∑ k : Fin (s.size a), x (h.lift j k) := by
  show Ideal.hostReduceAdd h' x (Ideal.ofBits .f32 0x00000000#32) j = _
  rw [Ideal.hostReduceAdd_single h' h, Ideal.ofBits_zero_f32, zero_add]

/-- A kernel's sum over some axes. -/
theorem isFin_multiReduction_add {axes : List (Fin s.rank)} {x : FVec Ideal s φ} (hx : IsFin x) (acc : BitVec φ.bits)
    (h : s.Reduces axes t) (hφ : FKind.Formats φ) (hacc : acc = FKind.add.neutral φ hφ) :
    IsFin (multiReduction .add axes t x acc h hφ hacc) := by
  intro j
  show IsReal (Ideal.reduceAdd h x j)
  unfold Ideal.reduceAdd
  exact IsReal.sum _ _ fun i _ => hx i

/-- The host's contraction of two finite arrays is finite. -/
theorem isFin_hostDotGeneral {sl sr so : Shape} {φ₁ φ₂ : FTy} (d : DotDims sl sr so) (prec : Option ContractPrecision)
    {l : FVec Ideal sl φ₁} {r : FVec Ideal sr φ₂} (hl : IsFin l) (hr : IsFin r) : IsFin (Host.dotGeneral d prec l r) := by
  intro j
  show IsReal (FloatOps.dotGeneral d prec .single l r j)
  rw [Ideal.dotGeneral_apply]
  exact IsReal.sum _ _ fun k _ => (hl _).mul (hr _)

/-- A kernel's matrix product of finite arrays onto a finite accumulator is finite. -/
theorem isFin_matmul {sl sr so : Shape} {φ₁ φ₂ : FTy} (d : DotDims sl sr so) (prec : Option ContractPrecision)
    {l : FVec Ideal sl φ₁} {r : FVec Ideal sr φ₂} {acc : FVec Ideal so .f32} (hl : IsFin l) (hr : IsFin r) (hacc : IsFin acc) :
    IsFin (matmul d prec l r acc) := by
  intro j
  show IsReal (FloatOps.matmul d prec l r acc j)
  rw [Ideal.matmul_apply]
  exact (hacc j).add (IsReal.sum _ _ fun k _ => (hl _).mul (hr _))

/-- The host's accumulating scatter: each operand entry plus a finite sum of update entries. -/
theorem isFin_hostScatterAdd {si su : Shape} {w : Nat} (d : ScatterDims s si su) {x : FVec Ideal s φ} (idx : IVec si w)
    {upd : FVec Ideal su φ} (hx : IsFin x) (hupd : IsFin upd) : IsFin (Host.scatterAdd d x idx upd) := by
  intro i
  show IsReal (Ideal.hostScatterAdd d x idx upd i)
  unfold Ideal.hostScatterAdd
  exact (hx i).add (IsReal.sum _ _ fun j _ => hupd j)

/-- Nonnegative updates keep a lower bound: entries `≥ c` stay `≥ c`. -/
theorem isFinGe_hostScatterAdd {c : ℝ} {si su : Shape} {w : Nat} (d : ScatterDims s si su) {x : FVec Ideal s φ}
    (idx : IVec si w) {upd : FVec Ideal su φ} (hx : IsFinGe c x) (hupd : IsFinGe 0 upd) :
    IsFinGe c (Host.scatterAdd d x idx upd) := by
  intro i
  show IsRealGe c (Ideal.hostScatterAdd d x idx upd i)
  unfold Ideal.hostScatterAdd
  exact (hx i).add_nonneg (IsRealGe.sum _ _ fun j _ => hupd j)

/-- Zeros, plus a scatter of ones, plus one: every entry is a real `≥ 1`, so the reciprocal square root of the
    array is finite and positive. -/
theorem isFinGe_one_of_scatter_ones {si su : Shape} {w : Nat} (d : ScatterDims s si su) {x one : FVec Ideal s φ}
    (idx : IVec si w) {upd : FVec Ideal su φ} (hx : IsFinGe 0 x) (hupd : IsFinGe 0 upd) (hone : IsFinGe 1 one) :
    IsFinGe 1 (addf (Host.scatterAdd d x idx upd) one) := by
  have := isFinGe_addf (isFinGe_hostScatterAdd d idx hx hupd) hone
  rwa [zero_add] at this

/-! ### The tail of the two-pass variance: its divisor and its guard -/

/-- The divisor `100000 - float(0)`: the real `100000` at every index. -/
theorem subf_100000_sitofp_zero :
    (subf (constant s .f32 0x47C35000#32) (sitofp .f32 (constantI s 32 0#32)) : FVec Ideal s .f32)
      = fun _ => ((100000 : ℝ) : EReal) := by
  funext i
  show Ideal.ofBits .f32 0x47C35000#32 - (((0#32 : BitVec 32).toInt : ℝ) : EReal) = _
  rw [ofBits_100000]
  simp

/-- Where the second array is below the first everywhere, the ordered "greater than" mask is set everywhere. -/
theorem cmpf_ogt_eq_one {x y : FVec Ideal s φ} (h : ∀ i, y i < x i) : cmpf .ogt x y = fun _ => 1#1 :=
  funext fun i => cmpf_ogt_of_lt (h i)

/-- The guard `100000 - float(0) > 0` holds: its mask is set everywhere. -/
theorem cmpf_ogt_100000_zero :
    cmpf .ogt (subf (constant s .f32 0x47C35000#32) (sitofp .f32 (constantI s 32 0#32)) : FVec Ideal s .f32)
        (constant s .f32 0x00000000#32) = fun _ => 1#1 := by
  apply cmpf_ogt_eq_one
  intro i
  rw [subf_100000_sitofp_zero, constant_zero]
  show ((0 : ℝ) : EReal) < ((100000 : ℝ) : EReal)
  exact EReal.coe_lt_coe_iff.mpr (by norm_num)

end Ops

/-- A finite array is the coercion of a real-valued array. -/
theorem IsFin.exists_eq_coe {ι : Type*} {v : ι → EReal} (h : IsFin v) : ∃ a : ι → ℝ, v = fun i => (a i : EReal) :=
  ⟨fun i => (h i).choose, funext fun i => (h i).choose_spec⟩

end Cert.LibFinite
-- ==== Proof.LibVarFin.lean ====
/-
  The one-pass and two-pass variances of a FINITE family of extended reals agree, in the ideal
  instance's operations: the statement of `LibVariance` for a family known only to be finite
  (every entry a real), with the consequences used downstream: both variances are one nonnegative
  real, so adding a positive constant gives a positive real.
-/
import proofs.«125721_j19146964206336_2_alg».proof.Proof.LibVariance
import proofs.«125721_j19146964206336_2_alg».proof.Proof.LibFinite

namespace Cert.LibVarFin

open Idealize.ShloMosaic Cert.LibFinite
open scoped BigOperators

variable {ι : Type*} [Fintype ι]

/-- For a finite family `x` of `c` extended reals (`c > 0` its count): with `m = (∑ x) / c`,
    `max ((∑ x·x) / c - m·m) 0 = (∑ (x - m)·(x - m)) / c`. -/
theorem max_onePass_eq_twoPass (x : ι → EReal) (hx : IsFin x) (c : ℝ) (hc : 0 < c) (hcard : (Fintype.card ι : ℝ) = c) :
    max (Ideal.div (∑ i, x i * x i) (c : EReal)
          - Ideal.div (∑ i, x i) (c : EReal) * Ideal.div (∑ i, x i) (c : EReal)) 0
      = Ideal.div (∑ i, (x i - Ideal.div (∑ k, x k) (c : EReal)) * (x i - Ideal.div (∑ k, x k) (c : EReal))) (c : EReal) := by
  obtain ⟨a, rfl⟩ := hx.exists_eq_coe
  exact Cert.LibVariance.max_onePass_eq_twoPass_ereal a c hc hcard

/-- The two-pass variance of a finite family is a nonnegative real. -/
theorem twoPass_isRealGe (x : ι → EReal) (hx : IsFin x) (c : ℝ) (hc : 0 < c) :
    IsRealGe 0 (Ideal.div (∑ i, (x i - Ideal.div (∑ k, x k) (c : EReal)) * (x i - Ideal.div (∑ k, x k) (c : EReal)))
      (c : EReal)) := by
  obtain ⟨a, rfl⟩ := hx.exists_eq_coe
  obtain ⟨v, hv, h⟩ := Cert.LibVariance.twoPass_ereal_eq_coe_nonneg a c hc
  exact ⟨v, hv, h⟩

/-- The clamped one-pass variance of a finite family is a nonnegative real. -/
theorem onePass_isRealGe (x : ι → EReal) (hx : IsFin x) (c : ℝ) (hc : c ≠ 0) :
    IsRealGe 0 (max (Ideal.div (∑ i, x i * x i) (c : EReal)
          - Ideal.div (∑ i, x i) (c : EReal) * Ideal.div (∑ i, x i) (c : EReal)) 0) := by
  obtain ⟨a, rfl⟩ := hx.exists_eq_coe
  rw [Cert.LibVariance.onePass_coe a hc, Cert.LibVariance.max_coe_zero]
  exact ⟨_, le_max_right _ _, rfl⟩

/-- The mean of a finite family is a real. -/
theorem mean_isReal (x : ι → EReal) (hx : IsFin x) (c : ℝ) (hc : c ≠ 0) : IsReal (Ideal.div (∑ i, x i) (c : EReal)) := by
  obtain ⟨a, rfl⟩ := hx.exists_eq_coe
  exact ⟨_, Cert.LibVariance.mean_coe a hc⟩

end Cert.LibVarFin
-- ==== Proof.LibApply.lean ====
/-
  The batch-norm normalisation read index by index at the ideal values: the entry (r, j) of the activations,
  centred by the column's mean, scaled by the reciprocal square root of the column's variance plus ε, then the
  affine map with the column's γ and β and the rectifier.  The four column statistics are rows of shape [1, 64].
-/
import Idealize.ShloMosaic.PureOps.Ideal
import Idealize.ShloMosaic.Lib.ValueIdx

noncomputable section

namespace Cert.LibApply

open Idealize.ShloMosaic Idealize.ShloMosaic.ValueIdx

/-- The row index (0, j) of a [1, 64] row. -/
abbrev row (j : Fin 64) : (⟨2, ![1, 64]⟩ : Shape).Idx := ix2 (0 : Fin 1) j

/-- max (γ_j · ((a_{r,j} − mean_j) · rsqrt (var_j + ε)) + β_j) 0, with ε and 0 the values of the words the
    programs splat. -/
def applyG (a : (⟨2, ![100000, 64]⟩ : Shape).Idx → EReal) (mean var gamma beta : (⟨2, ![1, 64]⟩ : Shape).Idx → EReal) :
    (⟨2, ![100000, 64]⟩ : Shape).Idx → EReal :=
  fun i => max (gamma (row (i 1)) * ((a i - mean (row (i 1))) * Ideal.rsqrt (var (row (i 1)) + Ideal.ofBits .f32 0x3727C5AC#32)) + beta (row (i 1)))
    (Ideal.ofBits .f32 0x00000000#32)

end Cert.LibApply

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibLayer.lean ====
/-
  One layer's column statistics and normalisation, over activations of shape [100000, 64] with the column
  statistics rows of shape [1, 64], at the ideal values.

  For activations `A`: the column sum `colSum A j = ∑ r, A (r, j)`; the mean row `colSum / 100000`; the
  ONE-PASS variance row `max (colSum (A·A) / 100000 - mean · mean) 0` and the TWO-PASS variance row
  `(∑ r, (A (r, j) - mean_j)·(A (r, j) - mean_j)) / 100000`. On finite activations the two variance rows are
  equal (the variance identity over the 100000 rows of a column), both are nonnegative reals, the mean is a
  real, and the normalised, affinely mapped and rectified activations are finite (and nonnegative).

  Also here: the aggregation `agg + h · snorm + bias` index by index with its finiteness; the finiteness of a
  matrix product; and the column sum split into ten blocks of 10000 rows, with the partial sums an
  accumulation over the ten blocks computes.
-/
import proofs.«125721_j19146964206336_2_alg».proof.Proof.LibVariance
import proofs.«125721_j19146964206336_2_alg».proof.Proof.LibFinite
import proofs.«125721_j19146964206336_2_alg».proof.Proof.LibVarFin
import proofs.«125721_j19146964206336_2_alg».proof.Proof.LibApply
import proofs.«125721_j19146964206336_2_alg».proof.Proof.LibMatmul

noncomputable section

open scoped BigOperators

namespace Cert.LibLayer

open Idealize.ShloMosaic Idealize.ShloMosaic.ValueIdx Cert.LibFinite

/-- The activations' shape [100000, 64]. -/
abbrev SNF : Shape := ⟨2, ![100000, 64]⟩
/-- A row of column statistics, shape [1, 64]. -/
abbrev SRow : Shape := ⟨2, ![1, 64]⟩
/-- A column of row factors, shape [100000, 1]. -/
abbrev SCol : Shape := ⟨2, ![100000, 1]⟩

/-! ### (A) Column statistics -/

/-- The sum of column `j`. -/
def colSum (A : SNF.Idx → EReal) (j : Fin 64) : EReal := ∑ r : Fin 100000, A (ix2 r j)

/-- The row of column means: `colSum / 100000`. -/
def meanRow (A : SNF.Idx → EReal) : SRow.Idx → EReal :=
  fun i => Ideal.div (colSum A (i 1)) ((100000 : ℝ) : EReal)

/-- The one-pass variance row, clamped at zero: `max (colSum (A·A) / 100000 - mean · mean) 0`. -/
def var1Row (A : SNF.Idx → EReal) : SRow.Idx → EReal :=
  fun i => max (Ideal.div (colSum (fun k => A k * A k) (i 1)) ((100000 : ℝ) : EReal) - meanRow A i * meanRow A i) 0

/-- The two-pass variance row: the mean of the squared deviations from the column mean. -/
def var2Row (A : SNF.Idx → EReal) : SRow.Idx → EReal :=
  fun i => Ideal.div (∑ r : Fin 100000, (A (ix2 r (i 1)) - meanRow A i) * (A (ix2 r (i 1)) - meanRow A i))
    ((100000 : ℝ) : EReal)

theorem card_rows : (Fintype.card (Fin 100000) : ℝ) = 100000 := by simp

/-! ### (B) The two variance rows agree on finite activations -/

theorem var1_eq_var2 {A : SNF.Idx → EReal} (hA : IsFin A) : var1Row A = var2Row A := by
  funext i
  exact Cert.LibVarFin.max_onePass_eq_twoPass (ι := Fin 100000) (fun r => A (ix2 r (i 1))) (fun r => hA _) 100000
    (by norm_num) card_rows

/-! ### (C) Finiteness of the statistics and of the normalised activations -/

theorem isFin_meanRow {A : SNF.Idx → EReal} (hA : IsFin A) : IsFin (meanRow A) := fun i =>
  Cert.LibVarFin.mean_isReal (ι := Fin 100000) (fun r => A (ix2 r (i 1))) (fun r => hA _) 100000 (by norm_num)

theorem isFinGe_var2Row {A : SNF.Idx → EReal} (hA : IsFin A) : IsFinGe 0 (var2Row A) := fun i =>
  Cert.LibVarFin.twoPass_isRealGe (ι := Fin 100000) (fun r => A (ix2 r (i 1))) (fun r => hA _) 100000 (by norm_num)

theorem isFinGe_var1Row {A : SNF.Idx → EReal} (hA : IsFin A) : IsFinGe 0 (var1Row A) := by
  rw [var1_eq_var2 hA]; exact isFinGe_var2Row hA

theorem isFin_colSum {A : SNF.Idx → EReal} (hA : IsFin A) (j : Fin 64) : IsReal (colSum A j) :=
  IsReal.sum _ _ fun r _ => hA _

theorem isFin_sq {A : SNF.Idx → EReal} (hA : IsFin A) : IsFin (fun k => A k * A k) := fun k => (hA k).mul (hA k)

/-- The positive constant added to the variance is a positive real. -/
theorem eps_isRealPos : IsRealPos (Ideal.ofBits .f32 0x3727C5AC#32) := by
  rw [ofBits_eps]; exact isRealPos_coe (by norm_num)

/-- The normalisation of finite activations by a finite mean row and a nonnegative variance row, with finite
    scale and shift rows, is finite and nonnegative. -/
theorem isFinGe_applyG {a : SNF.Idx → EReal} {mean var gamma beta : SRow.Idx → EReal} (ha : IsFin a) (hm : IsFin mean)
    (hv : IsFinGe 0 var) (hg : IsFin gamma) (hb : IsFin beta) :
    IsFinGe 0 (Cert.LibApply.applyG a mean var gamma beta) := by
  intro i
  unfold Cert.LibApply.applyG
  have hr : IsReal (Ideal.rsqrt (var (Cert.LibApply.row (i 1)) + Ideal.ofBits .f32 0x3727C5AC#32)) :=
    (IsRealPos.add_ge (hv _) eps_isRealPos).rsqrt.isReal
  have h0 : IsRealGe 0 (Ideal.ofBits .f32 0x00000000#32) := by rw [ofBits_zero]; exact isRealGe_coe (le_refl 0)
  exact IsRealGe.max_right (((hg _).mul (((ha i).sub (hm _)).mul hr)).add (hb _)) h0

theorem isFin_applyG {a : SNF.Idx → EReal} {mean var gamma beta : SRow.Idx → EReal} (ha : IsFin a) (hm : IsFin mean)
    (hv : IsFinGe 0 var) (hg : IsFin gamma) (hb : IsFin beta) :
    IsFin (Cert.LibApply.applyG a mean var gamma beta) :=
  (isFinGe_applyG ha hm hv hg hb).isFin

/-- With the one-pass or the two-pass variance row the normalisation is the same function. -/
theorem applyG_var1_eq_var2 {A : SNF.Idx → EReal} (hA : IsFin A) (gamma beta : SRow.Idx → EReal) :
    Cert.LibApply.applyG A (meanRow A) (var1Row A) gamma beta = Cert.LibApply.applyG A (meanRow A) (var2Row A) gamma beta := by
  rw [var1_eq_var2 hA]

/-- The layer's normalised activations are finite (and nonnegative) when the activations, scale and shift are finite. -/
theorem isFinGe_applyG_layer {A : SNF.Idx → EReal} {gamma beta : SRow.Idx → EReal} (hA : IsFin A) (hg : IsFin gamma)
    (hb : IsFin beta) : IsFinGe 0 (Cert.LibApply.applyG A (meanRow A) (var2Row A) gamma beta) :=
  isFinGe_applyG hA (isFin_meanRow hA) (isFinGe_var2Row hA) hg hb

theorem isFin_applyG_layer {A : SNF.Idx → EReal} {gamma beta : SRow.Idx → EReal} (hA : IsFin A) (hg : IsFin gamma)
    (hb : IsFin beta) : IsFin (Cert.LibApply.applyG A (meanRow A) (var2Row A) gamma beta) :=
  (isFinGe_applyG_layer hA hg hb).isFin

theorem isFin_applyG_layer_var1 {A : SNF.Idx → EReal} {gamma beta : SRow.Idx → EReal} (hA : IsFin A) (hg : IsFin gamma)
    (hb : IsFin beta) : IsFin (Cert.LibApply.applyG A (meanRow A) (var1Row A) gamma beta) := by
  rw [applyG_var1_eq_var2 hA]; exact isFin_applyG_layer hA hg hb

/-! ### (D) The aggregation and the matrix product -/

/-- `agg (r, j) + h (r, j) · snorm (r, 0) + bias (0, j)`. -/
def agg2G (agg h : SNF.Idx → EReal) (snorm : SCol.Idx → EReal) (bias : SRow.Idx → EReal) : SNF.Idx → EReal :=
  fun i => agg i + h i * snorm (ix2 (i 0) (0 : Fin 1)) + bias (ix2 (0 : Fin 1) (i 1))

theorem isFin_agg2G {agg h : SNF.Idx → EReal} {snorm : SCol.Idx → EReal} {bias : SRow.Idx → EReal} (hagg : IsFin agg)
    (hh : IsFin h) (hs : IsFin snorm) (hb : IsFin bias) : IsFin (agg2G agg h snorm bias) :=
  fun i => ((hagg i).add ((hh i).mul (hs _))).add (hb _)

/-- A matrix product of finite arrays is finite. -/
theorem isFin_MM {M K N : Nat} {x : (⟨2, ![M, K]⟩ : Shape).Idx → EReal} {w : (⟨2, ![K, N]⟩ : Shape).Idx → EReal}
    (hx : IsFin x) (hw : IsFin w) : IsFin (Cert.LibMatmul.MM x w) :=
  fun _ => IsReal.sum _ _ fun k _ => (hx _).mul (hw _)

/-! ### (E) The column sum in ten blocks of 10000 rows -/

/-- Row `p` of block `t`: the row `t · 10000 + p`. -/
def blockRow (t : Fin 10) (p : Fin 10000) : Fin 100000 :=
  ⟨t.val * 10000 + p.val, by have := t.isLt; have := p.isLt; omega⟩

theorem blockRow_val (t : Fin 10) (p : Fin 10000) : (blockRow t p).val = t.val * 10000 + p.val := rfl

/-- The 100000 rows are the ten blocks of 10000 rows. -/
def blockEquiv : Fin 10 × Fin 10000 ≃ Fin 100000 where
  toFun tp := blockRow tp.1 tp.2
  invFun r := (⟨r.val / 10000, by have := r.isLt; omega⟩, ⟨r.val % 10000, by omega⟩)
  left_inv := fun ⟨t, p⟩ => by
    have ht := t.isLt; have hp := p.isLt
    refine Prod.ext (Fin.ext ?_) (Fin.ext ?_)
    · show (t.val * 10000 + p.val) / 10000 = t.val; omega
    · show (t.val * 10000 + p.val) % 10000 = p.val; omega
  right_inv := fun r => by
    apply Fin.ext
    show r.val / 10000 * 10000 + r.val % 10000 = r.val; omega

/-- A sum over the 100000 rows is the sum over the ten blocks of the sums over each block's 10000 rows. -/
theorem sum_blocks {M : Type*} [AddCommMonoid M] (f : Fin 100000 → M) :
    ∑ r, f r = ∑ t : Fin 10, ∑ p : Fin 10000, f (blockRow t p) := by
  rw [← Equiv.sum_comp blockEquiv f, Fintype.sum_prod_type]
  rfl

/-- Block `t`'s contribution to column `j`'s sum. -/
def blockSum (A : SNF.Idx → EReal) (j : Fin 64) (t : Fin 10) : EReal := ∑ p : Fin 10000, A (ix2 (blockRow t p) j)

/-- The column sum is the sum of the ten blocks' contributions. -/
theorem colSum_eq_blocks (A : SNF.Idx → EReal) (j : Fin 64) :
    colSum A j = ∑ t : Fin 10, ∑ p : Fin 10000, A (ix2 (blockRow t p) j) :=
  sum_blocks fun r => A (ix2 r j)

theorem colSum_eq_sum_blockSum (A : SNF.Idx → EReal) (j : Fin 64) : colSum A j = ∑ t : Fin 10, blockSum A j t :=
  colSum_eq_blocks A j

/-- Block `n`'s contribution for a natural number `n`: `blockSum` below ten, zero from ten on. -/
def blockSumN (A : SNF.Idx → EReal) (j : Fin 64) (n : Nat) : EReal :=
  if h : n < 10 then blockSum A j ⟨n, h⟩ else 0

theorem blockSumN_of_lt (A : SNF.Idx → EReal) (j : Fin 64) {n : Nat} (h : n < 10) :
    blockSumN A j n = blockSum A j ⟨n, h⟩ := dif_pos h

theorem blockSumN_val (A : SNF.Idx → EReal) (j : Fin 64) (t : Fin 10) : blockSumN A j t.val = blockSum A j t := by
  rw [blockSumN_of_lt A j t.isLt]

/-- The accumulation after the first `n` blocks. -/
def partialSum (A : SNF.Idx → EReal) (j : Fin 64) (n : Nat) : EReal := ∑ t ∈ Finset.range n, blockSumN A j t

@[simp] theorem partialSum_zero (A : SNF.Idx → EReal) (j : Fin 64) : partialSum A j 0 = 0 := by
  simp [partialSum]

/-- One more block: the accumulation so far plus that block's contribution. -/
theorem partialSum_succ (A : SNF.Idx → EReal) (j : Fin 64) (n : Nat) :
    partialSum A j (n + 1) = partialSum A j n + blockSumN A j n :=
  Finset.sum_range_succ _ n

/-- The same at a block index `t : Fin 10`. -/
theorem partialSum_succ_fin (A : SNF.Idx → EReal) (j : Fin 64) (t : Fin 10) :
    partialSum A j (t.val + 1) = partialSum A j t.val + blockSum A j t := by
  rw [partialSum_succ, blockSumN_val]

/-- After all ten blocks the accumulation is the column sum. -/
theorem partialSum_ten (A : SNF.Idx → EReal) (j : Fin 64) : partialSum A j 10 = colSum A j := by
  rw [colSum_eq_sum_blockSum, partialSum, ← Fin.sum_univ_eq_sum_range (fun n => blockSumN A j n) 10]
  exact Finset.sum_congr rfl fun t _ => blockSumN_val A j t

/-- The partial sums and the blocks' contributions of finite activations are reals. -/
theorem isReal_blockSum {A : SNF.Idx → EReal} (hA : IsFin A) (j : Fin 64) (t : Fin 10) : IsReal (blockSum A j t) :=
  IsReal.sum _ _ fun _ _ => hA _

theorem isReal_blockSumN {A : SNF.Idx → EReal} (hA : IsFin A) (j : Fin 64) (n : Nat) : IsReal (blockSumN A j n) := by
  unfold blockSumN
  split_ifs
  · exact isReal_blockSum hA j _
  · exact isReal_zero

theorem isReal_partialSum {A : SNF.Idx → EReal} (hA : IsFin A) (j : Fin 64) (n : Nat) : IsReal (partialSum A j n) :=
  IsReal.sum _ _ fun t _ => isReal_blockSumN hA j t

end Cert.LibLayer

end
-- ==== Proof.KSpec.lean ====
/-
  The network the two programs compute, written once over the nine argument arrays at the ideal values, in the
  kernel program's own host operations: the edge list's two columns, the symmetric normalisation from the
  in-degrees, one graph-convolution layer (dense transform, gather along edges, scale, scatter-add, self-loop
  and bias, batch statistics, normalisation, affine map, rectifier) in two spellings that differ only in how
  the variance is taken — clamped one-pass, or two-pass — the mean pool over graphs and the final linear map.
-/
import proofs.«125721_j19146964206336_2_alg».proof.Proof.Gen.KernelIdeal.Launch
import proofs.«125721_j19146964206336_2_alg».proof.Proof.LibLayer
import proofs.«125721_j19146964206336_2_alg».proof.Proof.LibApply
import proofs.«125721_j19146964206336_2_alg».proof.Proof.LibMatmul

set_option maxRecDepth 16384

noncomputable section

namespace Cert.KernelIdeal.KSpec

open Cert.KernelIdeal Cert.KernelIdeal.Gen
open Idealize.ShloMosaic Idealize.ShloMosaic.TcCoe Idealize.ShloMosaic.ValueIdx
open Cert.LibLayer Cert.LibApply Cert.LibMatmul

variable (a0 : FVec Ideal S100000x64 .f32) (a1 : IVec S2x1600000 32) (a2 : IVec S100000 32) (a3 : FVec Ideal S3x64x64 .f32)
  (a4 a5 a6 : FVec Ideal S3x64 .f32) (a7 : FVec Ideal S64x64 .f32) (a8 : FVec Ideal S64 .f32)

/-- The source column of the edge list. -/
def src : IVec S1600000 32 :=
  shapeCast S1600000 (extractStridedSlice S1x1600000 ![0, 0] a1 slices_S2x1600000_S1x1600000_0_0) shapeCasts_S1x1600000_S1600000
/-- The destination column of the edge list. -/
def dst : IVec S1600000 32 :=
  shapeCast S1600000 (extractStridedSlice S1x1600000 ![1, 0] a1 slices_S2x1600000_S1x1600000_1_0) shapeCasts_S1x1600000_S1600000
/-- A column of node numbers as gather indices: negative numbers wrapped once, one index per row. -/
def idx (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- deg^{-1/2}: the in-degree counted by a scatter-add of ones, plus one for the self loop. -/
def dinv : FVec Ideal S100000 .f32 :=
  Host.rsqrt (addf (Host.scatterAdd scatter_S100000_S1600000x1_S1600000_n_0_0_1
      (broadcastInDim S100000 ![] bcast_S_S100000 (constant S_ .f32 0x00000000#32))
      (broadcastInDim S1600000x1 ![0] bcast_S1600000_S1600000x1_0 (dst a1))
      (broadcastInDim S1600000 ![] bcast_S_S1600000 (constant S_ .f32 0x3F800000#32)))
    (broadcastInDim S100000 ![] bcast_S_S100000 (constant S_ .f32 0x3F800000#32)))
/-- The per-edge normalisation. -/
def enorm : FVec Ideal S1600000 .f32 :=
  mulf (Host.gather gather_S100000_S1600000x1_S1600000_n_0_n_n_0_1_1 (dinv a1) (idx (src a1)))
    (Host.gather gather_S100000_S1600000x1_S1600000_n_0_n_n_0_1_1 (dinv a1) (idx (dst a1)))
/-- The self-loop normalisation, as a column. -/
def snorm : FVec Ideal S100000x1 .f32 := shapeCast S100000x1 (mulf (dinv a1) (dinv a1)) shapeCasts_S100000_S100000x1
/-- The three layers' weights. -/
def w0 : FVec Ideal S64x64 .f32 := shapeCast S64x64 (extractStridedSlice S1x64x64 ![0, 0, 0] a3 slices_S3x64x64_S1x64x64_0_0_0) shapeCasts_S1x64x64_S64x64
def w1 : FVec Ideal S64x64 .f32 := shapeCast S64x64 (extractStridedSlice S1x64x64 ![1, 0, 0] a3 slices_S3x64x64_S1x64x64_1_0_0) shapeCasts_S1x64x64_S64x64
def w2 : FVec Ideal S64x64 .f32 := shapeCast S64x64 (extractStridedSlice S1x64x64 ![2, 0, 0] a3 slices_S3x64x64_S1x64x64_2_0_0) shapeCasts_S1x64x64_S64x64
/-- Row k of a [3, 64] parameter array, as a [1, 64] row. -/
def row0 (v : FVec Ideal S3x64 .f32) : FVec Ideal S1x64 .f32 := shapeCast S1x64 (shapeCast S64 (extractStridedSlice S1x64 ![0, 0] v slices_S3x64_S1x64_0_0) shapeCasts_S1x64_S64) shapeCasts_S64_S1x64
def row1 (v : FVec Ideal S3x64 .f32) : FVec Ideal S1x64 .f32 := shapeCast S1x64 (shapeCast S64 (extractStridedSlice S1x64 ![1, 0] v slices_S3x64_S1x64_1_0) shapeCasts_S1x64_S64) shapeCasts_S64_S1x64
def row2 (v : FVec Ideal S3x64 .f32) : FVec Ideal S1x64 .f32 := shapeCast S1x64 (shapeCast S64 (extractStridedSlice S1x64 ![2, 0] v slices_S3x64_S1x64_2_0) shapeCasts_S1x64_S64) shapeCasts_S64_S1x64
/-- The messages gathered along the edges, scaled, and summed at their destinations. -/
def agg (h : FVec Ideal S100000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 (dst a1))
    (mulf (Host.gather gather_S100000x64_S1600000x1_S1600000x64_1_0_n_n_0_1_164 h (idx (src a1)))
      (broadcastInDim S1600000x64 ![0, 1] bcast_S1600000x1_S1600000x64_0_1
        (broadcastInDim S1600000x1 ![0] bcast_S1600000_S1600000x1_0 (enorm a1))))
/-- The pre-normalisation activations of a layer. -/
def pre (x : FVec Ideal S100000x64 .f32) (w : FVec Ideal S64x64 .f32) (b : FVec Ideal S1x64 .f32) : SNF.Idx → EReal :=
  agg2G (agg a1 (MM x w)) (MM x w) (snorm a1) b
/-- A layer with the clamped one-pass variance. -/
def layer1 (x : FVec Ideal S100000x64 .f32) (w : FVec Ideal S64x64 .f32) (b g be : FVec Ideal S1x64 .f32) : SNF.Idx → EReal :=
  applyG (pre a1 x w b) (meanRow (pre a1 x w b)) (var1Row (pre a1 x w b)) g be
/-- A layer with the two-pass variance. -/
def layer2 (x : FVec Ideal S100000x64 .f32) (w : FVec Ideal S64x64 .f32) (b g be : FVec Ideal S1x64 .f32) : SNF.Idx → EReal :=
  applyG (pre a1 x w b) (meanRow (pre a1 x w b)) (var2Row (pre a1 x w b)) g be
/-- The mean pool over the graphs of the batch. -/
def pooled (x : FVec Ideal S100000x64 .f32) : FVec Ideal S512x64 .f32 :=
  Host.divf (Host.scatterAdd scatter_S512x64_S100000x1_S100000x64_1_0_0_1
      (broadcastInDim S512x64 ![] bcast_S_S512x64 (constant S_ .f32 0x00000000#32))
      (broadcastInDim S100000x1 ![0] bcast_S100000_S100000x1_0 a2) x)
    (broadcastInDim S512x64 ![0, 1] bcast_S512x1_S512x64_0_1
      (broadcastInDim S512x1 ![0] bcast_S512_S512x1_0
        (maximumf (broadcastInDim S512 ![] bcast_S_S512 (constant S_ .f32 0x3F800000#32))
          (Host.scatterAdd scatter_S512_S100000x1_S100000_n_0_0_1
            (broadcastInDim S512 ![] bcast_S_S512 (constant S_ .f32 0x00000000#32))
            (broadcastInDim S100000x1 ![0] bcast_S100000_S100000x1_0 a2)
            (broadcastInDim S100000 ![] bcast_S_S100000 (constant S_ .f32 0x3F800000#32))))))
/-- The final linear map on the pooled rows. -/
def fin (p : FVec Ideal S512x64 .f32) : (⟨2, ![512, 64]⟩ : Shape).Idx → EReal :=
  fun i => MM p (transpose S64x64 [1, 0] a7 transposes_S64x64_S64x64_1_0) i + (shapeCast S1x64 a8 shapeCasts_S64_S1x64 : FVec Ideal S1x64 .f32) (ix2 (0 : Fin 1) (i 1))

/-- The three layers in the clamped one-pass spelling … -/
def x1 : SNF.Idx → EReal := layer1 a1 a0 (w0 a3) (row0 a4) (row0 a5) (row0 a6)
def x2 : SNF.Idx → EReal := layer1 a1 (x1 a0 a1 a3 a4 a5 a6) (w1 a3) (row1 a4) (row1 a5) (row1 a6)
def x3 : SNF.Idx → EReal := layer1 a1 (x2 a0 a1 a3 a4 a5 a6) (w2 a3) (row2 a4) (row2 a5) (row2 a6)
/-- … and in the two-pass spelling. -/
def y1 : SNF.Idx → EReal := layer2 a1 a0 (w0 a3) (row0 a4) (row0 a5) (row0 a6)
def y2 : SNF.Idx → EReal := layer2 a1 (y1 a0 a1 a3 a4 a5 a6) (w1 a3) (row1 a4) (row1 a5) (row1 a6)
def y3 : SNF.Idx → EReal := layer2 a1 (y2 a0 a1 a3 a4 a5 a6) (w2 a3) (row2 a4) (row2 a5) (row2 a6)
/-- The whole network, in each spelling. -/
def out1 : (⟨2, ![512, 64]⟩ : Shape).Idx → EReal := fin a7 a8 (pooled a2 (x3 a0 a1 a3 a4 a5 a6))
def out2 : (⟨2, ![512, 64]⟩ : Shape).Idx → EReal := fin a7 a8 (pooled a2 (y3 a0 a1 a3 a4 a5 a6))

end Cert.KernelIdeal.KSpec

end
-- ==== Proof.PreFinite.lean ====
/-
  The precondition "every float argument array is finite", read back.

  The printed predicate computes, for each float argument array a, the conjunction over all indices
  of the test |a i| < +infinity (the bit pattern 0x7F800000 denotes the top element of the extended
  reals), and takes the conjunction of the seven results. When the whole predicate is the one-bit
  word 1, each of the seven conjunctions is 1; a conjunction over all indices that is 1 has a 1 at
  every index; and an extended real x with max x (-x) < top is neither top nor bottom, hence the
  coercion of a real. So every entry of every float argument array is a real.
-/
import proofs.«125721_j19146964206336_2_alg».proof.Pre_finite_inputs
import proofs.«125721_j19146964206336_2_alg».proof.Proof.Gen.Pre_finite_inputs
import proofs.«125721_j19146964206336_2_alg».proof.Proof.LibFinite
import Idealize.ShloMosaic.Lib.ReduceAll
import Idealize.ShloMosaic.Lib.ValueIdx

noncomputable section

namespace Cert.PreFinite

open Idealize.ShloMosaic Cert.LibFinite Cert.Pre_finite_inputs

/-- The scalar shape has exactly one index. -/
instance subsingleton_scalar_idx : Subsingleton S_.Idx := ⟨fun a b => funext fun d => d.elim0⟩

/-- The f32 pattern 0x7F800000 (sign 0, exponent all ones, fraction 0) denotes +infinity. -/
theorem ofBits_inf : Ideal.ofBits .f32 0x7F800000#32 = (⊤ : EReal) := by
  simp [Ideal.ofBits, Ideal.ieee]

/-- An extended real whose absolute value max x (-x) is strictly below +infinity is a real. -/
theorem isReal_of_abs_lt_inf (x : EReal)
    (h : Ideal.cmp .olt (max x (-x)) (Ideal.ofBits .f32 0x7F800000#32) = 1#1) : IsReal x := by
  rw [ofBits_inf] at h
  unfold Ideal.cmp at h
  induction x using EReal.rec with
  | bot => simp at h
  | coe r => exact ⟨r, rfl⟩
  | top => simp at h

/-- One array: if the conjunction over ALL indices of |a i| < +infinity is 1, every entry of a is a real.
    Only universal elimination at the index i: the index type is never enumerated. -/
theorem isFin_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant S_ .f32 0x7F800000#32)))
          init hr hu ValueIdx.ix0 = 1#1) :
    IsFin a := fun i =>
  isReal_of_abs_lt_inf (a i) (Host.reduce_andi_all _ init hr hu _ e i)

variable [Cert.Pre_finite_inputs.Facts]

/-- THE PRECONDITION DECODED: if the printed predicate is the all-ones scalar, each of the seven float
    argument arrays is finite (the two integer arrays a1, a2 are not tested). -/
theorem isFin_of_fn (a0 : FVec Ideal S100000x64 .f32) (a1 : IVec S2x1600000 32) (a2 : IVec S100000 32)
    (a3 : FVec Ideal S3x64x64 .f32) (a4 a5 a6 : FVec Ideal S3x64 .f32) (a7 : FVec Ideal S64x64 .f32)
    (a8 : FVec Ideal S64 .f32)
    (h : Cert.Pre_finite_inputs.fn (F := Ideal) a0 a1 a2 a3 a4 a5 a6 a7 a8 = (fun _ => 1#1)) :
    IsFin a0 ∧ IsFin a3 ∧ IsFin a4 ∧ IsFin a5 ∧ IsFin a6 ∧ IsFin a7 ∧ IsFin a8 := by
  have e := congrFun h ValueIdx.ix0
  dsimp only [Cert.Pre_finite_inputs.fn, Cert.Pre_finite_inputs.fn_part1, andi] at e
  simp only [IntOp.andi_eq_one] at e
  obtain ⟨⟨⟨⟨⟨⟨h0, h3⟩, h4⟩, h5⟩, h6⟩, h7⟩, h8⟩ := e
  exact ⟨isFin_of_all a0 _ _ _ _ h0, isFin_of_all a3 _ _ _ _ h3, isFin_of_all a4 _ _ _ _ h4,
    isFin_of_all a5 _ _ _ _ h5, isFin_of_all a6 _ _ _ _ h6, isFin_of_all a7 _ _ _ _ h7,
    isFin_of_all a8 _ _ _ _ h8⟩

end Cert.PreFinite

end
-- ==== Proof.PreFiniteK.lean ====
/-
  The precondition of the idealized kernel, decoded at the launch memory: on every device, each of
  the seven float argument arrays the memory holds is finite (every entry the coercion of a real).
  The precondition states that the printed finiteness predicate of the nine argument arrays is the
  all-ones scalar on every device; the decoding of that predicate is applied at the device's arrays.
-/
import proofs.«125721_j19146964206336_2_alg».proof.Defs
import proofs.«125721_j19146964206336_2_alg».proof.Proof.PreFinite

noncomputable section

namespace Cert.PreFinite

open Idealize.ShloMosaic Idealize.SL.Sem Cert.LibFinite

/-- On every device, the float argument arrays of a launch memory satisfying the precondition are finite. -/
theorem isFin_of_pre
    (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m)
    (c : Dev Cert.KernelIdeal.nD) :
    IsFin (m ((c.tc : Thread Cert.KernelIdeal.nD Cert.KernelIdeal.τ).loc Cert.KernelIdeal.main_arg0))
    ∧ IsFin (m ((c.tc : Thread Cert.KernelIdeal.nD Cert.KernelIdeal.τ).loc Cert.KernelIdeal.main_arg3))
    ∧ IsFin (m ((c.tc : Thread Cert.KernelIdeal.nD Cert.KernelIdeal.τ).loc Cert.KernelIdeal.main_arg4))
    ∧ IsFin (m ((c.tc : Thread Cert.KernelIdeal.nD Cert.KernelIdeal.τ).loc Cert.KernelIdeal.main_arg5))
    ∧ IsFin (m ((c.tc : Thread Cert.KernelIdeal.nD Cert.KernelIdeal.τ).loc Cert.KernelIdeal.main_arg6))
    ∧ IsFin (m ((c.tc : Thread Cert.KernelIdeal.nD Cert.KernelIdeal.τ).loc Cert.KernelIdeal.main_arg7))
    ∧ IsFin (m ((c.tc : Thread Cert.KernelIdeal.nD Cert.KernelIdeal.τ).loc Cert.KernelIdeal.main_arg8)) :=
  isFin_of_fn _ _ _ _ _ _ _ _ _ (hpre c)

end Cert.PreFinite

end
-- ==== Proof.Assemble.lean ====
/-
  The value claim assembled from its three parts.  The kernel program ends with its result buffer at the last
  boundary's contents, which is the network in the clamped one-pass spelling of the launch arrays; the reference
  ends with its result at the network in the two-pass spelling of its launch arrays; the launch arrays agree,
  and on finite float inputs — the precondition — the two spellings are one function.
-/
import proofs.«125721_j19146964206336_2_alg».proof.Defs
import proofs.«125721_j19146964206336_2_alg».proof.Proof.KRun
import proofs.«125721_j19146964206336_2_alg».proof.Proof.KSpec
import proofs.«125721_j19146964206336_2_alg».proof.Proof.RefRun
import proofs.«125721_j19146964206336_2_alg».proof.Proof.RefRun.Args
import proofs.«125721_j19146964206336_2_alg».proof.Proof.PreFiniteK
import proofs.«125721_j19146964206336_2_alg».proof.Proof.Gen.Pre_finite_inputs

set_option maxRecDepth 16384

noncomputable section

namespace Cert.Proof.Assemble

open Idealize.ShloMosaic Idealize.ShloMosaic.TcCoe Idealize.SL.Sem Idealize.ShloMosaic.StableHlo
open Cert.LibFinite

/-- The value claim from: the kernel's last boundary read as the one-pass network (`hk`), the reference's
    result read as the two-pass network (`hr`), and the two networks agreeing on finite inputs (`hb`). -/
theorem algebraic_of
    (hk : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Gen.W22 m ρ c (Proc.devRef .tc Cert.KernelIdeal.main_v146) = Cert.KernelIdeal.KSpec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
    (hr : ∀ (V : Valuation Cert.ReferenceIdeal.τ Cert.ReferenceIdeal.sig (Elt Ideal)),
      after (Cert.ReferenceIdeal.RefRun.ops (F := Ideal)) V (Cert.ReferenceIdeal.main_v189 : DevRef Cert.ReferenceIdeal.τ Cert.ReferenceIdeal.sig) = Cert.KernelIdeal.KSpec.out2 (V (Cert.ReferenceIdeal.main_arg0 : DevRef Cert.ReferenceIdeal.τ Cert.ReferenceIdeal.sig)) (V (Cert.ReferenceIdeal.main_arg1 : DevRef Cert.ReferenceIdeal.τ Cert.ReferenceIdeal.sig)) (V (Cert.ReferenceIdeal.main_arg2 : DevRef Cert.ReferenceIdeal.τ Cert.ReferenceIdeal.sig)) (V (Cert.ReferenceIdeal.main_arg3 : DevRef Cert.ReferenceIdeal.τ Cert.ReferenceIdeal.sig)) (V (Cert.ReferenceIdeal.main_arg4 : DevRef Cert.ReferenceIdeal.τ Cert.ReferenceIdeal.sig)) (V (Cert.ReferenceIdeal.main_arg5 : DevRef Cert.ReferenceIdeal.τ Cert.ReferenceIdeal.sig)) (V (Cert.ReferenceIdeal.main_arg6 : DevRef Cert.ReferenceIdeal.τ Cert.ReferenceIdeal.sig)) (V (Cert.ReferenceIdeal.main_arg7 : DevRef Cert.ReferenceIdeal.τ Cert.ReferenceIdeal.sig)) (V (Cert.ReferenceIdeal.main_arg8 : DevRef Cert.ReferenceIdeal.τ Cert.ReferenceIdeal.sig)))
    (hb : ∀ (a0 : FVec Ideal Cert.KernelIdeal.S100000x64 .f32) (a1 : IVec Cert.KernelIdeal.S2x1600000 32) (a2 : IVec Cert.KernelIdeal.S100000 32) (a3 : FVec Ideal Cert.KernelIdeal.S3x64x64 .f32)
        (a4 a5 a6 : FVec Ideal Cert.KernelIdeal.S3x64 .f32) (a7 : FVec Ideal Cert.KernelIdeal.S64x64 .f32) (a8 : FVec Ideal Cert.KernelIdeal.S64 .f32),
        IsFin a0 → IsFin a3 → IsFin a4 → IsFin a5 → IsFin a6 → IsFin a7 → IsFin a8 →
        Cert.KernelIdeal.KSpec.out1 a0 a1 a2 a3 a4 a5 a6 a7 a8 = Cert.KernelIdeal.KSpec.out2 a0 a1 a2 a3 a4 a5 a6 a7 a8) :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => Cert.KernelIdeal.Gen.W22 m ρ c (Proc.devRef .tc Cert.KernelIdeal.main_v146), ?_, ?_⟩
  · refine (θ_run (Cert.KernelIdeal.defs (F := Ideal)) _ _).mono (fun r h c => ⟨h c Cert.KernelIdeal.main_v146 (by decide),
        (h c Cert.KernelIdeal.main_arg0 (by decide)).trans (Cert.KernelIdeal.Gen.W22_main_arg0 m ρ c),
        (h c Cert.KernelIdeal.main_arg1 (by decide)).trans (Cert.KernelIdeal.Gen.W22_main_arg1 m ρ c),
        (h c Cert.KernelIdeal.main_arg2 (by decide)).trans (Cert.KernelIdeal.Gen.W22_main_arg2 m ρ c),
        (h c Cert.KernelIdeal.main_arg3 (by decide)).trans (Cert.KernelIdeal.Gen.W22_main_arg3 m ρ c),
        (h c Cert.KernelIdeal.main_arg4 (by decide)).trans (Cert.KernelIdeal.Gen.W22_main_arg4 m ρ c),
        (h c Cert.KernelIdeal.main_arg5 (by decide)).trans (Cert.KernelIdeal.Gen.W22_main_arg5 m ρ c),
        (h c Cert.KernelIdeal.main_arg6 (by decide)).trans (Cert.KernelIdeal.Gen.W22_main_arg6 m ρ c),
        (h c Cert.KernelIdeal.main_arg7 (by decide)).trans (Cert.KernelIdeal.Gen.W22_main_arg7 m ρ c),
        (h c Cert.KernelIdeal.main_arg8 (by decide)).trans (Cert.KernelIdeal.Gen.W22_main_arg8 m ρ c)⟩)
      (Cert.KernelIdeal.KRun.run_W22 m ρ)
  · refine (θ_run (Cert.ReferenceIdeal.defs (F := Ideal)) _ _).mono (fun r h c => ⟨(h c Cert.ReferenceIdeal.main_v189).trans ?_,
        (h c Cert.ReferenceIdeal.main_arg0).trans (Cert.ReferenceIdeal.RefRun.arg0_eq _),
        (h c Cert.ReferenceIdeal.main_arg1).trans (Cert.ReferenceIdeal.RefRun.arg1_eq _),
        (h c Cert.ReferenceIdeal.main_arg2).trans (Cert.ReferenceIdeal.RefRun.arg2_eq _),
        (h c Cert.ReferenceIdeal.main_arg3).trans (Cert.ReferenceIdeal.RefRun.arg3_eq _),
        (h c Cert.ReferenceIdeal.main_arg4).trans (Cert.ReferenceIdeal.RefRun.arg4_eq _),
        (h c Cert.ReferenceIdeal.main_arg5).trans (Cert.ReferenceIdeal.RefRun.arg5_eq _),
        (h c Cert.ReferenceIdeal.main_arg6).trans (Cert.ReferenceIdeal.RefRun.arg6_eq _),
        (h c Cert.ReferenceIdeal.main_arg7).trans (Cert.ReferenceIdeal.RefRun.arg7_eq _),
        (h c Cert.ReferenceIdeal.main_arg8).trans (Cert.ReferenceIdeal.RefRun.arg8_eq _)⟩)
      (Cert.ReferenceIdeal.RefRun.run_main m' ρ')
    obtain ⟨f0, f3, f4, f5, f6, f7, f8⟩ := Cert.PreFinite.isFin_of_pre m hpre c
    obtain ⟨e0, e1, e2, e3, e4, e5, e6, e7, e8⟩ := hagree c
    rw [hr]
    show Cert.KernelIdeal.KSpec.out2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = Cert.KernelIdeal.Gen.W22 m ρ c (Proc.devRef .tc Cert.KernelIdeal.main_v146)
    rw [hk m ρ c, e0, e1, e2, e3, e4, e5, e6, e7, e8]
    exact (hb _ _ _ _ _ _ _ _ _ f0 f3 f4 f5 f6 f7 f8).symm

end Cert.Proof.Assemble

end
-- ==== Proof.KHost0.lean ====
/-
  The host operations before the first kernel region, for an arbitrary valuation of the buffers: what each
  buffer a later segment reads holds afterwards, as the printed operations applied to the entry contents,
  and that every buffer the stretch does not write keeps its contents.  The stretch splits the edge list
  into its source and destination columns, counts each node's in-degree by a scatter-add of ones, takes
  the reciprocal square root of the degree plus one, gathers it at both ends of every edge for the edge
  normalisation, squares it for the self-loop normalisation, and slices out the first layer's weight.
-/
import proofs.«125721_j19146964206336_2_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe

variable {F : FTy → Type} [FloatOps F]

/-- The buffers the first stretch writes, in program order. -/
abbrev written0 : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_v27, main_v28, main_v29]

/-- A buffer the first stretch does not write keeps its contents. -/
theorem keep0 (W : Valuation τ sig (Elt F)) (b : Ref sig .tc) (hb : b ∉ written0) :
    StableHlo.after hostOps0 W (Proc.devRef .tc b) = W (Proc.devRef .tc b) :=
  StableHlo.after_of_writes_sub (W := written0) hostOps0 W (by
    simp only [hostOps0, List.Forall, StableHlo.nullary_writes, StableHlo.unary_writes, StableHlo.binary_writes,
      StableHlo.ternary_writes, StableHlo.quaternary_writes, StableHlo.reshape_writes, Finset.singleton_subset_iff]
    repeat' apply And.intro
    all_goals exact List.mem_toFinset.mpr (List.mem_map_of_mem (by decide))) hb

/-- The source column of the edge list: row 0 of the index pair array, flattened. -/
theorem h0_main_v1 (W : Valuation τ sig (Elt F)) :
    StableHlo.after hostOps0 W (Proc.devRef .tc main_v1)
      = (shapeCast S1600000
          (extractStridedSlice S1x1600000 ![0, 0] (W (Proc.devRef .tc main_arg1) : (⟨S2x1600000, .i32⟩ : BufTy).Contents (Elt F)) slices_S2x1600000_S1x1600000_0_0)
          shapeCasts_S1x1600000_S1600000 : (⟨S1600000, .i32⟩ : BufTy).Contents (Elt F)) := by
  simp only [hostOps0]; after_results_simp; rfl

/-- The destination column of the edge list: row 1 of the index pair array, flattened. -/
theorem h0_main_v3 (W : Valuation τ sig (Elt F)) :
    StableHlo.after hostOps0 W (Proc.devRef .tc main_v3)
      = (shapeCast S1600000
          (extractStridedSlice S1x1600000 ![1, 0] (W (Proc.devRef .tc main_arg1) : (⟨S2x1600000, .i32⟩ : BufTy).Contents (Elt F)) slices_S2x1600000_S1x1600000_1_0)
          shapeCasts_S1x1600000_S1600000 : (⟨S1600000, .i32⟩ : BufTy).Contents (Elt F)) := by
  simp only [hostOps0]; after_results_simp; rfl

/-- The inverse square root of the degree: ones scatter-added at the destination column onto zeros, plus one,
    under the reciprocal square root. -/
theorem h0_main_v10 (W : Valuation τ sig (Elt F)) :
    StableHlo.after hostOps0 W (Proc.devRef .tc main_v10)
      = (Host.rsqrt
          (addf
            (Host.scatterAdd scatter_S100000_S1600000x1_S1600000_n_0_0_1
              (broadcastInDim S100000 ![] bcast_S_S100000 (constant S_ .f32 0x00000000#32))
              (broadcastInDim S1600000x1 ![0] bcast_S1600000_S1600000x1_0 (StableHlo.after hostOps0 W (Proc.devRef .tc main_v3) : (⟨S1600000, .i32⟩ : BufTy).Contents (Elt F)))
              (broadcastInDim S1600000 ![] bcast_S_S1600000 (constant S_ .f32 0x3F800000#32)))
            (broadcastInDim S100000 ![] bcast_S_S100000 (constant S_ .f32 0x3F800000#32))) : (⟨S100000, .f32⟩ : BufTy).Contents (Elt F)) := by
  rw [h0_main_v3 W]; simp only [hostOps0]; after_results_simp; rfl

/-- The edge normalisation: the inverse square root of the degree gathered at the source and at the
    destination of every edge (a negative index wrapped by the node count), multiplied. -/
theorem h0_main_v25 (W : Valuation τ sig (Elt F)) :
    StableHlo.after hostOps0 W (Proc.devRef .tc main_v25)
      = (mulf
          (Host.gather gather_S100000_S1600000x1_S1600000_n_0_n_n_0_1_1 (StableHlo.after hostOps0 W (Proc.devRef .tc main_v10) : (⟨S100000, .f32⟩ : BufTy).Contents (Elt F))
            (broadcastInDim S1600000x1 ![0] bcast_S1600000_S1600000x1_0
          (select
            (cmpi .slt (StableHlo.after hostOps0 W (Proc.devRef .tc main_v1) : (⟨S1600000, .i32⟩ : BufTy).Contents (Elt F)) (broadcastInDim S1600000 ![] bcast_S_S1600000 (constantI S_ 32 0#32)))
            (addi (StableHlo.after hostOps0 W (Proc.devRef .tc main_v1) : (⟨S1600000, .i32⟩ : BufTy).Contents (Elt F)) (broadcastInDim S1600000 ![] bcast_S_S1600000 (constantI S_ 32 100000#32)))
            (StableHlo.after hostOps0 W (Proc.devRef .tc main_v1) : (⟨S1600000, .i32⟩ : BufTy).Contents (Elt F)))))
          (Host.gather gather_S100000_S1600000x1_S1600000_n_0_n_n_0_1_1 (StableHlo.after hostOps0 W (Proc.devRef .tc main_v10) : (⟨S100000, .f32⟩ : BufTy).Contents (Elt F))
            (broadcastInDim S1600000x1 ![0] bcast_S1600000_S1600000x1_0
          (select
            (cmpi .slt (StableHlo.after hostOps0 W (Proc.devRef .tc main_v3) : (⟨S1600000, .i32⟩ : BufTy).Contents (Elt F)) (broadcastInDim S1600000 ![] bcast_S_S1600000 (constantI S_ 32 0#32)))
            (addi (StableHlo.after hostOps0 W (Proc.devRef .tc main_v3) : (⟨S1600000, .i32⟩ : BufTy).Contents (Elt F)) (broadcastInDim S1600000 ![] bcast_S_S1600000 (constantI S_ 32 100000#32)))
            (StableHlo.after hostOps0 W (Proc.devRef .tc main_v3) : (⟨S1600000, .i32⟩ : BufTy).Contents (Elt F))))) : (⟨S1600000, .f32⟩ : BufTy).Contents (Elt F)) := by
  rw [h0_main_v10 W, h0_main_v3 W, h0_main_v1 W]; simp only [hostOps0]; after_results_simp; rfl

/-- The self-loop normalisation: the square of the inverse square root of the degree, as a column. -/
theorem h0_main_v27 (W : Valuation τ sig (Elt F)) :
    StableHlo.after hostOps0 W (Proc.devRef .tc main_v27)
      = (shapeCast S100000x1 (mulf (StableHlo.after hostOps0 W (Proc.devRef .tc main_v10) : (⟨S100000, .f32⟩ : BufTy).Contents (Elt F)) (StableHlo.after hostOps0 W (Proc.devRef .tc main_v10) : (⟨S100000, .f32⟩ : BufTy).Contents (Elt F))) shapeCasts_S100000_S100000x1 : (⟨S100000x1, .f32⟩ : BufTy).Contents (Elt F)) := by
  rw [h0_main_v10 W, h0_main_v3 W]; simp only [hostOps0]; after_results_simp; rfl

/-- The first layer's weight: block 0 of the stacked weights. -/
theorem h0_main_v29 (W : Valuation τ sig (Elt F)) :
    StableHlo.after hostOps0 W (Proc.devRef .tc main_v29)
      = (shapeCast S64x64
          (extractStridedSlice S1x64x64 ![0, 0, 0] (W (Proc.devRef .tc main_arg3) : (⟨S3x64x64, .f32⟩ : BufTy).Contents (Elt F)) slices_S3x64x64_S1x64x64_0_0_0)
          shapeCasts_S1x64x64_S64x64 : (⟨S64x64, .f32⟩ : BufTy).Contents (Elt F)) := by
  simp only [hostOps0]; after_results_simp; rfl

end Cert.KernelIdeal.KHost
end
-- ==== Proof.KHost1.lean ====
/-
  The host operations before the first layer's aggregation-and-statistics region, for an arbitrary valuation
  of the buffers: the neighbour sum and the layer's bias row, as the printed operations applied to the entry
  contents, and that every buffer the stretch does not write keeps its contents.  The neighbour sum gathers
  the transformed features at the source of every edge (a negative index wrapped by the node count),
  scales each gathered row by the edge's normalisation, and scatter-adds the rows at the destinations onto
  zeros.
-/
import proofs.«125721_j19146964206336_2_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe

variable {F : FTy → Type} [FloatOps F]

/-- The buffers this stretch writes, in program order. -/
abbrev written1 : List (Ref sig .tc) := [main_c_5, main_v31, main_v32, main_c_6, main_v33, main_v34, main_v35, main_v36, main_v37, main_v38, main_v39, main_v40, main_cst_7, main_v41, main_v42, main_v43, main_v44, main_v45, main_v46]

/-- A buffer this stretch does not write keeps its contents. -/
theorem keep1 (W : Valuation τ sig (Elt F)) (b : Ref sig .tc) (hb : b ∉ written1) :
    StableHlo.after hostOps1 W (Proc.devRef .tc b) = W (Proc.devRef .tc b) :=
  StableHlo.after_of_writes_sub (W := written1) hostOps1 W (by
    simp only [hostOps1, List.Forall, StableHlo.nullary_writes, StableHlo.unary_writes, StableHlo.binary_writes,
      StableHlo.ternary_writes, StableHlo.quaternary_writes, StableHlo.reshape_writes, Finset.singleton_subset_iff]
    repeat' apply And.intro
    all_goals exact List.mem_toFinset.mpr (List.mem_map_of_mem (by decide))) hb

/-- The neighbour sum: the transformed features gathered at the edge sources, each row scaled by its edge's
    normalisation, scatter-added at the edge destinations onto zeros. -/
theorem h1_main_v43 (W : Valuation τ sig (Elt F)) :
    StableHlo.after hostOps1 W (Proc.devRef .tc main_v43)
      = (Host.scatterAdd scatter_S100000x64_S1600000x1_S1600000x64_1_0_0_1
          (broadcastInDim S100000x64 ![] bcast_S_S100000x64 (constant S_ .f32 0x00000000#32))
          (broadcastInDim S1600000x1 ![0] bcast_S1600000_S1600000x1_0 (W (Proc.devRef .tc main_v3) : (⟨S1600000, .i32⟩ : BufTy).Contents (Elt F)))
          (mulf
            (Host.gather gather_S100000x64_S1600000x1_S1600000x64_1_0_n_n_0_1_164 (W (Proc.devRef .tc main_v30) : (⟨S100000x64, .f32⟩ : BufTy).Contents (Elt F))
              (broadcastInDim S1600000x1 ![0] bcast_S1600000_S1600000x1_0
                (select
                  (cmpi .slt (W (Proc.devRef .tc main_v1) : (⟨S1600000, .i32⟩ : BufTy).Contents (Elt F)) (broadcastInDim S1600000 ![] bcast_S_S1600000 (constantI S_ 32 0#32)))
                  (addi (W (Proc.devRef .tc main_v1) : (⟨S1600000, .i32⟩ : BufTy).Contents (Elt F)) (broadcastInDim S1600000 ![] bcast_S_S1600000 (constantI S_ 32 100000#32)))
                  (W (Proc.devRef .tc main_v1) : (⟨S1600000, .i32⟩ : BufTy).Contents (Elt F)))))
            (broadcastInDim S1600000x64 ![0, 1] bcast_S1600000x1_S1600000x64_0_1
              (broadcastInDim S1600000x1 ![0] bcast_S1600000_S1600000x1_0 (W (Proc.devRef .tc main_v25) : (⟨S1600000, .f32⟩ : BufTy).Contents (Elt F))))) : (⟨S100000x64, .f32⟩ : BufTy).Contents (Elt F)) := by
  simp only [hostOps1]; after_results_simp <;> rfl

/-- The layer's bias: row 0 of the stacked biases, as a one-row matrix. -/
theorem h1_main_v46 (W : Valuation τ sig (Elt F)) :
    StableHlo.after hostOps1 W (Proc.devRef .tc main_v46)
      = (shapeCast S1x64
          (shapeCast S64
            (extractStridedSlice S1x64 ![0, 0] (W (Proc.devRef .tc main_arg4) : (⟨S3x64, .f32⟩ : BufTy).Contents (Elt F)) slices_S3x64_S1x64_0_0)
            shapeCasts_S1x64_S64)
          shapeCasts_S64_S1x64 : (⟨S1x64, .f32⟩ : BufTy).Contents (Elt F)) := by
  simp only [hostOps1]; after_results_simp <;> rfl

end Cert.KernelIdeal.KHost
end
-- ==== Proof.KHost2.lean ====
/-
  The host operations before the first layer's normalisation region, for an arbitrary valuation of the
  buffers: the column mean, the clamped one-pass variance, and the layer's scale and shift rows, as the
  printed operations applied to the entry contents, and that every buffer the stretch does not write keeps
  its contents.  The mean is the column sum over the node count; the variance is the column sum of squares
  over the node count minus the square of the mean, clamped below at zero.
-/
import proofs.«125721_j19146964206336_2_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe

variable {F : FTy → Type} [FloatOps F]

/-- The buffers this stretch writes, in program order. -/
abbrev written2 : List (Ref sig .tc) := [main_cst_8, main_v48, main_v49, main_cst_9, main_v50, main_v51, main_v52, main_v53, main_cst_10, main_v54, main_v55, main_v56, main_v57, main_v58, main_v59, main_v60, main_v61]

/-- A buffer this stretch does not write keeps its contents. -/
theorem keep2 (W : Valuation τ sig (Elt F)) (b : Ref sig .tc) (hb : b ∉ written2) :
    StableHlo.after hostOps2 W (Proc.devRef .tc b) = W (Proc.devRef .tc b) :=
  StableHlo.after_of_writes_sub (W := written2) hostOps2 W (by
    simp only [hostOps2, List.Forall, StableHlo.nullary_writes, StableHlo.unary_writes, StableHlo.binary_writes,
      StableHlo.ternary_writes, StableHlo.quaternary_writes, StableHlo.reshape_writes, Finset.singleton_subset_iff]
    repeat' apply And.intro
    all_goals exact List.mem_toFinset.mpr (List.mem_map_of_mem (by decide))) hb

/-- The column mean: the column sums divided by the node count. -/
theorem h2_main_v49 (W : Valuation τ sig (Elt F)) :
    StableHlo.after hostOps2 W (Proc.devRef .tc main_v49)
      = (Host.divf (W (Proc.devRef .tc main_v47_1) : (⟨S1x64, .f32⟩ : BufTy).Contents (Elt F)) (broadcastInDim S1x64 ![] bcast_S_S1x64 (constant S_ .f32 0x47C35000#32)) : (⟨S1x64, .f32⟩ : BufTy).Contents (Elt F)) := by
  simp only [hostOps2]; after_results_simp <;> rfl

/-- The clamped one-pass variance: the column sums of squares over the node count, minus the square of the
    mean, clamped below at zero. -/
theorem h2_main_v55 (W : Valuation τ sig (Elt F)) :
    StableHlo.after hostOps2 W (Proc.devRef .tc main_v55)
      = (maximumf
          (subf (Host.divf (W (Proc.devRef .tc main_v47_2) : (⟨S1x64, .f32⟩ : BufTy).Contents (Elt F)) (broadcastInDim S1x64 ![] bcast_S_S1x64 (constant S_ .f32 0x47C35000#32))) (mulf (StableHlo.after hostOps2 W (Proc.devRef .tc main_v49) : (⟨S1x64, .f32⟩ : BufTy).Contents (Elt F)) (StableHlo.after hostOps2 W (Proc.devRef .tc main_v49) : (⟨S1x64, .f32⟩ : BufTy).Contents (Elt F))))
          (broadcastInDim S1x64 ![] bcast_S_S1x64 (constant S_ .f32 0x00000000#32)) : (⟨S1x64, .f32⟩ : BufTy).Contents (Elt F)) := by
  rw [h2_main_v49 W]; simp only [hostOps2]; after_results_simp <;> rfl

/-- The layer's scale: row 0 of the stacked scales, as a one-row matrix. -/
theorem h2_main_v58 (W : Valuation τ sig (Elt F)) :
    StableHlo.after hostOps2 W (Proc.devRef .tc main_v58)
      = (shapeCast S1x64
          (shapeCast S64
            (extractStridedSlice S1x64 ![0, 0] (W (Proc.devRef .tc main_arg5) : (⟨S3x64, .f32⟩ : BufTy).Contents (Elt F)) slices_S3x64_S1x64_0_0)
            shapeCasts_S1x64_S64)
          shapeCasts_S64_S1x64 : (⟨S1x64, .f32⟩ : BufTy).Contents (Elt F)) := by
  simp only [hostOps2]; after_results_simp <;> rfl

/-- The layer's shift: row 0 of the stacked shifts, as a one-row matrix. -/
theorem h2_main_v61 (W : Valuation τ sig (Elt F)) :
    StableHlo.after hostOps2 W (Proc.devRef .tc main_v61)
      = (shapeCast S1x64
          (shapeCast S64
            (extractStridedSlice S1x64 ![0, 0] (W (Proc.devRef .tc main_arg6) : (⟨S3x64, .f32⟩ : BufTy).Contents (Elt F)) slices_S3x64_S1x64_0_0)
            shapeCasts_S1x64_S64)
          shapeCasts_S64_S1x64 : (⟨S1x64, .f32⟩ : BufTy).Contents (Elt F)) := by
  simp only [hostOps2]; after_results_simp <;> rfl

end Cert.KernelIdeal.KHost
end
-- ==== Proof.KHost3.lean ====
/-
  The host operations before the second layer's feature-transform region, for an arbitrary valuation of the
  buffers: the layer's weight, block 1 of the stacked weights, and that every buffer the stretch does not
  write keeps its contents.
-/
import proofs.«125721_j19146964206336_2_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe

variable {F : FTy → Type} [FloatOps F]

/-- The buffers this stretch writes, in program order. -/
abbrev written3 : List (Ref sig .tc) := [main_v63, main_v64]

/-- A buffer this stretch does not write keeps its contents. -/
theorem keep3 (W : Valuation τ sig (Elt F)) (b : Ref sig .tc) (hb : b ∉ written3) :
    StableHlo.after hostOps3 W (Proc.devRef .tc b) = W (Proc.devRef .tc b) :=
  StableHlo.after_of_writes_sub (W := written3) hostOps3 W (by
    simp only [hostOps3, List.Forall, StableHlo.nullary_writes, StableHlo.unary_writes, StableHlo.binary_writes,
      StableHlo.ternary_writes, StableHlo.quaternary_writes, StableHlo.reshape_writes, Finset.singleton_subset_iff]
    repeat' apply And.intro
    all_goals exact List.mem_toFinset.mpr (List.mem_map_of_mem (by decide))) hb

/-- The layer's weight: block 1 of the stacked weights. -/
theorem h3_main_v64 (W : Valuation τ sig (Elt F)) :
    StableHlo.after hostOps3 W (Proc.devRef .tc main_v64)
      = (shapeCast S64x64
          (extractStridedSlice S1x64x64 ![1, 0, 0] (W (Proc.devRef .tc main_arg3) : (⟨S3x64x64, .f32⟩ : BufTy).Contents (Elt F)) slices_S3x64x64_S1x64x64_1_0_0)
          shapeCasts_S1x64x64_S64x64 : (⟨S64x64, .f32⟩ : BufTy).Contents (Elt F)) := by
  simp only [hostOps3]; after_results_simp <;> rfl

end Cert.KernelIdeal.KHost
end
-- ==== Proof.KHost4.lean ====
/-
  The host operations before the second layer's aggregation-and-statistics region, for an arbitrary valuation
  of the buffers: the neighbour sum and the layer's bias row, as the printed operations applied to the entry
  contents, and that every buffer the stretch does not write keeps its contents.  The neighbour sum gathers
  the transformed features at the source of every edge (a negative index wrapped by the node count),
  scales each gathered row by the edge's normalisation, and scatter-adds the rows at the destinations onto
  zeros.
-/
import proofs.«125721_j19146964206336_2_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe

variable {F : FTy → Type} [FloatOps F]

/-- The buffers this stretch writes, in program order. -/
abbrev written4 : List (Ref sig .tc) := [main_c_11, main_v66, main_v67, main_c_12, main_v68, main_v69, main_v70, main_v71, main_v72, main_v73, main_v74, main_v75, main_cst_13, main_v76, main_v77, main_v78, main_v79, main_v80, main_v81]

/-- A buffer this stretch does not write keeps its contents. -/
theorem keep4 (W : Valuation τ sig (Elt F)) (b : Ref sig .tc) (hb : b ∉ written4) :
    StableHlo.after hostOps4 W (Proc.devRef .tc b) = W (Proc.devRef .tc b) :=
  StableHlo.after_of_writes_sub (W := written4) hostOps4 W (by
    simp only [hostOps4, List.Forall, StableHlo.nullary_writes, StableHlo.unary_writes, StableHlo.binary_writes,
      StableHlo.ternary_writes, StableHlo.quaternary_writes, StableHlo.reshape_writes, Finset.singleton_subset_iff]
    repeat' apply And.intro
    all_goals exact List.mem_toFinset.mpr (List.mem_map_of_mem (by decide))) hb

/-- The neighbour sum: the transformed features gathered at the edge sources, each row scaled by its edge's
    normalisation, scatter-added at the edge destinations onto zeros. -/
theorem h4_main_v78 (W : Valuation τ sig (Elt F)) :
    StableHlo.after hostOps4 W (Proc.devRef .tc main_v78)
      = (Host.scatterAdd scatter_S100000x64_S1600000x1_S1600000x64_1_0_0_1
          (broadcastInDim S100000x64 ![] bcast_S_S100000x64 (constant S_ .f32 0x00000000#32))
          (broadcastInDim S1600000x1 ![0] bcast_S1600000_S1600000x1_0 (W (Proc.devRef .tc main_v3) : (⟨S1600000, .i32⟩ : BufTy).Contents (Elt F)))
          (mulf
            (Host.gather gather_S100000x64_S1600000x1_S1600000x64_1_0_n_n_0_1_164 (W (Proc.devRef .tc main_v65) : (⟨S100000x64, .f32⟩ : BufTy).Contents (Elt F))
              (broadcastInDim S1600000x1 ![0] bcast_S1600000_S1600000x1_0
                (select
                  (cmpi .slt (W (Proc.devRef .tc main_v1) : (⟨S1600000, .i32⟩ : BufTy).Contents (Elt F)) (broadcastInDim S1600000 ![] bcast_S_S1600000 (constantI S_ 32 0#32)))
                  (addi (W (Proc.devRef .tc main_v1) : (⟨S1600000, .i32⟩ : BufTy).Contents (Elt F)) (broadcastInDim S1600000 ![] bcast_S_S1600000 (constantI S_ 32 100000#32)))
                  (W (Proc.devRef .tc main_v1) : (⟨S1600000, .i32⟩ : BufTy).Contents (Elt F)))))
            (broadcastInDim S1600000x64 ![0, 1] bcast_S1600000x1_S1600000x64_0_1
              (broadcastInDim S1600000x1 ![0] bcast_S1600000_S1600000x1_0 (W (Proc.devRef .tc main_v25) : (⟨S1600000, .f32⟩ : BufTy).Contents (Elt F))))) : (⟨S100000x64, .f32⟩ : BufTy).Contents (Elt F)) := by
  simp only [hostOps4]; after_results_simp <;> rfl

/-- The layer's bias: row 1 of the stacked biases, as a one-row matrix. -/
theorem h4_main_v81 (W : Valuation τ sig (Elt F)) :
    StableHlo.after hostOps4 W (Proc.devRef .tc main_v81)
      = (shapeCast S1x64
          (shapeCast S64
            (extractStridedSlice S1x64 ![1, 0] (W (Proc.devRef .tc main_arg4) : (⟨S3x64, .f32⟩ : BufTy).Contents (Elt F)) slices_S3x64_S1x64_1_0)
            shapeCasts_S1x64_S64)
          shapeCasts_S64_S1x64 : (⟨S1x64, .f32⟩ : BufTy).Contents (Elt F)) := by
  simp only [hostOps4]; after_results_simp <;> rfl

end Cert.KernelIdeal.KHost
end
-- ==== Proof.KHost5.lean ====
/-
  The host operations before the second layer's normalisation region, for an arbitrary valuation of the
  buffers: the column mean, the clamped one-pass variance, and the layer's scale and shift rows, as the
  printed operations applied to the entry contents, and that every buffer the stretch does not write keeps
  its contents.  The mean is the column sum over the node count; the variance is the column sum of squares
  over the node count minus the square of the mean, clamped below at zero.
-/
import proofs.«125721_j19146964206336_2_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe

variable {F : FTy → Type} [FloatOps F]

/-- The buffers this stretch writes, in program order. -/
abbrev written5 : List (Ref sig .tc) := [main_cst_14, main_v83, main_v84, main_cst_15, main_v85, main_v86, main_v87, main_v88, main_cst_16, main_v89, main_v90, main_v91, main_v92, main_v93, main_v94, main_v95, main_v96]

/-- A buffer this stretch does not write keeps its contents. -/
theorem keep5 (W : Valuation τ sig (Elt F)) (b : Ref sig .tc) (hb : b ∉ written5) :
    StableHlo.after hostOps5 W (Proc.devRef .tc b) = W (Proc.devRef .tc b) :=
  StableHlo.after_of_writes_sub (W := written5) hostOps5 W (by
    simp only [hostOps5, List.Forall, StableHlo.nullary_writes, StableHlo.unary_writes, StableHlo.binary_writes,
      StableHlo.ternary_writes, StableHlo.quaternary_writes, StableHlo.reshape_writes, Finset.singleton_subset_iff]
    repeat' apply And.intro
    all_goals exact List.mem_toFinset.mpr (List.mem_map_of_mem (by decide))) hb

/-- The column mean: the column sums divided by the node count. -/
theorem h5_main_v84 (W : Valuation τ sig (Elt F)) :
    StableHlo.after hostOps5 W (Proc.devRef .tc main_v84)
      = (Host.divf (W (Proc.devRef .tc main_v82_1) : (⟨S1x64, .f32⟩ : BufTy).Contents (Elt F)) (broadcastInDim S1x64 ![] bcast_S_S1x64 (constant S_ .f32 0x47C35000#32)) : (⟨S1x64, .f32⟩ : BufTy).Contents (Elt F)) := by
  simp only [hostOps5]; after_results_simp <;> rfl

/-- The clamped one-pass variance: the column sums of squares over the node count, minus the square of the
    mean, clamped below at zero. -/
theorem h5_main_v90 (W : Valuation τ sig (Elt F)) :
    StableHlo.after hostOps5 W (Proc.devRef .tc main_v90)
      = (maximumf
          (subf (Host.divf (W (Proc.devRef .tc main_v82_2) : (⟨S1x64, .f32⟩ : BufTy).Contents (Elt F)) (broadcastInDim S1x64 ![] bcast_S_S1x64 (constant S_ .f32 0x47C35000#32))) (mulf (StableHlo.after hostOps5 W (Proc.devRef .tc main_v84) : (⟨S1x64, .f32⟩ : BufTy).Contents (Elt F)) (StableHlo.after hostOps5 W (Proc.devRef .tc main_v84) : (⟨S1x64, .f32⟩ : BufTy).Contents (Elt F))))
          (broadcastInDim S1x64 ![] bcast_S_S1x64 (constant S_ .f32 0x00000000#32)) : (⟨S1x64, .f32⟩ : BufTy).Contents (Elt F)) := by
  rw [h5_main_v84 W]; simp only [hostOps5]; after_results_simp <;> rfl

/-- The layer's scale: row 1 of the stacked scales, as a one-row matrix. -/
theorem h5_main_v93 (W : Valuation τ sig (Elt F)) :
    StableHlo.after hostOps5 W (Proc.devRef .tc main_v93)
      = (shapeCast S1x64
          (shapeCast S64
            (extractStridedSlice S1x64 ![1, 0] (W (Proc.devRef .tc main_arg5) : (⟨S3x64, .f32⟩ : BufTy).Contents (Elt F)) slices_S3x64_S1x64_1_0)
            shapeCasts_S1x64_S64)
          shapeCasts_S64_S1x64 : (⟨S1x64, .f32⟩ : BufTy).Contents (Elt F)) := by
  simp only [hostOps5]; after_results_simp <;> rfl

/-- The layer's shift: row 1 of the stacked shifts, as a one-row matrix. -/
theorem h5_main_v96 (W : Valuation τ sig (Elt F)) :
    StableHlo.after hostOps5 W (Proc.devRef .tc main_v96)
      = (shapeCast S1x64
          (shapeCast S64
            (extractStridedSlice S1x64 ![1, 0] (W (Proc.devRef .tc main_arg6) : (⟨S3x64, .f32⟩ : BufTy).Contents (Elt F)) slices_S3x64_S1x64_1_0)
            shapeCasts_S1x64_S64)
          shapeCasts_S64_S1x64 : (⟨S1x64, .f32⟩ : BufTy).Contents (Elt F)) := by
  simp only [hostOps5]; after_results_simp <;> rfl

end Cert.KernelIdeal.KHost
end
-- ==== Proof.KHost6.lean ====
/-
  The host operations before the third layer's feature-transform region, for an arbitrary valuation of the
  buffers: the layer's weight, block 2 of the stacked weights, and that every buffer the stretch does not
  write keeps its contents.
-/
import proofs.«125721_j19146964206336_2_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe

variable {F : FTy → Type} [FloatOps F]

/-- The buffers this stretch writes, in program order. -/
abbrev written6 : List (Ref sig .tc) := [main_v98, main_v99]

/-- A buffer this stretch does not write keeps its contents. -/
theorem keep6 (W : Valuation τ sig (Elt F)) (b : Ref sig .tc) (hb : b ∉ written6) :
    StableHlo.after hostOps6 W (Proc.devRef .tc b) = W (Proc.devRef .tc b) :=
  StableHlo.after_of_writes_sub (W := written6) hostOps6 W (by
    simp only [hostOps6, List.Forall, StableHlo.nullary_writes, StableHlo.unary_writes, StableHlo.binary_writes,
      StableHlo.ternary_writes, StableHlo.quaternary_writes, StableHlo.reshape_writes, Finset.singleton_subset_iff]
    repeat' apply And.intro
    all_goals exact List.mem_toFinset.mpr (List.mem_map_of_mem (by decide))) hb

/-- The layer's weight: block 2 of the stacked weights. -/
theorem h6_main_v99 (W : Valuation τ sig (Elt F)) :
    StableHlo.after hostOps6 W (Proc.devRef .tc main_v99)
      = (shapeCast S64x64
          (extractStridedSlice S1x64x64 ![2, 0, 0] (W (Proc.devRef .tc main_arg3) : (⟨S3x64x64, .f32⟩ : BufTy).Contents (Elt F)) slices_S3x64x64_S1x64x64_2_0_0)
          shapeCasts_S1x64x64_S64x64 : (⟨S64x64, .f32⟩ : BufTy).Contents (Elt F)) := by
  simp only [hostOps6]; after_results_simp <;> rfl

end Cert.KernelIdeal.KHost
end
-- ==== Proof.KHost7.lean ====
/-
  The host operations before the third layer's aggregation-and-statistics region, for an arbitrary valuation
  of the buffers: the neighbour sum and the layer's bias row, as the printed operations applied to the entry
  contents, and that every buffer the stretch does not write keeps its contents.  The neighbour sum gathers
  the transformed features at the source of every edge (a negative index wrapped by the node count),
  scales each gathered row by the edge's normalisation, and scatter-adds the rows at the destinations onto
  zeros.
-/
import proofs.«125721_j19146964206336_2_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe

variable {F : FTy → Type} [FloatOps F]

/-- The buffers this stretch writes, in program order. -/
abbrev written7 : List (Ref sig .tc) := [main_c_17, main_v101, main_v102, main_c_18, main_v103, main_v104, main_v105, main_v106, main_v107, main_v108, main_v109, main_v110, main_cst_19, main_v111, main_v112, main_v113, main_v114, main_v115, main_v116]

/-- A buffer this stretch does not write keeps its contents. -/
theorem keep7 (W : Valuation τ sig (Elt F)) (b : Ref sig .tc) (hb : b ∉ written7) :
    StableHlo.after hostOps7 W (Proc.devRef .tc b) = W (Proc.devRef .tc b) :=
  StableHlo.after_of_writes_sub (W := written7) hostOps7 W (by
    simp only [hostOps7, List.Forall, StableHlo.nullary_writes, StableHlo.unary_writes, StableHlo.binary_writes,
      StableHlo.ternary_writes, StableHlo.quaternary_writes, StableHlo.reshape_writes, Finset.singleton_subset_iff]
    repeat' apply And.intro
    all_goals exact List.mem_toFinset.mpr (List.mem_map_of_mem (by decide))) hb

/-- The neighbour sum: the transformed features gathered at the edge sources, each row scaled by its edge's
    normalisation, scatter-added at the edge destinations onto zeros. -/
theorem h7_main_v113 (W : Valuation τ sig (Elt F)) :
    StableHlo.after hostOps7 W (Proc.devRef .tc main_v113)
      = (Host.scatterAdd scatter_S100000x64_S1600000x1_S1600000x64_1_0_0_1
          (broadcastInDim S100000x64 ![] bcast_S_S100000x64 (constant S_ .f32 0x00000000#32))
          (broadcastInDim S1600000x1 ![0] bcast_S1600000_S1600000x1_0 (W (Proc.devRef .tc main_v3) : (⟨S1600000, .i32⟩ : BufTy).Contents (Elt F)))
          (mulf
            (Host.gather gather_S100000x64_S1600000x1_S1600000x64_1_0_n_n_0_1_164 (W (Proc.devRef .tc main_v100) : (⟨S100000x64, .f32⟩ : BufTy).Contents (Elt F))
              (broadcastInDim S1600000x1 ![0] bcast_S1600000_S1600000x1_0
                (select
                  (cmpi .slt (W (Proc.devRef .tc main_v1) : (⟨S1600000, .i32⟩ : BufTy).Contents (Elt F)) (broadcastInDim S1600000 ![] bcast_S_S1600000 (constantI S_ 32 0#32)))
                  (addi (W (Proc.devRef .tc main_v1) : (⟨S1600000, .i32⟩ : BufTy).Contents (Elt F)) (broadcastInDim S1600000 ![] bcast_S_S1600000 (constantI S_ 32 100000#32)))
                  (W (Proc.devRef .tc main_v1) : (⟨S1600000, .i32⟩ : BufTy).Contents (Elt F)))))
            (broadcastInDim S1600000x64 ![0, 1] bcast_S1600000x1_S1600000x64_0_1
              (broadcastInDim S1600000x1 ![0] bcast_S1600000_S1600000x1_0 (W (Proc.devRef .tc main_v25) : (⟨S1600000, .f32⟩ : BufTy).Contents (Elt F))))) : (⟨S100000x64, .f32⟩ : BufTy).Contents (Elt F)) := by
  simp only [hostOps7]; after_results_simp <;> rfl

/-- The layer's bias: row 2 of the stacked biases, as a one-row matrix. -/
theorem h7_main_v116 (W : Valuation τ sig (Elt F)) :
    StableHlo.after hostOps7 W (Proc.devRef .tc main_v116)
      = (shapeCast S1x64
          (shapeCast S64
            (extractStridedSlice S1x64 ![2, 0] (W (Proc.devRef .tc main_arg4) : (⟨S3x64, .f32⟩ : BufTy).Contents (Elt F)) slices_S3x64_S1x64_2_0)
            shapeCasts_S1x64_S64)
          shapeCasts_S64_S1x64 : (⟨S1x64, .f32⟩ : BufTy).Contents (Elt F)) := by
  simp only [hostOps7]; after_results_simp <;> rfl

end Cert.KernelIdeal.KHost
end
-- ==== Proof.KHost8.lean ====
/-
  The host operations before the third layer's normalisation region, for an arbitrary valuation of the
  buffers: the column mean, the clamped one-pass variance, and the layer's scale and shift rows, as the
  printed operations applied to the entry contents, and that every buffer the stretch does not write keeps
  its contents.  The mean is the column sum over the node count; the variance is the column sum of squares
  over the node count minus the square of the mean, clamped below at zero.
-/
import proofs.«125721_j19146964206336_2_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe

variable {F : FTy → Type} [FloatOps F]

/-- The buffers this stretch writes, in program order. -/
abbrev written8 : List (Ref sig .tc) := [main_cst_20, main_v118, main_v119, main_cst_21, main_v120, main_v121, main_v122, main_v123, main_cst_22, main_v124, main_v125, main_v126, main_v127, main_v128, main_v129, main_v130, main_v131]

/-- A buffer this stretch does not write keeps its contents. -/
theorem keep8 (W : Valuation τ sig (Elt F)) (b : Ref sig .tc) (hb : b ∉ written8) :
    StableHlo.after hostOps8 W (Proc.devRef .tc b) = W (Proc.devRef .tc b) :=
  StableHlo.after_of_writes_sub (W := written8) hostOps8 W (by
    simp only [hostOps8, List.Forall, StableHlo.nullary_writes, StableHlo.unary_writes, StableHlo.binary_writes,
      StableHlo.ternary_writes, StableHlo.quaternary_writes, StableHlo.reshape_writes, Finset.singleton_subset_iff]
    repeat' apply And.intro
    all_goals exact List.mem_toFinset.mpr (List.mem_map_of_mem (by decide))) hb

/-- The column mean: the column sums divided by the node count. -/
theorem h8_main_v119 (W : Valuation τ sig (Elt F)) :
    StableHlo.after hostOps8 W (Proc.devRef .tc main_v119)
      = (Host.divf (W (Proc.devRef .tc main_v117_1) : (⟨S1x64, .f32⟩ : BufTy).Contents (Elt F)) (broadcastInDim S1x64 ![] bcast_S_S1x64 (constant S_ .f32 0x47C35000#32)) : (⟨S1x64, .f32⟩ : BufTy).Contents (Elt F)) := by
  simp only [hostOps8]; after_results_simp <;> rfl

/-- The clamped one-pass variance: the column sums of squares over the node count, minus the square of the
    mean, clamped below at zero. -/
theorem h8_main_v125 (W : Valuation τ sig (Elt F)) :
    StableHlo.after hostOps8 W (Proc.devRef .tc main_v125)
      = (maximumf
          (subf (Host.divf (W (Proc.devRef .tc main_v117_2) : (⟨S1x64, .f32⟩ : BufTy).Contents (Elt F)) (broadcastInDim S1x64 ![] bcast_S_S1x64 (constant S_ .f32 0x47C35000#32))) (mulf (StableHlo.after hostOps8 W (Proc.devRef .tc main_v119) : (⟨S1x64, .f32⟩ : BufTy).Contents (Elt F)) (StableHlo.after hostOps8 W (Proc.devRef .tc main_v119) : (⟨S1x64, .f32⟩ : BufTy).Contents (Elt F))))
          (broadcastInDim S1x64 ![] bcast_S_S1x64 (constant S_ .f32 0x00000000#32)) : (⟨S1x64, .f32⟩ : BufTy).Contents (Elt F)) := by
  rw [h8_main_v119 W]; simp only [hostOps8]; after_results_simp <;> rfl

/-- The layer's scale: row 2 of the stacked scales, as a one-row matrix. -/
theorem h8_main_v128 (W : Valuation τ sig (Elt F)) :
    StableHlo.after hostOps8 W (Proc.devRef .tc main_v128)
      = (shapeCast S1x64
          (shapeCast S64
            (extractStridedSlice S1x64 ![2, 0] (W (Proc.devRef .tc main_arg5) : (⟨S3x64, .f32⟩ : BufTy).Contents (Elt F)) slices_S3x64_S1x64_2_0)
            shapeCasts_S1x64_S64)
          shapeCasts_S64_S1x64 : (⟨S1x64, .f32⟩ : BufTy).Contents (Elt F)) := by
  simp only [hostOps8]; after_results_simp <;> rfl

/-- The layer's shift: row 2 of the stacked shifts, as a one-row matrix. -/
theorem h8_main_v131 (W : Valuation τ sig (Elt F)) :
    StableHlo.after hostOps8 W (Proc.devRef .tc main_v131)
      = (shapeCast S1x64
          (shapeCast S64
            (extractStridedSlice S1x64 ![2, 0] (W (Proc.devRef .tc main_arg6) : (⟨S3x64, .f32⟩ : BufTy).Contents (Elt F)) slices_S3x64_S1x64_2_0)
            shapeCasts_S1x64_S64)
          shapeCasts_S64_S1x64 : (⟨S1x64, .f32⟩ : BufTy).Contents (Elt F)) := by
  simp only [hostOps8]; after_results_simp <;> rfl

end Cert.KernelIdeal.KHost
end
-- ==== Proof.KHost9.lean ====
/-
  The host operations between the last layer's normalisation region and the final region, for an arbitrary
  valuation of the buffers.  They come in three pieces: the first counts the nodes of each graph (ones
  scatter-added at the graph index onto zeros) and sums the node features per graph (the features
  scatter-added at the graph index onto zeros); the second clamps the counts below at one; the third divides
  the per-graph sums by the clamped counts, transposes the final weight, and makes the final bias a one-row
  matrix.  For each piece: what each buffer a later segment reads holds afterwards, as the printed
  operations applied to the piece's entry contents, and that every buffer the piece does not write keeps its
  contents.  Last, the three pieces composed.
-/
import proofs.«125721_j19146964206336_2_alg».proof.Proof.Gen.KernelIdeal.Launch
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe

variable {F : FTy → Type} [FloatOps F]

/-! ## The first piece: per-graph counts and sums -/

/-- The buffers the first piece writes, in program order. -/
abbrev written9 : List (Ref sig .tc) := [main_cst_23, main_v133, main_cst_24, main_v134, main_v135, main_v136, main_cst_25, main_v137, main_v138, main_v139, main_cst_26]

/-- A buffer the first piece does not write keeps its contents. -/
theorem keep9 (W : Valuation τ sig (Elt F)) (b : Ref sig .tc) (hb : b ∉ written9) :
    StableHlo.after hostOps9 W (Proc.devRef .tc b) = W (Proc.devRef .tc b) :=
  StableHlo.after_of_writes_sub (W := written9) hostOps9 W (by
    simp only [hostOps9, List.Forall, StableHlo.nullary_writes, StableHlo.unary_writes, StableHlo.binary_writes,
      StableHlo.ternary_writes, StableHlo.quaternary_writes, StableHlo.reshape_writes, Finset.singleton_subset_iff]
    repeat' apply And.intro
    all_goals exact List.mem_toFinset.mpr (List.mem_map_of_mem (by decide))) hb

/-- The per-graph node counts: ones scatter-added at the graph index onto zeros. -/
theorem h9_main_v136 (W : Valuation τ sig (Elt F)) :
    StableHlo.after hostOps9 W (Proc.devRef .tc main_v136)
      = (Host.scatterAdd scatter_S512_S100000x1_S100000_n_0_0_1
          (broadcastInDim S512 ![] bcast_S_S512 (constant S_ .f32 0x00000000#32))
          (broadcastInDim S100000x1 ![0] bcast_S100000_S100000x1_0 (W (Proc.devRef .tc main_arg2) : (⟨S100000, .i32⟩ : BufTy).Contents (Elt F)))
          (broadcastInDim S100000 ![] bcast_S_S100000 (constant S_ .f32 0x3F800000#32)) : (⟨S512, .f32⟩ : BufTy).Contents (Elt F)) := by
  simp only [hostOps9]; after_results_simp <;> rfl

/-- The per-graph feature sums: the node features scatter-added at the graph index onto zeros. -/
theorem h9_main_v139 (W : Valuation τ sig (Elt F)) :
    StableHlo.after hostOps9 W (Proc.devRef .tc main_v139)
      = (Host.scatterAdd scatter_S512x64_S100000x1_S100000x64_1_0_0_1
          (broadcastInDim S512x64 ![] bcast_S_S512x64 (constant S_ .f32 0x00000000#32))
          (broadcastInDim S100000x1 ![0] bcast_S100000_S100000x1_0 (W (Proc.devRef .tc main_arg2) : (⟨S100000, .i32⟩ : BufTy).Contents (Elt F)))
          (W (Proc.devRef .tc main_v132) : (⟨S100000x64, .f32⟩ : BufTy).Contents (Elt F)) : (⟨S512x64, .f32⟩ : BufTy).Contents (Elt F)) := by
  simp only [hostOps9]; after_results_simp <;> rfl

/-- The lower bound of the clamp: the constant one. -/
theorem h9_main_cst_26 (W : Valuation τ sig (Elt F)) :
    StableHlo.after hostOps9 W (Proc.devRef .tc main_cst_26)
      = (constant S_ .f32 0x3F800000#32 : (⟨S_, .f32⟩ : BufTy).Contents (Elt F)) := by
  simp only [hostOps9]; after_results_simp <;> rfl

/-! ## The second piece: the counts clamped below -/

/-- The buffers the second piece writes, in program order. -/
abbrev written9_1 : List (Ref sig .tc) := [main_call0_v0, main_call0_v1, main_v140]

/-- A buffer the second piece does not write keeps its contents. -/
theorem keep9_1 (W : Valuation τ sig (Elt F)) (b : Ref sig .tc) (hb : b ∉ written9_1) :
    StableHlo.after hostOps9_1 W (Proc.devRef .tc b) = W (Proc.devRef .tc b) :=
  StableHlo.after_of_writes_sub (W := written9_1) hostOps9_1 W (by
    simp only [hostOps9_1, List.Forall, StableHlo.nullary_writes, StableHlo.unary_writes, StableHlo.binary_writes,
      StableHlo.ternary_writes, StableHlo.quaternary_writes, StableHlo.reshape_writes, Finset.singleton_subset_iff]
    repeat' apply And.intro
    all_goals exact List.mem_toFinset.mpr (List.mem_map_of_mem (by decide))) hb

/-- The clamped counts: the maximum of the broadcast lower bound and the counts. -/
theorem h9_1_main_v140 (W : Valuation τ sig (Elt F)) :
    StableHlo.after hostOps9_1 W (Proc.devRef .tc main_v140)
      = (maximumf
          (broadcastInDim S512 ![] bcast_S_S512 (W (Proc.devRef .tc main_cst_26) : (⟨S_, .f32⟩ : BufTy).Contents (Elt F)))
          (W (Proc.devRef .tc main_v136) : (⟨S512, .f32⟩ : BufTy).Contents (Elt F)) : (⟨S512, .f32⟩ : BufTy).Contents (Elt F)) := by
  simp only [hostOps9_1]; after_results_simp <;> rfl

/-! ## The third piece: the pooled means, the final weight and bias -/

/-- The buffers the third piece writes, in program order. -/
abbrev written9_2 : List (Ref sig .tc) := [main_v141, main_v142, main_v143, main_v144, main_v145]

/-- A buffer the third piece does not write keeps its contents. -/
theorem keep9_2 (W : Valuation τ sig (Elt F)) (b : Ref sig .tc) (hb : b ∉ written9_2) :
    StableHlo.after hostOps9_2 W (Proc.devRef .tc b) = W (Proc.devRef .tc b) :=
  StableHlo.after_of_writes_sub (W := written9_2) hostOps9_2 W (by
    simp only [hostOps9_2, List.Forall, StableHlo.nullary_writes, StableHlo.unary_writes, StableHlo.binary_writes,
      StableHlo.ternary_writes, StableHlo.quaternary_writes, StableHlo.reshape_writes, Finset.singleton_subset_iff]
    repeat' apply And.intro
    all_goals exact List.mem_toFinset.mpr (List.mem_map_of_mem (by decide))) hb

/-- The pooled means: the per-graph sums divided by the clamped counts broadcast along the features. -/
theorem h9_2_main_v143 (W : Valuation τ sig (Elt F)) :
    StableHlo.after hostOps9_2 W (Proc.devRef .tc main_v143)
      = (Host.divf (W (Proc.devRef .tc main_v139) : (⟨S512x64, .f32⟩ : BufTy).Contents (Elt F))
          (broadcastInDim S512x64 ![0, 1] bcast_S512x1_S512x64_0_1
            (broadcastInDim S512x1 ![0] bcast_S512_S512x1_0 (W (Proc.devRef .tc main_v140) : (⟨S512, .f32⟩ : BufTy).Contents (Elt F)))) : (⟨S512x64, .f32⟩ : BufTy).Contents (Elt F)) := by
  simp only [hostOps9_2]; after_results_simp <;> rfl

/-- The final weight, transposed. -/
theorem h9_2_main_v144 (W : Valuation τ sig (Elt F)) :
    StableHlo.after hostOps9_2 W (Proc.devRef .tc main_v144)
      = (transpose S64x64 [1, 0] (W (Proc.devRef .tc main_arg7) : (⟨S64x64, .f32⟩ : BufTy).Contents (Elt F)) transposes_S64x64_S64x64_1_0 : (⟨S64x64, .f32⟩ : BufTy).Contents (Elt F)) := by
  simp only [hostOps9_2]; after_results_simp <;> rfl

/-- The final bias as a one-row matrix. -/
theorem h9_2_main_v145 (W : Valuation τ sig (Elt F)) :
    StableHlo.after hostOps9_2 W (Proc.devRef .tc main_v145)
      = (shapeCast S1x64 (W (Proc.devRef .tc main_arg8) : (⟨S64, .f32⟩ : BufTy).Contents (Elt F)) shapeCasts_S64_S1x64 : (⟨S1x64, .f32⟩ : BufTy).Contents (Elt F)) := by
  simp only [hostOps9_2]; after_results_simp <;> rfl

/-! ## The three pieces composed -/

/-- A buffer none of the three pieces writes keeps its contents through all of them. -/
theorem keep9all (W : Valuation τ sig (Elt F)) (b : Ref sig .tc)
    (hb : b ∉ written9) (hb1 : b ∉ written9_1) (hb2 : b ∉ written9_2) :
    StableHlo.after hostOps9_2 (StableHlo.after hostOps9_1 (StableHlo.after hostOps9 W)) (Proc.devRef .tc b)
      = W (Proc.devRef .tc b) := by
  rw [keep9_2 _ b hb2, keep9_1 _ b hb1, keep9 _ b hb]

/-- The pooled means after the three pieces: the per-graph feature sums divided by the per-graph counts
    clamped below at one, broadcast along the features. -/
theorem h9all_main_v143 (W : Valuation τ sig (Elt F)) :
    StableHlo.after hostOps9_2 (StableHlo.after hostOps9_1 (StableHlo.after hostOps9 W)) (Proc.devRef .tc main_v143)
      = (Host.divf
          (Host.scatterAdd scatter_S512x64_S100000x1_S100000x64_1_0_0_1
          (broadcastInDim S512x64 ![] bcast_S_S512x64 (constant S_ .f32 0x00000000#32))
          (broadcastInDim S100000x1 ![0] bcast_S100000_S100000x1_0 (W (Proc.devRef .tc main_arg2) : (⟨S100000, .i32⟩ : BufTy).Contents (Elt F)))
          (W (Proc.devRef .tc main_v132) : (⟨S100000x64, .f32⟩ : BufTy).Contents (Elt F)) : (⟨S512x64, .f32⟩ : BufTy).Contents (Elt F))
          (broadcastInDim S512x64 ![0, 1] bcast_S512x1_S512x64_0_1
            (broadcastInDim S512x1 ![0] bcast_S512_S512x1_0
              (maximumf
                (broadcastInDim S512 ![] bcast_S_S512 (constant S_ .f32 0x3F800000#32))
                (Host.scatterAdd scatter_S512_S100000x1_S100000_n_0_0_1
          (broadcastInDim S512 ![] bcast_S_S512 (constant S_ .f32 0x00000000#32))
          (broadcastInDim S100000x1 ![0] bcast_S100000_S100000x1_0 (W (Proc.devRef .tc main_arg2) : (⟨S100000, .i32⟩ : BufTy).Contents (Elt F)))
          (broadcastInDim S100000 ![] bcast_S_S100000 (constant S_ .f32 0x3F800000#32)) : (⟨S512, .f32⟩ : BufTy).Contents (Elt F))))) : (⟨S512x64, .f32⟩ : BufTy).Contents (Elt F)) := by
  rw [h9_2_main_v143, h9_1_main_v140, keep9_1 _ main_v139 (by decide), h9_main_v139, h9_main_cst_26, h9_main_v136]

/-- The transposed final weight after the three pieces. -/
theorem h9all_main_v144 (W : Valuation τ sig (Elt F)) :
    StableHlo.after hostOps9_2 (StableHlo.after hostOps9_1 (StableHlo.after hostOps9 W)) (Proc.devRef .tc main_v144)
      = (transpose S64x64 [1, 0] (W (Proc.devRef .tc main_arg7) : (⟨S64x64, .f32⟩ : BufTy).Contents (Elt F)) transposes_S64x64_S64x64_1_0 : (⟨S64x64, .f32⟩ : BufTy).Contents (Elt F)) := by
  rw [h9_2_main_v144, keep9_1 _ main_arg7 (by decide), keep9 _ main_arg7 (by decide)]

/-- The one-row final bias after the three pieces. -/
theorem h9all_main_v145 (W : Valuation τ sig (Elt F)) :
    StableHlo.after hostOps9_2 (StableHlo.after hostOps9_1 (StableHlo.after hostOps9 W)) (Proc.devRef .tc main_v145)
      = (shapeCast S1x64 (W (Proc.devRef .tc main_arg8) : (⟨S64, .f32⟩ : BufTy).Contents (Elt F)) shapeCasts_S64_S1x64 : (⟨S1x64, .f32⟩ : BufTy).Contents (Elt F)) := by
  rw [h9_2_main_v145, keep9_1 _ main_arg8 (by decide), keep9 _ main_arg8 (by decide)]

end Cert.KernelIdeal.KHost
end
-- ==== Proof.KChainLib.lean ====
/-
  The kernel program's boundaries against the network written over the nine argument arrays: the facts that
  stand at every boundary after the first host stretch — the arguments still to be read, the edge list's two
  columns and the two normalisations — and that every later host stretch keeps them; and the two column
  statistics the host computes from the column sums, as the mean row and the clamped one-pass variance row.
-/
import proofs.«125721_j19146964206336_2_alg».proof.Proof.KSpec
import proofs.«125721_j19146964206336_2_alg».proof.Proof.KHost0
import proofs.«125721_j19146964206336_2_alg».proof.Proof.KHost1
import proofs.«125721_j19146964206336_2_alg».proof.Proof.KHost2
import proofs.«125721_j19146964206336_2_alg».proof.Proof.KHost3
import proofs.«125721_j19146964206336_2_alg».proof.Proof.KHost4
import proofs.«125721_j19146964206336_2_alg».proof.Proof.KHost5
import proofs.«125721_j19146964206336_2_alg».proof.Proof.KHost6
import proofs.«125721_j19146964206336_2_alg».proof.Proof.KHost7
import proofs.«125721_j19146964206336_2_alg».proof.Proof.KHost8
import proofs.«125721_j19146964206336_2_alg».proof.Proof.KHost9
import proofs.«125721_j19146964206336_2_alg».proof.Proof.LibLayer
import proofs.«125721_j19146964206336_2_alg».proof.Proof.LibFinite

set_option maxRecDepth 16384

noncomputable section

namespace Cert.KernelIdeal.KChain

open Cert.KernelIdeal Cert.KernelIdeal.Gen Cert.KernelIdeal.KHost
open Idealize.ShloMosaic Idealize.ShloMosaic.TcCoe Idealize.ShloMosaic.ValueIdx
open Cert.LibLayer Cert.LibApply Cert.LibMatmul

variable (a0 : FVec Ideal S100000x64 .f32) (a1 : IVec S2x1600000 32) (a2 : IVec S100000 32) (a3 : FVec Ideal S3x64x64 .f32)
  (a4 a5 a6 : FVec Ideal S3x64 .f32) (a7 : FVec Ideal S64x64 .f32) (a8 : FVec Ideal S64 .f32)

/-- The nine arguments as a valuation holds them. -/
structure Args (W : Valuation τ sig (Elt Ideal)) : Prop where
  arg0 : W (Proc.devRef .tc main_arg0) = a0
  arg1 : W (Proc.devRef .tc main_arg1) = a1
  arg2 : W (Proc.devRef .tc main_arg2) = a2
  arg3 : W (Proc.devRef .tc main_arg3) = a3
  arg4 : W (Proc.devRef .tc main_arg4) = a4
  arg5 : W (Proc.devRef .tc main_arg5) = a5
  arg6 : W (Proc.devRef .tc main_arg6) = a6
  arg7 : W (Proc.devRef .tc main_arg7) = a7
  arg8 : W (Proc.devRef .tc main_arg8) = a8

/-- The facts that stand from the first region's entry on: the arguments still to be read as launched, the
    edge list's source and destination columns, the edge normalisation and the self-loop normalisation. -/
structure Base (W : Valuation τ sig (Elt Ideal)) : Prop where
  arg2 : W (Proc.devRef .tc main_arg2) = a2
  arg3 : W (Proc.devRef .tc main_arg3) = a3
  arg4 : W (Proc.devRef .tc main_arg4) = a4
  arg5 : W (Proc.devRef .tc main_arg5) = a5
  arg6 : W (Proc.devRef .tc main_arg6) = a6
  arg7 : W (Proc.devRef .tc main_arg7) = a7
  arg8 : W (Proc.devRef .tc main_arg8) = a8
  v1 : W (Proc.devRef .tc main_v1) = KSpec.src a1
  v3 : W (Proc.devRef .tc main_v3) = KSpec.dst a1
  v25 : W (Proc.devRef .tc main_v25) = KSpec.enorm a1
  v27 : W (Proc.devRef .tc main_v27) = KSpec.snorm a1

/-- The standing facts pass through host stretch 1: it writes none of their buffers. -/
theorem base_h1 {W : Valuation τ sig (Elt Ideal)} (h : Base a1 a2 a3 a4 a5 a6 a7 a8 W) : Base a1 a2 a3 a4 a5 a6 a7 a8 (StableHlo.after hostOps1 W) :=
  ⟨(keep1 W main_arg2 (by decide)).trans h.arg2,
   (keep1 W main_arg3 (by decide)).trans h.arg3,
   (keep1 W main_arg4 (by decide)).trans h.arg4,
   (keep1 W main_arg5 (by decide)).trans h.arg5,
   (keep1 W main_arg6 (by decide)).trans h.arg6,
   (keep1 W main_arg7 (by decide)).trans h.arg7,
   (keep1 W main_arg8 (by decide)).trans h.arg8,
   (keep1 W main_v1 (by decide)).trans h.v1,
   (keep1 W main_v3 (by decide)).trans h.v3,
   (keep1 W main_v25 (by decide)).trans h.v25,
   (keep1 W main_v27 (by decide)).trans h.v27⟩

/-- The standing facts pass through host stretch 2: it writes none of their buffers. -/
theorem base_h2 {W : Valuation τ sig (Elt Ideal)} (h : Base a1 a2 a3 a4 a5 a6 a7 a8 W) : Base a1 a2 a3 a4 a5 a6 a7 a8 (StableHlo.after hostOps2 W) :=
  ⟨(keep2 W main_arg2 (by decide)).trans h.arg2,
   (keep2 W main_arg3 (by decide)).trans h.arg3,
   (keep2 W main_arg4 (by decide)).trans h.arg4,
   (keep2 W main_arg5 (by decide)).trans h.arg5,
   (keep2 W main_arg6 (by decide)).trans h.arg6,
   (keep2 W main_arg7 (by decide)).trans h.arg7,
   (keep2 W main_arg8 (by decide)).trans h.arg8,
   (keep2 W main_v1 (by decide)).trans h.v1,
   (keep2 W main_v3 (by decide)).trans h.v3,
   (keep2 W main_v25 (by decide)).trans h.v25,
   (keep2 W main_v27 (by decide)).trans h.v27⟩

/-- The standing facts pass through host stretch 3: it writes none of their buffers. -/
theorem base_h3 {W : Valuation τ sig (Elt Ideal)} (h : Base a1 a2 a3 a4 a5 a6 a7 a8 W) : Base a1 a2 a3 a4 a5 a6 a7 a8 (StableHlo.after hostOps3 W) :=
  ⟨(keep3 W main_arg2 (by decide)).trans h.arg2,
   (keep3 W main_arg3 (by decide)).trans h.arg3,
   (keep3 W main_arg4 (by decide)).trans h.arg4,
   (keep3 W main_arg5 (by decide)).trans h.arg5,
   (keep3 W main_arg6 (by decide)).trans h.arg6,
   (keep3 W main_arg7 (by decide)).trans h.arg7,
   (keep3 W main_arg8 (by decide)).trans h.arg8,
   (keep3 W main_v1 (by decide)).trans h.v1,
   (keep3 W main_v3 (by decide)).trans h.v3,
   (keep3 W main_v25 (by decide)).trans h.v25,
   (keep3 W main_v27 (by decide)).trans h.v27⟩

/-- The standing facts pass through host stretch 4: it writes none of their buffers. -/
theorem base_h4 {W : Valuation τ sig (Elt Ideal)} (h : Base a1 a2 a3 a4 a5 a6 a7 a8 W) : Base a1 a2 a3 a4 a5 a6 a7 a8 (StableHlo.after hostOps4 W) :=
  ⟨(keep4 W main_arg2 (by decide)).trans h.arg2,
   (keep4 W main_arg3 (by decide)).trans h.arg3,
   (keep4 W main_arg4 (by decide)).trans h.arg4,
   (keep4 W main_arg5 (by decide)).trans h.arg5,
   (keep4 W main_arg6 (by decide)).trans h.arg6,
   (keep4 W main_arg7 (by decide)).trans h.arg7,
   (keep4 W main_arg8 (by decide)).trans h.arg8,
   (keep4 W main_v1 (by decide)).trans h.v1,
   (keep4 W main_v3 (by decide)).trans h.v3,
   (keep4 W main_v25 (by decide)).trans h.v25,
   (keep4 W main_v27 (by decide)).trans h.v27⟩

/-- The standing facts pass through host stretch 5: it writes none of their buffers. -/
theorem base_h5 {W : Valuation τ sig (Elt Ideal)} (h : Base a1 a2 a3 a4 a5 a6 a7 a8 W) : Base a1 a2 a3 a4 a5 a6 a7 a8 (StableHlo.after hostOps5 W) :=
  ⟨(keep5 W main_arg2 (by decide)).trans h.arg2,
   (keep5 W main_arg3 (by decide)).trans h.arg3,
   (keep5 W main_arg4 (by decide)).trans h.arg4,
   (keep5 W main_arg5 (by decide)).trans h.arg5,
   (keep5 W main_arg6 (by decide)).trans h.arg6,
   (keep5 W main_arg7 (by decide)).trans h.arg7,
   (keep5 W main_arg8 (by decide)).trans h.arg8,
   (keep5 W main_v1 (by decide)).trans h.v1,
   (keep5 W main_v3 (by decide)).trans h.v3,
   (keep5 W main_v25 (by decide)).trans h.v25,
   (keep5 W main_v27 (by decide)).trans h.v27⟩

/-- The standing facts pass through host stretch 6: it writes none of their buffers. -/
theorem base_h6 {W : Valuation τ sig (Elt Ideal)} (h : Base a1 a2 a3 a4 a5 a6 a7 a8 W) : Base a1 a2 a3 a4 a5 a6 a7 a8 (StableHlo.after hostOps6 W) :=
  ⟨(keep6 W main_arg2 (by decide)).trans h.arg2,
   (keep6 W main_arg3 (by decide)).trans h.arg3,
   (keep6 W main_arg4 (by decide)).trans h.arg4,
   (keep6 W main_arg5 (by decide)).trans h.arg5,
   (keep6 W main_arg6 (by decide)).trans h.arg6,
   (keep6 W main_arg7 (by decide)).trans h.arg7,
   (keep6 W main_arg8 (by decide)).trans h.arg8,
   (keep6 W main_v1 (by decide)).trans h.v1,
   (keep6 W main_v3 (by decide)).trans h.v3,
   (keep6 W main_v25 (by decide)).trans h.v25,
   (keep6 W main_v27 (by decide)).trans h.v27⟩

/-- The standing facts pass through host stretch 7: it writes none of their buffers. -/
theorem base_h7 {W : Valuation τ sig (Elt Ideal)} (h : Base a1 a2 a3 a4 a5 a6 a7 a8 W) : Base a1 a2 a3 a4 a5 a6 a7 a8 (StableHlo.after hostOps7 W) :=
  ⟨(keep7 W main_arg2 (by decide)).trans h.arg2,
   (keep7 W main_arg3 (by decide)).trans h.arg3,
   (keep7 W main_arg4 (by decide)).trans h.arg4,
   (keep7 W main_arg5 (by decide)).trans h.arg5,
   (keep7 W main_arg6 (by decide)).trans h.arg6,
   (keep7 W main_arg7 (by decide)).trans h.arg7,
   (keep7 W main_arg8 (by decide)).trans h.arg8,
   (keep7 W main_v1 (by decide)).trans h.v1,
   (keep7 W main_v3 (by decide)).trans h.v3,
   (keep7 W main_v25 (by decide)).trans h.v25,
   (keep7 W main_v27 (by decide)).trans h.v27⟩

/-- The standing facts pass through host stretch 8: it writes none of their buffers. -/
theorem base_h8 {W : Valuation τ sig (Elt Ideal)} (h : Base a1 a2 a3 a4 a5 a6 a7 a8 W) : Base a1 a2 a3 a4 a5 a6 a7 a8 (StableHlo.after hostOps8 W) :=
  ⟨(keep8 W main_arg2 (by decide)).trans h.arg2,
   (keep8 W main_arg3 (by decide)).trans h.arg3,
   (keep8 W main_arg4 (by decide)).trans h.arg4,
   (keep8 W main_arg5 (by decide)).trans h.arg5,
   (keep8 W main_arg6 (by decide)).trans h.arg6,
   (keep8 W main_arg7 (by decide)).trans h.arg7,
   (keep8 W main_arg8 (by decide)).trans h.arg8,
   (keep8 W main_v1 (by decide)).trans h.v1,
   (keep8 W main_v3 (by decide)).trans h.v3,
   (keep8 W main_v25 (by decide)).trans h.v25,
   (keep8 W main_v27 (by decide)).trans h.v27⟩

/-- The standing facts pass through host stretch 9: it writes none of their buffers. -/
theorem base_h9 {W : Valuation τ sig (Elt Ideal)} (h : Base a1 a2 a3 a4 a5 a6 a7 a8 W) : Base a1 a2 a3 a4 a5 a6 a7 a8 (StableHlo.after hostOps9 W) :=
  ⟨(keep9 W main_arg2 (by decide)).trans h.arg2,
   (keep9 W main_arg3 (by decide)).trans h.arg3,
   (keep9 W main_arg4 (by decide)).trans h.arg4,
   (keep9 W main_arg5 (by decide)).trans h.arg5,
   (keep9 W main_arg6 (by decide)).trans h.arg6,
   (keep9 W main_arg7 (by decide)).trans h.arg7,
   (keep9 W main_arg8 (by decide)).trans h.arg8,
   (keep9 W main_v1 (by decide)).trans h.v1,
   (keep9 W main_v3 (by decide)).trans h.v3,
   (keep9 W main_v25 (by decide)).trans h.v25,
   (keep9 W main_v27 (by decide)).trans h.v27⟩

/-- The standing facts pass through host stretch 9_1: it writes none of their buffers. -/
theorem base_h9_1 {W : Valuation τ sig (Elt Ideal)} (h : Base a1 a2 a3 a4 a5 a6 a7 a8 W) : Base a1 a2 a3 a4 a5 a6 a7 a8 (StableHlo.after hostOps9_1 W) :=
  ⟨(keep9_1 W main_arg2 (by decide)).trans h.arg2,
   (keep9_1 W main_arg3 (by decide)).trans h.arg3,
   (keep9_1 W main_arg4 (by decide)).trans h.arg4,
   (keep9_1 W main_arg5 (by decide)).trans h.arg5,
   (keep9_1 W main_arg6 (by decide)).trans h.arg6,
   (keep9_1 W main_arg7 (by decide)).trans h.arg7,
   (keep9_1 W main_arg8 (by decide)).trans h.arg8,
   (keep9_1 W main_v1 (by decide)).trans h.v1,
   (keep9_1 W main_v3 (by decide)).trans h.v3,
   (keep9_1 W main_v25 (by decide)).trans h.v25,
   (keep9_1 W main_v27 (by decide)).trans h.v27⟩

/-- The standing facts pass through host stretch 9_2: it writes none of their buffers. -/
theorem base_h9_2 {W : Valuation τ sig (Elt Ideal)} (h : Base a1 a2 a3 a4 a5 a6 a7 a8 W) : Base a1 a2 a3 a4 a5 a6 a7 a8 (StableHlo.after hostOps9_2 W) :=
  ⟨(keep9_2 W main_arg2 (by decide)).trans h.arg2,
   (keep9_2 W main_arg3 (by decide)).trans h.arg3,
   (keep9_2 W main_arg4 (by decide)).trans h.arg4,
   (keep9_2 W main_arg5 (by decide)).trans h.arg5,
   (keep9_2 W main_arg6 (by decide)).trans h.arg6,
   (keep9_2 W main_arg7 (by decide)).trans h.arg7,
   (keep9_2 W main_arg8 (by decide)).trans h.arg8,
   (keep9_2 W main_v1 (by decide)).trans h.v1,
   (keep9_2 W main_v3 (by decide)).trans h.v3,
   (keep9_2 W main_v25 (by decide)).trans h.v25,
   (keep9_2 W main_v27 (by decide)).trans h.v27⟩

/-! ## The column statistics the host computes from the column sums -/

/-- The column sums divided by the node count are the mean row. -/
theorem mean_eq (A : SNF.Idx → EReal) :
    (Host.divf (fun i : SRow.Idx => colSum A (i 1) : FVec Ideal S1x64 .f32)
      (broadcastInDim S1x64 ![] bcast_S_S1x64 (constant S_ .f32 0x47C35000#32)) : FVec Ideal S1x64 .f32) = meanRow A := by
  funext i
  show Ideal.div (colSum A (i 1)) (Ideal.ofBits .f32 0x47C35000#32) = _
  rw [Cert.LibFinite.ofBits_100000]; rfl

/-- The column sums of squares divided by the node count, minus the square of the mean row, clamped below at
    zero, are the clamped one-pass variance row. -/
theorem var1_eq (A : SNF.Idx → EReal) :
    (maximumf
      (subf
        (Host.divf (fun i : SRow.Idx => colSum (fun k => A k * A k) (i 1) : FVec Ideal S1x64 .f32)
          (broadcastInDim S1x64 ![] bcast_S_S1x64 (constant S_ .f32 0x47C35000#32)))
        (mulf (meanRow A : FVec Ideal S1x64 .f32) (meanRow A)))
      (broadcastInDim S1x64 ![] bcast_S_S1x64 (constant S_ .f32 0x00000000#32)) : FVec Ideal S1x64 .f32) = var1Row A := by
  funext i
  show max (Ideal.div (colSum (fun k => A k * A k) (i 1)) (Ideal.ofBits .f32 0x47C35000#32) - meanRow A i * meanRow A i)
      (Ideal.ofBits .f32 0x00000000#32) = _
  rw [Cert.LibFinite.ofBits_100000, Cert.LibFinite.ofBits_zero, EReal.coe_zero]; rfl

end Cert.KernelIdeal.KChain

end
-- ==== Proof.KLin0.lean ====
/-
  Region 0 of the idealized kernel program: the dense linear transform, tiled over the rows.  Each of the ten
  grid points loads a block of 10000 rows of the activations and the whole 64 × 64 weight matrix, and writes
  the block's product back; the format changes on the way into the product are the identity on extended reals.
  So after the region the output array is the matrix product of the two input arrays as the region finds them:
  row r of the result depends only on row r of the activations, and the ten blocks tile the 100000 rows.
-/
import proofs.«125721_j19146964206336_2_alg».proof.Proof.Gen.KernelIdeal.Frame
import proofs.«125721_j19146964206336_2_alg».proof.Proof.LibMatmul
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KLin0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the product of its two loaded blocks. -/
theorem pay (x0 : Vec Ideal S10000x64 .f32) (x1 : Vec Ideal S64x64 .f32) :
    k0_pay1 x0 x1 = Cert.LibMatmul.MM x0 x1 := by
  unfold k0_pay1
  dsimp only
  simp only [shapeCast_self]
  exact Cert.LibMatmul.matmul_zero_eq dot_S10000x64_S64x64_S10000x64_1_0_0_1_n_n rfl rfl rfl rfl rfl rfl none _ _

/-- The printed index maps over the grid: the activations' and the result's block index is the point, the
    weights' block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays. -/
theorem flushed_eq (c : Dev nD) (t : Fin cfg0.N) :
    (dat0 V c).flushed 2 t = ((cfg0.win 2).blk t).view.read (Elt Ideal) (Cert.LibMatmul.MM (V c main_arg0) (V c main_v29)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  rw [pay]
  obtain ⟨e0, e1, e2, e3, e4, e5⟩ := idx_facts t
  funext j
  obtain ⟨p, q, rfl⟩ : ∃ (p : Fin 10000) (q : Fin 64), j = ix2 p q := ⟨j 0, j 1, eq_ix2 j⟩
  show Cert.LibMatmul.MM _ _ (ix2 p q) = Cert.LibMatmul.MM _ _ (((cfg0.win 2).blk t).view.emb (ix2 p q))
  unfold Cert.LibMatmul.MM
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  refine congrArg₂ (· * ·) ?_ ?_
  · show V c main_arg0 (((cfg0.win 0).blk t).view.emb (ix2 p k)) = V c main_arg0 (ix2 ((((cfg0.win 2).blk t).view.emb (ix2 p q)) 0) k)
    rw [h0]; rfl
  · show V c main_v29 (((cfg0.win 1).blk t).view.emb (ix2 k q)) = V c main_v29 (ix2 k ((((cfg0.win 2).blk t).view.emb (ix2 p q)) 1))
    rw [h1]; rfl

/-- An index of the result array is in point `t`'s block iff each coordinate is in the block's range. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row r lies in the block of point r / 10000: the ten blocks cover the array. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  obtain ⟨-, -, -, -, e4, e5⟩ := idx_facts (⟨(i 0).val / 10000, by rw [show cfg0.N = 10 from hN]; omega⟩ : Fin cfg0.N)
  refine ⟨⟨(i 0).val / 10000, by rw [show cfg0.N = 10 from hN]; omega⟩, flush0_2 _, ?_⟩
  rw [mem_blk]
  intro a
  match a with
  | ⟨0, _⟩ =>
    show win0_2.index _ (0 : Fin 2) * 10000 ≤ (i 0).val ∧ (i 0).val < win0_2.index _ (0 : Fin 2) * 10000 + 10000
    rw [e4]
    show (i 0).val / 10000 * 10000 ≤ (i 0).val ∧ (i 0).val < (i 0).val / 10000 * 10000 + 10000
    omega
  | ⟨1, _⟩ =>
    show win0_2.index _ (1 : Fin 2) * 64 ≤ (i 1).val ∧ (i 1).val < win0_2.index _ (1 : Fin 2) * 64 + 64
    rw [e5]; omega

/-- After the region the result array is the matrix product of the region's two input arrays. -/
theorem final (c : Dev nD) : (dat0 V c).arrAt 2 cfg0.N = Cert.LibMatmul.MM (V c main_arg0) (V c main_v29) :=
  (dat0 V c).arrAt_eq_of_cover 2 _ (fun t _ => flushed_eq V c t) cover

end Cert.KernelIdeal.KLin0

end
-- ==== Proof.KRedPay1.lean ====
/-
  Region 1 of the idealized kernel program, the body's arithmetic read at an index (at the ideal values).
  The stored block entry (p, q) is agg(p, q) + h(p, q) · snorm(p) + bias(q); the two running rows receive, at
  column q, their previous value plus the block's column sum of that entry, respectively of its square.
-/
import proofs.«125721_j19146964206336_2_alg».proof.Proof.Gen.KernelIdeal.Skeleton
import Idealize.ShloMosaic.PureOps.Ideal.Laws
import proofs.«125721_j19146964206336_2_alg».proof.Proof.LibMatmul
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KRedPay1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- A [a, 1] column broadcast to [a, b] reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane reduction over the rows of a block is, at column q, the sum over the rows. -/
theorem colsum_block (v : FVec Ideal S10000x64 .f32) (h : S10000x64.Reduces [0] S64) (q : Fin 64) :
    multiReduction .add [0] S64 v 0x00000000#32 h (.inl rfl) rfl (ix1 q) = ∑ p : Fin 10000, v (ix2 p q) := by
  refine (Ideal.multiReduction_add_single v 0x00000000#32 h (.inl rfl) rfl (ix1 q)).trans ?_
  refine Finset.sum_congr rfl fun p _ => congrArg v ?_
  funext a; apply Fin.ext
  match a with
  | ⟨0, _⟩ => rfl
  | ⟨1, _⟩ => rfl

/-- The stored block at (p, q). -/
theorem pay3_apply (x2 : Vec Ideal S10000x1 .f32) (x3 : Vec Ideal S1x64 .f32) (x0 x1 : Vec Ideal S10000x64 .f32) (p : Fin 10000) (q : Fin 64) :
    k1_pay3 x2 x3 x0 x1 (ix2 p q) = x0 (ix2 p q) + x1 (ix2 p q) * x2 (ix2 p (0 : Fin 1)) + x3 (ix2 (0 : Fin 1) q) := by
  unfold k1_pay3
  try dsimp only
  simp only [shapeCast_self]
  show x0 (ix2 p q) + x1 (ix2 p q) * broadcastTo S10000x64 x2 _ (ix2 p q)
      + broadcastTo S10000x64 x3 _ (ix2 p q) = _
  rw [broadcastTo_1b_ab_apply, broadcastTo_a1_ab_apply]

/-- The running sum row at column q. -/
theorem pay4_apply (x2 : Vec Ideal S10000x1 .f32) (x3 : Vec Ideal S1x64 .f32) (x0 x1 : Vec Ideal S10000x64 .f32) (acc : Vec Ideal S1x64 .f32) (u : Fin 1) (q : Fin 64) :
    k1_pay4 x2 x3 x0 x1 acc (ix2 u q) = acc (ix2 u q) + ∑ p : Fin 10000, k1_pay3 x2 x3 x0 x1 (ix2 p q) := by
  unfold k1_pay4
  try dsimp only
  simp only [shapeCast_self]
  show acc (ix2 u q) + shapeCast S1x64 (multiReduction .add [0] S64 (k1_pay3 x2 x3 x0 x1) 0x00000000#32 _ (.inl rfl) rfl) _ (ix2 u q) = _
  rw [shapeCast_a_1a_apply, colsum_block]

/-- The running sum-of-squares row at column q. -/
theorem pay5_apply (x2 : Vec Ideal S10000x1 .f32) (x3 : Vec Ideal S1x64 .f32) (x0 x1 : Vec Ideal S10000x64 .f32) (acc : Vec Ideal S1x64 .f32) (u : Fin 1) (q : Fin 64) :
    k1_pay5 x2 x3 x0 x1 acc (ix2 u q) = acc (ix2 u q) + ∑ p : Fin 10000, k1_pay3 x2 x3 x0 x1 (ix2 p q) * k1_pay3 x2 x3 x0 x1 (ix2 p q) := by
  unfold k1_pay5
  try dsimp only
  simp only [shapeCast_self]
  show acc (ix2 u q) + shapeCast S1x64 (multiReduction .add [0] S64 (mulf (k1_pay3 x2 x3 x0 x1) (k1_pay3 x2 x3 x0 x1)) 0x00000000#32 _ (.inl rfl) rfl) _ (ix2 u q) = _
  rw [shapeCast_a_1a_apply, colsum_block]
  rfl

/-- The zero rows the first point stores. -/
theorem pay1_apply (j : S1x64.Idx) : (k1_pay1 (F := Ideal)) j = 0 := by
  unfold k1_pay1; try dsimp only
  show Ideal.ofBits .f32 0x00000000#32 = 0
  exact Ideal.ofBits_zero_f32
theorem pay2_apply (j : S1x64.Idx) : (k1_pay2 (F := Ideal)) j = 0 := by
  unfold k1_pay2; try dsimp only
  show Ideal.ofBits .f32 0x00000000#32 = 0
  exact Ideal.ofBits_zero_f32

end Cert.KernelIdeal.KRedPay1

end
-- ==== Proof.KRedPiece1.lean ====
/-
  Region 1 of the idealized kernel program: what each case of the body leaves in its three output buffers,
  as the body's arithmetic of the blocks it loaded.  At the first grid point the two running rows are zeroed and
  then receive the block's column sums; at every later point they receive their previous contents plus the
  block's column sums.  The block of combined activations is stored whole at every point.
-/
import proofs.«125721_j19146964206336_2_alg».proof.Proof.Gen.KernelIdeal.Frame
import proofs.«125721_j19146964206336_2_alg».proof.Proof.LibMatmul
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KRedPiece1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.Tactic

variable {F : FTy → Type} [FloatOps F]

theorem hz : (![0, 0] : Fin 2 → Nat) = fun _ => 0 := funext fun a => by fin_cases a <;> rfl

theorem pieceA4 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : cond1_0 i)
    (x0 : Vec F S10000x64 .f32) (x1 : Vec F S10000x64 .f32) (x2 : Vec F S10000x1 .f32) (x3 : Vec F S1x64 .f32) :
    out1_A_4 c i arg1 harg1 arg2 harg2 arg3 harg3 arg4 harg4 arg5 harg5 arg6 harg6 arg7 harg7 hc0 x0 x1 x2 x3 = k1_pay3 x2 x3 x0 x1 := by
  unfold out1_A_4
  rw [View.read_writes_eq_canon _ _ _ (cover1_A_4 c i arg1 harg1 arg2 harg2 arg3 harg3 arg4 harg4 arg5 harg5 arg6 harg6 arg7 harg7 hc0 x0 x1 x2 x3)]
  unfold kernelRun1_A
  dsimp only
  sl_unfold_words
  rw [View.canon_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]

theorem pieceA5 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : cond1_0 i)
    (x0 : Vec F S10000x64 .f32) (x1 : Vec F S10000x64 .f32) (x2 : Vec F S10000x1 .f32) (x3 : Vec F S1x64 .f32) :
    out1_A_5 c i arg1 harg1 arg2 harg2 arg3 harg3 arg4 harg4 arg5 harg5 arg6 harg6 arg7 harg7 hc0 x0 x1 x2 x3 = k1_pay4 x2 x3 x0 x1 k1_pay1 := by
  unfold out1_A_5
  rw [View.read_writes_eq_canon _ _ _ (cover1_A_5 c i arg1 harg1 arg2 harg2 arg3 harg3 arg4 harg4 arg5 harg5 arg6 harg6 arg7 harg7 hc0 x0 x1 x2 x3)]
  unfold kernelRun1_A
  dsimp only
  sl_unfold_words
  rw [View.canon_cons_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]
  rw [View.readCov_unit_zero _ hz]

theorem pieceA6 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : cond1_0 i)
    (x0 : Vec F S10000x64 .f32) (x1 : Vec F S10000x64 .f32) (x2 : Vec F S10000x1 .f32) (x3 : Vec F S1x64 .f32) :
    out1_A_6 c i arg1 harg1 arg2 harg2 arg3 harg3 arg4 harg4 arg5 harg5 arg6 harg6 arg7 harg7 hc0 x0 x1 x2 x3 = k1_pay5 x2 x3 x0 x1 k1_pay2 := by
  unfold out1_A_6
  rw [View.read_writes_eq_canon _ _ _ (cover1_A_6 c i arg1 harg1 arg2 harg2 arg3 harg3 arg4 harg4 arg5 harg5 arg6 harg6 arg7 harg7 hc0 x0 x1 x2 x3)]
  unfold kernelRun1_A
  dsimp only
  sl_unfold_words
  rw [View.canon_cons_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]
  rw [View.readCov_unit_zero _ hz]

theorem pieceB4 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i)
    (x0 : Vec F S10000x64 .f32) (x1 : Vec F S10000x64 .f32) (x2 : Vec F S10000x1 .f32) (x3 : Vec F S1x64 .f32) (xo5 xo6 : Vec F S1x64 .f32) :
    out1_B_4 c i arg1 harg1 arg2 harg2 arg3 harg3 arg4 harg4 arg5 harg5 arg6 harg6 arg7 harg7 hc0 x0 x1 x2 x3 xo5 xo6 = k1_pay3 x2 x3 x0 x1 := by
  unfold out1_B_4
  rw [View.read_writes_eq_canon _ _ _ (cover1_B_4 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]

theorem pieceB5 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i)
    (x0 : Vec F S10000x64 .f32) (x1 : Vec F S10000x64 .f32) (x2 : Vec F S10000x1 .f32) (x3 : Vec F S1x64 .f32) (xo5 xo6 : Vec F S1x64 .f32) :
    out1_B_5 c i arg1 harg1 arg2 harg2 arg3 harg3 arg4 harg4 arg5 harg5 arg6 harg6 arg7 harg7 hc0 x0 x1 x2 x3 xo5 xo6 = k1_pay4 x2 x3 x0 x1 xo5 := by
  unfold out1_B_5
  rw [View.read_writes_eq_canon _ _ _ (cover1_B_5 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]

theorem pieceB6 (c : Dev nD) (i : grid1.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : ¬cond1_0 i)
    (x0 : Vec F S10000x64 .f32) (x1 : Vec F S10000x64 .f32) (x2 : Vec F S10000x1 .f32) (x3 : Vec F S1x64 .f32) (xo5 xo6 : Vec F S1x64 .f32) :
    out1_B_6 c i arg1 harg1 arg2 harg2 arg3 harg3 arg4 harg4 arg5 harg5 arg6 harg6 arg7 harg7 hc0 x0 x1 x2 x3 xo5 xo6 = k1_pay5 x2 x3 x0 x1 xo6 := by
  unfold out1_B_6
  rw [View.read_writes_eq_canon _ _ _ (cover1_B_6 c i arg1 harg1 arg2 harg2 arg3 harg3 arg4 harg4 arg5 harg5 arg6 harg6 arg7 harg7 hc0 x0 x1 x2 x3 xo5 xo6)]
  unfold kernelRun1_B
  dsimp only
  sl_unfold_words
  rw [View.canon_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]

end Cert.KernelIdeal.KRedPiece1

end
-- ==== Proof.KRed1.lean ====
/-
  Region 1 of the idealized kernel program: the self-loop and bias are combined into the scattered aggregate
  block by block, and the per-feature sum and sum of squares of the combined activations are accumulated over the
  ten blocks in two rows that stay resident and are written back at the last point.  After the region the first
  output array is agg + h · snorm + bias entry by entry, and the two rows hold, at column j, the sum over all
  100000 rows of the combined activations, respectively of their squares: the accumulation over the blocks is a
  partial sum that grows by one block's column sum per point.
-/
import proofs.«125721_j19146964206336_2_alg».proof.Proof.Gen.KernelIdeal.Frame
import proofs.«125721_j19146964206336_2_alg».proof.Proof.LibMatmul
import Idealize.ShloMosaic.Lib.Pipeline.Value
import Idealize.ShloMosaic.Lib.ValueIdx
import Idealize.ShloMosaic.Lib.ValueLayout
import proofs.«125721_j19146964206336_2_alg».proof.Proof.KRedPay1
import proofs.«125721_j19146964206336_2_alg».proof.Proof.KRedPiece1
import proofs.«125721_j19146964206336_2_alg».proof.Proof.LibLayer
set_option maxRecDepth 16384

noncomputable section

open scoped BigOperators

namespace Cert.KernelIdeal.KRed1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Cert.LibLayer

variable (V : (c : Dev nD) → (b : Ref sig .tc) → Buf (Elt Ideal) ((c : Thread nD τ).loc b))

/-- The combined activations as one function of the region's four input arrays. -/
def A2 (c : Dev nD) : SNF.Idx → EReal := agg2G (V c main_v43) (V c main_v30) (V c main_v27) (V c main_v46)

/-- A grid point as a block number. -/
def tt (t : Fin cfg1.N) : Fin 10 := ⟨t.val, lt_of_lt_of_eq t.isLt N_1⟩

theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The block a point stores is the block of the combined activations: entry (p, q) of point t's block is the
    entry of row t · 10000 + p. -/
theorem block_pay (c : Dev nD) (t : Fin cfg1.N) (p : Fin 10000) (q : Fin 64) :
    k1_pay3 (iblk1 V c 2 t) (iblk1 V c 3 t) (iblk1 V c 0 t) (iblk1 V c 1 t) (ix2 p q)
      = A2 V c (ix2 (blockRow (tt t) p) q) := by
  obtain ⟨e0, e1, e2, e3, e4, e5, e6, e7, -, -, -, -, -, -⟩ := idx_facts t
  rw [Cert.KernelIdeal.KRedPay1.pay3_apply]
  unfold A2 agg2G
  refine congrArg₂ (· + ·) (congrArg₂ (· + ·) ?_ (congrArg₂ (· * ·) ?_ ?_)) ?_
  · show V c main_v43 (((cfg1.win 0).blk t).view.emb (ix2 p q)) = V c main_v43 (ix2 (blockRow (tt t) p) q)
    have h : ((cfg1.win 0).blk t).view.emb (ix2 p q) = ix2 (blockRow (tt t) p) q := by
      funext a; apply Fin.ext
      match a with
      | ⟨0, _⟩ => show win1_0.index t (0 : Fin 2) * 10000 + 1 * p.val = t.val * 10000 + p.val; omega
      | ⟨1, _⟩ => show win1_0.index t (1 : Fin 2) * 64 + 1 * q.val = q.val; omega
    rw [h]
  · show V c main_v30 (((cfg1.win 1).blk t).view.emb (ix2 p q)) = V c main_v30 (ix2 (blockRow (tt t) p) q)
    have h : ((cfg1.win 1).blk t).view.emb (ix2 p q) = ix2 (blockRow (tt t) p) q := by
      funext a; apply Fin.ext
      match a with
      | ⟨0, _⟩ => show win1_1.index t (0 : Fin 2) * 10000 + 1 * p.val = t.val * 10000 + p.val; omega
      | ⟨1, _⟩ => show win1_1.index t (1 : Fin 2) * 64 + 1 * q.val = q.val; omega
    rw [h]
  · show V c main_v27 (((cfg1.win 2).blk t).view.emb (ix2 p (0 : Fin 1))) = V c main_v27 (ix2 (blockRow (tt t) p) (0 : Fin 1))
    have h : ((cfg1.win 2).blk t).view.emb (ix2 p (0 : Fin 1)) = ix2 (blockRow (tt t) p) (0 : Fin 1) := by
      funext a; apply Fin.ext
      match a with
      | ⟨0, _⟩ => show win1_2.index t (0 : Fin 2) * 10000 + 1 * p.val = t.val * 10000 + p.val; omega
      | ⟨1, _⟩ => show win1_2.index t (1 : Fin 2) * 1 + 1 * 0 = 0; omega
    rw [h]
  · show V c main_v46 (((cfg1.win 3).blk t).view.emb (ix2 (0 : Fin 1) q)) = V c main_v46 (ix2 (0 : Fin 1) q)
    have h : ((cfg1.win 3).blk t).view.emb (ix2 (0 : Fin 1) q) = ix2 (0 : Fin 1) q := by
      funext a; apply Fin.ext
      match a with
      | ⟨0, _⟩ => show win1_3.index t (0 : Fin 2) * 1 + 1 * 0 = 0; omega
      | ⟨1, _⟩ => show win1_3.index t (1 : Fin 2) * 64 + 1 * q.val = q.val; omega
    rw [h]

/-- One block's column sum of the stored entries is the block sum of the combined activations. -/
theorem block_sum (c : Dev nD) (t : Fin cfg1.N) (q : Fin 64) :
    ∑ p : Fin 10000, k1_pay3 (iblk1 V c 2 t) (iblk1 V c 3 t) (iblk1 V c 0 t) (iblk1 V c 1 t) (ix2 p q)
      = blockSum (A2 V c) q (tt t) := by
  unfold blockSum
  exact Finset.sum_congr rfl fun p _ => block_pay V c t p q

theorem block_sum_sq (c : Dev nD) (t : Fin cfg1.N) (q : Fin 64) :
    ∑ p : Fin 10000, k1_pay3 (iblk1 V c 2 t) (iblk1 V c 3 t) (iblk1 V c 0 t) (iblk1 V c 1 t) (ix2 p q)
        * k1_pay3 (iblk1 V c 2 t) (iblk1 V c 3 t) (iblk1 V c 0 t) (iblk1 V c 1 t) (ix2 p q)
      = blockSum (fun k => A2 V c k * A2 V c k) q (tt t) := by
  unfold blockSum
  exact Finset.sum_congr rfl fun p _ => by rw [block_pay V c t p q]

/-- THE ACCUMULATION: after point n the two resident rows hold the partial sums over the blocks 0 … n. -/
theorem acc (c : Dev nD) : ∀ (n : ℕ) (hn : n < cfg1.N) (u : Fin 1) (q : Fin 64),
    (outsAt1 V c n hn).2.1 (ix2 u q) = partialSum (A2 V c) q (n + 1)
    ∧ (outsAt1 V c n hn).2.2 (ix2 u q) = partialSum (fun k => A2 V c k * A2 V c k) q (n + 1)
  | 0, hn, u, q => by
    rw [outsAt1_A V c ⟨0, hn⟩ rfl]
    dsimp only
    rw [Cert.KernelIdeal.KRedPiece1.pieceA5, Cert.KernelIdeal.KRedPiece1.pieceA6,
      Cert.KernelIdeal.KRedPay1.pay4_apply, Cert.KernelIdeal.KRedPay1.pay5_apply,
      Cert.KernelIdeal.KRedPay1.pay1_apply, Cert.KernelIdeal.KRedPay1.pay2_apply, zero_add, zero_add,
      block_sum V c ⟨0, hn⟩ q, block_sum_sq V c ⟨0, hn⟩ q,
      partialSum_succ, partialSum_succ, partialSum_zero, partialSum_zero, zero_add, zero_add,
      blockSumN_of_lt _ _ (by norm_num : 0 < 10), blockSumN_of_lt _ _ (by norm_num : 0 < 10)]
    refine ⟨?_, ?_⟩ <;> first | rfl | (simp only [zero_add]; rfl) | simp only [zero_add]
  | n + 1, hn, u, q => by
    have hn10 : n + 1 < 10 := lt_of_lt_of_eq hn N_1
    have h0 : ¬ (n + 1) % 10 = 0 := by omega
    obtain ⟨ih1, ih2⟩ := acc c n (Nat.lt_of_succ_lt hn) u q
    rw [outsAt1_B V c ⟨n + 1, hn⟩ h0]
    dsimp only
    rw [Cert.KernelIdeal.KRedPiece1.pieceB5, Cert.KernelIdeal.KRedPiece1.pieceB6,
      Cert.KernelIdeal.KRedPay1.pay4_apply, Cert.KernelIdeal.KRedPay1.pay5_apply,
      block_sum V c ⟨n + 1, hn⟩ q, block_sum_sq V c ⟨n + 1, hn⟩ q,
      partialSum_succ (A2 V c) q (n + 1), partialSum_succ (fun k => A2 V c k * A2 V c k) q (n + 1),
      blockSumN_of_lt _ _ hn10, blockSumN_of_lt _ _ hn10]
    exact ⟨congrArg₂ (· + ·) ih1 rfl, congrArg₂ (· + ·) ih2 rfl⟩

/-- What a point leaves in the first output's buffer is its stored block, whichever case it is. -/
theorem out4_eq (c : Dev nD) (t : Fin cfg1.N) :
    (outsAt1 V c t.val t.isLt).1 = k1_pay3 (iblk1 V c 2 t) (iblk1 V c 3 t) (iblk1 V c 0 t) (iblk1 V c 1 t) := by
  by_cases h0 : t.val % 10 = 0
  · rw [outsAt1_A V c t h0]; dsimp only; rw [Cert.KernelIdeal.KRedPiece1.pieceA4]
  · rw [outsAt1_B V c t h0]; dsimp only; rw [Cert.KernelIdeal.KRedPiece1.pieceB4]

/-- What every point writes back through window 4 is its block of the combined activations. -/
theorem flushed4 (c : Dev nD) (t : Fin cfg1.N) :
    (dat1 V c).flushed 4 t = ((cfg1.win 4).blk t).view.read (Elt Ideal) (A2 V c) := by
  show (cfg1.win 4).cut (grid1.coords t) ((dat1 V c).after 4 t) = _
  rw [after1_4, out4_eq]
  obtain ⟨-, -, -, -, -, -, -, -, e8, e9, -, -, -, -⟩ := idx_facts t
  funext j
  obtain ⟨p, q, rfl⟩ : ∃ (p : Fin 10000) (q : Fin 64), j = ix2 p q := ⟨j 0, j 1, eq_ix2 j⟩
  show k1_pay3 (iblk1 V c 2 t) (iblk1 V c 3 t) (iblk1 V c 0 t) (iblk1 V c 1 t) (ix2 p q) = A2 V c (((cfg1.win 4).blk t).view.emb (ix2 p q))
  rw [block_pay V c t p q]
  refine congrArg (A2 V c) ?_
  funext a; apply Fin.ext
  match a with
  | ⟨0, _⟩ => show t.val * 10000 + p.val = win1_4.index t (0 : Fin 2) * 10000 + 1 * p.val; omega
  | ⟨1, _⟩ => show q.val = win1_4.index t (1 : Fin 2) * 64 + 1 * q.val; omega

theorem mem_blk4 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v47_0).slice (win1_4.rect t)).set ↔ _
  rw [View.set_slice_whole, Rect.mem_set_unit]
  exact Iff.rfl

theorem cover4 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 10 := N_1
  obtain ⟨-, -, -, -, -, -, -, -, e8, e9, -, -, -, -⟩ := idx_facts (⟨(i 0).val / 10000, by rw [show cfg1.N = 10 from hN]; omega⟩ : Fin cfg1.N)
  refine ⟨⟨(i 0).val / 10000, by rw [show cfg1.N = 10 from hN]; omega⟩, flush1_4 _, ?_⟩
  rw [mem_blk4]
  intro a
  match a with
  | ⟨0, _⟩ =>
    show win1_4.index _ (0 : Fin 2) * 10000 ≤ (i 0).val ∧ (i 0).val < win1_4.index _ (0 : Fin 2) * 10000 + 10000
    rw [e8]
    show (i 0).val / 10000 * 10000 ≤ (i 0).val ∧ (i 0).val < (i 0).val / 10000 * 10000 + 10000
    omega
  | ⟨1, _⟩ =>
    show win1_4.index _ (1 : Fin 2) * 64 ≤ (i 1).val ∧ (i 1).val < win1_4.index _ (1 : Fin 2) * 64 + 64
    rw [e9]; omega

/-- After the region the first output array is the combined activations. -/
theorem final4 (c : Dev nD) : (dat1 V c).arrAt 4 cfg1.N = A2 V c :=
  (dat1 V c).arrAt_eq_of_cover 4 _ (fun t _ => flushed4 V c t) cover4

/-- What the last point writes back through window 5, against any row function that is the full partial sum. -/
theorem flushed5 (c : Dev nD) (t : Fin cfg1.N) (hf : (cfg1.win 5).flush t = true)
    (G : S1x64.Idx → EReal) (hG : ∀ (u : Fin 1) (q : Fin 64), G (ix2 u q) = partialSum (A2 V c) q 10) :
    (dat1 V c).flushed 5 t = ((cfg1.win 5).blk t).view.read (Elt Ideal) G := by
  show (cfg1.win 5).cut (grid1.coords t) ((dat1 V c).after 5 t) = _
  rw [after1_5]
  have hN : t.val < 10 := lt_of_lt_of_eq t.isLt N_1
  have h9 : t.val = 9 := by have := (flush1_5 t).mp hf; omega
  obtain ⟨-, -, -, -, -, -, -, -, -, -, e10, e11, e12, e13⟩ := idx_facts t
  funext j
  obtain ⟨u, q, rfl⟩ : ∃ (u : Fin 1) (q : Fin 64), j = ix2 u q := ⟨j 0, j 1, eq_ix2 j⟩
  show (outsAt1 V c t.val t.isLt).2.1 (ix2 u q) = G (((cfg1.win 5).blk t).view.emb (ix2 u q))
  have hemb : ((cfg1.win 5).blk t).view.emb (ix2 u q) = ix2 (0 : Fin 1) q := by
    funext a; apply Fin.ext
    have hu : u.val = 0 := by have := u.isLt; omega
    match a with
    | ⟨0, _⟩ => show win1_5.index t (0 : Fin 2) * 1 + 1 * u.val = 0; omega
    | ⟨1, _⟩ => show win1_5.index t (1 : Fin 2) * 64 + 1 * q.val = q.val; omega
  rw [hemb, hG, (acc V c t.val t.isLt u q).1, h9]

theorem mem_blk5 (t : Fin cfg1.N) (i : S1x64.Idx) :
    i ∈ ((cfg1.win 5).blk t).view.set ↔ ∀ a : Fin 2, win1_5.index t a * S1x64.size a ≤ (i a).val ∧ (i a).val < win1_5.index t a * S1x64.size a + S1x64.size a := by
  show i ∈ ((View.whole main_v47_1).slice (win1_5.rect t)).set ↔ _
  rw [View.set_slice_whole, Rect.mem_set_unit]
  exact Iff.rfl

theorem cover5 (i : S1x64.Idx) : ∃ t : Fin cfg1.N, (cfg1.win 5).flush t = true ∧ i ∈ ((cfg1.win 5).blk t).view.set := by
  have hi0 : (i 0).val < 1 := (i 0).isLt
  have hi1 : (i 1).val < 64 := (i 1).isLt
  have hN : grid1.N = 10 := N_1
  obtain ⟨-, -, -, -, -, -, -, -, -, -, e10, e11, e12, e13⟩ := idx_facts (⟨9, by rw [show cfg1.N = 10 from hN]; norm_num⟩ : Fin cfg1.N)
  refine ⟨⟨9, by rw [show cfg1.N = 10 from hN]; norm_num⟩, (flush1_5 _).mpr rfl, ?_⟩
  rw [mem_blk5]
  intro a
  match a with
  | ⟨0, _⟩ =>
    show win1_5.index _ (0 : Fin 2) * 1 ≤ (i 0).val ∧ (i 0).val < win1_5.index _ (0 : Fin 2) * 1 + 1
    rw [e10]; omega
  | ⟨1, _⟩ =>
    show win1_5.index _ (1 : Fin 2) * 64 ≤ (i 1).val ∧ (i 1).val < win1_5.index _ (1 : Fin 2) * 64 + 64
    rw [e11]; omega

/-- After the region the row holds, at column j, the sum over all rows of the combined activations. -/
theorem final5 (c : Dev nD) : (dat1 V c).arrAt 5 cfg1.N = fun i : SRow.Idx => colSum (A2 V c) (i 1) :=
  (dat1 V c).arrAt_eq_of_cover 5 _ (fun t hf => flushed5 V c t hf _ (fun u q => (partialSum_ten _ q).symm)) cover5

/-- What the last point writes back through window 6, against any row function that is the full partial sum. -/
theorem flushed6 (c : Dev nD) (t : Fin cfg1.N) (hf : (cfg1.win 6).flush t = true)
    (G : S1x64.Idx → EReal) (hG : ∀ (u : Fin 1) (q : Fin 64), G (ix2 u q) = partialSum (fun k => A2 V c k * A2 V c k) q 10) :
    (dat1 V c).flushed 6 t = ((cfg1.win 6).blk t).view.read (Elt Ideal) G := by
  show (cfg1.win 6).cut (grid1.coords t) ((dat1 V c).after 6 t) = _
  rw [after1_6]
  have hN : t.val < 10 := lt_of_lt_of_eq t.isLt N_1
  have h9 : t.val = 9 := by have := (flush1_6 t).mp hf; omega
  obtain ⟨-, -, -, -, -, -, -, -, -, -, e10, e11, e12, e13⟩ := idx_facts t
  funext j
  obtain ⟨u, q, rfl⟩ : ∃ (u : Fin 1) (q : Fin 64), j = ix2 u q := ⟨j 0, j 1, eq_ix2 j⟩
  show (outsAt1 V c t.val t.isLt).2.2 (ix2 u q) = G (((cfg1.win 6).blk t).view.emb (ix2 u q))
  have hemb : ((cfg1.win 6).blk t).view.emb (ix2 u q) = ix2 (0 : Fin 1) q := by
    funext a; apply Fin.ext
    have hu : u.val = 0 := by have := u.isLt; omega
    match a with
    | ⟨0, _⟩ => show win1_6.index t (0 : Fin 2) * 1 + 1 * u.val = 0; omega
    | ⟨1, _⟩ => show win1_6.index t (1 : Fin 2) * 64 + 1 * q.val = q.val; omega
  rw [hemb, hG, (acc V c t.val t.isLt u q).2, h9]

theorem mem_blk6 (t : Fin cfg1.N) (i : S1x64.Idx) :
    i ∈ ((cfg1.win 6).blk t).view.set ↔ ∀ a : Fin 2, win1_6.index t a * S1x64.size a ≤ (i a).val ∧ (i a).val < win1_6.index t a * S1x64.size a + S1x64.size a := by
  show i ∈ ((View.whole main_v47_2).slice (win1_6.rect t)).set ↔ _
  rw [View.set_slice_whole, Rect.mem_set_unit]
  exact Iff.rfl

theorem cover6 (i : S1x64.Idx) : ∃ t : Fin cfg1.N, (cfg1.win 6).flush t = true ∧ i ∈ ((cfg1.win 6).blk t).view.set := by
  have hi0 : (i 0).val < 1 := (i 0).isLt
  have hi1 : (i 1).val < 64 := (i 1).isLt
  have hN : grid1.N = 10 := N_1
  obtain ⟨-, -, -, -, -, -, -, -, -, -, e10, e11, e12, e13⟩ := idx_facts (⟨9, by rw [show cfg1.N = 10 from hN]; norm_num⟩ : Fin cfg1.N)
  refine ⟨⟨9, by rw [show cfg1.N = 10 from hN]; norm_num⟩, (flush1_6 _).mpr rfl, ?_⟩
  rw [mem_blk6]
  intro a
  match a with
  | ⟨0, _⟩ =>
    show win1_6.index _ (0 : Fin 2) * 1 ≤ (i 0).val ∧ (i 0).val < win1_6.index _ (0 : Fin 2) * 1 + 1
    rw [e12]; omega
  | ⟨1, _⟩ =>
    show win1_6.index _ (1 : Fin 2) * 64 ≤ (i 1).val ∧ (i 1).val < win1_6.index _ (1 : Fin 2) * 64 + 64
    rw [e13]; omega

/-- After the region the row holds, at column j, the sum over all rows of the squares of the combined activations. -/
theorem final6 (c : Dev nD) : (dat1 V c).arrAt 6 cfg1.N = fun i : SRow.Idx => colSum (fun k => A2 V c k * A2 V c k) (i 1) :=
  (dat1 V c).arrAt_eq_of_cover 6 _ (fun t hf => flushed6 V c t hf _ (fun u q => (partialSum_ten _ q).symm)) cover6

end Cert.KernelIdeal.KRed1

end
-- ==== Proof.KApp2.lean ====
/-
  Region 2 of the idealized kernel program: the batch-norm normalisation, tiled over the rows.  Each of the
  ten grid points loads a block of 10000 rows of the activations and the four rows of column statistics (mean,
  variance, γ, β), and writes back, entry by entry, max (γ · ((a − mean) · rsqrt (var + ε)) + β) 0.  The entry
  (r, j) of the result depends only on the entry (r, j) of the activations and on column j of the four rows,
  and the ten blocks tile the 100000 rows; so after the region the output array is that function of the five
  input arrays as the region finds them.
-/
import proofs.«125721_j19146964206336_2_alg».proof.Proof.Gen.KernelIdeal.Frame
import proofs.«125721_j19146964206336_2_alg».proof.Proof.LibApply
import Idealize.ShloMosaic.Lib.Pipeline.Value
import Idealize.ShloMosaic.Lib.ValueIdx
import Idealize.ShloMosaic.Lib.ValueLayout

set_option maxRecDepth 16384

noncomputable section

namespace Cert.KernelIdeal.KApp2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibApply (row applyG)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at the entry (p, q): the block's entry, centred and scaled by column q of the
    statistics' rows, then the affine map and the rectifier.  A [1, 64] row broadcast over the rows reads its
    column; the shape casts are the identity. -/
theorem pay_apply (x0 : Vec Ideal S10000x64 .f32) (x1 x2 x3 x4 : Vec Ideal S1x64 .f32) (p : Fin 10000) (q : Fin 64) :
    k2_pay1 x0 x1 x2 x3 x4 (ix2 p q)
      = max (x3 (row q) * ((x0 (ix2 p q) - x1 (row q)) * Ideal.rsqrt (x2 (row q) + Ideal.ofBits .f32 0x3727C5AC#32)) + x4 (row q))
          (Ideal.ofBits .f32 0x00000000#32) := by
  have hb : ∀ v : Vec Ideal S1x64 .f32, broadcastTo S10000x64 v broadcasts_S1x64_S10000x64 (ix2 p q) = v (row q) :=
    fun v => broadcastTo_1b_ab_apply (a := 10000) (b := 64) v broadcasts_S1x64_S10000x64 p q
  unfold k2_pay1
  simp only [shapeCast_self]
  show max (broadcastTo S10000x64 x3 broadcasts_S1x64_S10000x64 (ix2 p q)
        * ((x0 (ix2 p q) - broadcastTo S10000x64 x1 broadcasts_S1x64_S10000x64 (ix2 p q))
            * Ideal.rsqrt (broadcastTo S10000x64 x2 broadcasts_S1x64_S10000x64 (ix2 p q) + Ideal.ofBits .f32 0x3727C5AC#32))
        + broadcastTo S10000x64 x4 broadcasts_S1x64_S10000x64 (ix2 p q)) (Ideal.ofBits .f32 0x00000000#32) = _
  rw [hb x3, hb x1, hb x2, hb x4]

/-- The printed index maps over the grid: the activations' and the result's block index is the point, the four
    rows' block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Where the output's block sits in its array, the activations' block sits in theirs. -/
theorem emb0 (t : Fin cfg2.N) (p : Fin 10000) (q : Fin 64) :
    ((cfg2.win 0).blk t).view.emb (ix2 p q) = ((cfg2.win 5).blk t).view.emb (ix2 p q) := by
  obtain ⟨e00, e01, -, -, -, -, -, -, -, -, e50, e51⟩ := idx_facts t
  funext a; apply Fin.ext
  match a with
  | ⟨0, _⟩ => show win2_0.index t (0 : Fin 2) * 10000 + 1 * p.val = win2_5.index t (0 : Fin 2) * 10000 + 1 * p.val; omega
  | ⟨1, _⟩ => show win2_0.index t (1 : Fin 2) * 64 + 1 * q.val = win2_5.index t (1 : Fin 2) * 64 + 1 * q.val; omega

/-- The activations' block read at (p, q) is the array read where the output's block puts (p, q). -/
theorem read0 (c : Dev nD) (t : Fin cfg2.N) (p : Fin 10000) (q : Fin 64) :
    iblk2 V c 0 t (ix2 p q) = V c main_v47_0 (((cfg2.win 5).blk t).view.emb (ix2 p q)) := by
  show V c main_v47_0 (((cfg2.win 0).blk t).view.emb (ix2 p q)) = _
  rw [emb0]

/-- The mean row's one block is the whole row: column q of the block is column q of the array, which is the
    column of the output's entry. -/
theorem emb1 (t : Fin cfg2.N) (p : Fin 10000) (q : Fin 64) :
    ((cfg2.win 1).blk t).view.emb (row q) = row ((((cfg2.win 5).blk t).view.emb (ix2 p q)) 1) := by
  obtain ⟨-, -, e10, e11, -, -, -, -, -, -, e50, e51⟩ := idx_facts t
  funext a; apply Fin.ext
  match a with
  | ⟨0, _⟩ => show win2_1.index t (0 : Fin 2) * 1 + 1 * 0 = 0; omega
  | ⟨1, _⟩ => show win2_1.index t (1 : Fin 2) * 64 + 1 * q.val = win2_5.index t (1 : Fin 2) * 64 + 1 * q.val; omega

theorem read1 (c : Dev nD) (t : Fin cfg2.N) (p : Fin 10000) (q : Fin 64) :
    iblk2 V c 1 t (row q) = V c main_v49 (row ((((cfg2.win 5).blk t).view.emb (ix2 p q)) 1)) := by
  show V c main_v49 (((cfg2.win 1).blk t).view.emb (row q)) = _
  rw [emb1 t p q]

/-- The variance row's one block is the whole row: column q of the block is column q of the array, which is the
    column of the output's entry. -/
theorem emb2 (t : Fin cfg2.N) (p : Fin 10000) (q : Fin 64) :
    ((cfg2.win 2).blk t).view.emb (row q) = row ((((cfg2.win 5).blk t).view.emb (ix2 p q)) 1) := by
  obtain ⟨-, -, -, -, e20, e21, -, -, -, -, e50, e51⟩ := idx_facts t
  funext a; apply Fin.ext
  match a with
  | ⟨0, _⟩ => show win2_2.index t (0 : Fin 2) * 1 + 1 * 0 = 0; omega
  | ⟨1, _⟩ => show win2_2.index t (1 : Fin 2) * 64 + 1 * q.val = win2_5.index t (1 : Fin 2) * 64 + 1 * q.val; omega

theorem read2 (c : Dev nD) (t : Fin cfg2.N) (p : Fin 10000) (q : Fin 64) :
    iblk2 V c 2 t (row q) = V c main_v55 (row ((((cfg2.win 5).blk t).view.emb (ix2 p q)) 1)) := by
  show V c main_v55 (((cfg2.win 2).blk t).view.emb (row q)) = _
  rw [emb2 t p q]

/-- The γ row's one block is the whole row: column q of the block is column q of the array, which is the
    column of the output's entry. -/
theorem emb3 (t : Fin cfg2.N) (p : Fin 10000) (q : Fin 64) :
    ((cfg2.win 3).blk t).view.emb (row q) = row ((((cfg2.win 5).blk t).view.emb (ix2 p q)) 1) := by
  obtain ⟨-, -, -, -, -, -, e30, e31, -, -, e50, e51⟩ := idx_facts t
  funext a; apply Fin.ext
  match a with
  | ⟨0, _⟩ => show win2_3.index t (0 : Fin 2) * 1 + 1 * 0 = 0; omega
  | ⟨1, _⟩ => show win2_3.index t (1 : Fin 2) * 64 + 1 * q.val = win2_5.index t (1 : Fin 2) * 64 + 1 * q.val; omega

theorem read3 (c : Dev nD) (t : Fin cfg2.N) (p : Fin 10000) (q : Fin 64) :
    iblk2 V c 3 t (row q) = V c main_v58 (row ((((cfg2.win 5).blk t).view.emb (ix2 p q)) 1)) := by
  show V c main_v58 (((cfg2.win 3).blk t).view.emb (row q)) = _
  rw [emb3 t p q]

/-- The β row's one block is the whole row: column q of the block is column q of the array, which is the
    column of the output's entry. -/
theorem emb4 (t : Fin cfg2.N) (p : Fin 10000) (q : Fin 64) :
    ((cfg2.win 4).blk t).view.emb (row q) = row ((((cfg2.win 5).blk t).view.emb (ix2 p q)) 1) := by
  obtain ⟨-, -, -, -, -, -, -, -, e40, e41, e50, e51⟩ := idx_facts t
  funext a; apply Fin.ext
  match a with
  | ⟨0, _⟩ => show win2_4.index t (0 : Fin 2) * 1 + 1 * 0 = 0; omega
  | ⟨1, _⟩ => show win2_4.index t (1 : Fin 2) * 64 + 1 * q.val = win2_5.index t (1 : Fin 2) * 64 + 1 * q.val; omega

theorem read4 (c : Dev nD) (t : Fin cfg2.N) (p : Fin 10000) (q : Fin 64) :
    iblk2 V c 4 t (row q) = V c main_v61 (row ((((cfg2.win 5).blk t).view.emb (ix2 p q)) 1)) := by
  show V c main_v61 (((cfg2.win 4).blk t).view.emb (row q)) = _
  rw [emb4 t p q]

/-- What point `t` writes back is block `t` of the normalisation of the five arrays. -/
theorem flushed_eq (c : Dev nD) (t : Fin cfg2.N) :
    (dat2 V c).flushed 5 t = ((cfg2.win 5).blk t).view.read (Elt Ideal)
      (applyG (V c main_v47_0) (V c main_v49) (V c main_v55) (V c main_v58) (V c main_v61)) := by
  show (cfg2.win 5).cut (grid2.coords t) ((dat2 V c).after 5 t) = _
  rw [after2_5]
  unfold out2_5
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  show k2_pay1 (F := Ideal) _ _ _ _ _ (ix2 p q) = applyG _ _ _ _ _ (((cfg2.win 5).blk t).view.emb (ix2 p q))
  rw [pay_apply]
  unfold applyG
  refine congrArg₂ max ?_ rfl
  refine congrArg₂ (· + ·) (congrArg₂ (· * ·) (read3 V c t p q) (congrArg₂ (· * ·) (congrArg₂ (· - ·) (read0 V c t p q) (read1 V c t p q)) ?_)) (read4 V c t p q)
  exact congrArg Ideal.rsqrt (congrArg₂ (· + ·) (read2 V c t p q) rfl)

/-- An index of the result array is in point `t`'s block iff each coordinate is in the block's range. -/
theorem mem_blk (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v62).slice (win2_5.rect t)).set ↔ _
  rw [View.set_slice_whole, Rect.mem_set_unit]
  exact Iff.rfl

/-- Row r lies in the block of point r / 10000: the ten blocks cover the array. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : grid2.N = 10 := N_2
  obtain ⟨-, -, -, -, -, -, -, -, -, -, e50, e51⟩ := idx_facts (⟨(i 0).val / 10000, by rw [show cfg2.N = 10 from hN]; omega⟩ : Fin cfg2.N)
  refine ⟨⟨(i 0).val / 10000, by rw [show cfg2.N = 10 from hN]; omega⟩, flush2_5 _, ?_⟩
  rw [mem_blk]
  intro a
  match a with
  | ⟨0, _⟩ =>
    show win2_5.index _ (0 : Fin 2) * 10000 ≤ (i 0).val ∧ (i 0).val < win2_5.index _ (0 : Fin 2) * 10000 + 10000
    rw [e50]
    show (i 0).val / 10000 * 10000 ≤ (i 0).val ∧ (i 0).val < (i 0).val / 10000 * 10000 + 10000
    omega
  | ⟨1, _⟩ =>
    show win2_5.index _ (1 : Fin 2) * 64 ≤ (i 1).val ∧ (i 1).val < win2_5.index _ (1 : Fin 2) * 64 + 64
    rw [e51]; omega

/-- After the region the result array is the normalisation of the region's five input arrays. -/
theorem final (c : Dev nD) : (dat2 V c).arrAt 5 cfg2.N
    = applyG (V c main_v47_0) (V c main_v49) (V c main_v55) (V c main_v58) (V c main_v61) :=
  (dat2 V c).arrAt_eq_of_cover 5 _ (fun t _ => flushed_eq V c t) cover

end Cert.KernelIdeal.KApp2

end
-- ==== Proof.KChain0.lean ====
/-
  The first layer of the kernel program against the network written over the argument arrays.  After the
  first host stretch the boundary holds the standing facts (the arguments, the edge list's columns, the two
  normalisations) and the first weight; then the feature-transform region leaves the matrix product, the host
  the neighbour sum and the bias row, the aggregation region the combined activations with their column sums
  and column sums of squares, the host the mean row and the clamped one-pass variance row with the scale and
  the shift, and the normalisation region the layer's output.
-/
import proofs.«125721_j19146964206336_2_alg».proof.Proof.Gen.KernelIdeal.Frame
import proofs.«125721_j19146964206336_2_alg».proof.Proof.KChainLib
import proofs.«125721_j19146964206336_2_alg».proof.Proof.KLin0
import proofs.«125721_j19146964206336_2_alg».proof.Proof.KRed1
import proofs.«125721_j19146964206336_2_alg».proof.Proof.KApp2

set_option maxRecDepth 16384

noncomputable section

namespace Cert.KernelIdeal.KChain

open Cert.KernelIdeal Cert.KernelIdeal.Gen Cert.KernelIdeal.KHost
open Idealize.ShloMosaic Idealize.ShloMosaic.TcCoe Idealize.ShloMosaic.ValueIdx
open Idealize.SL Idealize.SL.Sem
open Idealize.ShloMosaic.Pipeline (Dat Cfg Window)
open Cert.LibLayer Cert.LibApply Cert.LibMatmul

variable (a0 : FVec Ideal S100000x64 .f32) (a1 : IVec S2x1600000 32) (a2 : IVec S100000 32) (a3 : FVec Ideal S3x64x64 .f32)
  (a4 a5 a6 : FVec Ideal S3x64 .f32) (a7 : FVec Ideal S64x64 .f32) (a8 : FVec Ideal S64 .f32)

variable (m : (ℓ : Loc nD τ sig) → Buf (Elt Ideal) ℓ) (ρ : Dev nD → PrngReg) (c : Dev nD)

/-- After the first host stretch: the standing facts, the input features and the first layer's weight. -/
theorem b1 (h : Args a0 a1 a2 a3 a4 a5 a6 a7 a8 (W0 m ρ c)) :
    Base a1 a2 a3 a4 a5 a6 a7 a8 (W1 m ρ c) ∧ W1 m ρ c (Proc.devRef .tc main_arg0) = a0 ∧ W1 m ρ c (Proc.devRef .tc main_v29) = KSpec.w0 a3 := by
  refine ⟨⟨(keep0 _ main_arg2 (by decide)).trans h.arg2, (keep0 _ main_arg3 (by decide)).trans h.arg3, (keep0 _ main_arg4 (by decide)).trans h.arg4, (keep0 _ main_arg5 (by decide)).trans h.arg5, (keep0 _ main_arg6 (by decide)).trans h.arg6, (keep0 _ main_arg7 (by decide)).trans h.arg7, (keep0 _ main_arg8 (by decide)).trans h.arg8, ?_, ?_, ?_, ?_⟩,
    (keep0 _ main_arg0 (by decide)).trans h.arg0, ?_⟩
  · show StableHlo.after hostOps0 (W0 m ρ c) (Proc.devRef .tc main_v1) = _
    rw [h0_main_v1, h.arg1]; rfl
  · show StableHlo.after hostOps0 (W0 m ρ c) (Proc.devRef .tc main_v3) = _
    rw [h0_main_v3, h.arg1]; rfl
  · show StableHlo.after hostOps0 (W0 m ρ c) (Proc.devRef .tc main_v25) = _
    rw [h0_main_v25, h0_main_v10, h0_main_v3, h0_main_v1, h.arg1]; rfl
  · show StableHlo.after hostOps0 (W0 m ρ c) (Proc.devRef .tc main_v27) = _
    rw [h0_main_v27, h0_main_v10, h0_main_v3, h.arg1]; rfl
  · show StableHlo.after hostOps0 (W0 m ρ c) (Proc.devRef .tc main_v29) = _
    rw [h0_main_v29, h.arg3]; rfl

/-! ## The first layer: from its feature-transform region's entry to its normalisation region's exit -/

/-- The standing facts pass through region 0: it writes none of their buffers. -/
theorem base_r0 (h : Base a1 a2 a3 a4 a5 a6 a7 a8 (W1 m ρ c)) : Base a1 a2 a3 a4 a5 a6 a7 a8 (W2 m ρ c) :=
  ⟨(W2_of_ne m ρ c main_arg2 (by decide)).trans h.arg2,
   (W2_of_ne m ρ c main_arg3 (by decide)).trans h.arg3,
   (W2_of_ne m ρ c main_arg4 (by decide)).trans h.arg4,
   (W2_of_ne m ρ c main_arg5 (by decide)).trans h.arg5,
   (W2_of_ne m ρ c main_arg6 (by decide)).trans h.arg6,
   (W2_of_ne m ρ c main_arg7 (by decide)).trans h.arg7,
   (W2_of_ne m ρ c main_arg8 (by decide)).trans h.arg8,
   (W2_of_ne m ρ c main_v1 (by decide)).trans h.v1,
   (W2_of_ne m ρ c main_v3 (by decide)).trans h.v3,
   (W2_of_ne m ρ c main_v25 (by decide)).trans h.v25,
   (W2_of_ne m ρ c main_v27 (by decide)).trans h.v27⟩

/-- The standing facts pass through region 1: it writes none of their buffers. -/
theorem base_r1 (h : Base a1 a2 a3 a4 a5 a6 a7 a8 (W3 m ρ c)) : Base a1 a2 a3 a4 a5 a6 a7 a8 (W4 m ρ c) :=
  ⟨(W4_of_ne m ρ c main_arg2 (by decide)).trans h.arg2,
   (W4_of_ne m ρ c main_arg3 (by decide)).trans h.arg3,
   (W4_of_ne m ρ c main_arg4 (by decide)).trans h.arg4,
   (W4_of_ne m ρ c main_arg5 (by decide)).trans h.arg5,
   (W4_of_ne m ρ c main_arg6 (by decide)).trans h.arg6,
   (W4_of_ne m ρ c main_arg7 (by decide)).trans h.arg7,
   (W4_of_ne m ρ c main_arg8 (by decide)).trans h.arg8,
   (W4_of_ne m ρ c main_v1 (by decide)).trans h.v1,
   (W4_of_ne m ρ c main_v3 (by decide)).trans h.v3,
   (W4_of_ne m ρ c main_v25 (by decide)).trans h.v25,
   ((W4_arr m ρ c 2).trans (((dat1 (V3 m ρ) c).arrAt_in 2 rfl _).trans (A_eq1 (V3 m ρ) c 2))).trans h.v27⟩

/-- The standing facts pass through region 2: it writes none of their buffers. -/
theorem base_r2 (h : Base a1 a2 a3 a4 a5 a6 a7 a8 (W5 m ρ c)) : Base a1 a2 a3 a4 a5 a6 a7 a8 (W6 m ρ c) :=
  ⟨(W6_of_ne m ρ c main_arg2 (by decide)).trans h.arg2,
   (W6_of_ne m ρ c main_arg3 (by decide)).trans h.arg3,
   (W6_of_ne m ρ c main_arg4 (by decide)).trans h.arg4,
   (W6_of_ne m ρ c main_arg5 (by decide)).trans h.arg5,
   (W6_of_ne m ρ c main_arg6 (by decide)).trans h.arg6,
   (W6_of_ne m ρ c main_arg7 (by decide)).trans h.arg7,
   (W6_of_ne m ρ c main_arg8 (by decide)).trans h.arg8,
   (W6_of_ne m ρ c main_v1 (by decide)).trans h.v1,
   (W6_of_ne m ρ c main_v3 (by decide)).trans h.v3,
   (W6_of_ne m ρ c main_v25 (by decide)).trans h.v25,
   (W6_of_ne m ρ c main_v27 (by decide)).trans h.v27⟩

/-- The first layer.  With the standing facts, the layer's input activations and its weight at the entry of
    the feature-transform region, the normalisation region's output at its exit is the layer (clamped one-pass
    variance) of the input, and the standing facts still hold. -/
theorem layer0 (X : FVec Ideal S100000x64 .f32) (w : FVec Ideal S64x64 .f32)
    (hb : Base a1 a2 a3 a4 a5 a6 a7 a8 (W1 m ρ c))
    (hx : W1 m ρ c (Proc.devRef .tc main_arg0) = X) (hw : W1 m ρ c (Proc.devRef .tc main_v29) = w) :
    Base a1 a2 a3 a4 a5 a6 a7 a8 (W6 m ρ c) ∧
      W6 m ρ c (Proc.devRef .tc main_v62) = KSpec.layer1 a1 X w (KSpec.row0 a4) (KSpec.row0 a5) (KSpec.row0 a6) := by
  -- the feature transform
  have b1 := base_r0 a1 a2 a3 a4 a5 a6 a7 a8 m ρ c hb
  have e30 : W2 m ρ c (Proc.devRef .tc main_v30) = MM X w := by
    rw [show W2 m ρ c (Proc.devRef .tc main_v30) = _ from W2_arr m ρ c 2, KLin0.final (V1 m ρ) c]
    show MM (W1 m ρ c (Proc.devRef .tc main_arg0)) (W1 m ρ c (Proc.devRef .tc main_v29)) = _
    rw [hx, hw]
  -- the neighbour sum and the bias row
  have b2 := base_h1 a1 a2 a3 a4 a5 a6 a7 a8 b1
  have e43 : StableHlo.after hostOps1 (W2 m ρ c) (Proc.devRef .tc main_v43) = KSpec.agg a1 (MM X w) := by
    rw [h1_main_v43, b1.v3, b1.v1, b1.v25, e30]; rfl
  have e46 : StableHlo.after hostOps1 (W2 m ρ c) (Proc.devRef .tc main_v46) = KSpec.row0 a4 := by
    rw [h1_main_v46, b1.arg4]; rfl
  have e30' : StableHlo.after hostOps1 (W2 m ρ c) (Proc.devRef .tc main_v30) = MM X w :=
    (keep1 _ main_v30 (by decide)).trans e30
  -- the combined activations and their column sums
  have b3 := base_r1 a1 a2 a3 a4 a5 a6 a7 a8 m ρ c b2
  have hA : KRed1.A2 (V3 m ρ) c = KSpec.pre a1 X w (KSpec.row0 a4) := by
    show agg2G (StableHlo.after hostOps1 (W2 m ρ c) (Proc.devRef .tc main_v43)) (StableHlo.after hostOps1 (W2 m ρ c) (Proc.devRef .tc main_v30))
      (StableHlo.after hostOps1 (W2 m ρ c) (Proc.devRef .tc main_v27)) (StableHlo.after hostOps1 (W2 m ρ c) (Proc.devRef .tc main_v46)) = _
    rw [e43, e30', b2.v27, e46]; rfl
  have e470 : W4 m ρ c (Proc.devRef .tc main_v47_0) = KSpec.pre a1 X w (KSpec.row0 a4) := by
    rw [show W4 m ρ c (Proc.devRef .tc main_v47_0) = _ from W4_arr m ρ c 4, KRed1.final4 (V3 m ρ) c, hA]
  have e471 : W4 m ρ c (Proc.devRef .tc main_v47_1) = fun i : SRow.Idx => colSum (KSpec.pre a1 X w (KSpec.row0 a4)) (i 1) := by
    rw [show W4 m ρ c (Proc.devRef .tc main_v47_1) = _ from W4_arr m ρ c 5, KRed1.final5 (V3 m ρ) c, hA]
  have e472 : W4 m ρ c (Proc.devRef .tc main_v47_2) = fun i : SRow.Idx =>
      colSum (fun k => KSpec.pre a1 X w (KSpec.row0 a4) k * KSpec.pre a1 X w (KSpec.row0 a4) k) (i 1) := by
    rw [show W4 m ρ c (Proc.devRef .tc main_v47_2) = _ from W4_arr m ρ c 6, KRed1.final6 (V3 m ρ) c, hA]
  -- the mean row, the variance row, the scale and the shift
  have b4 := base_h2 a1 a2 a3 a4 a5 a6 a7 a8 b3
  have e49 : StableHlo.after hostOps2 (W4 m ρ c) (Proc.devRef .tc main_v49) = meanRow (KSpec.pre a1 X w (KSpec.row0 a4)) := by
    rw [h2_main_v49, e471]; exact mean_eq _
  have e55 : StableHlo.after hostOps2 (W4 m ρ c) (Proc.devRef .tc main_v55) = var1Row (KSpec.pre a1 X w (KSpec.row0 a4)) := by
    rw [h2_main_v55, e49, e472]; exact var1_eq _
  have e58 : StableHlo.after hostOps2 (W4 m ρ c) (Proc.devRef .tc main_v58) = KSpec.row0 a5 := by
    rw [h2_main_v58, b3.arg5]; rfl
  have e61 : StableHlo.after hostOps2 (W4 m ρ c) (Proc.devRef .tc main_v61) = KSpec.row0 a6 := by
    rw [h2_main_v61, b3.arg6]; rfl
  have e470' : StableHlo.after hostOps2 (W4 m ρ c) (Proc.devRef .tc main_v47_0) = KSpec.pre a1 X w (KSpec.row0 a4) :=
    (keep2 _ main_v47_0 (by decide)).trans e470
  -- the normalisation
  refine ⟨base_r2 a1 a2 a3 a4 a5 a6 a7 a8 m ρ c b4, ?_⟩
  rw [show W6 m ρ c (Proc.devRef .tc main_v62) = _ from W6_arr m ρ c 5, KApp2.final (V5 m ρ) c]
  show applyG (StableHlo.after hostOps2 (W4 m ρ c) (Proc.devRef .tc main_v47_0)) (StableHlo.after hostOps2 (W4 m ρ c) (Proc.devRef .tc main_v49))
    (StableHlo.after hostOps2 (W4 m ρ c) (Proc.devRef .tc main_v55)) (StableHlo.after hostOps2 (W4 m ρ c) (Proc.devRef .tc main_v58))
    (StableHlo.after hostOps2 (W4 m ρ c) (Proc.devRef .tc main_v61)) = _
  rw [e470', e49, e55, e58, e61]; rfl

end Cert.KernelIdeal.KChain

end
-- ==== Proof.KLin3.lean ====
/-
  Region 3 of the idealized kernel program: the dense linear transform, tiled over the rows.  Each of the ten
  grid points loads a block of 10000 rows of the activations and the whole 64 × 64 weight matrix, and writes
  the block's product back; the format changes on the way into the product are the identity on extended reals.
  So after the region the output array is the matrix product of the two input arrays as the region finds them:
  row r of the result depends only on row r of the activations, and the ten blocks tile the 100000 rows.
-/
import proofs.«125721_j19146964206336_2_alg».proof.Proof.Gen.KernelIdeal.Frame
import proofs.«125721_j19146964206336_2_alg».proof.Proof.LibMatmul
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KLin3

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the product of its two loaded blocks. -/
theorem pay (x0 : Vec Ideal S10000x64 .f32) (x1 : Vec Ideal S64x64 .f32) :
    k3_pay1 x0 x1 = Cert.LibMatmul.MM x0 x1 := by
  unfold k3_pay1
  dsimp only
  simp only [shapeCast_self]
  exact Cert.LibMatmul.matmul_zero_eq dot_S10000x64_S64x64_S10000x64_1_0_0_1_n_n rfl rfl rfl rfl rfl rfl none _ _

/-- The printed index maps over the grid: the activations' and the result's block index is the point, the
    weights' block index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the two arrays. -/
theorem flushed_eq (c : Dev nD) (t : Fin cfg3.N) :
    (dat3 V c).flushed 2 t = ((cfg3.win 2).blk t).view.read (Elt Ideal) (Cert.LibMatmul.MM (V c main_v62) (V c main_v64)) := by
  show (cfg3.win 2).cut (grid3.coords t) ((dat3 V c).after 2 t) = _
  rw [after3_2]
  unfold out3_2
  rw [View.canon_unit_zero hz]
  simp only [View.ld_unit_zero (S := S10000x64) hz, View.ld_unit_zero (S := S64x64) hz]
  rw [pay]
  obtain ⟨e0, e1, e2, e3, e4, e5⟩ := idx_facts t
  funext j
  obtain ⟨p, q, rfl⟩ : ∃ (p : Fin 10000) (q : Fin 64), j = ix2 p q := ⟨j 0, j 1, eq_ix2 j⟩
  show Cert.LibMatmul.MM _ _ (ix2 p q) = Cert.LibMatmul.MM _ _ (((cfg3.win 2).blk t).view.emb (ix2 p q))
  unfold Cert.LibMatmul.MM
  refine Finset.sum_congr rfl fun k _ => ?_
  have h0 : ((cfg3.win 0).blk t).view.emb (ix2 p k) = ix2 ((((cfg3.win 2).blk t).view.emb (ix2 p q)) 0) k := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * k.val = k.val; omega
  have h1 : ((cfg3.win 1).blk t).view.emb (ix2 k q) = ix2 k ((((cfg3.win 2).blk t).view.emb (ix2 p q)) 1) := by
    funext a; apply Fin.ext
    match a with
    | ⟨0, _⟩ => show win3_1.index t (0 : Fin 2) * 64 + 1 * k.val = k.val; omega
    | ⟨1, _⟩ => show win3_1.index t (1 : Fin 2) * 64 + 1 * q.val = win3_2.index t (1 : Fin 2) * 64 + 1 * q.val; omega
  refine congrArg₂ (· * ·) ?_ ?_
  · show V c main_v62 (((cfg3.win 0).blk t).view.emb (ix2 p k)) = V c main_v62 (ix2 ((((cfg3.win 2).blk t).view.emb (ix2 p q)) 0) k)
    rw [h0]; rfl
  · show V c main_v64 (((cfg3.win 1).blk t).view.emb (ix2 k q)) = V c main_v64 (ix2 k ((((cfg3.win 2).blk t).view.emb (ix2 p q)) 1))
    rw [h1]; rfl

/-- An index of the result array is in point `t`'s block iff each coordinate is in the block's range. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v65).slice (win3_2.rect t)).set ↔ _
  rw [View.set_slice_whole, Rect.mem_set_unit]
  exact Iff.rfl

/-- Row r lies in the block of point r / 10000: the ten blocks cover the array. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := N_3
  obtain ⟨-, -, -, -, e4, e5⟩ := idx_facts (⟨(i 0).val / 10000, by rw [show cfg3.N = 10 from hN]; omega⟩ : Fin cfg3.N)
  refine ⟨⟨(i 0).val / 10000, by rw [show cfg3.N = 10 from hN]; omega⟩, flush3_2 _, ?_⟩
  rw [mem_blk]
  intro a
  match a with
  | ⟨0, _⟩ =>
    show win3_2.index _ (0 : Fin 2) * 10000 ≤ (i 0).val ∧ (i 0).val < win3_2.index _ (0 : Fin 2) * 10000 + 10000
    rw [e4]
    show (i 0).val / 10000 * 10000 ≤ (i 0).val ∧ (i 0).val < (i 0).val / 10000 * 10000 + 10000
    omega
  | ⟨1, _⟩ =>
    show win3_2.index _ (1 : Fin 2) * 64 ≤ (i 1).val ∧ (i 1).val < win3_2.index _ (1 : Fin 2) * 64 + 64
    rw [e5]; omega

/-- After the region the result array is the matrix product of the region's two input arrays. -/
theorem final (c : Dev nD) : (dat3 V c).arrAt 2 cfg3.N = Cert.LibMatmul.MM (V c main_v62) (V c main_v64) :=
  (dat3 V c).arrAt_eq_of_cover 2 _ (fun t _ => flushed_eq V c t) cover

end Cert.KernelIdeal.KLin3

end
-- ==== Proof.KRedPay4.lean ====
/-
  Region 4 of the idealized kernel program, the body's arithmetic read at an index (at the ideal values).
  The stored block entry (p, q) is agg(p, q) + h(p, q) · snorm(p) + bias(q); the two running rows receive, at
  column q, their previous value plus the block's column sum of that entry, respectively of its square.
-/
import proofs.«125721_j19146964206336_2_alg».proof.Proof.Gen.KernelIdeal.Skeleton
import Idealize.ShloMosaic.PureOps.Ideal.Laws
import proofs.«125721_j19146964206336_2_alg».proof.Proof.LibMatmul
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KRedPay4

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- A [a, 1] column broadcast to [a, b] reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane reduction over the rows of a block is, at column q, the sum over the rows. -/
theorem colsum_block (v : FVec Ideal S10000x64 .f32) (h : S10000x64.Reduces [0] S64) (q : Fin 64) :
    multiReduction .add [0] S64 v 0x00000000#32 h (.inl rfl) rfl (ix1 q) = ∑ p : Fin 10000, v (ix2 p q) := by
  refine (Ideal.multiReduction_add_single v 0x00000000#32 h (.inl rfl) rfl (ix1 q)).trans ?_
  refine Finset.sum_congr rfl fun p _ => congrArg v ?_
  funext a; apply Fin.ext
  match a with
  | ⟨0, _⟩ => rfl
  | ⟨1, _⟩ => rfl

/-- The stored block at (p, q). -/
theorem pay3_apply (x2 : Vec Ideal S10000x1 .f32) (x3 : Vec Ideal S1x64 .f32) (x0 x1 : Vec Ideal S10000x64 .f32) (p : Fin 10000) (q : Fin 64) :
    k4_pay3 x2 x3 x0 x1 (ix2 p q) = x0 (ix2 p q) + x1 (ix2 p q) * x2 (ix2 p (0 : Fin 1)) + x3 (ix2 (0 : Fin 1) q) := by
  unfold k4_pay3
  try dsimp only
  simp only [shapeCast_self]
  show x0 (ix2 p q) + x1 (ix2 p q) * broadcastTo S10000x64 x2 _ (ix2 p q)
      + broadcastTo S10000x64 x3 _ (ix2 p q) = _
  rw [broadcastTo_1b_ab_apply, broadcastTo_a1_ab_apply]

/-- The running sum row at column q. -/
theorem pay4_apply (x2 : Vec Ideal S10000x1 .f32) (x3 : Vec Ideal S1x64 .f32) (x0 x1 : Vec Ideal S10000x64 .f32) (acc : Vec Ideal S1x64 .f32) (u : Fin 1) (q : Fin 64) :
    k4_pay4 x2 x3 x0 x1 acc (ix2 u q) = acc (ix2 u q) + ∑ p : Fin 10000, k4_pay3 x2 x3 x0 x1 (ix2 p q) := by
  unfold k4_pay4
  try dsimp only
  simp only [shapeCast_self]
  show acc (ix2 u q) + shapeCast S1x64 (multiReduction .add [0] S64 (k4_pay3 x2 x3 x0 x1) 0x00000000#32 _ (.inl rfl) rfl) _ (ix2 u q) = _
  rw [shapeCast_a_1a_apply, colsum_block]

/-- The running sum-of-squares row at column q. -/
theorem pay5_apply (x2 : Vec Ideal S10000x1 .f32) (x3 : Vec Ideal S1x64 .f32) (x0 x1 : Vec Ideal S10000x64 .f32) (acc : Vec Ideal S1x64 .f32) (u : Fin 1) (q : Fin 64) :
    k4_pay5 x2 x3 x0 x1 acc (ix2 u q) = acc (ix2 u q) + ∑ p : Fin 10000, k4_pay3 x2 x3 x0 x1 (ix2 p q) * k4_pay3 x2 x3 x0 x1 (ix2 p q) := by
  unfold k4_pay5
  try dsimp only
  simp only [shapeCast_self]
  show acc (ix2 u q) + shapeCast S1x64 (multiReduction .add [0] S64 (mulf (k4_pay3 x2 x3 x0 x1) (k4_pay3 x2 x3 x0 x1)) 0x00000000#32 _ (.inl rfl) rfl) _ (ix2 u q) = _
  rw [shapeCast_a_1a_apply, colsum_block]
  rfl

/-- The zero rows the first point stores. -/
theorem pay1_apply (j : S1x64.Idx) : (k4_pay1 (F := Ideal)) j = 0 := by
  unfold k4_pay1; try dsimp only
  show Ideal.ofBits .f32 0x00000000#32 = 0
  exact Ideal.ofBits_zero_f32
theorem pay2_apply (j : S1x64.Idx) : (k4_pay2 (F := Ideal)) j = 0 := by
  unfold k4_pay2; try dsimp only
  show Ideal.ofBits .f32 0x00000000#32 = 0
  exact Ideal.ofBits_zero_f32

end Cert.KernelIdeal.KRedPay4

end
-- ==== Proof.KRedPiece4.lean ====
/-
  Region 4 of the idealized kernel program: what each case of the body leaves in its three output buffers,
  as the body's arithmetic of the blocks it loaded.  At the first grid point the two running rows are zeroed and
  then receive the block's column sums; at every later point they receive their previous contents plus the
  block's column sums.  The block of combined activations is stored whole at every point.
-/
import proofs.«125721_j19146964206336_2_alg».proof.Proof.Gen.KernelIdeal.Frame
import proofs.«125721_j19146964206336_2_alg».proof.Proof.LibMatmul
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KRedPiece4

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.Tactic

variable {F : FTy → Type} [FloatOps F]

theorem hz : (![0, 0] : Fin 2 → Nat) = fun _ => 0 := funext fun a => by fin_cases a <;> rfl

theorem pieceA4 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : cond4_0 i)
    (x0 : Vec F S10000x64 .f32) (x1 : Vec F S10000x64 .f32) (x2 : Vec F S10000x1 .f32) (x3 : Vec F S1x64 .f32) :
    out4_A_4 c i arg1 harg1 arg2 harg2 arg3 harg3 arg4 harg4 arg5 harg5 arg6 harg6 arg7 harg7 hc0 x0 x1 x2 x3 = k4_pay3 x2 x3 x0 x1 := by
  unfold out4_A_4
  rw [View.read_writes_eq_canon _ _ _ (cover4_A_4 c i arg1 harg1 arg2 harg2 arg3 harg3 arg4 harg4 arg5 harg5 arg6 harg6 arg7 harg7 hc0 x0 x1 x2 x3)]
  unfold kernelRun4_A
  dsimp only
  sl_unfold_words
  rw [View.canon_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]

theorem pieceA5 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : cond4_0 i)
    (x0 : Vec F S10000x64 .f32) (x1 : Vec F S10000x64 .f32) (x2 : Vec F S10000x1 .f32) (x3 : Vec F S1x64 .f32) :
    out4_A_5 c i arg1 harg1 arg2 harg2 arg3 harg3 arg4 harg4 arg5 harg5 arg6 harg6 arg7 harg7 hc0 x0 x1 x2 x3 = k4_pay4 x2 x3 x0 x1 k4_pay1 := by
  unfold out4_A_5
  rw [View.read_writes_eq_canon _ _ _ (cover4_A_5 c i arg1 harg1 arg2 harg2 arg3 harg3 arg4 harg4 arg5 harg5 arg6 harg6 arg7 harg7 hc0 x0 x1 x2 x3)]
  unfold kernelRun4_A
  dsimp only
  sl_unfold_words
  rw [View.canon_cons_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]
  rw [View.readCov_unit_zero _ hz]

theorem pieceA6 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : cond4_0 i)
    (x0 : Vec F S10000x64 .f32) (x1 : Vec F S10000x64 .f32) (x2 : Vec F S10000x1 .f32) (x3 : Vec F S1x64 .f32) :
    out4_A_6 c i arg1 harg1 arg2 harg2 arg3 harg3 arg4 harg4 arg5 harg5 arg6 harg6 arg7 harg7 hc0 x0 x1 x2 x3 = k4_pay5 x2 x3 x0 x1 k4_pay2 := by
  unfold out4_A_6
  rw [View.read_writes_eq_canon _ _ _ (cover4_A_6 c i arg1 harg1 arg2 harg2 arg3 harg3 arg4 harg4 arg5 harg5 arg6 harg6 arg7 harg7 hc0 x0 x1 x2 x3)]
  unfold kernelRun4_A
  dsimp only
  sl_unfold_words
  rw [View.canon_cons_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]
  rw [View.readCov_unit_zero _ hz]

theorem pieceB4 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i)
    (x0 : Vec F S10000x64 .f32) (x1 : Vec F S10000x64 .f32) (x2 : Vec F S10000x1 .f32) (x3 : Vec F S1x64 .f32) (xo5 xo6 : Vec F S1x64 .f32) :
    out4_B_4 c i arg1 harg1 arg2 harg2 arg3 harg3 arg4 harg4 arg5 harg5 arg6 harg6 arg7 harg7 hc0 x0 x1 x2 x3 xo5 xo6 = k4_pay3 x2 x3 x0 x1 := by
  unfold out4_B_4
  rw [View.read_writes_eq_canon _ _ _ (cover4_B_4 c i arg1 harg1 arg2 harg2 arg3 harg3 arg4 harg4 arg5 harg5 arg6 harg6 arg7 harg7 hc0 x0 x1 x2 x3 xo5 xo6)]
  unfold kernelRun4_B
  dsimp only
  sl_unfold_words
  rw [View.canon_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]

theorem pieceB5 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i)
    (x0 : Vec F S10000x64 .f32) (x1 : Vec F S10000x64 .f32) (x2 : Vec F S10000x1 .f32) (x3 : Vec F S1x64 .f32) (xo5 xo6 : Vec F S1x64 .f32) :
    out4_B_5 c i arg1 harg1 arg2 harg2 arg3 harg3 arg4 harg4 arg5 harg5 arg6 harg6 arg7 harg7 hc0 x0 x1 x2 x3 xo5 xo6 = k4_pay4 x2 x3 x0 x1 xo5 := by
  unfold out4_B_5
  rw [View.read_writes_eq_canon _ _ _ (cover4_B_5 c i arg1 harg1 arg2 harg2 arg3 harg3 arg4 harg4 arg5 harg5 arg6 harg6 arg7 harg7 hc0 x0 x1 x2 x3 xo5 xo6)]
  unfold kernelRun4_B
  dsimp only
  sl_unfold_words
  rw [View.canon_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]

theorem pieceB6 (c : Dev nD) (i : grid4.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : ¬cond4_0 i)
    (x0 : Vec F S10000x64 .f32) (x1 : Vec F S10000x64 .f32) (x2 : Vec F S10000x1 .f32) (x3 : Vec F S1x64 .f32) (xo5 xo6 : Vec F S1x64 .f32) :
    out4_B_6 c i arg1 harg1 arg2 harg2 arg3 harg3 arg4 harg4 arg5 harg5 arg6 harg6 arg7 harg7 hc0 x0 x1 x2 x3 xo5 xo6 = k4_pay5 x2 x3 x0 x1 xo6 := by
  unfold out4_B_6
  rw [View.read_writes_eq_canon _ _ _ (cover4_B_6 c i arg1 harg1 arg2 harg2 arg3 harg3 arg4 harg4 arg5 harg5 arg6 harg6 arg7 harg7 hc0 x0 x1 x2 x3 xo5 xo6)]
  unfold kernelRun4_B
  dsimp only
  sl_unfold_words
  rw [View.canon_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]

end Cert.KernelIdeal.KRedPiece4

end
-- ==== Proof.KRed4.lean ====
/-
  Region 4 of the idealized kernel program: the self-loop and bias are combined into the scattered aggregate
  block by block, and the per-feature sum and sum of squares of the combined activations are accumulated over the
  ten blocks in two rows that stay resident and are written back at the last point.  After the region the first
  output array is agg + h · snorm + bias entry by entry, and the two rows hold, at column j, the sum over all
  100000 rows of the combined activations, respectively of their squares: the accumulation over the blocks is a
  partial sum that grows by one block's column sum per point.
-/
import proofs.«125721_j19146964206336_2_alg».proof.Proof.Gen.KernelIdeal.Frame
import proofs.«125721_j19146964206336_2_alg».proof.Proof.LibMatmul
import Idealize.ShloMosaic.Lib.Pipeline.Value
import Idealize.ShloMosaic.Lib.ValueIdx
import Idealize.ShloMosaic.Lib.ValueLayout
import proofs.«125721_j19146964206336_2_alg».proof.Proof.KRedPay4
import proofs.«125721_j19146964206336_2_alg».proof.Proof.KRedPiece4
import proofs.«125721_j19146964206336_2_alg».proof.Proof.LibLayer
set_option maxRecDepth 16384

noncomputable section

open scoped BigOperators

namespace Cert.KernelIdeal.KRed4

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Cert.LibLayer

variable (V : (c : Dev nD) → (b : Ref sig .tc) → Buf (Elt Ideal) ((c : Thread nD τ).loc b))

/-- The combined activations as one function of the region's four input arrays. -/
def A2 (c : Dev nD) : SNF.Idx → EReal := agg2G (V c main_v78) (V c main_v65) (V c main_v27) (V c main_v81)

/-- A grid point as a block number. -/
def tt (t : Fin cfg4.N) : Fin 10 := ⟨t.val, lt_of_lt_of_eq t.isLt N_4⟩

theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- The block a point stores is the block of the combined activations: entry (p, q) of point t's block is the
    entry of row t · 10000 + p. -/
theorem block_pay (c : Dev nD) (t : Fin cfg4.N) (p : Fin 10000) (q : Fin 64) :
    k4_pay3 (iblk4 V c 2 t) (iblk4 V c 3 t) (iblk4 V c 0 t) (iblk4 V c 1 t) (ix2 p q)
      = A2 V c (ix2 (blockRow (tt t) p) q) := by
  obtain ⟨e0, e1, e2, e3, e4, e5, e6, e7, -, -, -, -, -, -⟩ := idx_facts t
  rw [Cert.KernelIdeal.KRedPay4.pay3_apply]
  unfold A2 agg2G
  refine congrArg₂ (· + ·) (congrArg₂ (· + ·) ?_ (congrArg₂ (· * ·) ?_ ?_)) ?_
  · show V c main_v78 (((cfg4.win 0).blk t).view.emb (ix2 p q)) = V c main_v78 (ix2 (blockRow (tt t) p) q)
    have h : ((cfg4.win 0).blk t).view.emb (ix2 p q) = ix2 (blockRow (tt t) p) q := by
      funext a; apply Fin.ext
      match a with
      | ⟨0, _⟩ => show win4_0.index t (0 : Fin 2) * 10000 + 1 * p.val = t.val * 10000 + p.val; omega
      | ⟨1, _⟩ => show win4_0.index t (1 : Fin 2) * 64 + 1 * q.val = q.val; omega
    rw [h]
  · show V c main_v65 (((cfg4.win 1).blk t).view.emb (ix2 p q)) = V c main_v65 (ix2 (blockRow (tt t) p) q)
    have h : ((cfg4.win 1).blk t).view.emb (ix2 p q) = ix2 (blockRow (tt t) p) q := by
      funext a; apply Fin.ext
      match a with
      | ⟨0, _⟩ => show win4_1.index t (0 : Fin 2) * 10000 + 1 * p.val = t.val * 10000 + p.val; omega
      | ⟨1, _⟩ => show win4_1.index t (1 : Fin 2) * 64 + 1 * q.val = q.val; omega
    rw [h]
  · show V c main_v27 (((cfg4.win 2).blk t).view.emb (ix2 p (0 : Fin 1))) = V c main_v27 (ix2 (blockRow (tt t) p) (0 : Fin 1))
    have h : ((cfg4.win 2).blk t).view.emb (ix2 p (0 : Fin 1)) = ix2 (blockRow (tt t) p) (0 : Fin 1) := by
      funext a; apply Fin.ext
      match a with
      | ⟨0, _⟩ => show win4_2.index t (0 : Fin 2) * 10000 + 1 * p.val = t.val * 10000 + p.val; omega
      | ⟨1, _⟩ => show win4_2.index t (1 : Fin 2) * 1 + 1 * 0 = 0; omega
    rw [h]
  · show V c main_v81 (((cfg4.win 3).blk t).view.emb (ix2 (0 : Fin 1) q)) = V c main_v81 (ix2 (0 : Fin 1) q)
    have h : ((cfg4.win 3).blk t).view.emb (ix2 (0 : Fin 1) q) = ix2 (0 : Fin 1) q := by
      funext a; apply Fin.ext
      match a with
      | ⟨0, _⟩ => show win4_3.index t (0 : Fin 2) * 1 + 1 * 0 = 0; omega
      | ⟨1, _⟩ => show win4_3.index t (1 : Fin 2) * 64 + 1 * q.val = q.val; omega
    rw [h]

/-- One block's column sum of the stored entries is the block sum of the combined activations. -/
theorem block_sum (c : Dev nD) (t : Fin cfg4.N) (q : Fin 64) :
    ∑ p : Fin 10000, k4_pay3 (iblk4 V c 2 t) (iblk4 V c 3 t) (iblk4 V c 0 t) (iblk4 V c 1 t) (ix2 p q)
      = blockSum (A2 V c) q (tt t) := by
  unfold blockSum
  exact Finset.sum_congr rfl fun p _ => block_pay V c t p q

theorem block_sum_sq (c : Dev nD) (t : Fin cfg4.N) (q : Fin 64) :
    ∑ p : Fin 10000, k4_pay3 (iblk4 V c 2 t) (iblk4 V c 3 t) (iblk4 V c 0 t) (iblk4 V c 1 t) (ix2 p q)
        * k4_pay3 (iblk4 V c 2 t) (iblk4 V c 3 t) (iblk4 V c 0 t) (iblk4 V c 1 t) (ix2 p q)
      = blockSum (fun k => A2 V c k * A2 V c k) q (tt t) := by
  unfold blockSum
  exact Finset.sum_congr rfl fun p _ => by rw [block_pay V c t p q]

/-- THE ACCUMULATION: after point n the two resident rows hold the partial sums over the blocks 0 … n. -/
theorem acc (c : Dev nD) : ∀ (n : ℕ) (hn : n < cfg4.N) (u : Fin 1) (q : Fin 64),
    (outsAt4 V c n hn).2.1 (ix2 u q) = partialSum (A2 V c) q (n + 1)
    ∧ (outsAt4 V c n hn).2.2 (ix2 u q) = partialSum (fun k => A2 V c k * A2 V c k) q (n + 1)
  | 0, hn, u, q => by
    rw [outsAt4_A V c ⟨0, hn⟩ rfl]
    dsimp only
    rw [Cert.KernelIdeal.KRedPiece4.pieceA5, Cert.KernelIdeal.KRedPiece4.pieceA6,
      Cert.KernelIdeal.KRedPay4.pay4_apply, Cert.KernelIdeal.KRedPay4.pay5_apply,
      Cert.KernelIdeal.KRedPay4.pay1_apply, Cert.KernelIdeal.KRedPay4.pay2_apply, zero_add, zero_add,
      block_sum V c ⟨0, hn⟩ q, block_sum_sq V c ⟨0, hn⟩ q,
      partialSum_succ, partialSum_succ, partialSum_zero, partialSum_zero, zero_add, zero_add,
      blockSumN_of_lt _ _ (by norm_num : 0 < 10), blockSumN_of_lt _ _ (by norm_num : 0 < 10)]
    refine ⟨?_, ?_⟩ <;> first | rfl | (simp only [zero_add]; rfl) | simp only [zero_add]
  | n + 1, hn, u, q => by
    have hn10 : n + 1 < 10 := lt_of_lt_of_eq hn N_4
    have h0 : ¬ (n + 1) % 10 = 0 := by omega
    obtain ⟨ih1, ih2⟩ := acc c n (Nat.lt_of_succ_lt hn) u q
    rw [outsAt4_B V c ⟨n + 1, hn⟩ h0]
    dsimp only
    rw [Cert.KernelIdeal.KRedPiece4.pieceB5, Cert.KernelIdeal.KRedPiece4.pieceB6,
      Cert.KernelIdeal.KRedPay4.pay4_apply, Cert.KernelIdeal.KRedPay4.pay5_apply,
      block_sum V c ⟨n + 1, hn⟩ q, block_sum_sq V c ⟨n + 1, hn⟩ q,
      partialSum_succ (A2 V c) q (n + 1), partialSum_succ (fun k => A2 V c k * A2 V c k) q (n + 1),
      blockSumN_of_lt _ _ hn10, blockSumN_of_lt _ _ hn10]
    exact ⟨congrArg₂ (· + ·) ih1 rfl, congrArg₂ (· + ·) ih2 rfl⟩

/-- What a point leaves in the first output's buffer is its stored block, whichever case it is. -/
theorem out4_eq (c : Dev nD) (t : Fin cfg4.N) :
    (outsAt4 V c t.val t.isLt).1 = k4_pay3 (iblk4 V c 2 t) (iblk4 V c 3 t) (iblk4 V c 0 t) (iblk4 V c 1 t) := by
  by_cases h0 : t.val % 10 = 0
  · rw [outsAt4_A V c t h0]; dsimp only; rw [Cert.KernelIdeal.KRedPiece4.pieceA4]
  · rw [outsAt4_B V c t h0]; dsimp only; rw [Cert.KernelIdeal.KRedPiece4.pieceB4]

/-- What every point writes back through window 4 is its block of the combined activations. -/
theorem flushed4 (c : Dev nD) (t : Fin cfg4.N) :
    (dat4 V c).flushed 4 t = ((cfg4.win 4).blk t).view.read (Elt Ideal) (A2 V c) := by
  show (cfg4.win 4).cut (grid4.coords t) ((dat4 V c).after 4 t) = _
  rw [after4_4, out4_eq]
  obtain ⟨-, -, -, -, -, -, -, -, e8, e9, -, -, -, -⟩ := idx_facts t
  funext j
  obtain ⟨p, q, rfl⟩ : ∃ (p : Fin 10000) (q : Fin 64), j = ix2 p q := ⟨j 0, j 1, eq_ix2 j⟩
  show k4_pay3 (iblk4 V c 2 t) (iblk4 V c 3 t) (iblk4 V c 0 t) (iblk4 V c 1 t) (ix2 p q) = A2 V c (((cfg4.win 4).blk t).view.emb (ix2 p q))
  rw [block_pay V c t p q]
  refine congrArg (A2 V c) ?_
  funext a; apply Fin.ext
  match a with
  | ⟨0, _⟩ => show t.val * 10000 + p.val = win4_4.index t (0 : Fin 2) * 10000 + 1 * p.val; omega
  | ⟨1, _⟩ => show q.val = win4_4.index t (1 : Fin 2) * 64 + 1 * q.val; omega

theorem mem_blk4 (t : Fin cfg4.N) (i : S100000x64.Idx) :
    i ∈ ((cfg4.win 4).blk t).view.set ↔ ∀ a : Fin 2, win4_4.index t a * S10000x64.size a ≤ (i a).val ∧ (i a).val < win4_4.index t a * S10000x64.size a + S10000x64.size a := by
  show i ∈ ((View.whole main_v82_0).slice (win4_4.rect t)).set ↔ _
  rw [View.set_slice_whole, Rect.mem_set_unit]
  exact Iff.rfl

theorem cover4 (i : S100000x64.Idx) : ∃ t : Fin cfg4.N, (cfg4.win 4).flush t = true ∧ i ∈ ((cfg4.win 4).blk t).view.set := by
  have hi0 : (i 0).val < 100000 := (i 0).isLt
  have hi1 : (i 1).val < 64 := (i 1).isLt
  have hN : grid4.N = 10 := N_4
  obtain ⟨-, -, -, -, -, -, -, -, e8, e9, -, -, -, -⟩ := idx_facts (⟨(i 0).val / 10000, by rw [show cfg4.N = 10 from hN]; omega⟩ : Fin cfg4.N)
  refine ⟨⟨(i 0).val / 10000, by rw [show cfg4.N = 10 from hN]; omega⟩, flush4_4 _, ?_⟩
  rw [mem_blk4]
  intro a
  match a with
  | ⟨0, _⟩ =>
    show win4_4.index _ (0 : Fin 2) * 10000 ≤ (i 0).val ∧ (i 0).val < win4_4.index _ (0 : Fin 2) * 10000 + 10000
    rw [e8]
    show (i 0).val / 10000 * 10000 ≤ (i 0).val ∧ (i 0).val < (i 0).val / 10000 * 10000 + 10000
    omega
  | ⟨1, _⟩ =>
    show win4_4.index _ (1 : Fin 2) * 64 ≤ (i 1).val ∧ (i 1).val < win4_4.index _ (1 : Fin 2) * 64 + 64
    rw [e9]; omega

/-- After the region the first output array is the combined activations. -/
theorem final4 (c : Dev nD) : (dat4 V c).arrAt 4 cfg4.N = A2 V c :=
  (dat4 V c).arrAt_eq_of_cover 4 _ (fun t _ => flushed4 V c t) cover4

/-- What the last point writes back through window 5, against any row function that is the full partial sum. -/
theorem flushed5 (c : Dev nD) (t : Fin cfg4.N) (hf : (cfg4.win 5).flush t = true)
    (G : S1x64.Idx → EReal) (hG : ∀ (u : Fin 1) (q : Fin 64), G (ix2 u q) = partialSum (A2 V c) q 10) :
    (dat4 V c).flushed 5 t = ((cfg4.win 5).blk t).view.read (Elt Ideal) G := by
  show (cfg4.win 5).cut (grid4.coords t) ((dat4 V c).after 5 t) = _
  rw [after4_5]
  have hN : t.val < 10 := lt_of_lt_of_eq t.isLt N_4
  have h9 : t.val = 9 := by have := (flush4_5 t).mp hf; omega
  obtain ⟨-, -, -, -, -, -, -, -, -, -, e10, e11, e12, e13⟩ := idx_facts t
  funext j
  obtain ⟨u, q, rfl⟩ : ∃ (u : Fin 1) (q : Fin 64), j = ix2 u q := ⟨j 0, j 1, eq_ix2 j⟩
  show (outsAt4 V c t.val t.isLt).2.1 (ix2 u q) = G (((cfg4.win 5).blk t).view.emb (ix2 u q))
  have hemb : ((cfg4.win 5).blk t).view.emb (ix2 u q) = ix2 (0 : Fin 1) q := by
    funext a; apply Fin.ext
    have hu : u.val = 0 := by have := u.isLt; omega
    match a with
    | ⟨0, _⟩ => show win4_5.index t (0 : Fin 2) * 1 + 1 * u.val = 0; omega
    | ⟨1, _⟩ => show win4_5.index t (1 : Fin 2) * 64 + 1 * q.val = q.val; omega
  rw [hemb, hG, (acc V c t.val t.isLt u q).1, h9]

theorem mem_blk5 (t : Fin cfg4.N) (i : S1x64.Idx) :
    i ∈ ((cfg4.win 5).blk t).view.set ↔ ∀ a : Fin 2, win4_5.index t a * S1x64.size a ≤ (i a).val ∧ (i a).val < win4_5.index t a * S1x64.size a + S1x64.size a := by
  show i ∈ ((View.whole main_v82_1).slice (win4_5.rect t)).set ↔ _
  rw [View.set_slice_whole, Rect.mem_set_unit]
  exact Iff.rfl

theorem cover5 (i : S1x64.Idx) : ∃ t : Fin cfg4.N, (cfg4.win 5).flush t = true ∧ i ∈ ((cfg4.win 5).blk t).view.set := by
  have hi0 : (i 0).val < 1 := (i 0).isLt
  have hi1 : (i 1).val < 64 := (i 1).isLt
  have hN : grid4.N = 10 := N_4
  obtain ⟨-, -, -, -, -, -, -, -, -, -, e10, e11, e12, e13⟩ := idx_facts (⟨9, by rw [show cfg4.N = 10 from hN]; norm_num⟩ : Fin cfg4.N)
  refine ⟨⟨9, by rw [show cfg4.N = 10 from hN]; norm_num⟩, (flush4_5 _).mpr rfl, ?_⟩
  rw [mem_blk5]
  intro a
  match a with
  | ⟨0, _⟩ =>
    show win4_5.index _ (0 : Fin 2) * 1 ≤ (i 0).val ∧ (i 0).val < win4_5.index _ (0 : Fin 2) * 1 + 1
    rw [e10]; omega
  | ⟨1, _⟩ =>
    show win4_5.index _ (1 : Fin 2) * 64 ≤ (i 1).val ∧ (i 1).val < win4_5.index _ (1 : Fin 2) * 64 + 64
    rw [e11]; omega

/-- After the region the row holds, at column j, the sum over all rows of the combined activations. -/
theorem final5 (c : Dev nD) : (dat4 V c).arrAt 5 cfg4.N = fun i : SRow.Idx => colSum (A2 V c) (i 1) :=
  (dat4 V c).arrAt_eq_of_cover 5 _ (fun t hf => flushed5 V c t hf _ (fun u q => (partialSum_ten _ q).symm)) cover5

/-- What the last point writes back through window 6, against any row function that is the full partial sum. -/
theorem flushed6 (c : Dev nD) (t : Fin cfg4.N) (hf : (cfg4.win 6).flush t = true)
    (G : S1x64.Idx → EReal) (hG : ∀ (u : Fin 1) (q : Fin 64), G (ix2 u q) = partialSum (fun k => A2 V c k * A2 V c k) q 10) :
    (dat4 V c).flushed 6 t = ((cfg4.win 6).blk t).view.read (Elt Ideal) G := by
  show (cfg4.win 6).cut (grid4.coords t) ((dat4 V c).after 6 t) = _
  rw [after4_6]
  have hN : t.val < 10 := lt_of_lt_of_eq t.isLt N_4
  have h9 : t.val = 9 := by have := (flush4_6 t).mp hf; omega
  obtain ⟨-, -, -, -, -, -, -, -, -, -, e10, e11, e12, e13⟩ := idx_facts t
  funext j
  obtain ⟨u, q, rfl⟩ : ∃ (u : Fin 1) (q : Fin 64), j = ix2 u q := ⟨j 0, j 1, eq_ix2 j⟩
  show (outsAt4 V c t.val t.isLt).2.2 (ix2 u q) = G (((cfg4.win 6).blk t).view.emb (ix2 u q))
  have hemb : ((cfg4.win 6).blk t).view.emb (ix2 u q) = ix2 (0 : Fin 1) q := by
    funext a; apply Fin.ext
    have hu : u.val = 0 := by have := u.isLt; omega
    match a with
    | ⟨0, _⟩ => show win4_6.index t (0 : Fin 2) * 1 + 1 * u.val = 0; omega
    | ⟨1, _⟩ => show win4_6.index t (1 : Fin 2) * 64 + 1 * q.val = q.val; omega
  rw [hemb, hG, (acc V c t.val t.isLt u q).2, h9]

theorem mem_blk6 (t : Fin cfg4.N) (i : S1x64.Idx) :
    i ∈ ((cfg4.win 6).blk t).view.set ↔ ∀ a : Fin 2, win4_6.index t a * S1x64.size a ≤ (i a).val ∧ (i a).val < win4_6.index t a * S1x64.size a + S1x64.size a := by
  show i ∈ ((View.whole main_v82_2).slice (win4_6.rect t)).set ↔ _
  rw [View.set_slice_whole, Rect.mem_set_unit]
  exact Iff.rfl

theorem cover6 (i : S1x64.Idx) : ∃ t : Fin cfg4.N, (cfg4.win 6).flush t = true ∧ i ∈ ((cfg4.win 6).blk t).view.set := by
  have hi0 : (i 0).val < 1 := (i 0).isLt
  have hi1 : (i 1).val < 64 := (i 1).isLt
  have hN : grid4.N = 10 := N_4
  obtain ⟨-, -, -, -, -, -, -, -, -, -, e10, e11, e12, e13⟩ := idx_facts (⟨9, by rw [show cfg4.N = 10 from hN]; norm_num⟩ : Fin cfg4.N)
  refine ⟨⟨9, by rw [show cfg4.N = 10 from hN]; norm_num⟩, (flush4_6 _).mpr rfl, ?_⟩
  rw [mem_blk6]
  intro a
  match a with
  | ⟨0, _⟩ =>
    show win4_6.index _ (0 : Fin 2) * 1 ≤ (i 0).val ∧ (i 0).val < win4_6.index _ (0 : Fin 2) * 1 + 1
    rw [e12]; omega
  | ⟨1, _⟩ =>
    show win4_6.index _ (1 : Fin 2) * 64 ≤ (i 1).val ∧ (i 1).val < win4_6.index _ (1 : Fin 2) * 64 + 64
    rw [e13]; omega

/-- After the region the row holds, at column j, the sum over all rows of the squares of the combined activations. -/
theorem final6 (c : Dev nD) : (dat4 V c).arrAt 6 cfg4.N = fun i : SRow.Idx => colSum (fun k => A2 V c k * A2 V c k) (i 1) :=
  (dat4 V c).arrAt_eq_of_cover 6 _ (fun t hf => flushed6 V c t hf _ (fun u q => (partialSum_ten _ q).symm)) cover6

end Cert.KernelIdeal.KRed4

end
-- ==== Proof.KApp5.lean ====
/-
  Region 5 of the idealized kernel program: the batch-norm normalisation, tiled over the rows.  Each of the
  ten grid points loads a block of 10000 rows of the activations and the four rows of column statistics (mean,
  variance, γ, β), and writes back, entry by entry, max (γ · ((a − mean) · rsqrt (var + ε)) + β) 0.  The entry
  (r, j) of the result depends only on the entry (r, j) of the activations and on column j of the four rows,
  and the ten blocks tile the 100000 rows; so after the region the output array is that function of the five
  input arrays as the region finds them.
-/
import proofs.«125721_j19146964206336_2_alg».proof.Proof.Gen.KernelIdeal.Frame
import proofs.«125721_j19146964206336_2_alg».proof.Proof.LibApply
import Idealize.ShloMosaic.Lib.Pipeline.Value
import Idealize.ShloMosaic.Lib.ValueIdx
import Idealize.ShloMosaic.Lib.ValueLayout

set_option maxRecDepth 16384

noncomputable section

namespace Cert.KernelIdeal.KApp5

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibApply (row applyG)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at the entry (p, q): the block's entry, centred and scaled by column q of the
    statistics' rows, then the affine map and the rectifier.  A [1, 64] row broadcast over the rows reads its
    column; the shape casts are the identity. -/
theorem pay_apply (x0 : Vec Ideal S10000x64 .f32) (x1 x2 x3 x4 : Vec Ideal S1x64 .f32) (p : Fin 10000) (q : Fin 64) :
    k5_pay1 x0 x1 x2 x3 x4 (ix2 p q)
      = max (x3 (row q) * ((x0 (ix2 p q) - x1 (row q)) * Ideal.rsqrt (x2 (row q) + Ideal.ofBits .f32 0x3727C5AC#32)) + x4 (row q))
          (Ideal.ofBits .f32 0x00000000#32) := by
  have hb : ∀ v : Vec Ideal S1x64 .f32, broadcastTo S10000x64 v broadcasts_S1x64_S10000x64 (ix2 p q) = v (row q) :=
    fun v => broadcastTo_1b_ab_apply (a := 10000) (b := 64) v broadcasts_S1x64_S10000x64 p q
  unfold k5_pay1
  simp only [shapeCast_self]
  show max (broadcastTo S10000x64 x3 broadcasts_S1x64_S10000x64 (ix2 p q)
        * ((x0 (ix2 p q) - broadcastTo S10000x64 x1 broadcasts_S1x64_S10000x64 (ix2 p q))
            * Ideal.rsqrt (broadcastTo S10000x64 x2 broadcasts_S1x64_S10000x64 (ix2 p q) + Ideal.ofBits .f32 0x3727C5AC#32))
        + broadcastTo S10000x64 x4 broadcasts_S1x64_S10000x64 (ix2 p q)) (Ideal.ofBits .f32 0x00000000#32) = _
  rw [hb x3, hb x1, hb x2, hb x4]

/-- The printed index maps over the grid: the activations' and the result's block index is the point, the four
    rows' block index is zero. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Where the output's block sits in its array, the activations' block sits in theirs. -/
theorem emb0 (t : Fin cfg5.N) (p : Fin 10000) (q : Fin 64) :
    ((cfg5.win 0).blk t).view.emb (ix2 p q) = ((cfg5.win 5).blk t).view.emb (ix2 p q) := by
  obtain ⟨e00, e01, -, -, -, -, -, -, -, -, e50, e51⟩ := idx_facts t
  funext a; apply Fin.ext
  match a with
  | ⟨0, _⟩ => show win5_0.index t (0 : Fin 2) * 10000 + 1 * p.val = win5_5.index t (0 : Fin 2) * 10000 + 1 * p.val; omega
  | ⟨1, _⟩ => show win5_0.index t (1 : Fin 2) * 64 + 1 * q.val = win5_5.index t (1 : Fin 2) * 64 + 1 * q.val; omega

/-- The activations' block read at (p, q) is the array read where the output's block puts (p, q). -/
theorem read0 (c : Dev nD) (t : Fin cfg5.N) (p : Fin 10000) (q : Fin 64) :
    iblk5 V c 0 t (ix2 p q) = V c main_v82_0 (((cfg5.win 5).blk t).view.emb (ix2 p q)) := by
  show V c main_v82_0 (((cfg5.win 0).blk t).view.emb (ix2 p q)) = _
  rw [emb0]

/-- The mean row's one block is the whole row: column q of the block is column q of the array, which is the
    column of the output's entry. -/
theorem emb1 (t : Fin cfg5.N) (p : Fin 10000) (q : Fin 64) :
    ((cfg5.win 1).blk t).view.emb (row q) = row ((((cfg5.win 5).blk t).view.emb (ix2 p q)) 1) := by
  obtain ⟨-, -, e10, e11, -, -, -, -, -, -, e50, e51⟩ := idx_facts t
  funext a; apply Fin.ext
  match a with
  | ⟨0, _⟩ => show win5_1.index t (0 : Fin 2) * 1 + 1 * 0 = 0; omega
  | ⟨1, _⟩ => show win5_1.index t (1 : Fin 2) * 64 + 1 * q.val = win5_5.index t (1 : Fin 2) * 64 + 1 * q.val; omega

theorem read1 (c : Dev nD) (t : Fin cfg5.N) (p : Fin 10000) (q : Fin 64) :
    iblk5 V c 1 t (row q) = V c main_v84 (row ((((cfg5.win 5).blk t).view.emb (ix2 p q)) 1)) := by
  show V c main_v84 (((cfg5.win 1).blk t).view.emb (row q)) = _
  rw [emb1 t p q]

/-- The variance row's one block is the whole row: column q of the block is column q of the array, which is the
    column of the output's entry. -/
theorem emb2 (t : Fin cfg5.N) (p : Fin 10000) (q : Fin 64) :
    ((cfg5.win 2).blk t).view.emb (row q) = row ((((cfg5.win 5).blk t).view.emb (ix2 p q)) 1) := by
  obtain ⟨-, -, -, -, e20, e21, -, -, -, -, e50, e51⟩ := idx_facts t
  funext a; apply Fin.ext
  match a with
  | ⟨0, _⟩ => show win5_2.index t (0 : Fin 2) * 1 + 1 * 0 = 0; omega
  | ⟨1, _⟩ => show win5_2.index t (1 : Fin 2) * 64 + 1 * q.val = win5_5.index t (1 : Fin 2) * 64 + 1 * q.val; omega

theorem read2 (c : Dev nD) (t : Fin cfg5.N) (p : Fin 10000) (q : Fin 64) :
    iblk5 V c 2 t (row q) = V c main_v90 (row ((((cfg5.win 5).blk t).view.emb (ix2 p q)) 1)) := by
  show V c main_v90 (((cfg5.win 2).blk t).view.emb (row q)) = _
  rw [emb2 t p q]

/-- The γ row's one block is the whole row: column q of the block is column q of the array, which is the
    column of the output's entry. -/
theorem emb3 (t : Fin cfg5.N) (p : Fin 10000) (q : Fin 64) :
    ((cfg5.win 3).blk t).view.emb (row q) = row ((((cfg5.win 5).blk t).view.emb (ix2 p q)) 1) := by
  obtain ⟨-, -, -, -, -, -, e30, e31, -, -, e50, e51⟩ := idx_facts t
  funext a; apply Fin.ext
  match a with
  | ⟨0, _⟩ => show win5_3.index t (0 : Fin 2) * 1 + 1 * 0 = 0; omega
  | ⟨1, _⟩ => show win5_3.index t (1 : Fin 2) * 64 + 1 * q.val = win5_5.index t (1 : Fin 2) * 64 + 1 * q.val; omega

theorem read3 (c : Dev nD) (t : Fin cfg5.N) (p : Fin 10000) (q : Fin 64) :
    iblk5 V c 3 t (row q) = V c main_v93 (row ((((cfg5.win 5).blk t).view.emb (ix2 p q)) 1)) := by
  show V c main_v93 (((cfg5.win 3).blk t).view.emb (row q)) = _
  rw [emb3 t p q]

/-- The β row's one block is the whole row: column q of the block is column q of the array, which is the
    column of the output's entry. -/
theorem emb4 (t : Fin cfg5.N) (p : Fin 10000) (q : Fin 64) :
    ((cfg5.win 4).blk t).view.emb (row q) = row ((((cfg5.win 5).blk t).view.emb (ix2 p q)) 1) := by
  obtain ⟨-, -, -, -, -, -, -, -, e40, e41, e50, e51⟩ := idx_facts t
  funext a; apply Fin.ext
  match a with
  | ⟨0, _⟩ => show win5_4.index t (0 : Fin 2) * 1 + 1 * 0 = 0; omega
  | ⟨1, _⟩ => show win5_4.index t (1 : Fin 2) * 64 + 1 * q.val = win5_5.index t (1 : Fin 2) * 64 + 1 * q.val; omega

theorem read4 (c : Dev nD) (t : Fin cfg5.N) (p : Fin 10000) (q : Fin 64) :
    iblk5 V c 4 t (row q) = V c main_v96 (row ((((cfg5.win 5).blk t).view.emb (ix2 p q)) 1)) := by
  show V c main_v96 (((cfg5.win 4).blk t).view.emb (row q)) = _
  rw [emb4 t p q]

/-- What point `t` writes back is block `t` of the normalisation of the five arrays. -/
theorem flushed_eq (c : Dev nD) (t : Fin cfg5.N) :
    (dat5 V c).flushed 5 t = ((cfg5.win 5).blk t).view.read (Elt Ideal)
      (applyG (V c main_v82_0) (V c main_v84) (V c main_v90) (V c main_v93) (V c main_v96)) := by
  show (cfg5.win 5).cut (grid5.coords t) ((dat5 V c).after 5 t) = _
  rw [after5_5]
  unfold out5_5
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  show k5_pay1 (F := Ideal) _ _ _ _ _ (ix2 p q) = applyG _ _ _ _ _ (((cfg5.win 5).blk t).view.emb (ix2 p q))
  rw [pay_apply]
  unfold applyG
  refine congrArg₂ max ?_ rfl
  refine congrArg₂ (· + ·) (congrArg₂ (· * ·) (read3 V c t p q) (congrArg₂ (· * ·) (congrArg₂ (· - ·) (read0 V c t p q) (read1 V c t p q)) ?_)) (read4 V c t p q)
  exact congrArg Ideal.rsqrt (congrArg₂ (· + ·) (read2 V c t p q) rfl)

/-- An index of the result array is in point `t`'s block iff each coordinate is in the block's range. -/
theorem mem_blk (t : Fin cfg5.N) (i : S100000x64.Idx) :
    i ∈ ((cfg5.win 5).blk t).view.set ↔ ∀ a : Fin 2, win5_5.index t a * S10000x64.size a ≤ (i a).val ∧ (i a).val < win5_5.index t a * S10000x64.size a + S10000x64.size a := by
  show i ∈ ((View.whole main_v97).slice (win5_5.rect t)).set ↔ _
  rw [View.set_slice_whole, Rect.mem_set_unit]
  exact Iff.rfl

/-- Row r lies in the block of point r / 10000: the ten blocks cover the array. -/
theorem cover (i : S100000x64.Idx) : ∃ t : Fin cfg5.N, (cfg5.win 5).flush t = true ∧ i ∈ ((cfg5.win 5).blk t).view.set := by
  have hi0 : (i 0).val < 100000 := (i 0).isLt
  have hi1 : (i 1).val < 64 := (i 1).isLt
  have hN : grid5.N = 10 := N_5
  obtain ⟨-, -, -, -, -, -, -, -, -, -, e50, e51⟩ := idx_facts (⟨(i 0).val / 10000, by rw [show cfg5.N = 10 from hN]; omega⟩ : Fin cfg5.N)
  refine ⟨⟨(i 0).val / 10000, by rw [show cfg5.N = 10 from hN]; omega⟩, flush5_5 _, ?_⟩
  rw [mem_blk]
  intro a
  match a with
  | ⟨0, _⟩ =>
    show win5_5.index _ (0 : Fin 2) * 10000 ≤ (i 0).val ∧ (i 0).val < win5_5.index _ (0 : Fin 2) * 10000 + 10000
    rw [e50]
    show (i 0).val / 10000 * 10000 ≤ (i 0).val ∧ (i 0).val < (i 0).val / 10000 * 10000 + 10000
    omega
  | ⟨1, _⟩ =>
    show win5_5.index _ (1 : Fin 2) * 64 ≤ (i 1).val ∧ (i 1).val < win5_5.index _ (1 : Fin 2) * 64 + 64
    rw [e51]; omega

/-- After the region the result array is the normalisation of the region's five input arrays. -/
theorem final (c : Dev nD) : (dat5 V c).arrAt 5 cfg5.N
    = applyG (V c main_v82_0) (V c main_v84) (V c main_v90) (V c main_v93) (V c main_v96) :=
  (dat5 V c).arrAt_eq_of_cover 5 _ (fun t _ => flushed_eq V c t) cover

end Cert.KernelIdeal.KApp5

end
-- ==== Proof.KChain1.lean ====
/-
  The second layer of the kernel program against the network written over the argument arrays: the host
  slices out the layer's weight; then, as in the first layer, the feature-transform region leaves the matrix
  product, the host the neighbour sum and the bias row, the aggregation region the combined activations with
  their column sums and column sums of squares, the host the mean row and the clamped one-pass variance row
  with the scale and the shift, and the normalisation region the layer's output.
-/
import proofs.«125721_j19146964206336_2_alg».proof.Proof.Gen.KernelIdeal.Frame
import proofs.«125721_j19146964206336_2_alg».proof.Proof.KChainLib
import proofs.«125721_j19146964206336_2_alg».proof.Proof.KLin3
import proofs.«125721_j19146964206336_2_alg».proof.Proof.KRed4
import proofs.«125721_j19146964206336_2_alg».proof.Proof.KApp5

set_option maxRecDepth 16384

noncomputable section

namespace Cert.KernelIdeal.KChain

open Cert.KernelIdeal Cert.KernelIdeal.Gen Cert.KernelIdeal.KHost
open Idealize.ShloMosaic Idealize.ShloMosaic.TcCoe Idealize.ShloMosaic.ValueIdx
open Idealize.SL Idealize.SL.Sem
open Idealize.ShloMosaic.Pipeline (Dat Cfg Window)
open Cert.LibLayer Cert.LibApply Cert.LibMatmul

variable (a0 : FVec Ideal S100000x64 .f32) (a1 : IVec S2x1600000 32) (a2 : IVec S100000 32) (a3 : FVec Ideal S3x64x64 .f32)
  (a4 a5 a6 : FVec Ideal S3x64 .f32) (a7 : FVec Ideal S64x64 .f32) (a8 : FVec Ideal S64 .f32)

variable (m : (ℓ : Loc nD τ sig) → Buf (Elt Ideal) ℓ) (ρ : Dev nD → PrngReg) (c : Dev nD)

/-- Before the second layer the host slices out the layer's weight and keeps the standing facts and the
    previous layer's output. -/
theorem step3 (X : FVec Ideal S100000x64 .f32) (hb : Base a1 a2 a3 a4 a5 a6 a7 a8 (W6 m ρ c))
    (hx : W6 m ρ c (Proc.devRef .tc main_v62) = X) :
    Base a1 a2 a3 a4 a5 a6 a7 a8 (W7 m ρ c) ∧ W7 m ρ c (Proc.devRef .tc main_v62) = X ∧ W7 m ρ c (Proc.devRef .tc main_v64) = KSpec.w1 a3 := by
  refine ⟨base_h3 a1 a2 a3 a4 a5 a6 a7 a8 hb, (keep3 _ main_v62 (by decide)).trans hx, ?_⟩
  show StableHlo.after hostOps3 (W6 m ρ c) (Proc.devRef .tc main_v64) = _
  rw [h3_main_v64, hb.arg3]; rfl

/-! ## The second layer: from its feature-transform region's entry to its normalisation region's exit -/

/-- The standing facts pass through region 3: it writes none of their buffers. -/
theorem base_r3 (h : Base a1 a2 a3 a4 a5 a6 a7 a8 (W7 m ρ c)) : Base a1 a2 a3 a4 a5 a6 a7 a8 (W8 m ρ c) :=
  ⟨(W8_of_ne m ρ c main_arg2 (by decide)).trans h.arg2,
   (W8_of_ne m ρ c main_arg3 (by decide)).trans h.arg3,
   (W8_of_ne m ρ c main_arg4 (by decide)).trans h.arg4,
   (W8_of_ne m ρ c main_arg5 (by decide)).trans h.arg5,
   (W8_of_ne m ρ c main_arg6 (by decide)).trans h.arg6,
   (W8_of_ne m ρ c main_arg7 (by decide)).trans h.arg7,
   (W8_of_ne m ρ c main_arg8 (by decide)).trans h.arg8,
   (W8_of_ne m ρ c main_v1 (by decide)).trans h.v1,
   (W8_of_ne m ρ c main_v3 (by decide)).trans h.v3,
   (W8_of_ne m ρ c main_v25 (by decide)).trans h.v25,
   (W8_of_ne m ρ c main_v27 (by decide)).trans h.v27⟩

/-- The standing facts pass through region 4: it writes none of their buffers. -/
theorem base_r4 (h : Base a1 a2 a3 a4 a5 a6 a7 a8 (W9 m ρ c)) : Base a1 a2 a3 a4 a5 a6 a7 a8 (W10 m ρ c) :=
  ⟨(W10_of_ne m ρ c main_arg2 (by decide)).trans h.arg2,
   (W10_of_ne m ρ c main_arg3 (by decide)).trans h.arg3,
   (W10_of_ne m ρ c main_arg4 (by decide)).trans h.arg4,
   (W10_of_ne m ρ c main_arg5 (by decide)).trans h.arg5,
   (W10_of_ne m ρ c main_arg6 (by decide)).trans h.arg6,
   (W10_of_ne m ρ c main_arg7 (by decide)).trans h.arg7,
   (W10_of_ne m ρ c main_arg8 (by decide)).trans h.arg8,
   (W10_of_ne m ρ c main_v1 (by decide)).trans h.v1,
   (W10_of_ne m ρ c main_v3 (by decide)).trans h.v3,
   (W10_of_ne m ρ c main_v25 (by decide)).trans h.v25,
   ((W10_arr m ρ c 2).trans (((dat4 (V9 m ρ) c).arrAt_in 2 rfl _).trans (A_eq4 (V9 m ρ) c 2))).trans h.v27⟩

/-- The standing facts pass through region 5: it writes none of their buffers. -/
theorem base_r5 (h : Base a1 a2 a3 a4 a5 a6 a7 a8 (W11 m ρ c)) : Base a1 a2 a3 a4 a5 a6 a7 a8 (W12 m ρ c) :=
  ⟨(W12_of_ne m ρ c main_arg2 (by decide)).trans h.arg2,
   (W12_of_ne m ρ c main_arg3 (by decide)).trans h.arg3,
   (W12_of_ne m ρ c main_arg4 (by decide)).trans h.arg4,
   (W12_of_ne m ρ c main_arg5 (by decide)).trans h.arg5,
   (W12_of_ne m ρ c main_arg6 (by decide)).trans h.arg6,
   (W12_of_ne m ρ c main_arg7 (by decide)).trans h.arg7,
   (W12_of_ne m ρ c main_arg8 (by decide)).trans h.arg8,
   (W12_of_ne m ρ c main_v1 (by decide)).trans h.v1,
   (W12_of_ne m ρ c main_v3 (by decide)).trans h.v3,
   (W12_of_ne m ρ c main_v25 (by decide)).trans h.v25,
   (W12_of_ne m ρ c main_v27 (by decide)).trans h.v27⟩

/-- The second layer.  With the standing facts, the layer's input activations and its weight at the entry of
    the feature-transform region, the normalisation region's output at its exit is the layer (clamped one-pass
    variance) of the input, and the standing facts still hold. -/
theorem layer1 (X : FVec Ideal S100000x64 .f32) (w : FVec Ideal S64x64 .f32)
    (hb : Base a1 a2 a3 a4 a5 a6 a7 a8 (W7 m ρ c))
    (hx : W7 m ρ c (Proc.devRef .tc main_v62) = X) (hw : W7 m ρ c (Proc.devRef .tc main_v64) = w) :
    Base a1 a2 a3 a4 a5 a6 a7 a8 (W12 m ρ c) ∧
      W12 m ρ c (Proc.devRef .tc main_v97) = KSpec.layer1 a1 X w (KSpec.row1 a4) (KSpec.row1 a5) (KSpec.row1 a6) := by
  -- the feature transform
  have b1 := base_r3 a1 a2 a3 a4 a5 a6 a7 a8 m ρ c hb
  have e30 : W8 m ρ c (Proc.devRef .tc main_v65) = MM X w := by
    rw [show W8 m ρ c (Proc.devRef .tc main_v65) = _ from W8_arr m ρ c 2, KLin3.final (V7 m ρ) c]
    show MM (W7 m ρ c (Proc.devRef .tc main_v62)) (W7 m ρ c (Proc.devRef .tc main_v64)) = _
    rw [hx, hw]
  -- the neighbour sum and the bias row
  have b2 := base_h4 a1 a2 a3 a4 a5 a6 a7 a8 b1
  have e43 : StableHlo.after hostOps4 (W8 m ρ c) (Proc.devRef .tc main_v78) = KSpec.agg a1 (MM X w) := by
    rw [h4_main_v78, b1.v3, b1.v1, b1.v25, e30]; rfl
  have e46 : StableHlo.after hostOps4 (W8 m ρ c) (Proc.devRef .tc main_v81) = KSpec.row1 a4 := by
    rw [h4_main_v81, b1.arg4]; rfl
  have e30' : StableHlo.after hostOps4 (W8 m ρ c) (Proc.devRef .tc main_v65) = MM X w :=
    (keep4 _ main_v65 (by decide)).trans e30
  -- the combined activations and their column sums
  have b3 := base_r4 a1 a2 a3 a4 a5 a6 a7 a8 m ρ c b2
  have hA : KRed4.A2 (V9 m ρ) c = KSpec.pre a1 X w (KSpec.row1 a4) := by
    show agg2G (StableHlo.after hostOps4 (W8 m ρ c) (Proc.devRef .tc main_v78)) (StableHlo.after hostOps4 (W8 m ρ c) (Proc.devRef .tc main_v65))
      (StableHlo.after hostOps4 (W8 m ρ c) (Proc.devRef .tc main_v27)) (StableHlo.after hostOps4 (W8 m ρ c) (Proc.devRef .tc main_v81)) = _
    rw [e43, e30', b2.v27, e46]; rfl
  have e470 : W10 m ρ c (Proc.devRef .tc main_v82_0) = KSpec.pre a1 X w (KSpec.row1 a4) := by
    rw [show W10 m ρ c (Proc.devRef .tc main_v82_0) = _ from W10_arr m ρ c 4, KRed4.final4 (V9 m ρ) c, hA]
  have e471 : W10 m ρ c (Proc.devRef .tc main_v82_1) = fun i : SRow.Idx => colSum (KSpec.pre a1 X w (KSpec.row1 a4)) (i 1) := by
    rw [show W10 m ρ c (Proc.devRef .tc main_v82_1) = _ from W10_arr m ρ c 5, KRed4.final5 (V9 m ρ) c, hA]
  have e472 : W10 m ρ c (Proc.devRef .tc main_v82_2) = fun i : SRow.Idx =>
      colSum (fun k => KSpec.pre a1 X w (KSpec.row1 a4) k * KSpec.pre a1 X w (KSpec.row1 a4) k) (i 1) := by
    rw [show W10 m ρ c (Proc.devRef .tc main_v82_2) = _ from W10_arr m ρ c 6, KRed4.final6 (V9 m ρ) c, hA]
  -- the mean row, the variance row, the scale and the shift
  have b4 := base_h5 a1 a2 a3 a4 a5 a6 a7 a8 b3
  have e49 : StableHlo.after hostOps5 (W10 m ρ c) (Proc.devRef .tc main_v84) = meanRow (KSpec.pre a1 X w (KSpec.row1 a4)) := by
    rw [h5_main_v84, e471]; exact mean_eq _
  have e55 : StableHlo.after hostOps5 (W10 m ρ c) (Proc.devRef .tc main_v90) = var1Row (KSpec.pre a1 X w (KSpec.row1 a4)) := by
    rw [h5_main_v90, e49, e472]; exact var1_eq _
  have e58 : StableHlo.after hostOps5 (W10 m ρ c) (Proc.devRef .tc main_v93) = KSpec.row1 a5 := by
    rw [h5_main_v93, b3.arg5]; rfl
  have e61 : StableHlo.after hostOps5 (W10 m ρ c) (Proc.devRef .tc main_v96) = KSpec.row1 a6 := by
    rw [h5_main_v96, b3.arg6]; rfl
  have e470' : StableHlo.after hostOps5 (W10 m ρ c) (Proc.devRef .tc main_v82_0) = KSpec.pre a1 X w (KSpec.row1 a4) :=
    (keep5 _ main_v82_0 (by decide)).trans e470
  -- the normalisation
  refine ⟨base_r5 a1 a2 a3 a4 a5 a6 a7 a8 m ρ c b4, ?_⟩
  rw [show W12 m ρ c (Proc.devRef .tc main_v97) = _ from W12_arr m ρ c 5, KApp5.final (V11 m ρ) c]
  show applyG (StableHlo.after hostOps5 (W10 m ρ c) (Proc.devRef .tc main_v82_0)) (StableHlo.after hostOps5 (W10 m ρ c) (Proc.devRef .tc main_v84))
    (StableHlo.after hostOps5 (W10 m ρ c) (Proc.devRef .tc main_v90)) (StableHlo.after hostOps5 (W10 m ρ c) (Proc.devRef .tc main_v93))
    (StableHlo.after hostOps5 (W10 m ρ c) (Proc.devRef .tc main_v96)) = _
  rw [e470', e49, e55, e58, e61]; rfl

end Cert.KernelIdeal.KChain

end
-- ==== Proof.KLin6.lean ====
/-
  Region 6 of the idealized kernel program: the dense linear transform, tiled over the rows.  Each of the ten
  grid points loads a block of 10000 rows of the activations and the whole 64 × 64 weight matrix, and writes
  the block's product back; the format changes on the way into the product are the identity on extended reals.
  So after the region the output array is the matrix product of the two input arrays as the region finds them:
  row r of the result depends only on row r of the activations, and the ten blocks tile the 100000 rows.
-/
import proofs.«125721_j19146964206336_2_alg».proof.Proof.Gen.KernelIdeal.Frame
import proofs.«125721_j19146964206336_2_alg».proof.Proof.LibMatmul
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KLin6

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's one stored value is the product of its two loaded blocks. -/
theorem pay (x0 : Vec Ideal S10000x64 .f32) (x1 : Vec Ideal S64x64 .f32) :
    k6_pay1 x0 x1 = Cert.LibMatmul.MM x0 x1 := by
  unfold k6_pay1
  dsimp only
  simp only [shapeCast_self]
  exact Cert.LibMatmul.matmul_zero_eq dot_S10000x64_S64x64_S10000x64_1_0_0_1_n_n rfl rfl rfl rfl rfl rfl none _ _

/-- The printed index maps over the grid: the activations' and the result's block index is the point, the
    weights' block index is zero. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What point `t` writes back is block `t` of the product of the two arrays. -/
theorem flushed_eq (c : Dev nD) (t : Fin cfg6.N) :
    (dat6 V c).flushed 2 t = ((cfg6.win 2).blk t).view.read (Elt Ideal) (Cert.LibMatmul.MM (V c main_v97) (V c main_v99)) := by
  show (cfg6.win 2).cut (grid6.coords t) ((dat6 V c).after 2 t) = _
  rw [after6_2]
  unfold out6_2
  rw [View.canon_unit_zero hz]
  simp only [View.ld_unit_zero (S := S10000x64) hz, View.ld_unit_zero (S := S64x64) hz]
  rw [pay]
  obtain ⟨e0, e1, e2, e3, e4, e5⟩ := idx_facts t
  funext j
  obtain ⟨p, q, rfl⟩ : ∃ (p : Fin 10000) (q : Fin 64), j = ix2 p q := ⟨j 0, j 1, eq_ix2 j⟩
  show Cert.LibMatmul.MM _ _ (ix2 p q) = Cert.LibMatmul.MM _ _ (((cfg6.win 2).blk t).view.emb (ix2 p q))
  unfold Cert.LibMatmul.MM
  refine Finset.sum_congr rfl fun k _ => ?_
  have h0 : ((cfg6.win 0).blk t).view.emb (ix2 p k) = ix2 ((((cfg6.win 2).blk t).view.emb (ix2 p q)) 0) k := by
    funext a; apply Fin.ext
    match a with
    | ⟨0, _⟩ => show win6_0.index t (0 : Fin 2) * 10000 + 1 * p.val = win6_2.index t (0 : Fin 2) * 10000 + 1 * p.val; omega
    | ⟨1, _⟩ => show win6_0.index t (1 : Fin 2) * 64 + 1 * k.val = k.val; omega
  have h1 : ((cfg6.win 1).blk t).view.emb (ix2 k q) = ix2 k ((((cfg6.win 2).blk t).view.emb (ix2 p q)) 1) := by
    funext a; apply Fin.ext
    match a with
    | ⟨0, _⟩ => show win6_1.index t (0 : Fin 2) * 64 + 1 * k.val = k.val; omega
    | ⟨1, _⟩ => show win6_1.index t (1 : Fin 2) * 64 + 1 * q.val = win6_2.index t (1 : Fin 2) * 64 + 1 * q.val; omega
  refine congrArg₂ (· * ·) ?_ ?_
  · show V c main_v97 (((cfg6.win 0).blk t).view.emb (ix2 p k)) = V c main_v97 (ix2 ((((cfg6.win 2).blk t).view.emb (ix2 p q)) 0) k)
    rw [h0]; rfl
  · show V c main_v99 (((cfg6.win 1).blk t).view.emb (ix2 k q)) = V c main_v99 (ix2 k ((((cfg6.win 2).blk t).view.emb (ix2 p q)) 1))
    rw [h1]; rfl

/-- An index of the result array is in point `t`'s block iff each coordinate is in the block's range. -/
theorem mem_blk (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v100).slice (win6_2.rect t)).set ↔ _
  rw [View.set_slice_whole, Rect.mem_set_unit]
  exact Iff.rfl

/-- Row r lies in the block of point r / 10000: the ten blocks cover the array. -/
theorem cover (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : grid6.N = 10 := N_6
  obtain ⟨-, -, -, -, e4, e5⟩ := idx_facts (⟨(i 0).val / 10000, by rw [show cfg6.N = 10 from hN]; omega⟩ : Fin cfg6.N)
  refine ⟨⟨(i 0).val / 10000, by rw [show cfg6.N = 10 from hN]; omega⟩, flush6_2 _, ?_⟩
  rw [mem_blk]
  intro a
  match a with
  | ⟨0, _⟩ =>
    show win6_2.index _ (0 : Fin 2) * 10000 ≤ (i 0).val ∧ (i 0).val < win6_2.index _ (0 : Fin 2) * 10000 + 10000
    rw [e4]
    show (i 0).val / 10000 * 10000 ≤ (i 0).val ∧ (i 0).val < (i 0).val / 10000 * 10000 + 10000
    omega
  | ⟨1, _⟩ =>
    show win6_2.index _ (1 : Fin 2) * 64 ≤ (i 1).val ∧ (i 1).val < win6_2.index _ (1 : Fin 2) * 64 + 64
    rw [e5]; omega

/-- After the region the result array is the matrix product of the region's two input arrays. -/
theorem final (c : Dev nD) : (dat6 V c).arrAt 2 cfg6.N = Cert.LibMatmul.MM (V c main_v97) (V c main_v99) :=
  (dat6 V c).arrAt_eq_of_cover 2 _ (fun t _ => flushed_eq V c t) cover

end Cert.KernelIdeal.KLin6

end
-- ==== Proof.KRedPay7.lean ====
/-
  Region 7 of the idealized kernel program, the body's arithmetic read at an index (at the ideal values).
  The stored block entry (p, q) is agg(p, q) + h(p, q) · snorm(p) + bias(q); the two running rows receive, at
  column q, their previous value plus the block's column sum of that entry, respectively of its square.
-/
import proofs.«125721_j19146964206336_2_alg».proof.Proof.Gen.KernelIdeal.Skeleton
import Idealize.ShloMosaic.PureOps.Ideal.Laws
import proofs.«125721_j19146964206336_2_alg».proof.Proof.LibMatmul
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KRedPay7

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- A [a, 1] column broadcast to [a, b] reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane reduction over the rows of a block is, at column q, the sum over the rows. -/
theorem colsum_block (v : FVec Ideal S10000x64 .f32) (h : S10000x64.Reduces [0] S64) (q : Fin 64) :
    multiReduction .add [0] S64 v 0x00000000#32 h (.inl rfl) rfl (ix1 q) = ∑ p : Fin 10000, v (ix2 p q) := by
  refine (Ideal.multiReduction_add_single v 0x00000000#32 h (.inl rfl) rfl (ix1 q)).trans ?_
  refine Finset.sum_congr rfl fun p _ => congrArg v ?_
  funext a; apply Fin.ext
  match a with
  | ⟨0, _⟩ => rfl
  | ⟨1, _⟩ => rfl

/-- The stored block at (p, q). -/
theorem pay3_apply (x2 : Vec Ideal S10000x1 .f32) (x3 : Vec Ideal S1x64 .f32) (x0 x1 : Vec Ideal S10000x64 .f32) (p : Fin 10000) (q : Fin 64) :
    k7_pay3 x2 x3 x0 x1 (ix2 p q) = x0 (ix2 p q) + x1 (ix2 p q) * x2 (ix2 p (0 : Fin 1)) + x3 (ix2 (0 : Fin 1) q) := by
  unfold k7_pay3
  try dsimp only
  simp only [shapeCast_self]
  show x0 (ix2 p q) + x1 (ix2 p q) * broadcastTo S10000x64 x2 _ (ix2 p q)
      + broadcastTo S10000x64 x3 _ (ix2 p q) = _
  rw [broadcastTo_1b_ab_apply, broadcastTo_a1_ab_apply]

/-- The running sum row at column q. -/
theorem pay4_apply (x2 : Vec Ideal S10000x1 .f32) (x3 : Vec Ideal S1x64 .f32) (x0 x1 : Vec Ideal S10000x64 .f32) (acc : Vec Ideal S1x64 .f32) (u : Fin 1) (q : Fin 64) :
    k7_pay4 x2 x3 x0 x1 acc (ix2 u q) = acc (ix2 u q) + ∑ p : Fin 10000, k7_pay3 x2 x3 x0 x1 (ix2 p q) := by
  unfold k7_pay4
  try dsimp only
  simp only [shapeCast_self]
  show acc (ix2 u q) + shapeCast S1x64 (multiReduction .add [0] S64 (k7_pay3 x2 x3 x0 x1) 0x00000000#32 _ (.inl rfl) rfl) _ (ix2 u q) = _
  rw [shapeCast_a_1a_apply, colsum_block]

/-- The running sum-of-squares row at column q. -/
theorem pay5_apply (x2 : Vec Ideal S10000x1 .f32) (x3 : Vec Ideal S1x64 .f32) (x0 x1 : Vec Ideal S10000x64 .f32) (acc : Vec Ideal S1x64 .f32) (u : Fin 1) (q : Fin 64) :
    k7_pay5 x2 x3 x0 x1 acc (ix2 u q) = acc (ix2 u q) + ∑ p : Fin 10000, k7_pay3 x2 x3 x0 x1 (ix2 p q) * k7_pay3 x2 x3 x0 x1 (ix2 p q) := by
  unfold k7_pay5
  try dsimp only
  simp only [shapeCast_self]
  show acc (ix2 u q) + shapeCast S1x64 (multiReduction .add [0] S64 (mulf (k7_pay3 x2 x3 x0 x1) (k7_pay3 x2 x3 x0 x1)) 0x00000000#32 _ (.inl rfl) rfl) _ (ix2 u q) = _
  rw [shapeCast_a_1a_apply, colsum_block]
  rfl

/-- The zero rows the first point stores. -/
theorem pay1_apply (j : S1x64.Idx) : (k7_pay1 (F := Ideal)) j = 0 := by
  unfold k7_pay1; try dsimp only
  show Ideal.ofBits .f32 0x00000000#32 = 0
  exact Ideal.ofBits_zero_f32
theorem pay2_apply (j : S1x64.Idx) : (k7_pay2 (F := Ideal)) j = 0 := by
  unfold k7_pay2; try dsimp only
  show Ideal.ofBits .f32 0x00000000#32 = 0
  exact Ideal.ofBits_zero_f32

end Cert.KernelIdeal.KRedPay7

end
-- ==== Proof.KRedPiece7.lean ====
/-
  Region 7 of the idealized kernel program: what each case of the body leaves in its three output buffers,
  as the body's arithmetic of the blocks it loaded.  At the first grid point the two running rows are zeroed and
  then receive the block's column sums; at every later point they receive their previous contents plus the
  block's column sums.  The block of combined activations is stored whole at every point.
-/
import proofs.«125721_j19146964206336_2_alg».proof.Proof.Gen.KernelIdeal.Frame
import proofs.«125721_j19146964206336_2_alg».proof.Proof.LibMatmul
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KRedPiece7

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.Tactic

variable {F : FTy → Type} [FloatOps F]

theorem hz : (![0, 0] : Fin 2 → Nat) = fun _ => 0 := funext fun a => by fin_cases a <;> rfl

theorem pieceA4 (c : Dev nD) (i : grid7.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : cond7_0 i)
    (x0 : Vec F S10000x64 .f32) (x1 : Vec F S10000x64 .f32) (x2 : Vec F S10000x1 .f32) (x3 : Vec F S1x64 .f32) :
    out7_A_4 c i arg1 harg1 arg2 harg2 arg3 harg3 arg4 harg4 arg5 harg5 arg6 harg6 arg7 harg7 hc0 x0 x1 x2 x3 = k7_pay3 x2 x3 x0 x1 := by
  unfold out7_A_4
  rw [View.read_writes_eq_canon _ _ _ (cover7_A_4 c i arg1 harg1 arg2 harg2 arg3 harg3 arg4 harg4 arg5 harg5 arg6 harg6 arg7 harg7 hc0 x0 x1 x2 x3)]
  unfold kernelRun7_A
  dsimp only
  sl_unfold_words
  rw [View.canon_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]

theorem pieceA5 (c : Dev nD) (i : grid7.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : cond7_0 i)
    (x0 : Vec F S10000x64 .f32) (x1 : Vec F S10000x64 .f32) (x2 : Vec F S10000x1 .f32) (x3 : Vec F S1x64 .f32) :
    out7_A_5 c i arg1 harg1 arg2 harg2 arg3 harg3 arg4 harg4 arg5 harg5 arg6 harg6 arg7 harg7 hc0 x0 x1 x2 x3 = k7_pay4 x2 x3 x0 x1 k7_pay1 := by
  unfold out7_A_5
  rw [View.read_writes_eq_canon _ _ _ (cover7_A_5 c i arg1 harg1 arg2 harg2 arg3 harg3 arg4 harg4 arg5 harg5 arg6 harg6 arg7 harg7 hc0 x0 x1 x2 x3)]
  unfold kernelRun7_A
  dsimp only
  sl_unfold_words
  rw [View.canon_cons_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]
  rw [View.readCov_unit_zero _ hz]

theorem pieceA6 (c : Dev nD) (i : grid7.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : cond7_0 i)
    (x0 : Vec F S10000x64 .f32) (x1 : Vec F S10000x64 .f32) (x2 : Vec F S10000x1 .f32) (x3 : Vec F S1x64 .f32) :
    out7_A_6 c i arg1 harg1 arg2 harg2 arg3 harg3 arg4 harg4 arg5 harg5 arg6 harg6 arg7 harg7 hc0 x0 x1 x2 x3 = k7_pay5 x2 x3 x0 x1 k7_pay2 := by
  unfold out7_A_6
  rw [View.read_writes_eq_canon _ _ _ (cover7_A_6 c i arg1 harg1 arg2 harg2 arg3 harg3 arg4 harg4 arg5 harg5 arg6 harg6 arg7 harg7 hc0 x0 x1 x2 x3)]
  unfold kernelRun7_A
  dsimp only
  sl_unfold_words
  rw [View.canon_cons_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]
  rw [View.readCov_unit_zero _ hz]

theorem pieceB4 (c : Dev nD) (i : grid7.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i)
    (x0 : Vec F S10000x64 .f32) (x1 : Vec F S10000x64 .f32) (x2 : Vec F S10000x1 .f32) (x3 : Vec F S1x64 .f32) (xo5 xo6 : Vec F S1x64 .f32) :
    out7_B_4 c i arg1 harg1 arg2 harg2 arg3 harg3 arg4 harg4 arg5 harg5 arg6 harg6 arg7 harg7 hc0 x0 x1 x2 x3 xo5 xo6 = k7_pay3 x2 x3 x0 x1 := by
  unfold out7_B_4
  rw [View.read_writes_eq_canon _ _ _ (cover7_B_4 c i arg1 harg1 arg2 harg2 arg3 harg3 arg4 harg4 arg5 harg5 arg6 harg6 arg7 harg7 hc0 x0 x1 x2 x3 xo5 xo6)]
  unfold kernelRun7_B
  dsimp only
  sl_unfold_words
  rw [View.canon_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]

theorem pieceB5 (c : Dev nD) (i : grid7.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i)
    (x0 : Vec F S10000x64 .f32) (x1 : Vec F S10000x64 .f32) (x2 : Vec F S10000x1 .f32) (x3 : Vec F S1x64 .f32) (xo5 xo6 : Vec F S1x64 .f32) :
    out7_B_5 c i arg1 harg1 arg2 harg2 arg3 harg3 arg4 harg4 arg5 harg5 arg6 harg6 arg7 harg7 hc0 x0 x1 x2 x3 xo5 xo6 = k7_pay4 x2 x3 x0 x1 xo5 := by
  unfold out7_B_5
  rw [View.read_writes_eq_canon _ _ _ (cover7_B_5 c i arg1 harg1 arg2 harg2 arg3 harg3 arg4 harg4 arg5 harg5 arg6 harg6 arg7 harg7 hc0 x0 x1 x2 x3 xo5 xo6)]
  unfold kernelRun7_B
  dsimp only
  sl_unfold_words
  rw [View.canon_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]

theorem pieceB6 (c : Dev nD) (i : grid7.Coords) (arg1 : Memref sig .tc .vmem S10000x64 .f32) (harg1 : arg1.IsWhole) (arg2 : Memref sig .tc .vmem S10000x64 .f32) (harg2 : arg2.IsWhole) (arg3 : Memref sig .tc .vmem S10000x1 .f32) (harg3 : arg3.IsWhole) (arg4 : Memref sig .tc .vmem S1x64 .f32) (harg4 : arg4.IsWhole) (arg5 : Memref sig .tc .vmem S10000x64 .f32) (harg5 : arg5.IsWhole) (arg6 : Memref sig .tc .vmem S1x64 .f32) (harg6 : arg6.IsWhole) (arg7 : Memref sig .tc .vmem S1x64 .f32) (harg7 : arg7.IsWhole) (hc0 : ¬cond7_0 i)
    (x0 : Vec F S10000x64 .f32) (x1 : Vec F S10000x64 .f32) (x2 : Vec F S10000x1 .f32) (x3 : Vec F S1x64 .f32) (xo5 xo6 : Vec F S1x64 .f32) :
    out7_B_6 c i arg1 harg1 arg2 harg2 arg3 harg3 arg4 harg4 arg5 harg5 arg6 harg6 arg7 harg7 hc0 x0 x1 x2 x3 xo5 xo6 = k7_pay5 x2 x3 x0 x1 xo6 := by
  unfold out7_B_6
  rw [View.read_writes_eq_canon _ _ _ (cover7_B_6 c i arg1 harg1 arg2 harg2 arg3 harg3 arg4 harg4 arg5 harg5 arg6 harg6 arg7 harg7 hc0 x0 x1 x2 x3 xo5 xo6)]
  unfold kernelRun7_B
  dsimp only
  sl_unfold_words
  rw [View.canon_unit_zero hz]
  simp only [View.readAt_eq_ld, harg1.read_unread, harg2.read_unread, harg3.read_unread, harg4.read_unread, harg6.read_unread, harg7.read_unread,
    View.ld_unit_zero (S := S10000x64) hz, View.ld_unit_zero (S := S10000x1) hz, View.ld_unit_zero (S := S1x64) hz]

end Cert.KernelIdeal.KRedPiece7

end
-- ==== Proof.KRed7.lean ====
/-
  Region 7 of the idealized kernel program: the self-loop and bias are combined into the scattered aggregate
  block by block, and the per-feature sum and sum of squares of the combined activations are accumulated over the
  ten blocks in two rows that stay resident and are written back at the last point.  After the region the first
  output array is agg + h · snorm + bias entry by entry, and the two rows hold, at column j, the sum over all
  100000 rows of the combined activations, respectively of their squares: the accumulation over the blocks is a
  partial sum that grows by one block's column sum per point.
-/
import proofs.«125721_j19146964206336_2_alg».proof.Proof.Gen.KernelIdeal.Frame
import proofs.«125721_j19146964206336_2_alg».proof.Proof.LibMatmul
import Idealize.ShloMosaic.Lib.Pipeline.Value
import Idealize.ShloMosaic.Lib.ValueIdx
import Idealize.ShloMosaic.Lib.ValueLayout
import proofs.«125721_j19146964206336_2_alg».proof.Proof.KRedPay7
import proofs.«125721_j19146964206336_2_alg».proof.Proof.KRedPiece7
import proofs.«125721_j19146964206336_2_alg».proof.Proof.LibLayer
set_option maxRecDepth 16384

noncomputable section

open scoped BigOperators

namespace Cert.KernelIdeal.KRed7

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Cert.LibLayer

variable (V : (c : Dev nD) → (b : Ref sig .tc) → Buf (Elt Ideal) ((c : Thread nD τ).loc b))

/-- The combined activations as one function of the region's four input arrays. -/
def A2 (c : Dev nD) : SNF.Idx → EReal := agg2G (V c main_v113) (V c main_v100) (V c main_v27) (V c main_v116)

/-- A grid point as a block number. -/
def tt (t : Fin cfg7.N) : Fin 10 := ⟨t.val, lt_of_lt_of_eq t.isLt N_7⟩

theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

/-- The block a point stores is the block of the combined activations: entry (p, q) of point t's block is the
    entry of row t · 10000 + p. -/
theorem block_pay (c : Dev nD) (t : Fin cfg7.N) (p : Fin 10000) (q : Fin 64) :
    k7_pay3 (iblk7 V c 2 t) (iblk7 V c 3 t) (iblk7 V c 0 t) (iblk7 V c 1 t) (ix2 p q)
      = A2 V c (ix2 (blockRow (tt t) p) q) := by
  obtain ⟨e0, e1, e2, e3, e4, e5, e6, e7, -, -, -, -, -, -⟩ := idx_facts t
  rw [Cert.KernelIdeal.KRedPay7.pay3_apply]
  unfold A2 agg2G
  refine congrArg₂ (· + ·) (congrArg₂ (· + ·) ?_ (congrArg₂ (· * ·) ?_ ?_)) ?_
  · show V c main_v113 (((cfg7.win 0).blk t).view.emb (ix2 p q)) = V c main_v113 (ix2 (blockRow (tt t) p) q)
    have h : ((cfg7.win 0).blk t).view.emb (ix2 p q) = ix2 (blockRow (tt t) p) q := by
      funext a; apply Fin.ext
      match a with
      | ⟨0, _⟩ => show win7_0.index t (0 : Fin 2) * 10000 + 1 * p.val = t.val * 10000 + p.val; omega
      | ⟨1, _⟩ => show win7_0.index t (1 : Fin 2) * 64 + 1 * q.val = q.val; omega
    rw [h]
  · show V c main_v100 (((cfg7.win 1).blk t).view.emb (ix2 p q)) = V c main_v100 (ix2 (blockRow (tt t) p) q)
    have h : ((cfg7.win 1).blk t).view.emb (ix2 p q) = ix2 (blockRow (tt t) p) q := by
      funext a; apply Fin.ext
      match a with
      | ⟨0, _⟩ => show win7_1.index t (0 : Fin 2) * 10000 + 1 * p.val = t.val * 10000 + p.val; omega
      | ⟨1, _⟩ => show win7_1.index t (1 : Fin 2) * 64 + 1 * q.val = q.val; omega
    rw [h]
  · show V c main_v27 (((cfg7.win 2).blk t).view.emb (ix2 p (0 : Fin 1))) = V c main_v27 (ix2 (blockRow (tt t) p) (0 : Fin 1))
    have h : ((cfg7.win 2).blk t).view.emb (ix2 p (0 : Fin 1)) = ix2 (blockRow (tt t) p) (0 : Fin 1) := by
      funext a; apply Fin.ext
      match a with
      | ⟨0, _⟩ => show win7_2.index t (0 : Fin 2) * 10000 + 1 * p.val = t.val * 10000 + p.val; omega
      | ⟨1, _⟩ => show win7_2.index t (1 : Fin 2) * 1 + 1 * 0 = 0; omega
    rw [h]
  · show V c main_v116 (((cfg7.win 3).blk t).view.emb (ix2 (0 : Fin 1) q)) = V c main_v116 (ix2 (0 : Fin 1) q)
    have h : ((cfg7.win 3).blk t).view.emb (ix2 (0 : Fin 1) q) = ix2 (0 : Fin 1) q := by
      funext a; apply Fin.ext
      match a with
      | ⟨0, _⟩ => show win7_3.index t (0 : Fin 2) * 1 + 1 * 0 = 0; omega
      | ⟨1, _⟩ => show win7_3.index t (1 : Fin 2) * 64 + 1 * q.val = q.val; omega
    rw [h]

/-- One block's column sum of the stored entries is the block sum of the combined activations. -/
theorem block_sum (c : Dev nD) (t : Fin cfg7.N) (q : Fin 64) :
    ∑ p : Fin 10000, k7_pay3 (iblk7 V c 2 t) (iblk7 V c 3 t) (iblk7 V c 0 t) (iblk7 V c 1 t) (ix2 p q)
      = blockSum (A2 V c) q (tt t) := by
  unfold blockSum
  exact Finset.sum_congr rfl fun p _ => block_pay V c t p q

theorem block_sum_sq (c : Dev nD) (t : Fin cfg7.N) (q : Fin 64) :
    ∑ p : Fin 10000, k7_pay3 (iblk7 V c 2 t) (iblk7 V c 3 t) (iblk7 V c 0 t) (iblk7 V c 1 t) (ix2 p q)
        * k7_pay3 (iblk7 V c 2 t) (iblk7 V c 3 t) (iblk7 V c 0 t) (iblk7 V c 1 t) (ix2 p q)
      = blockSum (fun k => A2 V c k * A2 V c k) q (tt t) := by
  unfold blockSum
  exact Finset.sum_congr rfl fun p _ => by rw [block_pay V c t p q]

/-- THE ACCUMULATION: after point n the two resident rows hold the partial sums over the blocks 0 … n. -/
theorem acc (c : Dev nD) : ∀ (n : ℕ) (hn : n < cfg7.N) (u : Fin 1) (q : Fin 64),
    (outsAt7 V c n hn).2.1 (ix2 u q) = partialSum (A2 V c) q (n + 1)
    ∧ (outsAt7 V c n hn).2.2 (ix2 u q) = partialSum (fun k => A2 V c k * A2 V c k) q (n + 1)
  | 0, hn, u, q => by
    rw [outsAt7_A V c ⟨0, hn⟩ rfl]
    dsimp only
    rw [Cert.KernelIdeal.KRedPiece7.pieceA5, Cert.KernelIdeal.KRedPiece7.pieceA6,
      Cert.KernelIdeal.KRedPay7.pay4_apply, Cert.KernelIdeal.KRedPay7.pay5_apply,
      Cert.KernelIdeal.KRedPay7.pay1_apply, Cert.KernelIdeal.KRedPay7.pay2_apply, zero_add, zero_add,
      block_sum V c ⟨0, hn⟩ q, block_sum_sq V c ⟨0, hn⟩ q,
      partialSum_succ, partialSum_succ, partialSum_zero, partialSum_zero, zero_add, zero_add,
      blockSumN_of_lt _ _ (by norm_num : 0 < 10), blockSumN_of_lt _ _ (by norm_num : 0 < 10)]
    refine ⟨?_, ?_⟩ <;> first | rfl | (simp only [zero_add]; rfl) | simp only [zero_add]
  | n + 1, hn, u, q => by
    have hn10 : n + 1 < 10 := lt_of_lt_of_eq hn N_7
    have h0 : ¬ (n + 1) % 10 = 0 := by omega
    obtain ⟨ih1, ih2⟩ := acc c n (Nat.lt_of_succ_lt hn) u q
    rw [outsAt7_B V c ⟨n + 1, hn⟩ h0]
    dsimp only
    rw [Cert.KernelIdeal.KRedPiece7.pieceB5, Cert.KernelIdeal.KRedPiece7.pieceB6,
      Cert.KernelIdeal.KRedPay7.pay4_apply, Cert.KernelIdeal.KRedPay7.pay5_apply,
      block_sum V c ⟨n + 1, hn⟩ q, block_sum_sq V c ⟨n + 1, hn⟩ q,
      partialSum_succ (A2 V c) q (n + 1), partialSum_succ (fun k => A2 V c k * A2 V c k) q (n + 1),
      blockSumN_of_lt _ _ hn10, blockSumN_of_lt _ _ hn10]
    exact ⟨congrArg₂ (· + ·) ih1 rfl, congrArg₂ (· + ·) ih2 rfl⟩

/-- What a point leaves in the first output's buffer is its stored block, whichever case it is. -/
theorem out4_eq (c : Dev nD) (t : Fin cfg7.N) :
    (outsAt7 V c t.val t.isLt).1 = k7_pay3 (iblk7 V c 2 t) (iblk7 V c 3 t) (iblk7 V c 0 t) (iblk7 V c 1 t) := by
  by_cases h0 : t.val % 10 = 0
  · rw [outsAt7_A V c t h0]; dsimp only; rw [Cert.KernelIdeal.KRedPiece7.pieceA4]
  · rw [outsAt7_B V c t h0]; dsimp only; rw [Cert.KernelIdeal.KRedPiece7.pieceB4]

/-- What every point writes back through window 4 is its block of the combined activations. -/
theorem flushed4 (c : Dev nD) (t : Fin cfg7.N) :
    (dat7 V c).flushed 4 t = ((cfg7.win 4).blk t).view.read (Elt Ideal) (A2 V c) := by
  show (cfg7.win 4).cut (grid7.coords t) ((dat7 V c).after 4 t) = _
  rw [after7_4, out4_eq]
  obtain ⟨-, -, -, -, -, -, -, -, e8, e9, -, -, -, -⟩ := idx_facts t
  funext j
  obtain ⟨p, q, rfl⟩ : ∃ (p : Fin 10000) (q : Fin 64), j = ix2 p q := ⟨j 0, j 1, eq_ix2 j⟩
  show k7_pay3 (iblk7 V c 2 t) (iblk7 V c 3 t) (iblk7 V c 0 t) (iblk7 V c 1 t) (ix2 p q) = A2 V c (((cfg7.win 4).blk t).view.emb (ix2 p q))
  rw [block_pay V c t p q]
  refine congrArg (A2 V c) ?_
  funext a; apply Fin.ext
  match a with
  | ⟨0, _⟩ => show t.val * 10000 + p.val = win7_4.index t (0 : Fin 2) * 10000 + 1 * p.val; omega
  | ⟨1, _⟩ => show q.val = win7_4.index t (1 : Fin 2) * 64 + 1 * q.val; omega

theorem mem_blk4 (t : Fin cfg7.N) (i : S100000x64.Idx) :
    i ∈ ((cfg7.win 4).blk t).view.set ↔ ∀ a : Fin 2, win7_4.index t a * S10000x64.size a ≤ (i a).val ∧ (i a).val < win7_4.index t a * S10000x64.size a + S10000x64.size a := by
  show i ∈ ((View.whole main_v117_0).slice (win7_4.rect t)).set ↔ _
  rw [View.set_slice_whole, Rect.mem_set_unit]
  exact Iff.rfl

theorem cover4 (i : S100000x64.Idx) : ∃ t : Fin cfg7.N, (cfg7.win 4).flush t = true ∧ i ∈ ((cfg7.win 4).blk t).view.set := by
  have hi0 : (i 0).val < 100000 := (i 0).isLt
  have hi1 : (i 1).val < 64 := (i 1).isLt
  have hN : grid7.N = 10 := N_7
  obtain ⟨-, -, -, -, -, -, -, -, e8, e9, -, -, -, -⟩ := idx_facts (⟨(i 0).val / 10000, by rw [show cfg7.N = 10 from hN]; omega⟩ : Fin cfg7.N)
  refine ⟨⟨(i 0).val / 10000, by rw [show cfg7.N = 10 from hN]; omega⟩, flush7_4 _, ?_⟩
  rw [mem_blk4]
  intro a
  match a with
  | ⟨0, _⟩ =>
    show win7_4.index _ (0 : Fin 2) * 10000 ≤ (i 0).val ∧ (i 0).val < win7_4.index _ (0 : Fin 2) * 10000 + 10000
    rw [e8]
    show (i 0).val / 10000 * 10000 ≤ (i 0).val ∧ (i 0).val < (i 0).val / 10000 * 10000 + 10000
    omega
  | ⟨1, _⟩ =>
    show win7_4.index _ (1 : Fin 2) * 64 ≤ (i 1).val ∧ (i 1).val < win7_4.index _ (1 : Fin 2) * 64 + 64
    rw [e9]; omega

/-- After the region the first output array is the combined activations. -/
theorem final4 (c : Dev nD) : (dat7 V c).arrAt 4 cfg7.N = A2 V c :=
  (dat7 V c).arrAt_eq_of_cover 4 _ (fun t _ => flushed4 V c t) cover4

/-- What the last point writes back through window 5, against any row function that is the full partial sum. -/
theorem flushed5 (c : Dev nD) (t : Fin cfg7.N) (hf : (cfg7.win 5).flush t = true)
    (G : S1x64.Idx → EReal) (hG : ∀ (u : Fin 1) (q : Fin 64), G (ix2 u q) = partialSum (A2 V c) q 10) :
    (dat7 V c).flushed 5 t = ((cfg7.win 5).blk t).view.read (Elt Ideal) G := by
  show (cfg7.win 5).cut (grid7.coords t) ((dat7 V c).after 5 t) = _
  rw [after7_5]
  have hN : t.val < 10 := lt_of_lt_of_eq t.isLt N_7
  have h9 : t.val = 9 := by have := (flush7_5 t).mp hf; omega
  obtain ⟨-, -, -, -, -, -, -, -, -, -, e10, e11, e12, e13⟩ := idx_facts t
  funext j
  obtain ⟨u, q, rfl⟩ : ∃ (u : Fin 1) (q : Fin 64), j = ix2 u q := ⟨j 0, j 1, eq_ix2 j⟩
  show (outsAt7 V c t.val t.isLt).2.1 (ix2 u q) = G (((cfg7.win 5).blk t).view.emb (ix2 u q))
  have hemb : ((cfg7.win 5).blk t).view.emb (ix2 u q) = ix2 (0 : Fin 1) q := by
    funext a; apply Fin.ext
    have hu : u.val = 0 := by have := u.isLt; omega
    match a with
    | ⟨0, _⟩ => show win7_5.index t (0 : Fin 2) * 1 + 1 * u.val = 0; omega
    | ⟨1, _⟩ => show win7_5.index t (1 : Fin 2) * 64 + 1 * q.val = q.val; omega
  rw [hemb, hG, (acc V c t.val t.isLt u q).1, h9]

theorem mem_blk5 (t : Fin cfg7.N) (i : S1x64.Idx) :
    i ∈ ((cfg7.win 5).blk t).view.set ↔ ∀ a : Fin 2, win7_5.index t a * S1x64.size a ≤ (i a).val ∧ (i a).val < win7_5.index t a * S1x64.size a + S1x64.size a := by
  show i ∈ ((View.whole main_v117_1).slice (win7_5.rect t)).set ↔ _
  rw [View.set_slice_whole, Rect.mem_set_unit]
  exact Iff.rfl

theorem cover5 (i : S1x64.Idx) : ∃ t : Fin cfg7.N, (cfg7.win 5).flush t = true ∧ i ∈ ((cfg7.win 5).blk t).view.set := by
  have hi0 : (i 0).val < 1 := (i 0).isLt
  have hi1 : (i 1).val < 64 := (i 1).isLt
  have hN : grid7.N = 10 := N_7
  obtain ⟨-, -, -, -, -, -, -, -, -, -, e10, e11, e12, e13⟩ := idx_facts (⟨9, by rw [show cfg7.N = 10 from hN]; norm_num⟩ : Fin cfg7.N)
  refine ⟨⟨9, by rw [show cfg7.N = 10 from hN]; norm_num⟩, (flush7_5 _).mpr rfl, ?_⟩
  rw [mem_blk5]
  intro a
  match a with
  | ⟨0, _⟩ =>
    show win7_5.index _ (0 : Fin 2) * 1 ≤ (i 0).val ∧ (i 0).val < win7_5.index _ (0 : Fin 2) * 1 + 1
    rw [e10]; omega
  | ⟨1, _⟩ =>
    show win7_5.index _ (1 : Fin 2) * 64 ≤ (i 1).val ∧ (i 1).val < win7_5.index _ (1 : Fin 2) * 64 + 64
    rw [e11]; omega

/-- After the region the row holds, at column j, the sum over all rows of the combined activations. -/
theorem final5 (c : Dev nD) : (dat7 V c).arrAt 5 cfg7.N = fun i : SRow.Idx => colSum (A2 V c) (i 1) :=
  (dat7 V c).arrAt_eq_of_cover 5 _ (fun t hf => flushed5 V c t hf _ (fun u q => (partialSum_ten _ q).symm)) cover5

/-- What the last point writes back through window 6, against any row function that is the full partial sum. -/
theorem flushed6 (c : Dev nD) (t : Fin cfg7.N) (hf : (cfg7.win 6).flush t = true)
    (G : S1x64.Idx → EReal) (hG : ∀ (u : Fin 1) (q : Fin 64), G (ix2 u q) = partialSum (fun k => A2 V c k * A2 V c k) q 10) :
    (dat7 V c).flushed 6 t = ((cfg7.win 6).blk t).view.read (Elt Ideal) G := by
  show (cfg7.win 6).cut (grid7.coords t) ((dat7 V c).after 6 t) = _
  rw [after7_6]
  have hN : t.val < 10 := lt_of_lt_of_eq t.isLt N_7
  have h9 : t.val = 9 := by have := (flush7_6 t).mp hf; omega
  obtain ⟨-, -, -, -, -, -, -, -, -, -, e10, e11, e12, e13⟩ := idx_facts t
  funext j
  obtain ⟨u, q, rfl⟩ : ∃ (u : Fin 1) (q : Fin 64), j = ix2 u q := ⟨j 0, j 1, eq_ix2 j⟩
  show (outsAt7 V c t.val t.isLt).2.2 (ix2 u q) = G (((cfg7.win 6).blk t).view.emb (ix2 u q))
  have hemb : ((cfg7.win 6).blk t).view.emb (ix2 u q) = ix2 (0 : Fin 1) q := by
    funext a; apply Fin.ext
    have hu : u.val = 0 := by have := u.isLt; omega
    match a with
    | ⟨0, _⟩ => show win7_6.index t (0 : Fin 2) * 1 + 1 * u.val = 0; omega
    | ⟨1, _⟩ => show win7_6.index t (1 : Fin 2) * 64 + 1 * q.val = q.val; omega
  rw [hemb, hG, (acc V c t.val t.isLt u q).2, h9]

theorem mem_blk6 (t : Fin cfg7.N) (i : S1x64.Idx) :
    i ∈ ((cfg7.win 6).blk t).view.set ↔ ∀ a : Fin 2, win7_6.index t a * S1x64.size a ≤ (i a).val ∧ (i a).val < win7_6.index t a * S1x64.size a + S1x64.size a := by
  show i ∈ ((View.whole main_v117_2).slice (win7_6.rect t)).set ↔ _
  rw [View.set_slice_whole, Rect.mem_set_unit]
  exact Iff.rfl

theorem cover6 (i : S1x64.Idx) : ∃ t : Fin cfg7.N, (cfg7.win 6).flush t = true ∧ i ∈ ((cfg7.win 6).blk t).view.set := by
  have hi0 : (i 0).val < 1 := (i 0).isLt
  have hi1 : (i 1).val < 64 := (i 1).isLt
  have hN : grid7.N = 10 := N_7
  obtain ⟨-, -, -, -, -, -, -, -, -, -, e10, e11, e12, e13⟩ := idx_facts (⟨9, by rw [show cfg7.N = 10 from hN]; norm_num⟩ : Fin cfg7.N)
  refine ⟨⟨9, by rw [show cfg7.N = 10 from hN]; norm_num⟩, (flush7_6 _).mpr rfl, ?_⟩
  rw [mem_blk6]
  intro a
  match a with
  | ⟨0, _⟩ =>
    show win7_6.index _ (0 : Fin 2) * 1 ≤ (i 0).val ∧ (i 0).val < win7_6.index _ (0 : Fin 2) * 1 + 1
    rw [e12]; omega
  | ⟨1, _⟩ =>
    show win7_6.index _ (1 : Fin 2) * 64 ≤ (i 1).val ∧ (i 1).val < win7_6.index _ (1 : Fin 2) * 64 + 64
    rw [e13]; omega

/-- After the region the row holds, at column j, the sum over all rows of the squares of the combined activations. -/
theorem final6 (c : Dev nD) : (dat7 V c).arrAt 6 cfg7.N = fun i : SRow.Idx => colSum (fun k => A2 V c k * A2 V c k) (i 1) :=
  (dat7 V c).arrAt_eq_of_cover 6 _ (fun t hf => flushed6 V c t hf _ (fun u q => (partialSum_ten _ q).symm)) cover6

end Cert.KernelIdeal.KRed7

end
-- ==== Proof.KApp8.lean ====
/-
  Region 8 of the idealized kernel program: the batch-norm normalisation, tiled over the rows.  Each of the
  ten grid points loads a block of 10000 rows of the activations and the four rows of column statistics (mean,
  variance, γ, β), and writes back, entry by entry, max (γ · ((a − mean) · rsqrt (var + ε)) + β) 0.  The entry
  (r, j) of the result depends only on the entry (r, j) of the activations and on column j of the four rows,
  and the ten blocks tile the 100000 rows; so after the region the output array is that function of the five
  input arrays as the region finds them.
-/
import proofs.«125721_j19146964206336_2_alg».proof.Proof.Gen.KernelIdeal.Frame
import proofs.«125721_j19146964206336_2_alg».proof.Proof.LibApply
import Idealize.ShloMosaic.Lib.Pipeline.Value
import Idealize.ShloMosaic.Lib.ValueIdx
import Idealize.ShloMosaic.Lib.ValueLayout

set_option maxRecDepth 16384

noncomputable section

namespace Cert.KernelIdeal.KApp8

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.LibApply (row applyG)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at the entry (p, q): the block's entry, centred and scaled by column q of the
    statistics' rows, then the affine map and the rectifier.  A [1, 64] row broadcast over the rows reads its
    column; the shape casts are the identity. -/
theorem pay_apply (x0 : Vec Ideal S10000x64 .f32) (x1 x2 x3 x4 : Vec Ideal S1x64 .f32) (p : Fin 10000) (q : Fin 64) :
    k8_pay1 x0 x1 x2 x3 x4 (ix2 p q)
      = max (x3 (row q) * ((x0 (ix2 p q) - x1 (row q)) * Ideal.rsqrt (x2 (row q) + Ideal.ofBits .f32 0x3727C5AC#32)) + x4 (row q))
          (Ideal.ofBits .f32 0x00000000#32) := by
  have hb : ∀ v : Vec Ideal S1x64 .f32, broadcastTo S10000x64 v broadcasts_S1x64_S10000x64 (ix2 p q) = v (row q) :=
    fun v => broadcastTo_1b_ab_apply (a := 10000) (b := 64) v broadcasts_S1x64_S10000x64 p q
  unfold k8_pay1
  simp only [shapeCast_self]
  show max (broadcastTo S10000x64 x3 broadcasts_S1x64_S10000x64 (ix2 p q)
        * ((x0 (ix2 p q) - broadcastTo S10000x64 x1 broadcasts_S1x64_S10000x64 (ix2 p q))
            * Ideal.rsqrt (broadcastTo S10000x64 x2 broadcasts_S1x64_S10000x64 (ix2 p q) + Ideal.ofBits .f32 0x3727C5AC#32))
        + broadcastTo S10000x64 x4 broadcasts_S1x64_S10000x64 (ix2 p q)) (Ideal.ofBits .f32 0x00000000#32) = _
  rw [hb x3, hb x1, hb x2, hb x4]

/-- The printed index maps over the grid: the activations' and the result's block index is the point, the four
    rows' block index is zero. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Where the output's block sits in its array, the activations' block sits in theirs. -/
theorem emb0 (t : Fin cfg8.N) (p : Fin 10000) (q : Fin 64) :
    ((cfg8.win 0).blk t).view.emb (ix2 p q) = ((cfg8.win 5).blk t).view.emb (ix2 p q) := by
  obtain ⟨e00, e01, -, -, -, -, -, -, -, -, e50, e51⟩ := idx_facts t
  funext a; apply Fin.ext
  match a with
  | ⟨0, _⟩ => show win8_0.index t (0 : Fin 2) * 10000 + 1 * p.val = win8_5.index t (0 : Fin 2) * 10000 + 1 * p.val; omega
  | ⟨1, _⟩ => show win8_0.index t (1 : Fin 2) * 64 + 1 * q.val = win8_5.index t (1 : Fin 2) * 64 + 1 * q.val; omega

/-- The activations' block read at (p, q) is the array read where the output's block puts (p, q). -/
theorem read0 (c : Dev nD) (t : Fin cfg8.N) (p : Fin 10000) (q : Fin 64) :
    iblk8 V c 0 t (ix2 p q) = V c main_v117_0 (((cfg8.win 5).blk t).view.emb (ix2 p q)) := by
  show V c main_v117_0 (((cfg8.win 0).blk t).view.emb (ix2 p q)) = _
  rw [emb0]

/-- The mean row's one block is the whole row: column q of the block is column q of the array, which is the
    column of the output's entry. -/
theorem emb1 (t : Fin cfg8.N) (p : Fin 10000) (q : Fin 64) :
    ((cfg8.win 1).blk t).view.emb (row q) = row ((((cfg8.win 5).blk t).view.emb (ix2 p q)) 1) := by
  obtain ⟨-, -, e10, e11, -, -, -, -, -, -, e50, e51⟩ := idx_facts t
  funext a; apply Fin.ext
  match a with
  | ⟨0, _⟩ => show win8_1.index t (0 : Fin 2) * 1 + 1 * 0 = 0; omega
  | ⟨1, _⟩ => show win8_1.index t (1 : Fin 2) * 64 + 1 * q.val = win8_5.index t (1 : Fin 2) * 64 + 1 * q.val; omega

theorem read1 (c : Dev nD) (t : Fin cfg8.N) (p : Fin 10000) (q : Fin 64) :
    iblk8 V c 1 t (row q) = V c main_v119 (row ((((cfg8.win 5).blk t).view.emb (ix2 p q)) 1)) := by
  show V c main_v119 (((cfg8.win 1).blk t).view.emb (row q)) = _
  rw [emb1 t p q]

/-- The variance row's one block is the whole row: column q of the block is column q of the array, which is the
    column of the output's entry. -/
theorem emb2 (t : Fin cfg8.N) (p : Fin 10000) (q : Fin 64) :
    ((cfg8.win 2).blk t).view.emb (row q) = row ((((cfg8.win 5).blk t).view.emb (ix2 p q)) 1) := by
  obtain ⟨-, -, -, -, e20, e21, -, -, -, -, e50, e51⟩ := idx_facts t
  funext a; apply Fin.ext
  match a with
  | ⟨0, _⟩ => show win8_2.index t (0 : Fin 2) * 1 + 1 * 0 = 0; omega
  | ⟨1, _⟩ => show win8_2.index t (1 : Fin 2) * 64 + 1 * q.val = win8_5.index t (1 : Fin 2) * 64 + 1 * q.val; omega

theorem read2 (c : Dev nD) (t : Fin cfg8.N) (p : Fin 10000) (q : Fin 64) :
    iblk8 V c 2 t (row q) = V c main_v125 (row ((((cfg8.win 5).blk t).view.emb (ix2 p q)) 1)) := by
  show V c main_v125 (((cfg8.win 2).blk t).view.emb (row q)) = _
  rw [emb2 t p q]

/-- The γ row's one block is the whole row: column q of the block is column q of the array, which is the
    column of the output's entry. -/
theorem emb3 (t : Fin cfg8.N) (p : Fin 10000) (q : Fin 64) :
    ((cfg8.win 3).blk t).view.emb (row q) = row ((((cfg8.win 5).blk t).view.emb (ix2 p q)) 1) := by
  obtain ⟨-, -, -, -, -, -, e30, e31, -, -, e50, e51⟩ := idx_facts t
  funext a; apply Fin.ext
  match a with
  | ⟨0, _⟩ => show win8_3.index t (0 : Fin 2) * 1 + 1 * 0 = 0; omega
  | ⟨1, _⟩ => show win8_3.index t (1 : Fin 2) * 64 + 1 * q.val = win8_5.index t (1 : Fin 2) * 64 + 1 * q.val; omega

theorem read3 (c : Dev nD) (t : Fin cfg8.N) (p : Fin 10000) (q : Fin 64) :
    iblk8 V c 3 t (row q) = V c main_v128 (row ((((cfg8.win 5).blk t).view.emb (ix2 p q)) 1)) := by
  show V c main_v128 (((cfg8.win 3).blk t).view.emb (row q)) = _
  rw [emb3 t p q]

/-- The β row's one block is the whole row: column q of the block is column q of the array, which is the
    column of the output's entry. -/
theorem emb4 (t : Fin cfg8.N) (p : Fin 10000) (q : Fin 64) :
    ((cfg8.win 4).blk t).view.emb (row q) = row ((((cfg8.win 5).blk t).view.emb (ix2 p q)) 1) := by
  obtain ⟨-, -, -, -, -, -, -, -, e40, e41, e50, e51⟩ := idx_facts t
  funext a; apply Fin.ext
  match a with
  | ⟨0, _⟩ => show win8_4.index t (0 : Fin 2) * 1 + 1 * 0 = 0; omega
  | ⟨1, _⟩ => show win8_4.index t (1 : Fin 2) * 64 + 1 * q.val = win8_5.index t (1 : Fin 2) * 64 + 1 * q.val; omega

theorem read4 (c : Dev nD) (t : Fin cfg8.N) (p : Fin 10000) (q : Fin 64) :
    iblk8 V c 4 t (row q) = V c main_v131 (row ((((cfg8.win 5).blk t).view.emb (ix2 p q)) 1)) := by
  show V c main_v131 (((cfg8.win 4).blk t).view.emb (row q)) = _
  rw [emb4 t p q]

/-- What point `t` writes back is block `t` of the normalisation of the five arrays. -/
theorem flushed_eq (c : Dev nD) (t : Fin cfg8.N) :
    (dat8 V c).flushed 5 t = ((cfg8.win 5).blk t).view.read (Elt Ideal)
      (applyG (V c main_v117_0) (V c main_v119) (V c main_v125) (V c main_v128) (V c main_v131)) := by
  show (cfg8.win 5).cut (grid8.coords t) ((dat8 V c).after 5 t) = _
  rw [after8_5]
  unfold out8_5
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  show k8_pay1 (F := Ideal) _ _ _ _ _ (ix2 p q) = applyG _ _ _ _ _ (((cfg8.win 5).blk t).view.emb (ix2 p q))
  rw [pay_apply]
  unfold applyG
  refine congrArg₂ max ?_ rfl
  refine congrArg₂ (· + ·) (congrArg₂ (· * ·) (read3 V c t p q) (congrArg₂ (· * ·) (congrArg₂ (· - ·) (read0 V c t p q) (read1 V c t p q)) ?_)) (read4 V c t p q)
  exact congrArg Ideal.rsqrt (congrArg₂ (· + ·) (read2 V c t p q) rfl)

/-- An index of the result array is in point `t`'s block iff each coordinate is in the block's range. -/
theorem mem_blk (t : Fin cfg8.N) (i : S100000x64.Idx) :
    i ∈ ((cfg8.win 5).blk t).view.set ↔ ∀ a : Fin 2, win8_5.index t a * S10000x64.size a ≤ (i a).val ∧ (i a).val < win8_5.index t a * S10000x64.size a + S10000x64.size a := by
  show i ∈ ((View.whole main_v132).slice (win8_5.rect t)).set ↔ _
  rw [View.set_slice_whole, Rect.mem_set_unit]
  exact Iff.rfl

/-- Row r lies in the block of point r / 10000: the ten blocks cover the array. -/
theorem cover (i : S100000x64.Idx) : ∃ t : Fin cfg8.N, (cfg8.win 5).flush t = true ∧ i ∈ ((cfg8.win 5).blk t).view.set := by
  have hi0 : (i 0).val < 100000 := (i 0).isLt
  have hi1 : (i 1).val < 64 := (i 1).isLt
  have hN : grid8.N = 10 := N_8
  obtain ⟨-, -, -, -, -, -, -, -, -, -, e50, e51⟩ := idx_facts (⟨(i 0).val / 10000, by rw [show cfg8.N = 10 from hN]; omega⟩ : Fin cfg8.N)
  refine ⟨⟨(i 0).val / 10000, by rw [show cfg8.N = 10 from hN]; omega⟩, flush8_5 _, ?_⟩
  rw [mem_blk]
  intro a
  match a with
  | ⟨0, _⟩ =>
    show win8_5.index _ (0 : Fin 2) * 10000 ≤ (i 0).val ∧ (i 0).val < win8_5.index _ (0 : Fin 2) * 10000 + 10000
    rw [e50]
    show (i 0).val / 10000 * 10000 ≤ (i 0).val ∧ (i 0).val < (i 0).val / 10000 * 10000 + 10000
    omega
  | ⟨1, _⟩ =>
    show win8_5.index _ (1 : Fin 2) * 64 ≤ (i 1).val ∧ (i 1).val < win8_5.index _ (1 : Fin 2) * 64 + 64
    rw [e51]; omega

/-- After the region the result array is the normalisation of the region's five input arrays. -/
theorem final (c : Dev nD) : (dat8 V c).arrAt 5 cfg8.N
    = applyG (V c main_v117_0) (V c main_v119) (V c main_v125) (V c main_v128) (V c main_v131) :=
  (dat8 V c).arrAt_eq_of_cover 5 _ (fun t _ => flushed_eq V c t) cover

end Cert.KernelIdeal.KApp8

end
-- ==== Proof.KChain2.lean ====
/-
  The third layer of the kernel program against the network written over the argument arrays: the host
  slices out the layer's weight; then, as in the first layer, the feature-transform region leaves the matrix
  product, the host the neighbour sum and the bias row, the aggregation region the combined activations with
  their column sums and column sums of squares, the host the mean row and the clamped one-pass variance row
  with the scale and the shift, and the normalisation region the layer's output.
-/
import proofs.«125721_j19146964206336_2_alg».proof.Proof.Gen.KernelIdeal.Frame
import proofs.«125721_j19146964206336_2_alg».proof.Proof.KChainLib
import proofs.«125721_j19146964206336_2_alg».proof.Proof.KLin6
import proofs.«125721_j19146964206336_2_alg».proof.Proof.KRed7
import proofs.«125721_j19146964206336_2_alg».proof.Proof.KApp8

set_option maxRecDepth 16384

noncomputable section

namespace Cert.KernelIdeal.KChain

open Cert.KernelIdeal Cert.KernelIdeal.Gen Cert.KernelIdeal.KHost
open Idealize.ShloMosaic Idealize.ShloMosaic.TcCoe Idealize.ShloMosaic.ValueIdx
open Idealize.SL Idealize.SL.Sem
open Idealize.ShloMosaic.Pipeline (Dat Cfg Window)
open Cert.LibLayer Cert.LibApply Cert.LibMatmul

variable (a0 : FVec Ideal S100000x64 .f32) (a1 : IVec S2x1600000 32) (a2 : IVec S100000 32) (a3 : FVec Ideal S3x64x64 .f32)
  (a4 a5 a6 : FVec Ideal S3x64 .f32) (a7 : FVec Ideal S64x64 .f32) (a8 : FVec Ideal S64 .f32)

variable (m : (ℓ : Loc nD τ sig) → Buf (Elt Ideal) ℓ) (ρ : Dev nD → PrngReg) (c : Dev nD)

/-- Before the third layer the host slices out the layer's weight and keeps the standing facts and the
    previous layer's output. -/
theorem step6 (X : FVec Ideal S100000x64 .f32) (hb : Base a1 a2 a3 a4 a5 a6 a7 a8 (W12 m ρ c))
    (hx : W12 m ρ c (Proc.devRef .tc main_v97) = X) :
    Base a1 a2 a3 a4 a5 a6 a7 a8 (W13 m ρ c) ∧ W13 m ρ c (Proc.devRef .tc main_v97) = X ∧ W13 m ρ c (Proc.devRef .tc main_v99) = KSpec.w2 a3 := by
  refine ⟨base_h6 a1 a2 a3 a4 a5 a6 a7 a8 hb, (keep6 _ main_v97 (by decide)).trans hx, ?_⟩
  show StableHlo.after hostOps6 (W12 m ρ c) (Proc.devRef .tc main_v99) = _
  rw [h6_main_v99, hb.arg3]; rfl

/-! ## The third layer: from its feature-transform region's entry to its normalisation region's exit -/

/-- The standing facts pass through region 6: it writes none of their buffers. -/
theorem base_r6 (h : Base a1 a2 a3 a4 a5 a6 a7 a8 (W13 m ρ c)) : Base a1 a2 a3 a4 a5 a6 a7 a8 (W14 m ρ c) :=
  ⟨(W14_of_ne m ρ c main_arg2 (by decide)).trans h.arg2,
   (W14_of_ne m ρ c main_arg3 (by decide)).trans h.arg3,
   (W14_of_ne m ρ c main_arg4 (by decide)).trans h.arg4,
   (W14_of_ne m ρ c main_arg5 (by decide)).trans h.arg5,
   (W14_of_ne m ρ c main_arg6 (by decide)).trans h.arg6,
   (W14_of_ne m ρ c main_arg7 (by decide)).trans h.arg7,
   (W14_of_ne m ρ c main_arg8 (by decide)).trans h.arg8,
   (W14_of_ne m ρ c main_v1 (by decide)).trans h.v1,
   (W14_of_ne m ρ c main_v3 (by decide)).trans h.v3,
   (W14_of_ne m ρ c main_v25 (by decide)).trans h.v25,
   (W14_of_ne m ρ c main_v27 (by decide)).trans h.v27⟩

/-- The standing facts pass through region 7: it writes none of their buffers. -/
theorem base_r7 (h : Base a1 a2 a3 a4 a5 a6 a7 a8 (W15 m ρ c)) : Base a1 a2 a3 a4 a5 a6 a7 a8 (W16 m ρ c) :=
  ⟨(W16_of_ne m ρ c main_arg2 (by decide)).trans h.arg2,
   (W16_of_ne m ρ c main_arg3 (by decide)).trans h.arg3,
   (W16_of_ne m ρ c main_arg4 (by decide)).trans h.arg4,
   (W16_of_ne m ρ c main_arg5 (by decide)).trans h.arg5,
   (W16_of_ne m ρ c main_arg6 (by decide)).trans h.arg6,
   (W16_of_ne m ρ c main_arg7 (by decide)).trans h.arg7,
   (W16_of_ne m ρ c main_arg8 (by decide)).trans h.arg8,
   (W16_of_ne m ρ c main_v1 (by decide)).trans h.v1,
   (W16_of_ne m ρ c main_v3 (by decide)).trans h.v3,
   (W16_of_ne m ρ c main_v25 (by decide)).trans h.v25,
   ((W16_arr m ρ c 2).trans (((dat7 (V15 m ρ) c).arrAt_in 2 rfl _).trans (A_eq7 (V15 m ρ) c 2))).trans h.v27⟩

/-- The standing facts pass through region 8: it writes none of their buffers. -/
theorem base_r8 (h : Base a1 a2 a3 a4 a5 a6 a7 a8 (W17 m ρ c)) : Base a1 a2 a3 a4 a5 a6 a7 a8 (W18 m ρ c) :=
  ⟨(W18_of_ne m ρ c main_arg2 (by decide)).trans h.arg2,
   (W18_of_ne m ρ c main_arg3 (by decide)).trans h.arg3,
   (W18_of_ne m ρ c main_arg4 (by decide)).trans h.arg4,
   (W18_of_ne m ρ c main_arg5 (by decide)).trans h.arg5,
   (W18_of_ne m ρ c main_arg6 (by decide)).trans h.arg6,
   (W18_of_ne m ρ c main_arg7 (by decide)).trans h.arg7,
   (W18_of_ne m ρ c main_arg8 (by decide)).trans h.arg8,
   (W18_of_ne m ρ c main_v1 (by decide)).trans h.v1,
   (W18_of_ne m ρ c main_v3 (by decide)).trans h.v3,
   (W18_of_ne m ρ c main_v25 (by decide)).trans h.v25,
   (W18_of_ne m ρ c main_v27 (by decide)).trans h.v27⟩

/-- The third layer.  With the standing facts, the layer's input activations and its weight at the entry of
    the feature-transform region, the normalisation region's output at its exit is the layer (clamped one-pass
    variance) of the input, and the standing facts still hold. -/
theorem layer2 (X : FVec Ideal S100000x64 .f32) (w : FVec Ideal S64x64 .f32)
    (hb : Base a1 a2 a3 a4 a5 a6 a7 a8 (W13 m ρ c))
    (hx : W13 m ρ c (Proc.devRef .tc main_v97) = X) (hw : W13 m ρ c (Proc.devRef .tc main_v99) = w) :
    Base a1 a2 a3 a4 a5 a6 a7 a8 (W18 m ρ c) ∧
      W18 m ρ c (Proc.devRef .tc main_v132) = KSpec.layer1 a1 X w (KSpec.row2 a4) (KSpec.row2 a5) (KSpec.row2 a6) := by
  -- the feature transform
  have b1 := base_r6 a1 a2 a3 a4 a5 a6 a7 a8 m ρ c hb
  have e30 : W14 m ρ c (Proc.devRef .tc main_v100) = MM X w := by
    rw [show W14 m ρ c (Proc.devRef .tc main_v100) = _ from W14_arr m ρ c 2, KLin6.final (V13 m ρ) c]
    show MM (W13 m ρ c (Proc.devRef .tc main_v97)) (W13 m ρ c (Proc.devRef .tc main_v99)) = _
    rw [hx, hw]
  -- the neighbour sum and the bias row
  have b2 := base_h7 a1 a2 a3 a4 a5 a6 a7 a8 b1
  have e43 : StableHlo.after hostOps7 (W14 m ρ c) (Proc.devRef .tc main_v113) = KSpec.agg a1 (MM X w) := by
    rw [h7_main_v113, b1.v3, b1.v1, b1.v25, e30]; rfl
  have e46 : StableHlo.after hostOps7 (W14 m ρ c) (Proc.devRef .tc main_v116) = KSpec.row2 a4 := by
    rw [h7_main_v116, b1.arg4]; rfl
  have e30' : StableHlo.after hostOps7 (W14 m ρ c) (Proc.devRef .tc main_v100) = MM X w :=
    (keep7 _ main_v100 (by decide)).trans e30
  -- the combined activations and their column sums
  have b3 := base_r7 a1 a2 a3 a4 a5 a6 a7 a8 m ρ c b2
  have hA : KRed7.A2 (V15 m ρ) c = KSpec.pre a1 X w (KSpec.row2 a4) := by
    show agg2G (StableHlo.after hostOps7 (W14 m ρ c) (Proc.devRef .tc main_v113)) (StableHlo.after hostOps7 (W14 m ρ c) (Proc.devRef .tc main_v100))
      (StableHlo.after hostOps7 (W14 m ρ c) (Proc.devRef .tc main_v27)) (StableHlo.after hostOps7 (W14 m ρ c) (Proc.devRef .tc main_v116)) = _
    rw [e43, e30', b2.v27, e46]; rfl
  have e470 : W16 m ρ c (Proc.devRef .tc main_v117_0) = KSpec.pre a1 X w (KSpec.row2 a4) := by
    rw [show W16 m ρ c (Proc.devRef .tc main_v117_0) = _ from W16_arr m ρ c 4, KRed7.final4 (V15 m ρ) c, hA]
  have e471 : W16 m ρ c (Proc.devRef .tc main_v117_1) = fun i : SRow.Idx => colSum (KSpec.pre a1 X w (KSpec.row2 a4)) (i 1) := by
    rw [show W16 m ρ c (Proc.devRef .tc main_v117_1) = _ from W16_arr m ρ c 5, KRed7.final5 (V15 m ρ) c, hA]
  have e472 : W16 m ρ c (Proc.devRef .tc main_v117_2) = fun i : SRow.Idx =>
      colSum (fun k => KSpec.pre a1 X w (KSpec.row2 a4) k * KSpec.pre a1 X w (KSpec.row2 a4) k) (i 1) := by
    rw [show W16 m ρ c (Proc.devRef .tc main_v117_2) = _ from W16_arr m ρ c 6, KRed7.final6 (V15 m ρ) c, hA]
  -- the mean row, the variance row, the scale and the shift
  have b4 := base_h8 a1 a2 a3 a4 a5 a6 a7 a8 b3
  have e49 : StableHlo.after hostOps8 (W16 m ρ c) (Proc.devRef .tc main_v119) = meanRow (KSpec.pre a1 X w (KSpec.row2 a4)) := by
    rw [h8_main_v119, e471]; exact mean_eq _
  have e55 : StableHlo.after hostOps8 (W16 m ρ c) (Proc.devRef .tc main_v125) = var1Row (KSpec.pre a1 X w (KSpec.row2 a4)) := by
    rw [h8_main_v125, e49, e472]; exact var1_eq _
  have e58 : StableHlo.after hostOps8 (W16 m ρ c) (Proc.devRef .tc main_v128) = KSpec.row2 a5 := by
    rw [h8_main_v128, b3.arg5]; rfl
  have e61 : StableHlo.after hostOps8 (W16 m ρ c) (Proc.devRef .tc main_v131) = KSpec.row2 a6 := by
    rw [h8_main_v131, b3.arg6]; rfl
  have e470' : StableHlo.after hostOps8 (W16 m ρ c) (Proc.devRef .tc main_v117_0) = KSpec.pre a1 X w (KSpec.row2 a4) :=
    (keep8 _ main_v117_0 (by decide)).trans e470
  -- the normalisation
  refine ⟨base_r8 a1 a2 a3 a4 a5 a6 a7 a8 m ρ c b4, ?_⟩
  rw [show W18 m ρ c (Proc.devRef .tc main_v132) = _ from W18_arr m ρ c 5, KApp8.final (V17 m ρ) c]
  show applyG (StableHlo.after hostOps8 (W16 m ρ c) (Proc.devRef .tc main_v117_0)) (StableHlo.after hostOps8 (W16 m ρ c) (Proc.devRef .tc main_v119))
    (StableHlo.after hostOps8 (W16 m ρ c) (Proc.devRef .tc main_v125)) (StableHlo.after hostOps8 (W16 m ρ c) (Proc.devRef .tc main_v128))
    (StableHlo.after hostOps8 (W16 m ρ c) (Proc.devRef .tc main_v131)) = _
  rw [e470', e49, e55, e58, e61]; rfl

end Cert.KernelIdeal.KChain

end
-- ==== Proof.KFin9.lean ====
/-
  Region 9 of the idealized kernel program: the final dense layer, one grid point.  The point loads the whole
  [512, 64] activations, the whole 64 × 64 weight matrix and the [1, 64] bias row, and writes back the matrix
  product plus the bias row broadcast over the rows; the format changes on the way into the product are the
  identity on extended reals.  So after the region the output array is, entry by entry, the matrix product of
  the two input arrays plus the bias of the entry's column, the arrays as the region finds them.
-/
import proofs.«125721_j19146964206336_2_alg».proof.Proof.Gen.KernelIdeal.Frame
import proofs.«125721_j19146964206336_2_alg».proof.Proof.LibMatmul
import Idealize.ShloMosaic.Lib.Pipeline.Value
import Idealize.ShloMosaic.Lib.ValueIdx
import Idealize.ShloMosaic.Lib.ValueLayout

set_option maxRecDepth 16384

noncomputable section

open scoped BigOperators

namespace Cert.KernelIdeal.KFin9

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The matrix product of x and w plus the row b broadcast over the rows, index by index. -/
def linBias (x : (⟨2, ![512, 64]⟩ : Shape).Idx → EReal) (w : (⟨2, ![64, 64]⟩ : Shape).Idx → EReal)
    (b : (⟨2, ![1, 64]⟩ : Shape).Idx → EReal) : (⟨2, ![512, 64]⟩ : Shape).Idx → EReal :=
  fun i => Cert.LibMatmul.MM x w i + b (ix2 (0 : Fin 1) (i 1))

/-- The body's one stored value at the entry (p, q): the product of its two loaded blocks there plus column q of
    the loaded bias row. -/
theorem pay_apply (x0 : Vec Ideal S512x64 .f32) (x1 : Vec Ideal S64x64 .f32) (x2 : Vec Ideal S1x64 .f32) (p : Fin 512) (q : Fin 64) :
    k9_pay1 x0 x1 x2 (ix2 p q) = Cert.LibMatmul.MM x0 x1 (ix2 p q) + x2 (ix2 (0 : Fin 1) q) := by
  have hb : broadcastTo S512x64 x2 broadcasts_S1x64_S512x64 (ix2 p q) = x2 (ix2 (0 : Fin 1) q) :=
    broadcastTo_1b_ab_apply (a := 512) (b := 64) x2 broadcasts_S1x64_S512x64 p q
  unfold k9_pay1
  simp only [shapeCast_self]
  refine (addf_apply _ _ _).trans ?_
  refine congrArg₂ (· + ·) ?_ hb
  exact congrFun (Cert.LibMatmul.matmul_zero_eq dot_S512x64_S64x64_S512x64_1_0_0_1_n_n rfl rfl rfl rfl rfl rfl none _ _) (ix2 p q)

/-- The printed index maps over the one-point grid: every window's block index is zero. -/
theorem idx_facts : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0 :=
  (by decide +kernel : ∀ t : Fin grid9.N, _)

/-- What the point writes back is its block of the product-plus-bias of the three arrays. -/
theorem flushed_eq (c : Dev nD) (t : Fin cfg9.N) :
    (dat9 V c).flushed 3 t = ((cfg9.win 3).blk t).view.read (Elt Ideal)
      (linBias (V c main_v143) (V c main_v144) (V c main_v145)) := by
  show (cfg9.win 3).cut (grid9.coords t) ((dat9 V c).after 3 t) = _
  rw [after9_3]
  unfold out9_3
  rw [View.canon_unit_zero hz]
  simp only [View.ld_unit_zero (S := S512x64) hz, View.ld_unit_zero (S := S64x64) hz, View.ld_unit_zero (S := S1x64) hz]
  obtain ⟨e00, e01, e10, e11, e20, e21, e30, e31⟩ := idx_facts t
  funext j
  obtain ⟨p, q, rfl⟩ : ∃ (p : Fin 512) (q : Fin 64), j = ix2 p q := ⟨j 0, j 1, eq_ix2 j⟩
  show k9_pay1 (F := Ideal) _ _ _ (ix2 p q) = linBias _ _ _ (((cfg9.win 3).blk t).view.emb (ix2 p q))
  rw [pay_apply]
  unfold linBias
  have h2 : ((cfg9.win 2).blk t).view.emb (ix2 (0 : Fin 1) q) = ix2 (0 : Fin 1) ((((cfg9.win 3).blk t).view.emb (ix2 p q)) 1) := by
    funext a; apply Fin.ext
    match a with
    | ⟨0, _⟩ => show win9_2.index t (0 : Fin 2) * 1 + 1 * 0 = 0; omega
    | ⟨1, _⟩ => show win9_2.index t (1 : Fin 2) * 64 + 1 * q.val = win9_3.index t (1 : Fin 2) * 64 + 1 * q.val; omega
  refine congrArg₂ (· + ·) ?_ ?_
  · show Cert.LibMatmul.MM _ _ (ix2 p q) = Cert.LibMatmul.MM _ _ (((cfg9.win 3).blk t).view.emb (ix2 p q))
    unfold Cert.LibMatmul.MM
    refine Finset.sum_congr rfl fun k _ => ?_
    have h0 : ((cfg9.win 0).blk t).view.emb (ix2 p k) = ix2 ((((cfg9.win 3).blk t).view.emb (ix2 p q)) 0) k := by
      funext a; apply Fin.ext
      match a with
      | ⟨0, _⟩ => show win9_0.index t (0 : Fin 2) * 512 + 1 * p.val = win9_3.index t (0 : Fin 2) * 512 + 1 * p.val; omega
      | ⟨1, _⟩ => show win9_0.index t (1 : Fin 2) * 64 + 1 * k.val = k.val; omega
    have h1 : ((cfg9.win 1).blk t).view.emb (ix2 k q) = ix2 k ((((cfg9.win 3).blk t).view.emb (ix2 p q)) 1) := by
      funext a; apply Fin.ext
      match a with
      | ⟨0, _⟩ => show win9_1.index t (0 : Fin 2) * 64 + 1 * k.val = k.val; omega
      | ⟨1, _⟩ => show win9_1.index t (1 : Fin 2) * 64 + 1 * q.val = win9_3.index t (1 : Fin 2) * 64 + 1 * q.val; omega
    refine congrArg₂ (· * ·) ?_ ?_
    · show V c main_v143 (((cfg9.win 0).blk t).view.emb (ix2 p k)) = V c main_v143 (ix2 ((((cfg9.win 3).blk t).view.emb (ix2 p q)) 0) k)
      rw [h0]; rfl
    · show V c main_v144 (((cfg9.win 1).blk t).view.emb (ix2 k q)) = V c main_v144 (ix2 k ((((cfg9.win 3).blk t).view.emb (ix2 p q)) 1))
      rw [h1]; rfl
  · show V c main_v145 (((cfg9.win 2).blk t).view.emb (ix2 (0 : Fin 1) q)) = V c main_v145 (ix2 (0 : Fin 1) ((((cfg9.win 3).blk t).view.emb (ix2 p q)) 1))
    rw [h2]; rfl

/-- An index of the result array is in the point's block iff each coordinate is in the block's range. -/
theorem mem_blk (t : Fin cfg9.N) (i : S512x64.Idx) :
    i ∈ ((cfg9.win 3).blk t).view.set ↔ ∀ a : Fin 2, win9_3.index t a * S512x64.size a ≤ (i a).val ∧ (i a).val < win9_3.index t a * S512x64.size a + S512x64.size a := by
  show i ∈ ((View.whole main_v146).slice (win9_3.rect t)).set ↔ _
  rw [View.set_slice_whole, Rect.mem_set_unit]
  exact Iff.rfl

/-- The one block is the whole array. -/
theorem cover (i : S512x64.Idx) : ∃ t : Fin cfg9.N, (cfg9.win 3).flush t = true ∧ i ∈ ((cfg9.win 3).blk t).view.set := by
  have hi0 : (i 0).val < 512 := (i 0).isLt
  have hi1 : (i 1).val < 64 := (i 1).isLt
  have hN : grid9.N = 1 := N_9
  obtain ⟨-, -, -, -, -, -, e30, e31⟩ := idx_facts (⟨0, by rw [show cfg9.N = 1 from hN]; omega⟩ : Fin cfg9.N)
  refine ⟨⟨0, by rw [show cfg9.N = 1 from hN]; omega⟩, flush9_3 _, ?_⟩
  rw [mem_blk]
  intro a
  match a with
  | ⟨0, _⟩ =>
    show win9_3.index _ (0 : Fin 2) * 512 ≤ (i 0).val ∧ (i 0).val < win9_3.index _ (0 : Fin 2) * 512 + 512
    rw [e30]; omega
  | ⟨1, _⟩ =>
    show win9_3.index _ (1 : Fin 2) * 64 ≤ (i 1).val ∧ (i 1).val < win9_3.index _ (1 : Fin 2) * 64 + 64
    rw [e31]; omega

/-- After the region the result array is the matrix product of the region's first two input arrays plus the
    third, the bias row, broadcast over the rows. -/
theorem final (c : Dev nD) : (dat9 V c).arrAt 3 cfg9.N = linBias (V c main_v143) (V c main_v144) (V c main_v145) :=
  (dat9 V c).arrAt_eq_of_cover 3 _ (fun t _ => flushed_eq V c t) cover

/-- The same, spelled out at an index. -/
theorem final_apply (c : Dev nD) (i : S512x64.Idx) : (dat9 V c).arrAt 3 cfg9.N i
    = Cert.LibMatmul.MM (V c main_v143) (V c main_v144) i + V c main_v145 (ix2 (0 : Fin 1) (i 1)) :=
  congrFun (final V c) i

end Cert.KernelIdeal.KFin9

end
-- ==== Proof.KTail.lean ====
/-
  The end of the kernel program's run, from the exit of the last normalisation region to the exit of the final
  region.  Three host pieces turn the last layer's activations into the final region's three inputs: the mean
  pool over the graphs of the batch (the per-graph feature sums divided by the per-graph node counts clamped
  below at one), the transposed final weight and the final bias as a one-row matrix.  The final region then
  leaves in its output array the matrix product of the first two plus the third broadcast over the rows.  Read
  together: the program's result buffer holds the final linear map of the pooled activations.
-/
import proofs.«125721_j19146964206336_2_alg».proof.Proof.Gen.KernelIdeal.Frame
import proofs.«125721_j19146964206336_2_alg».proof.Proof.KHost9
import proofs.«125721_j19146964206336_2_alg».proof.Proof.KFin9
import proofs.«125721_j19146964206336_2_alg».proof.Proof.KSpec

set_option maxRecDepth 16384

noncomputable section

namespace Cert.KernelIdeal.KTail

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- At the final region's entry its first input holds the mean pool of what the last normalisation region left,
    taken with the graph indices as the three host pieces find them. -/
theorem entry_v143 (X : FVec Ideal S100000x64 .f32)
    (hX : Gen.W18 m ρ c (Proc.devRef .tc main_v132) = X)
    (h2 : Gen.W18 m ρ c (Proc.devRef .tc main_arg2) = m ((c : Thread nD τ).loc main_arg2)) :
    V21 m ρ c main_v143 = KSpec.pooled (m ((c : Thread nD τ).loc main_arg2)) X := by
  show StableHlo.after hostOps9_2 (StableHlo.after hostOps9_1 (StableHlo.after hostOps9 (W18 m ρ c))) (Proc.devRef .tc main_v143) = _
  rw [KHost.h9all_main_v143, hX, h2]
  rfl

/-- … its second input the transposed final weight … -/
theorem entry_v144 (h7 : Gen.W18 m ρ c (Proc.devRef .tc main_arg7) = m ((c : Thread nD τ).loc main_arg7)) :
    V21 m ρ c main_v144 = transpose S64x64 [1, 0] (m ((c : Thread nD τ).loc main_arg7)) transposes_S64x64_S64x64_1_0 := by
  show StableHlo.after hostOps9_2 (StableHlo.after hostOps9_1 (StableHlo.after hostOps9 (W18 m ρ c))) (Proc.devRef .tc main_v144) = _
  rw [KHost.h9all_main_v144, h7]

/-- … and its third the final bias as a one-row matrix. -/
theorem entry_v145 (h8 : Gen.W18 m ρ c (Proc.devRef .tc main_arg8) = m ((c : Thread nD τ).loc main_arg8)) :
    V21 m ρ c main_v145 = shapeCast S1x64 (m ((c : Thread nD τ).loc main_arg8)) shapeCasts_S64_S1x64 := by
  show StableHlo.after hostOps9_2 (StableHlo.after hostOps9_1 (StableHlo.after hostOps9 (W18 m ρ c))) (Proc.devRef .tc main_v145) = _
  rw [KHost.h9all_main_v145, h8]

/-- At the final region's exit the result buffer holds the final linear map of the mean pool of the last
    layer's activations, the graph indices, the final weight and the final bias being the launch's. -/
theorem ktail (X : FVec Ideal S100000x64 .f32)
    (hX : Gen.W18 m ρ c (Proc.devRef .tc main_v132) = X)
    (h2 : Gen.W18 m ρ c (Proc.devRef .tc main_arg2) = m ((c : Thread nD τ).loc main_arg2))
    (h7 : Gen.W18 m ρ c (Proc.devRef .tc main_arg7) = m ((c : Thread nD τ).loc main_arg7))
    (h8 : Gen.W18 m ρ c (Proc.devRef .tc main_arg8) = m ((c : Thread nD τ).loc main_arg8)) :
    Gen.W22 m ρ c (Proc.devRef .tc main_v146)
      = KSpec.fin (m ((c : Thread nD τ).loc main_arg7)) (m ((c : Thread nD τ).loc main_arg8))
          (KSpec.pooled (m ((c : Thread nD τ).loc main_arg2)) X) := by
  refine (W22_arr m ρ c 3).trans ((KFin9.final (V21 m ρ) c).trans ?_)
  rw [entry_v143 m ρ c X hX h2, entry_v144 m ρ c h7, entry_v145 m ρ c h8]
  rfl

end Cert.KernelIdeal.KTail

end
-- ==== Proof.KChain.lean ====
/-
  The kernel program's result against the network written over the nine argument arrays.  Layer by layer from
  the launch: the first host stretch, then three times a feature transform, an aggregation with its column
  statistics and a normalisation, each layer's output the next one's input; at the exit of the last
  normalisation region the activations are the three-layer network (clamped one-pass variance) of the launch
  arrays.  The end of the run turns them into the program's result: the final linear map of their mean pool.
-/
import proofs.«125721_j19146964206336_2_alg».proof.Proof.KChain0
import proofs.«125721_j19146964206336_2_alg».proof.Proof.KChain1
import proofs.«125721_j19146964206336_2_alg».proof.Proof.KChain2
import proofs.«125721_j19146964206336_2_alg».proof.Proof.KTail

set_option maxRecDepth 16384

noncomputable section

namespace Cert.KernelIdeal.KChain

open Cert.KernelIdeal Cert.KernelIdeal.Gen Cert.KernelIdeal.KHost
open Idealize.ShloMosaic Idealize.ShloMosaic.TcCoe Idealize.ShloMosaic.ValueIdx
open Idealize.SL Idealize.SL.Sem
open Cert.LibLayer Cert.LibApply Cert.LibMatmul

variable (a0 : FVec Ideal S100000x64 .f32) (a1 : IVec S2x1600000 32) (a2 : IVec S100000 32) (a3 : FVec Ideal S3x64x64 .f32)
  (a4 a5 a6 : FVec Ideal S3x64 .f32) (a7 : FVec Ideal S64x64 .f32) (a8 : FVec Ideal S64 .f32)

variable (m : (ℓ : Loc nD τ sig) → Buf (Elt Ideal) ℓ) (ρ : Dev nD → PrngReg) (c : Dev nD)

/-- At the exit of the last normalisation region: the standing facts, and the activations are the three-layer
    network of the launch arrays. -/
theorem chain18 (h : Args a0 a1 a2 a3 a4 a5 a6 a7 a8 (W0 m ρ c)) :
    Base a1 a2 a3 a4 a5 a6 a7 a8 (W18 m ρ c) ∧ W18 m ρ c (Proc.devRef .tc main_v132) = KSpec.x3 a0 a1 a3 a4 a5 a6 := by
  obtain ⟨hb1, hx1, hw1⟩ := b1 a0 a1 a2 a3 a4 a5 a6 a7 a8 m ρ c h
  obtain ⟨hb6, hx6⟩ := layer0 a1 a2 a3 a4 a5 a6 a7 a8 m ρ c a0 (KSpec.w0 a3) hb1 hx1 hw1
  obtain ⟨hb7, hx7, hw7⟩ := step3 a1 a2 a3 a4 a5 a6 a7 a8 m ρ c _ hb6 hx6
  obtain ⟨hb12, hx12⟩ := layer1 a1 a2 a3 a4 a5 a6 a7 a8 m ρ c _ _ hb7 hx7 hw7
  obtain ⟨hb13, hx13, hw13⟩ := step6 a1 a2 a3 a4 a5 a6 a7 a8 m ρ c _ hb12 hx12
  obtain ⟨hb18, hx18⟩ := layer2 a1 a2 a3 a4 a5 a6 a7 a8 m ρ c _ _ hb13 hx13 hw13
  exact ⟨hb18, hx18⟩

/-- The program's result buffer at the last boundary is the network of the nine launch arrays. -/
theorem kchain :
    W22 m ρ c (Proc.devRef .tc main_v146)
      = KSpec.out1 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) := by
  obtain ⟨hb, hx⟩ := chain18 (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) m ρ c ⟨rfl, rfl, rfl, rfl, rfl, rfl, rfl, rfl, rfl⟩
  exact KTail.ktail m ρ c _ hx hb.arg2 hb.arg7 hb.arg8

end Cert.KernelIdeal.KChain

end
-- ==== Proof.RefStages.Segs.lean ====
/- The reference program's operation list cut into consecutive stretches, each ending at the operation that writes a
   chosen cut buffer; for each stretch the list of the buffers it writes, and that its operations write nothing else. -/
import proofs.«125721_j19146964206336_2_alg».proof.Proof.RefRun

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- Operations 1 … 2 of 293: up to the one writing `main_v1`. -/
abbrev seg0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000 ]
/-- The buffers stretch 0 writes. -/
abbrev w0 : List (Ref sig .tc) := [main_v0, main_v1]
theorem seg0_writes : (seg0 : List (HloOp τ sig (Elt F))).Forall fun op => op.writes ⊆ ((w0).map (Proc.devRef (τ := τ) .tc)).toFinset := by
  simp only [seg0, List.Forall, nullary_writes, unary_writes, binary_writes, ternary_writes, reshape_writes,
    Finset.singleton_subset_iff, List.mem_toFinset, List.mem_map]
  repeat' apply And.intro
  all_goals exact ⟨_, by decide, rfl⟩

/-- Operations 3 … 4 of 293: up to the one writing `main_v3`. -/
abbrev seg1 : List (HloOp τ sig (Elt F)) :=
  [ unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]
/-- The buffers stretch 1 writes. -/
abbrev w1 : List (Ref sig .tc) := [main_v2, main_v3]
theorem seg1_writes : (seg1 : List (HloOp τ sig (Elt F))).Forall fun op => op.writes ⊆ ((w1).map (Proc.devRef (τ := τ) .tc)).toFinset := by
  simp only [seg1, List.Forall, nullary_writes, unary_writes, binary_writes, ternary_writes, reshape_writes,
    Finset.singleton_subset_iff, List.mem_toFinset, List.mem_map]
  repeat' apply And.intro
  all_goals exact ⟨_, by decide, rfl⟩

/-- Operations 5 … 14 of 293: up to the one writing `main_v10`. -/
abbrev seg2 : List (HloOp τ sig (Elt F)) :=
  [ nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)) ]
/-- The buffers stretch 2 writes. -/
abbrev w2 : List (Ref sig .tc) := [main_cst, main_v4, main_cst_0, main_v5, main_v6, main_v7, main_cst_1, main_v8, main_v9, main_v10]
theorem seg2_writes : (seg2 : List (HloOp τ sig (Elt F))).Forall fun op => op.writes ⊆ ((w2).map (Proc.devRef (τ := τ) .tc)).toFinset := by
  simp only [seg2, List.Forall, nullary_writes, unary_writes, binary_writes, ternary_writes, reshape_writes,
    Finset.singleton_subset_iff, List.mem_toFinset, List.mem_map]
  repeat' apply And.intro
  all_goals exact ⟨_, by decide, rfl⟩

/-- Operations 15 … 23 of 293: up to the one writing `main_v17`. -/
abbrev seg3 : List (HloOp τ sig (Elt F)) :=
  [ nullary main_c (constantI S_ 32 0#32),
    unary main_c main_v11 (broadcastInDim S1600000 ![] bcast_S_S1600000 : (⟨S_, .i32⟩ : BufTy).Contents (Elt F) → (⟨S1600000, .i32⟩ : BufTy).Contents (Elt F)),
    binary main_v1 main_v11 main_v12 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v13 (broadcastInDim S1600000 ![] bcast_S_S1600000 : (⟨S_, .i32⟩ : BufTy).Contents (Elt F) → (⟨S1600000, .i32⟩ : BufTy).Contents (Elt F)),
    binary main_v1 main_v13 main_v14 (addi : (⟨S1600000, .i32⟩ : BufTy).Contents (Elt F) → (⟨S1600000, .i32⟩ : BufTy).Contents (Elt F) → (⟨S1600000, .i32⟩ : BufTy).Contents (Elt F)),
    ternary main_v12 main_v14 main_v1 main_v15 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v15 main_v16 (broadcastInDim S1600000x1 ![0] bcast_S1600000_S1600000x1_0 : (⟨S1600000, .i32⟩ : BufTy).Contents (Elt F) → (⟨S1600000x1, .i32⟩ : BufTy).Contents (Elt F)),
    binary main_v10 main_v16 main_v17 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) ]
/-- The buffers stretch 3 writes. -/
abbrev w3 : List (Ref sig .tc) := [main_c, main_v11, main_v12, main_c_2, main_v13, main_v14, main_v15, main_v16, main_v17]
theorem seg3_writes : (seg3 : List (HloOp τ sig (Elt F))).Forall fun op => op.writes ⊆ ((w3).map (Proc.devRef (τ := τ) .tc)).toFinset := by
  simp only [seg3, List.Forall, nullary_writes, unary_writes, binary_writes, ternary_writes, reshape_writes,
    Finset.singleton_subset_iff, List.mem_toFinset, List.mem_map]
  repeat' apply And.intro
  all_goals exact ⟨_, by decide, rfl⟩

/-- Operations 24 … 32 of 293: up to the one writing `main_v24`. -/
abbrev seg4 : List (HloOp τ sig (Elt F)) :=
  [ nullary main_c_3 (constantI S_ 32 0#32),
    unary main_c_3 main_v18 (broadcastInDim S1600000 ![] bcast_S_S1600000 : (⟨S_, .i32⟩ : BufTy).Contents (Elt F) → (⟨S1600000, .i32⟩ : BufTy).Contents (Elt F)),
    binary main_v3 main_v18 main_v19 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v20 (broadcastInDim S1600000 ![] bcast_S_S1600000 : (⟨S_, .i32⟩ : BufTy).Contents (Elt F) → (⟨S1600000, .i32⟩ : BufTy).Contents (Elt F)),
    binary main_v3 main_v20 main_v21 (addi : (⟨S1600000, .i32⟩ : BufTy).Contents (Elt F) → (⟨S1600000, .i32⟩ : BufTy).Contents (Elt F) → (⟨S1600000, .i32⟩ : BufTy).Contents (Elt F)),
    ternary main_v19 main_v21 main_v3 main_v22 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v22 main_v23 (broadcastInDim S1600000x1 ![0] bcast_S1600000_S1600000x1_0 : (⟨S1600000, .i32⟩ : BufTy).Contents (Elt F) → (⟨S1600000x1, .i32⟩ : BufTy).Contents (Elt F)),
    binary main_v10 main_v23 main_v24 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) ]
/-- The buffers stretch 4 writes. -/
abbrev w4 : List (Ref sig .tc) := [main_c_3, main_v18, main_v19, main_c_4, main_v20, main_v21, main_v22, main_v23, main_v24]
theorem seg4_writes : (seg4 : List (HloOp τ sig (Elt F))).Forall fun op => op.writes ⊆ ((w4).map (Proc.devRef (τ := τ) .tc)).toFinset := by
  simp only [seg4, List.Forall, nullary_writes, unary_writes, binary_writes, ternary_writes, reshape_writes,
    Finset.singleton_subset_iff, List.mem_toFinset, List.mem_map]
  repeat' apply And.intro
  all_goals exact ⟨_, by decide, rfl⟩

/-- Operations 33 … 33 of 293: up to the one writing `main_v25`. -/
abbrev seg5 : List (HloOp τ sig (Elt F)) :=
  [ binary main_v17 main_v24 main_v25 (mulf : (⟨S1600000, .f32⟩ : BufTy).Contents (Elt F) → (⟨S1600000, .f32⟩ : BufTy).Contents (Elt F) → (⟨S1600000, .f32⟩ : BufTy).Contents (Elt F)) ]
/-- The buffers stretch 5 writes. -/
abbrev w5 : List (Ref sig .tc) := [main_v25]
theorem seg5_writes : (seg5 : List (HloOp τ sig (Elt F))).Forall fun op => op.writes ⊆ ((w5).map (Proc.devRef (τ := τ) .tc)).toFinset := by
  simp only [seg5, List.Forall, nullary_writes, unary_writes, binary_writes, ternary_writes, reshape_writes,
    Finset.singleton_subset_iff, List.mem_toFinset, List.mem_map]
  repeat' apply And.intro
  all_goals exact ⟨_, by decide, rfl⟩

/-- Operations 34 … 34 of 293: up to the one writing `main_v26`. -/
abbrev seg6 : List (HloOp τ sig (Elt F)) :=
  [ binary main_v10 main_v10 main_v26 (mulf : (⟨S100000, .f32⟩ : BufTy).Contents (Elt F) → (⟨S100000, .f32⟩ : BufTy).Contents (Elt F) → (⟨S100000, .f32⟩ : BufTy).Contents (Elt F)) ]
/-- The buffers stretch 6 writes. -/
abbrev w6 : List (Ref sig .tc) := [main_v26]
theorem seg6_writes : (seg6 : List (HloOp τ sig (Elt F))).Forall fun op => op.writes ⊆ ((w6).map (Proc.devRef (τ := τ) .tc)).toFinset := by
  simp only [seg6, List.Forall, nullary_writes, unary_writes, binary_writes, ternary_writes, reshape_writes,
    Finset.singleton_subset_iff, List.mem_toFinset, List.mem_map]
  repeat' apply And.intro
  all_goals exact ⟨_, by decide, rfl⟩

/-- Operations 35 … 37 of 293: up to the one writing `main_v29`. -/
abbrev seg7 : List (HloOp τ sig (Elt F)) :=
  [ unary main_arg3 main_v27 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v27 main_v28 rfl shapeCasts_S1x64x64_S64x64,
    binary main_arg0 main_v28 main_v29 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
/-- The buffers stretch 7 writes. -/
abbrev w7 : List (Ref sig .tc) := [main_v27, main_v28, main_v29]
theorem seg7_writes : (seg7 : List (HloOp τ sig (Elt F))).Forall fun op => op.writes ⊆ ((w7).map (Proc.devRef (τ := τ) .tc)).toFinset := by
  simp only [seg7, List.Forall, nullary_writes, unary_writes, binary_writes, ternary_writes, reshape_writes,
    Finset.singleton_subset_iff, List.mem_toFinset, List.mem_map]
  repeat' apply And.intro
  all_goals exact ⟨_, by decide, rfl⟩

/-- Operations 38 … 46 of 293: up to the one writing `main_v36`. -/
abbrev seg8 : List (HloOp τ sig (Elt F)) :=
  [ nullary main_c_5 (constantI S_ 32 0#32),
    unary main_c_5 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) ]
/-- The buffers stretch 8 writes. -/
abbrev w8 : List (Ref sig .tc) := [main_c_5, main_v30, main_v31, main_c_6, main_v32, main_v33, main_v34, main_v35, main_v36]
theorem seg8_writes : (seg8 : List (HloOp τ sig (Elt F))).Forall fun op => op.writes ⊆ ((w8).map (Proc.devRef (τ := τ) .tc)).toFinset := by
  simp only [seg8, List.Forall, nullary_writes, unary_writes, binary_writes, ternary_writes, reshape_writes,
    Finset.singleton_subset_iff, List.mem_toFinset, List.mem_map]
  repeat' apply And.intro
  all_goals exact ⟨_, by decide, rfl⟩

/-- Operations 47 … 53 of 293: up to the one writing `main_v42`. -/
abbrev seg9 : List (HloOp τ sig (Elt F)) :=
  [ unary main_v25 main_v37 (broadcastInDim S1600000x1 ![0] bcast_S1600000_S1600000x1_0 : (⟨S1600000, .f32⟩ : BufTy).Contents (Elt F) → (⟨S1600000x1, .f32⟩ : BufTy).Contents (Elt F)),
    unary main_v37 main_v38 (broadcastInDim S1600000x64 ![0, 1] bcast_S1600000x1_S1600000x64_0_1 : (⟨S1600000x1, .f32⟩ : BufTy).Contents (Elt F) → (⟨S1600000x64, .f32⟩ : BufTy).Contents (Elt F)),
    binary main_v36 main_v38 main_v39 (mulf : (⟨S1600000x64, .f32⟩ : BufTy).Contents (Elt F) → (⟨S1600000x64, .f32⟩ : BufTy).Contents (Elt F) → (⟨S1600000x64, .f32⟩ : BufTy).Contents (Elt F)),
    nullary main_cst_7 (constant S_ .f32 0x00000000#32),
    unary main_cst_7 main_v40 (broadcastInDim S100000x64 ![] bcast_S_S100000x64 : (⟨S_, .f32⟩ : BufTy).Contents (Elt F) → (⟨S100000x64, .f32⟩ : BufTy).Contents (Elt F)),
    unary main_v3 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
/-- The buffers stretch 9 writes. -/
abbrev w9 : List (Ref sig .tc) := [main_v37, main_v38, main_v39, main_cst_7, main_v40, main_v41, main_v42]
theorem seg9_writes : (seg9 : List (HloOp τ sig (Elt F))).Forall fun op => op.writes ⊆ ((w9).map (Proc.devRef (τ := τ) .tc)).toFinset := by
  simp only [seg9, List.Forall, nullary_writes, unary_writes, binary_writes, ternary_writes, reshape_writes,
    Finset.singleton_subset_iff, List.mem_toFinset, List.mem_map]
  repeat' apply And.intro
  all_goals exact ⟨_, by decide, rfl⟩

/-- Operations 54 … 62 of 293: up to the one writing `main_v51`. -/
abbrev seg10 : List (HloOp τ sig (Elt F)) :=
  [ unary main_v26 main_v43 (broadcastInDim S100000x1 ![0] bcast_S100000_S100000x1_0 : (⟨S100000, .f32⟩ : BufTy).Contents (Elt F) → (⟨S100000x1, .f32⟩ : BufTy).Contents (Elt F)),
    unary main_v43 main_v44 (broadcastInDim S100000x64 ![0, 1] bcast_S100000x1_S100000x64_0_1 : (⟨S100000x1, .f32⟩ : BufTy).Contents (Elt F) → (⟨S100000x64, .f32⟩ : BufTy).Contents (Elt F)),
    binary main_v29 main_v44 main_v45 (mulf : (⟨S100000x64, .f32⟩ : BufTy).Contents (Elt F) → (⟨S100000x64, .f32⟩ : BufTy).Contents (Elt F) → (⟨S100000x64, .f32⟩ : BufTy).Contents (Elt F)),
    binary main_v42 main_v45 main_v46 (addf : (⟨S100000x64, .f32⟩ : BufTy).Contents (Elt F) → (⟨S100000x64, .f32⟩ : BufTy).Contents (Elt F) → (⟨S100000x64, .f32⟩ : BufTy).Contents (Elt F)),
    unary main_arg4 main_v47 ((extractStridedSlice S1x64 ![0, 0] · slices_S3x64_S1x64_0_0) : (⟨S3x64, .f32⟩ : BufTy).Contents (Elt F) → (⟨S1x64, .f32⟩ : BufTy).Contents (Elt F)),
    reshape main_v47 main_v48 rfl shapeCasts_S1x64_S64,
    unary main_v48 main_v49 (broadcastInDim S1x64 ![1] bcast_S64_S1x64_1 : (⟨S64, .f32⟩ : BufTy).Contents (Elt F) → (⟨S1x64, .f32⟩ : BufTy).Contents (Elt F)),
    unary main_v49 main_v50 (broadcastInDim S100000x64 ![0, 1] bcast_S1x64_S100000x64_0_1 : (⟨S1x64, .f32⟩ : BufTy).Contents (Elt F) → (⟨S100000x64, .f32⟩ : BufTy).Contents (Elt F)),
    binary main_v46 main_v50 main_v51 (addf : (⟨S100000x64, .f32⟩ : BufTy).Contents (Elt F) → (⟨S100000x64, .f32⟩ : BufTy).Contents (Elt F) → (⟨S100000x64, .f32⟩ : BufTy).Contents (Elt F)) ]
/-- The buffers stretch 10 writes. -/
abbrev w10 : List (Ref sig .tc) := [main_v43, main_v44, main_v45, main_v46, main_v47, main_v48, main_v49, main_v50, main_v51]
theorem seg10_writes : (seg10 : List (HloOp τ sig (Elt F))).Forall fun op => op.writes ⊆ ((w10).map (Proc.devRef (τ := τ) .tc)).toFinset := by
  simp only [seg10, List.Forall, nullary_writes, unary_writes, binary_writes, ternary_writes, reshape_writes,
    Finset.singleton_subset_iff, List.mem_toFinset, List.mem_map]
  repeat' apply And.intro
  all_goals exact ⟨_, by decide, rfl⟩

/-- Operations 63 … 67 of 293: up to the one writing `main_v54`. -/
abbrev seg11 : List (HloOp τ sig (Elt F)) :=
  [ nullary main_cst_8 (constant S_ .f32 0x00000000#32),
    binary main_v51 main_cst_8 main_v52 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_9 (constant S_ .f32 0x47C35000#32),
    unary main_cst_9 main_v53 (broadcastInDim S64 ![] bcast_S_S64 : (⟨S_, .f32⟩ : BufTy).Contents (Elt F) → (⟨S64, .f32⟩ : BufTy).Contents (Elt F)),
    binary main_v52 main_v53 main_v54 (Host.divf : (⟨S64, .f32⟩ : BufTy).Contents (Elt F) → (⟨S64, .f32⟩ : BufTy).Contents (Elt F) → (⟨S64, .f32⟩ : BufTy).Contents (Elt F)) ]
/-- The buffers stretch 11 writes. -/
abbrev w11 : List (Ref sig .tc) := [main_cst_8, main_v52, main_cst_9, main_v53, main_v54]
theorem seg11_writes : (seg11 : List (HloOp τ sig (Elt F))).Forall fun op => op.writes ⊆ ((w11).map (Proc.devRef (τ := τ) .tc)).toFinset := by
  simp only [seg11, List.Forall, nullary_writes, unary_writes, binary_writes, ternary_writes, reshape_writes,
    Finset.singleton_subset_iff, List.mem_toFinset, List.mem_map]
  repeat' apply And.intro
  all_goals exact ⟨_, by decide, rfl⟩

/-- Operations 68 … 68 of 293: up to the one writing `main_c_10`. -/
abbrev seg12 : List (HloOp τ sig (Elt F)) :=
  [ nullary main_c_10 (constantI S_ 32 0#32) ]
/-- The buffers stretch 12 writes. -/
abbrev w12 : List (Ref sig .tc) := [main_c_10]
theorem seg12_writes : (seg12 : List (HloOp τ sig (Elt F))).Forall fun op => op.writes ⊆ ((w12).map (Proc.devRef (τ := τ) .tc)).toFinset := by
  simp only [seg12, List.Forall, nullary_writes, unary_writes, binary_writes, ternary_writes, reshape_writes,
    Finset.singleton_subset_iff, List.mem_toFinset, List.mem_map]
  repeat' apply And.intro
  all_goals exact ⟨_, by decide, rfl⟩

/-- Operations 69 … 76 of 293: up to the one writing `main_call0_v5`. -/
abbrev seg13 : List (HloOp τ sig (Elt F)) :=
  [ TRef.nullary main_call0.cst (constant S_ .f32 0x00000000#32),
    TRef.binary (.of main_v51 : TRef sig ⟨S100000x64, .f32⟩) main_call0.cst main_call0.v0 (fun x v => Host.reduceAdd x v reducesTo_S100000x64_S64_d0 h_S_),
    TRef.unary main_call0.v0 main_call0.v1 (broadcastInDim S1x64 ![1] bcast_S64_S1x64_1),
    TRef.nullary main_call0.cst_0 (constant S_ .f32 0x47C35000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S100000x64 ![0, 1] bcast_S1x64_S100000x64_0_1),
    TRef.binary (.of main_v51 : TRef sig ⟨S100000x64, .f32⟩) main_call0.v4 main_call0.v5 subf ]
/-- The buffers stretch 13 writes. -/
abbrev w13 : List (Ref sig .tc) := [main_call0_cst, main_call0_v0, main_call0_v1, main_call0_cst_0, main_call0_v2, main_call0_v3, main_call0_v4, main_call0_v5]
theorem seg13_writes : (seg13 : List (HloOp τ sig (Elt F))).Forall fun op => op.writes ⊆ ((w13).map (Proc.devRef (τ := τ) .tc)).toFinset := by
  simp only [seg13, List.Forall, nullary_writes, unary_writes, binary_writes, ternary_writes, reshape_writes,
    Finset.singleton_subset_iff, List.mem_toFinset, List.mem_map]
  repeat' apply And.intro
  all_goals exact ⟨_, by decide, rfl⟩

/-- Operations 77 … 90 of 293: up to the one writing `main_v55`. -/
abbrev seg14 : List (HloOp τ sig (Elt F)) :=
  [ TRef.binary main_call0.v5 main_call0.v5 main_call0.v6 mulf,
    TRef.unary (.of main_c_10 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]
/-- The buffers stretch 14 writes. -/
abbrev w14 : List (Ref sig .tc) := [main_call0_v6, main_call0_v7, main_call0_cst_1, main_call0_v8, main_call0_cst_2, main_call0_v9, main_call0_v10, main_call0_v11, main_call0_cst_3, main_call0_v12, main_call0_cst_4, main_call0_call0_v0, main_call0_call0_v1, main_v55]
theorem seg14_writes : (seg14 : List (HloOp τ sig (Elt F))).Forall fun op => op.writes ⊆ ((w14).map (Proc.devRef (τ := τ) .tc)).toFinset := by
  simp only [seg14, List.Forall, nullary_writes, unary_writes, binary_writes, ternary_writes, reshape_writes,
    Finset.singleton_subset_iff, List.mem_toFinset, List.mem_map]
  repeat' apply And.intro
  all_goals exact ⟨_, by decide, rfl⟩

/-- Operations 91 … 100 of 293: up to the one writing `main_v64`. -/
abbrev seg15 : List (HloOp τ sig (Elt F)) :=
  [ unary main_v54 main_v56 (broadcastInDim S1x64 ![1] bcast_S64_S1x64_1 : (⟨S64, .f32⟩ : BufTy).Contents (Elt F) → (⟨S1x64, .f32⟩ : BufTy).Contents (Elt F)),
    unary main_v56 main_v57 (broadcastInDim S100000x64 ![0, 1] bcast_S1x64_S100000x64_0_1 : (⟨S1x64, .f32⟩ : BufTy).Contents (Elt F) → (⟨S100000x64, .f32⟩ : BufTy).Contents (Elt F)),
    binary main_v51 main_v57 main_v58 (subf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x3727C5AC#32),
    unary main_cst_11 main_v59 (broadcastInDim S64 ![] bcast_S_S64 : (⟨S_, .f32⟩ : BufTy).Contents (Elt F) → (⟨S64, .f32⟩ : BufTy).Contents (Elt F)),
    binary main_v55 main_v59 main_v60 (addf : (⟨S64, .f32⟩ : BufTy).Contents (Elt F) → (⟨S64, .f32⟩ : BufTy).Contents (Elt F) → (⟨S64, .f32⟩ : BufTy).Contents (Elt F)),
    unary main_v60 main_v61 (Host.rsqrt : (⟨S64, .f32⟩ : BufTy).Contents (Elt F) → (⟨S64, .f32⟩ : BufTy).Contents (Elt F)),
    unary main_v61 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v58 main_v63 main_v64 (mulf : (⟨S100000x64, .f32⟩ : BufTy).Contents (Elt F) → (⟨S100000x64, .f32⟩ : BufTy).Contents (Elt F) → (⟨S100000x64, .f32⟩ : BufTy).Contents (Elt F)) ]
/-- The buffers stretch 15 writes. -/
abbrev w15 : List (Ref sig .tc) := [main_v56, main_v57, main_v58, main_cst_11, main_v59, main_v60, main_v61, main_v62, main_v63, main_v64]
theorem seg15_writes : (seg15 : List (HloOp τ sig (Elt F))).Forall fun op => op.writes ⊆ ((w15).map (Proc.devRef (τ := τ) .tc)).toFinset := by
  simp only [seg15, List.Forall, nullary_writes, unary_writes, binary_writes, ternary_writes, reshape_writes,
    Finset.singleton_subset_iff, List.mem_toFinset, List.mem_map]
  repeat' apply And.intro
  all_goals exact ⟨_, by decide, rfl⟩

/-- Operations 101 … 113 of 293: up to the one writing `main_v75`. -/
abbrev seg16 : List (HloOp τ sig (Elt F)) :=
  [ unary main_arg5 main_v65 ((extractStridedSlice S1x64 ![0, 0] · slices_S3x64_S1x64_0_0) : (⟨S3x64, .f32⟩ : BufTy).Contents (Elt F) → (⟨S1x64, .f32⟩ : BufTy).Contents (Elt F)),
    reshape main_v65 main_v66 rfl shapeCasts_S1x64_S64,
    unary main_v66 main_v67 (broadcastInDim S1x64 ![1] bcast_S64_S1x64_1 : (⟨S64, .f32⟩ : BufTy).Contents (Elt F) → (⟨S1x64, .f32⟩ : BufTy).Contents (Elt F)),
    unary main_v67 main_v68 (broadcastInDim S100000x64 ![0, 1] bcast_S1x64_S100000x64_0_1 : (⟨S1x64, .f32⟩ : BufTy).Contents (Elt F) → (⟨S100000x64, .f32⟩ : BufTy).Contents (Elt F)),
    binary main_v68 main_v64 main_v69 (mulf : (⟨S100000x64, .f32⟩ : BufTy).Contents (Elt F) → (⟨S100000x64, .f32⟩ : BufTy).Contents (Elt F) → (⟨S100000x64, .f32⟩ : BufTy).Contents (Elt F)),
    unary main_arg6 main_v70 ((extractStridedSlice S1x64 ![0, 0] · slices_S3x64_S1x64_0_0) : (⟨S3x64, .f32⟩ : BufTy).Contents (Elt F) → (⟨S1x64, .f32⟩ : BufTy).Contents (Elt F)),
    reshape main_v70 main_v71 rfl shapeCasts_S1x64_S64,
    unary main_v71 main_v72 (broadcastInDim S1x64 ![1] bcast_S64_S1x64_1 : (⟨S64, .f32⟩ : BufTy).Contents (Elt F) → (⟨S1x64, .f32⟩ : BufTy).Contents (Elt F)),
    unary main_v72 main_v73 (broadcastInDim S100000x64 ![0, 1] bcast_S1x64_S100000x64_0_1 : (⟨S1x64, .f32⟩ : BufTy).Contents (Elt F) → (⟨S100000x64, .f32⟩ : BufTy).Contents (Elt F)),
    binary main_v69 main_v73 main_v74 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v74 : TRef sig ⟨S100000x64, .f32⟩) main_call1.v0 main_call1.v1 maximumf ]
/-- The buffers stretch 16 writes. -/
abbrev w16 : List (Ref sig .tc) := [main_v65, main_v66, main_v67, main_v68, main_v69, main_v70, main_v71, main_v72, main_v73, main_v74, main_call1_cst, main_call1_v0, main_v75]
theorem seg16_writes : (seg16 : List (HloOp τ sig (Elt F))).Forall fun op => op.writes ⊆ ((w16).map (Proc.devRef (τ := τ) .tc)).toFinset := by
  simp only [seg16, List.Forall, nullary_writes, unary_writes, binary_writes, ternary_writes, reshape_writes,
    Finset.singleton_subset_iff, List.mem_toFinset, List.mem_map]
  repeat' apply And.intro
  all_goals exact ⟨_, by decide, rfl⟩

/-- Operations 114 … 116 of 293: up to the one writing `main_v78`. -/
abbrev seg17 : List (HloOp τ sig (Elt F)) :=
  [ unary main_arg3 main_v76 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v76 main_v77 rfl shapeCasts_S1x64x64_S64x64,
    binary main_v75 main_v77 main_v78 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
/-- The buffers stretch 17 writes. -/
abbrev w17 : List (Ref sig .tc) := [main_v76, main_v77, main_v78]
theorem seg17_writes : (seg17 : List (HloOp τ sig (Elt F))).Forall fun op => op.writes ⊆ ((w17).map (Proc.devRef (τ := τ) .tc)).toFinset := by
  simp only [seg17, List.Forall, nullary_writes, unary_writes, binary_writes, ternary_writes, reshape_writes,
    Finset.singleton_subset_iff, List.mem_toFinset, List.mem_map]
  repeat' apply And.intro
  all_goals exact ⟨_, by decide, rfl⟩

/-- Operations 117 … 125 of 293: up to the one writing `main_v85`. -/
abbrev seg18 : List (HloOp τ sig (Elt F)) :=
  [ nullary main_c_12 (constantI S_ 32 0#32),
    unary main_c_12 main_v79 (broadcastInDim S1600000 ![] bcast_S_S1600000 : (⟨S_, .i32⟩ : BufTy).Contents (Elt F) → (⟨S1600000, .i32⟩ : BufTy).Contents (Elt F)),
    binary main_v1 main_v79 main_v80 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v81 (broadcastInDim S1600000 ![] bcast_S_S1600000 : (⟨S_, .i32⟩ : BufTy).Contents (Elt F) → (⟨S1600000, .i32⟩ : BufTy).Contents (Elt F)),
    binary main_v1 main_v81 main_v82 (addi : (⟨S1600000, .i32⟩ : BufTy).Contents (Elt F) → (⟨S1600000, .i32⟩ : BufTy).Contents (Elt F) → (⟨S1600000, .i32⟩ : BufTy).Contents (Elt F)),
    ternary main_v80 main_v82 main_v1 main_v83 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v83 main_v84 (broadcastInDim S1600000x1 ![0] bcast_S1600000_S1600000x1_0 : (⟨S1600000, .i32⟩ : BufTy).Contents (Elt F) → (⟨S1600000x1, .i32⟩ : BufTy).Contents (Elt F)),
    binary main_v78 main_v84 main_v85 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) ]
/-- The buffers stretch 18 writes. -/
abbrev w18 : List (Ref sig .tc) := [main_c_12, main_v79, main_v80, main_c_13, main_v81, main_v82, main_v83, main_v84, main_v85]
theorem seg18_writes : (seg18 : List (HloOp τ sig (Elt F))).Forall fun op => op.writes ⊆ ((w18).map (Proc.devRef (τ := τ) .tc)).toFinset := by
  simp only [seg18, List.Forall, nullary_writes, unary_writes, binary_writes, ternary_writes, reshape_writes,
    Finset.singleton_subset_iff, List.mem_toFinset, List.mem_map]
  repeat' apply And.intro
  all_goals exact ⟨_, by decide, rfl⟩

/-- Operations 126 … 132 of 293: up to the one writing `main_v91`. -/
abbrev seg19 : List (HloOp τ sig (Elt F)) :=
  [ unary main_v25 main_v86 (broadcastInDim S1600000x1 ![0] bcast_S1600000_S1600000x1_0 : (⟨S1600000, .f32⟩ : BufTy).Contents (Elt F) → (⟨S1600000x1, .f32⟩ : BufTy).Contents (Elt F)),
    unary main_v86 main_v87 (broadcastInDim S1600000x64 ![0, 1] bcast_S1600000x1_S1600000x64_0_1 : (⟨S1600000x1, .f32⟩ : BufTy).Contents (Elt F) → (⟨S1600000x64, .f32⟩ : BufTy).Contents (Elt F)),
    binary main_v85 main_v87 main_v88 (mulf : (⟨S1600000x64, .f32⟩ : BufTy).Contents (Elt F) → (⟨S1600000x64, .f32⟩ : BufTy).Contents (Elt F) → (⟨S1600000x64, .f32⟩ : BufTy).Contents (Elt F)),
    nullary main_cst_14 (constant S_ .f32 0x00000000#32),
    unary main_cst_14 main_v89 (broadcastInDim S100000x64 ![] bcast_S_S100000x64 : (⟨S_, .f32⟩ : BufTy).Contents (Elt F) → (⟨S100000x64, .f32⟩ : BufTy).Contents (Elt F)),
    unary main_v3 main_v90 (broadcastInDim S1600000x1 ![0] bcast_S1600000_S1600000x1_0 : (⟨S1600000, .i32⟩ : BufTy).Contents (Elt F) → (⟨S1600000x1, .i32⟩ : BufTy).Contents (Elt F)),
    ternary main_v89 main_v90 main_v88 main_v91 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
/-- The buffers stretch 19 writes. -/
abbrev w19 : List (Ref sig .tc) := [main_v86, main_v87, main_v88, main_cst_14, main_v89, main_v90, main_v91]
theorem seg19_writes : (seg19 : List (HloOp τ sig (Elt F))).Forall fun op => op.writes ⊆ ((w19).map (Proc.devRef (τ := τ) .tc)).toFinset := by
  simp only [seg19, List.Forall, nullary_writes, unary_writes, binary_writes, ternary_writes, reshape_writes,
    Finset.singleton_subset_iff, List.mem_toFinset, List.mem_map]
  repeat' apply And.intro
  all_goals exact ⟨_, by decide, rfl⟩

/-- Operations 133 … 141 of 293: up to the one writing `main_v100`. -/
abbrev seg20 : List (HloOp τ sig (Elt F)) :=
  [ unary main_v26 main_v92 (broadcastInDim S100000x1 ![0] bcast_S100000_S100000x1_0 : (⟨S100000, .f32⟩ : BufTy).Contents (Elt F) → (⟨S100000x1, .f32⟩ : BufTy).Contents (Elt F)),
    unary main_v92 main_v93 (broadcastInDim S100000x64 ![0, 1] bcast_S100000x1_S100000x64_0_1 : (⟨S100000x1, .f32⟩ : BufTy).Contents (Elt F) → (⟨S100000x64, .f32⟩ : BufTy).Contents (Elt F)),
    binary main_v78 main_v93 main_v94 (mulf : (⟨S100000x64, .f32⟩ : BufTy).Contents (Elt F) → (⟨S100000x64, .f32⟩ : BufTy).Contents (Elt F) → (⟨S100000x64, .f32⟩ : BufTy).Contents (Elt F)),
    binary main_v91 main_v94 main_v95 (addf : (⟨S100000x64, .f32⟩ : BufTy).Contents (Elt F) → (⟨S100000x64, .f32⟩ : BufTy).Contents (Elt F) → (⟨S100000x64, .f32⟩ : BufTy).Contents (Elt F)),
    unary main_arg4 main_v96 ((extractStridedSlice S1x64 ![1, 0] · slices_S3x64_S1x64_1_0) : (⟨S3x64, .f32⟩ : BufTy).Contents (Elt F) → (⟨S1x64, .f32⟩ : BufTy).Contents (Elt F)),
    reshape main_v96 main_v97 rfl shapeCasts_S1x64_S64,
    unary main_v97 main_v98 (broadcastInDim S1x64 ![1] bcast_S64_S1x64_1 : (⟨S64, .f32⟩ : BufTy).Contents (Elt F) → (⟨S1x64, .f32⟩ : BufTy).Contents (Elt F)),
    unary main_v98 main_v99 (broadcastInDim S100000x64 ![0, 1] bcast_S1x64_S100000x64_0_1 : (⟨S1x64, .f32⟩ : BufTy).Contents (Elt F) → (⟨S100000x64, .f32⟩ : BufTy).Contents (Elt F)),
    binary main_v95 main_v99 main_v100 (addf : (⟨S100000x64, .f32⟩ : BufTy).Contents (Elt F) → (⟨S100000x64, .f32⟩ : BufTy).Contents (Elt F) → (⟨S100000x64, .f32⟩ : BufTy).Contents (Elt F)) ]
/-- The buffers stretch 20 writes. -/
abbrev w20 : List (Ref sig .tc) := [main_v92, main_v93, main_v94, main_v95, main_v96, main_v97, main_v98, main_v99, main_v100]
theorem seg20_writes : (seg20 : List (HloOp τ sig (Elt F))).Forall fun op => op.writes ⊆ ((w20).map (Proc.devRef (τ := τ) .tc)).toFinset := by
  simp only [seg20, List.Forall, nullary_writes, unary_writes, binary_writes, ternary_writes, reshape_writes,
    Finset.singleton_subset_iff, List.mem_toFinset, List.mem_map]
  repeat' apply And.intro
  all_goals exact ⟨_, by decide, rfl⟩

/-- Operations 142 … 146 of 293: up to the one writing `main_v103`. -/
abbrev seg21 : List (HloOp τ sig (Elt F)) :=
  [ nullary main_cst_15 (constant S_ .f32 0x00000000#32),
    binary main_v100 main_cst_15 main_v101 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_16 (constant S_ .f32 0x47C35000#32),
    unary main_cst_16 main_v102 (broadcastInDim S64 ![] bcast_S_S64 : (⟨S_, .f32⟩ : BufTy).Contents (Elt F) → (⟨S64, .f32⟩ : BufTy).Contents (Elt F)),
    binary main_v101 main_v102 main_v103 (Host.divf : (⟨S64, .f32⟩ : BufTy).Contents (Elt F) → (⟨S64, .f32⟩ : BufTy).Contents (Elt F) → (⟨S64, .f32⟩ : BufTy).Contents (Elt F)) ]
/-- The buffers stretch 21 writes. -/
abbrev w21 : List (Ref sig .tc) := [main_cst_15, main_v101, main_cst_16, main_v102, main_v103]
theorem seg21_writes : (seg21 : List (HloOp τ sig (Elt F))).Forall fun op => op.writes ⊆ ((w21).map (Proc.devRef (τ := τ) .tc)).toFinset := by
  simp only [seg21, List.Forall, nullary_writes, unary_writes, binary_writes, ternary_writes, reshape_writes,
    Finset.singleton_subset_iff, List.mem_toFinset, List.mem_map]
  repeat' apply And.intro
  all_goals exact ⟨_, by decide, rfl⟩

/-- Operations 147 … 147 of 293: up to the one writing `main_c_17`. -/
abbrev seg22 : List (HloOp τ sig (Elt F)) :=
  [ nullary main_c_17 (constantI S_ 32 0#32) ]
/-- The buffers stretch 22 writes. -/
abbrev w22 : List (Ref sig .tc) := [main_c_17]
theorem seg22_writes : (seg22 : List (HloOp τ sig (Elt F))).Forall fun op => op.writes ⊆ ((w22).map (Proc.devRef (τ := τ) .tc)).toFinset := by
  simp only [seg22, List.Forall, nullary_writes, unary_writes, binary_writes, ternary_writes, reshape_writes,
    Finset.singleton_subset_iff, List.mem_toFinset, List.mem_map]
  repeat' apply And.intro
  all_goals exact ⟨_, by decide, rfl⟩

/-- Operations 148 … 155 of 293: up to the one writing `main_call2_v5`. -/
abbrev seg23 : List (HloOp τ sig (Elt F)) :=
  [ TRef.nullary main_call2.cst (constant S_ .f32 0x00000000#32),
    TRef.binary (.of main_v100 : TRef sig ⟨S100000x64, .f32⟩) main_call2.cst main_call2.v0 (fun x v => Host.reduceAdd x v reducesTo_S100000x64_S64_d0 h_S_),
    TRef.unary main_call2.v0 main_call2.v1 (broadcastInDim S1x64 ![1] bcast_S64_S1x64_1),
    TRef.nullary main_call2.cst_0 (constant S_ .f32 0x47C35000#32),
    TRef.unary main_call2.cst_0 main_call2.v2 (broadcastInDim S1x64 ![] bcast_S_S1x64),
    TRef.binary main_call2.v1 main_call2.v2 main_call2.v3 Host.divf,
    TRef.unary main_call2.v3 main_call2.v4 (broadcastInDim S100000x64 ![0, 1] bcast_S1x64_S100000x64_0_1),
    TRef.binary (.of main_v100 : TRef sig ⟨S100000x64, .f32⟩) main_call2.v4 main_call2.v5 subf ]
/-- The buffers stretch 23 writes. -/
abbrev w23 : List (Ref sig .tc) := [main_call2_cst, main_call2_v0, main_call2_v1, main_call2_cst_0, main_call2_v2, main_call2_v3, main_call2_v4, main_call2_v5]
theorem seg23_writes : (seg23 : List (HloOp τ sig (Elt F))).Forall fun op => op.writes ⊆ ((w23).map (Proc.devRef (τ := τ) .tc)).toFinset := by
  simp only [seg23, List.Forall, nullary_writes, unary_writes, binary_writes, ternary_writes, reshape_writes,
    Finset.singleton_subset_iff, List.mem_toFinset, List.mem_map]
  repeat' apply And.intro
  all_goals exact ⟨_, by decide, rfl⟩

/-- Operations 156 … 169 of 293: up to the one writing `main_v104`. -/
abbrev seg24 : List (HloOp τ sig (Elt F)) :=
  [ TRef.binary main_call2.v5 main_call2.v5 main_call2.v6 mulf,
    TRef.unary (.of main_c_17 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x64_S64_d0 h_S_),
    TRef.unary main_call2.v8 main_call2.v10 (broadcastInDim S64 ![] bcast_S_S64),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S64 ![] bcast_S_S64),
    TRef.ternary main_call2.v12 main_call2.v11 main_call2.call0.v1 main_call2.call0.v2 (fun p a b => select (broadcastInDim S64 ![] bcast_S_S64 p) a b) ]
/-- The buffers stretch 24 writes. -/
abbrev w24 : List (Ref sig .tc) := [main_call2_v6, main_call2_v7, main_call2_cst_1, main_call2_v8, main_call2_cst_2, main_call2_v9, main_call2_v10, main_call2_v11, main_call2_cst_3, main_call2_v12, main_call2_cst_4, main_call2_call0_v0, main_call2_call0_v1, main_v104]
theorem seg24_writes : (seg24 : List (HloOp τ sig (Elt F))).Forall fun op => op.writes ⊆ ((w24).map (Proc.devRef (τ := τ) .tc)).toFinset := by
  simp only [seg24, List.Forall, nullary_writes, unary_writes, binary_writes, ternary_writes, reshape_writes,
    Finset.singleton_subset_iff, List.mem_toFinset, List.mem_map]
  repeat' apply And.intro
  all_goals exact ⟨_, by decide, rfl⟩

/-- Operations 170 … 179 of 293: up to the one writing `main_v113`. -/
abbrev seg25 : List (HloOp τ sig (Elt F)) :=
  [ unary main_v103 main_v105 (broadcastInDim S1x64 ![1] bcast_S64_S1x64_1 : (⟨S64, .f32⟩ : BufTy).Contents (Elt F) → (⟨S1x64, .f32⟩ : BufTy).Contents (Elt F)),
    unary main_v105 main_v106 (broadcastInDim S100000x64 ![0, 1] bcast_S1x64_S100000x64_0_1 : (⟨S1x64, .f32⟩ : BufTy).Contents (Elt F) → (⟨S100000x64, .f32⟩ : BufTy).Contents (Elt F)),
    binary main_v100 main_v106 main_v107 (subf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3727C5AC#32),
    unary main_cst_18 main_v108 (broadcastInDim S64 ![] bcast_S_S64 : (⟨S_, .f32⟩ : BufTy).Contents (Elt F) → (⟨S64, .f32⟩ : BufTy).Contents (Elt F)),
    binary main_v104 main_v108 main_v109 (addf : (⟨S64, .f32⟩ : BufTy).Contents (Elt F) → (⟨S64, .f32⟩ : BufTy).Contents (Elt F) → (⟨S64, .f32⟩ : BufTy).Contents (Elt F)),
    unary main_v109 main_v110 (Host.rsqrt : (⟨S64, .f32⟩ : BufTy).Contents (Elt F) → (⟨S64, .f32⟩ : BufTy).Contents (Elt F)),
    unary main_v110 main_v111 (broadcastInDim S1x64 ![1] bcast_S64_S1x64_1 : (⟨S64, .f32⟩ : BufTy).Contents (Elt F) → (⟨S1x64, .f32⟩ : BufTy).Contents (Elt F)),
    unary main_v111 main_v112 (broadcastInDim S100000x64 ![0, 1] bcast_S1x64_S100000x64_0_1 : (⟨S1x64, .f32⟩ : BufTy).Contents (Elt F) → (⟨S100000x64, .f32⟩ : BufTy).Contents (Elt F)),
    binary main_v107 main_v112 main_v113 (mulf : (⟨S100000x64, .f32⟩ : BufTy).Contents (Elt F) → (⟨S100000x64, .f32⟩ : BufTy).Contents (Elt F) → (⟨S100000x64, .f32⟩ : BufTy).Contents (Elt F)) ]
/-- The buffers stretch 25 writes. -/
abbrev w25 : List (Ref sig .tc) := [main_v105, main_v106, main_v107, main_cst_18, main_v108, main_v109, main_v110, main_v111, main_v112, main_v113]
theorem seg25_writes : (seg25 : List (HloOp τ sig (Elt F))).Forall fun op => op.writes ⊆ ((w25).map (Proc.devRef (τ := τ) .tc)).toFinset := by
  simp only [seg25, List.Forall, nullary_writes, unary_writes, binary_writes, ternary_writes, reshape_writes,
    Finset.singleton_subset_iff, List.mem_toFinset, List.mem_map]
  repeat' apply And.intro
  all_goals exact ⟨_, by decide, rfl⟩

/-- Operations 180 … 192 of 293: up to the one writing `main_v124`. -/
abbrev seg26 : List (HloOp τ sig (Elt F)) :=
  [ unary main_arg5 main_v114 ((extractStridedSlice S1x64 ![1, 0] · slices_S3x64_S1x64_1_0) : (⟨S3x64, .f32⟩ : BufTy).Contents (Elt F) → (⟨S1x64, .f32⟩ : BufTy).Contents (Elt F)),
    reshape main_v114 main_v115 rfl shapeCasts_S1x64_S64,
    unary main_v115 main_v116 (broadcastInDim S1x64 ![1] bcast_S64_S1x64_1 : (⟨S64, .f32⟩ : BufTy).Contents (Elt F) → (⟨S1x64, .f32⟩ : BufTy).Contents (Elt F)),
    unary main_v116 main_v117 (broadcastInDim S100000x64 ![0, 1] bcast_S1x64_S100000x64_0_1 : (⟨S1x64, .f32⟩ : BufTy).Contents (Elt F) → (⟨S100000x64, .f32⟩ : BufTy).Contents (Elt F)),
    binary main_v117 main_v113 main_v118 (mulf : (⟨S100000x64, .f32⟩ : BufTy).Contents (Elt F) → (⟨S100000x64, .f32⟩ : BufTy).Contents (Elt F) → (⟨S100000x64, .f32⟩ : BufTy).Contents (Elt F)),
    unary main_arg6 main_v119 ((extractStridedSlice S1x64 ![1, 0] · slices_S3x64_S1x64_1_0) : (⟨S3x64, .f32⟩ : BufTy).Contents (Elt F) → (⟨S1x64, .f32⟩ : BufTy).Contents (Elt F)),
    reshape main_v119 main_v120 rfl shapeCasts_S1x64_S64,
    unary main_v120 main_v121 (broadcastInDim S1x64 ![1] bcast_S64_S1x64_1 : (⟨S64, .f32⟩ : BufTy).Contents (Elt F) → (⟨S1x64, .f32⟩ : BufTy).Contents (Elt F)),
    unary main_v121 main_v122 (broadcastInDim S100000x64 ![0, 1] bcast_S1x64_S100000x64_0_1 : (⟨S1x64, .f32⟩ : BufTy).Contents (Elt F) → (⟨S100000x64, .f32⟩ : BufTy).Contents (Elt F)),
    binary main_v118 main_v122 main_v123 (addf : (⟨S100000x64, .f32⟩ : BufTy).Contents (Elt F) → (⟨S100000x64, .f32⟩ : BufTy).Contents (Elt F) → (⟨S100000x64, .f32⟩ : BufTy).Contents (Elt F)),
    TRef.nullary main_call3.cst (constant S_ .f32 0x00000000#32),
    TRef.unary main_call3.cst main_call3.v0 (broadcastInDim S100000x64 ![] bcast_S_S100000x64),
    TRef.binary (.of main_v123 : TRef sig ⟨S100000x64, .f32⟩) main_call3.v0 main_call3.v1 maximumf ]
/-- The buffers stretch 26 writes. -/
abbrev w26 : List (Ref sig .tc) := [main_v114, main_v115, main_v116, main_v117, main_v118, main_v119, main_v120, main_v121, main_v122, main_v123, main_call3_cst, main_call3_v0, main_v124]
theorem seg26_writes : (seg26 : List (HloOp τ sig (Elt F))).Forall fun op => op.writes ⊆ ((w26).map (Proc.devRef (τ := τ) .tc)).toFinset := by
  simp only [seg26, List.Forall, nullary_writes, unary_writes, binary_writes, ternary_writes, reshape_writes,
    Finset.singleton_subset_iff, List.mem_toFinset, List.mem_map]
  repeat' apply And.intro
  all_goals exact ⟨_, by decide, rfl⟩

/-- Operations 193 … 195 of 293: up to the one writing `main_v127`. -/
abbrev seg27 : List (HloOp τ sig (Elt F)) :=
  [ unary main_arg3 main_v125 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v125 main_v126 rfl shapeCasts_S1x64x64_S64x64,
    binary main_v124 main_v126 main_v127 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]
/-- The buffers stretch 27 writes. -/
abbrev w27 : List (Ref sig .tc) := [main_v125, main_v126, main_v127]
theorem seg27_writes : (seg27 : List (HloOp τ sig (Elt F))).Forall fun op => op.writes ⊆ ((w27).map (Proc.devRef (τ := τ) .tc)).toFinset := by
  simp only [seg27, List.Forall, nullary_writes, unary_writes, binary_writes, ternary_writes, reshape_writes,
    Finset.singleton_subset_iff, List.mem_toFinset, List.mem_map]
  repeat' apply And.intro
  all_goals exact ⟨_, by decide, rfl⟩

/-- Operations 196 … 204 of 293: up to the one writing `main_v134`. -/
abbrev seg28 : List (HloOp τ sig (Elt F)) :=
  [ nullary main_c_19 (constantI S_ 32 0#32),
    unary main_c_19 main_v128 (broadcastInDim S1600000 ![] bcast_S_S1600000 : (⟨S_, .i32⟩ : BufTy).Contents (Elt F) → (⟨S1600000, .i32⟩ : BufTy).Contents (Elt F)),
    binary main_v1 main_v128 main_v129 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v130 (broadcastInDim S1600000 ![] bcast_S_S1600000 : (⟨S_, .i32⟩ : BufTy).Contents (Elt F) → (⟨S1600000, .i32⟩ : BufTy).Contents (Elt F)),
    binary main_v1 main_v130 main_v131 (addi : (⟨S1600000, .i32⟩ : BufTy).Contents (Elt F) → (⟨S1600000, .i32⟩ : BufTy).Contents (Elt F) → (⟨S1600000, .i32⟩ : BufTy).Contents (Elt F)),
    ternary main_v129 main_v131 main_v1 main_v132 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v132 main_v133 (broadcastInDim S1600000x1 ![0] bcast_S1600000_S1600000x1_0 : (⟨S1600000, .i32⟩ : BufTy).Contents (Elt F) → (⟨S1600000x1, .i32⟩ : BufTy).Contents (Elt F)),
    binary main_v127 main_v133 main_v134 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)) ]
/-- The buffers stretch 28 writes. -/
abbrev w28 : List (Ref sig .tc) := [main_c_19, main_v128, main_v129, main_c_20, main_v130, main_v131, main_v132, main_v133, main_v134]
theorem seg28_writes : (seg28 : List (HloOp τ sig (Elt F))).Forall fun op => op.writes ⊆ ((w28).map (Proc.devRef (τ := τ) .tc)).toFinset := by
  simp only [seg28, List.Forall, nullary_writes, unary_writes, binary_writes, ternary_writes, reshape_writes,
    Finset.singleton_subset_iff, List.mem_toFinset, List.mem_map]
  repeat' apply And.intro
  all_goals exact ⟨_, by decide, rfl⟩

/-- Operations 205 … 211 of 293: up to the one writing `main_v140`. -/
abbrev seg29 : List (HloOp τ sig (Elt F)) :=
  [ unary main_v25 main_v135 (broadcastInDim S1600000x1 ![0] bcast_S1600000_S1600000x1_0 : (⟨S1600000, .f32⟩ : BufTy).Contents (Elt F) → (⟨S1600000x1, .f32⟩ : BufTy).Contents (Elt F)),
    unary main_v135 main_v136 (broadcastInDim S1600000x64 ![0, 1] bcast_S1600000x1_S1600000x64_0_1 : (⟨S1600000x1, .f32⟩ : BufTy).Contents (Elt F) → (⟨S1600000x64, .f32⟩ : BufTy).Contents (Elt F)),
    binary main_v134 main_v136 main_v137 (mulf : (⟨S1600000x64, .f32⟩ : BufTy).Contents (Elt F) → (⟨S1600000x64, .f32⟩ : BufTy).Contents (Elt F) → (⟨S1600000x64, .f32⟩ : BufTy).Contents (Elt F)),
    nullary main_cst_21 (constant S_ .f32 0x00000000#32),
    unary main_cst_21 main_v138 (broadcastInDim S100000x64 ![] bcast_S_S100000x64 : (⟨S_, .f32⟩ : BufTy).Contents (Elt F) → (⟨S100000x64, .f32⟩ : BufTy).Contents (Elt F)),
    unary main_v3 main_v139 (broadcastInDim S1600000x1 ![0] bcast_S1600000_S1600000x1_0 : (⟨S1600000, .i32⟩ : BufTy).Contents (Elt F) → (⟨S1600000x1, .i32⟩ : BufTy).Contents (Elt F)),
    ternary main_v138 main_v139 main_v137 main_v140 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]
/-- The buffers stretch 29 writes. -/
abbrev w29 : List (Ref sig .tc) := [main_v135, main_v136, main_v137, main_cst_21, main_v138, main_v139, main_v140]
theorem seg29_writes : (seg29 : List (HloOp τ sig (Elt F))).Forall fun op => op.writes ⊆ ((w29).map (Proc.devRef (τ := τ) .tc)).toFinset := by
  simp only [seg29, List.Forall, nullary_writes, unary_writes, binary_writes, ternary_writes, reshape_writes,
    Finset.singleton_subset_iff, List.mem_toFinset, List.mem_map]
  repeat' apply And.intro
  all_goals exact ⟨_, by decide, rfl⟩

/-- Operations 212 … 220 of 293: up to the one writing `main_v149`. -/
abbrev seg30 : List (HloOp τ sig (Elt F)) :=
  [ unary main_v26 main_v141 (broadcastInDim S100000x1 ![0] bcast_S100000_S100000x1_0 : (⟨S100000, .f32⟩ : BufTy).Contents (Elt F) → (⟨S100000x1, .f32⟩ : BufTy).Contents (Elt F)),
    unary main_v141 main_v142 (broadcastInDim S100000x64 ![0, 1] bcast_S100000x1_S100000x64_0_1 : (⟨S100000x1, .f32⟩ : BufTy).Contents (Elt F) → (⟨S100000x64, .f32⟩ : BufTy).Contents (Elt F)),
    binary main_v127 main_v142 main_v143 (mulf : (⟨S100000x64, .f32⟩ : BufTy).Contents (Elt F) → (⟨S100000x64, .f32⟩ : BufTy).Contents (Elt F) → (⟨S100000x64, .f32⟩ : BufTy).Contents (Elt F)),
    binary main_v140 main_v143 main_v144 (addf : (⟨S100000x64, .f32⟩ : BufTy).Contents (Elt F) → (⟨S100000x64, .f32⟩ : BufTy).Contents (Elt F) → (⟨S100000x64, .f32⟩ : BufTy).Contents (Elt F)),
    unary main_arg4 main_v145 ((extractStridedSlice S1x64 ![2, 0] · slices_S3x64_S1x64_2_0) : (⟨S3x64, .f32⟩ : BufTy).Contents (Elt F) → (⟨S1x64, .f32⟩ : BufTy).Contents (Elt F)),
    reshape main_v145 main_v146 rfl shapeCasts_S1x64_S64,
    unary main_v146 main_v147 (broadcastInDim S1x64 ![1] bcast_S64_S1x64_1 : (⟨S64, .f32⟩ : BufTy).Contents (Elt F) → (⟨S1x64, .f32⟩ : BufTy).Contents (Elt F)),
    unary main_v147 main_v148 (broadcastInDim S100000x64 ![0, 1] bcast_S1x64_S100000x64_0_1 : (⟨S1x64, .f32⟩ : BufTy).Contents (Elt F) → (⟨S100000x64, .f32⟩ : BufTy).Contents (Elt F)),
    binary main_v144 main_v148 main_v149 (addf : (⟨S100000x64, .f32⟩ : BufTy).Contents (Elt F) → (⟨S100000x64, .f32⟩ : BufTy).Contents (Elt F) → (⟨S100000x64, .f32⟩ : BufTy).Contents (Elt F)) ]
/-- The buffers stretch 30 writes. -/
abbrev w30 : List (Ref sig .tc) := [main_v141, main_v142, main_v143, main_v144, main_v145, main_v146, main_v147, main_v148, main_v149]
theorem seg30_writes : (seg30 : List (HloOp τ sig (Elt F))).Forall fun op => op.writes ⊆ ((w30).map (Proc.devRef (τ := τ) .tc)).toFinset := by
  simp only [seg30, List.Forall, nullary_writes, unary_writes, binary_writes, ternary_writes, reshape_writes,
    Finset.singleton_subset_iff, List.mem_toFinset, List.mem_map]
  repeat' apply And.intro
  all_goals exact ⟨_, by decide, rfl⟩

/-- Operations 221 … 225 of 293: up to the one writing `main_v152`. -/
abbrev seg31 : List (HloOp τ sig (Elt F)) :=
  [ nullary main_cst_22 (constant S_ .f32 0x00000000#32),
    binary main_v149 main_cst_22 main_v150 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_23 (constant S_ .f32 0x47C35000#32),
    unary main_cst_23 main_v151 (broadcastInDim S64 ![] bcast_S_S64 : (⟨S_, .f32⟩ : BufTy).Contents (Elt F) → (⟨S64, .f32⟩ : BufTy).Contents (Elt F)),
    binary main_v150 main_v151 main_v152 (Host.divf : (⟨S64, .f32⟩ : BufTy).Contents (Elt F) → (⟨S64, .f32⟩ : BufTy).Contents (Elt F) → (⟨S64, .f32⟩ : BufTy).Contents (Elt F)) ]
/-- The buffers stretch 31 writes. -/
abbrev w31 : List (Ref sig .tc) := [main_cst_22, main_v150, main_cst_23, main_v151, main_v152]
theorem seg31_writes : (seg31 : List (HloOp τ sig (Elt F))).Forall fun op => op.writes ⊆ ((w31).map (Proc.devRef (τ := τ) .tc)).toFinset := by
  simp only [seg31, List.Forall, nullary_writes, unary_writes, binary_writes, ternary_writes, reshape_writes,
    Finset.singleton_subset_iff, List.mem_toFinset, List.mem_map]
  repeat' apply And.intro
  all_goals exact ⟨_, by decide, rfl⟩

/-- Operations 226 … 226 of 293: up to the one writing `main_c_24`. -/
abbrev seg32 : List (HloOp τ sig (Elt F)) :=
  [ nullary main_c_24 (constantI S_ 32 0#32) ]
/-- The buffers stretch 32 writes. -/
abbrev w32 : List (Ref sig .tc) := [main_c_24]
theorem seg32_writes : (seg32 : List (HloOp τ sig (Elt F))).Forall fun op => op.writes ⊆ ((w32).map (Proc.devRef (τ := τ) .tc)).toFinset := by
  simp only [seg32, List.Forall, nullary_writes, unary_writes, binary_writes, ternary_writes, reshape_writes,
    Finset.singleton_subset_iff, List.mem_toFinset, List.mem_map]
  repeat' apply And.intro
  all_goals exact ⟨_, by decide, rfl⟩

/-- Operations 227 … 234 of 293: up to the one writing `main_call4_v5`. -/
abbrev seg33 : List (HloOp τ sig (Elt F)) :=
  [ TRef.nullary main_call4.cst (constant S_ .f32 0x00000000#32),
    TRef.binary (.of main_v149 : TRef sig ⟨S100000x64, .f32⟩) main_call4.cst main_call4.v0 (fun x v => Host.reduceAdd x v reducesTo_S100000x64_S64_d0 h_S_),
    TRef.unary main_call4.v0 main_call4.v1 (broadcastInDim S1x64 ![1] bcast_S64_S1x64_1),
    TRef.nullary main_call4.cst_0 (constant S_ .f32 0x47C35000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S100000x64 ![0, 1] bcast_S1x64_S100000x64_0_1),
    TRef.binary (.of main_v149 : TRef sig ⟨S100000x64, .f32⟩) main_call4.v4 main_call4.v5 subf ]
/-- The buffers stretch 33 writes. -/
abbrev w33 : List (Ref sig .tc) := [main_call4_cst, main_call4_v0, main_call4_v1, main_call4_cst_0, main_call4_v2, main_call4_v3, main_call4_v4, main_call4_v5]
theorem seg33_writes : (seg33 : List (HloOp τ sig (Elt F))).Forall fun op => op.writes ⊆ ((w33).map (Proc.devRef (τ := τ) .tc)).toFinset := by
  simp only [seg33, List.Forall, nullary_writes, unary_writes, binary_writes, ternary_writes, reshape_writes,
    Finset.singleton_subset_iff, List.mem_toFinset, List.mem_map]
  repeat' apply And.intro
  all_goals exact ⟨_, by decide, rfl⟩

/-- Operations 235 … 248 of 293: up to the one writing `main_v153`. -/
abbrev seg34 : List (HloOp τ sig (Elt F)) :=
  [ TRef.binary main_call4.v5 main_call4.v5 main_call4.v6 mulf,
    TRef.unary (.of main_c_24 : TRef sig ⟨S_, .i32⟩) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b) ]
/-- The buffers stretch 34 writes. -/
abbrev w34 : List (Ref sig .tc) := [main_call4_v6, main_call4_v7, main_call4_cst_1, main_call4_v8, main_call4_cst_2, main_call4_v9, main_call4_v10, main_call4_v11, main_call4_cst_3, main_call4_v12, main_call4_cst_4, main_call4_call0_v0, main_call4_call0_v1, main_v153]
theorem seg34_writes : (seg34 : List (HloOp τ sig (Elt F))).Forall fun op => op.writes ⊆ ((w34).map (Proc.devRef (τ := τ) .tc)).toFinset := by
  simp only [seg34, List.Forall, nullary_writes, unary_writes, binary_writes, ternary_writes, reshape_writes,
    Finset.singleton_subset_iff, List.mem_toFinset, List.mem_map]
  repeat' apply And.intro
  all_goals exact ⟨_, by decide, rfl⟩

/-- Operations 249 … 258 of 293: up to the one writing `main_v162`. -/
abbrev seg35 : List (HloOp τ sig (Elt F)) :=
  [ unary main_v152 main_v154 (broadcastInDim S1x64 ![1] bcast_S64_S1x64_1 : (⟨S64, .f32⟩ : BufTy).Contents (Elt F) → (⟨S1x64, .f32⟩ : BufTy).Contents (Elt F)),
    unary main_v154 main_v155 (broadcastInDim S100000x64 ![0, 1] bcast_S1x64_S100000x64_0_1 : (⟨S1x64, .f32⟩ : BufTy).Contents (Elt F) → (⟨S100000x64, .f32⟩ : BufTy).Contents (Elt F)),
    binary main_v149 main_v155 main_v156 (subf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x3727C5AC#32),
    unary main_cst_25 main_v157 (broadcastInDim S64 ![] bcast_S_S64 : (⟨S_, .f32⟩ : BufTy).Contents (Elt F) → (⟨S64, .f32⟩ : BufTy).Contents (Elt F)),
    binary main_v153 main_v157 main_v158 (addf : (⟨S64, .f32⟩ : BufTy).Contents (Elt F) → (⟨S64, .f32⟩ : BufTy).Contents (Elt F) → (⟨S64, .f32⟩ : BufTy).Contents (Elt F)),
    unary main_v158 main_v159 (Host.rsqrt : (⟨S64, .f32⟩ : BufTy).Contents (Elt F) → (⟨S64, .f32⟩ : BufTy).Contents (Elt F)),
    unary main_v159 main_v160 (broadcastInDim S1x64 ![1] bcast_S64_S1x64_1 : (⟨S64, .f32⟩ : BufTy).Contents (Elt F) → (⟨S1x64, .f32⟩ : BufTy).Contents (Elt F)),
    unary main_v160 main_v161 (broadcastInDim S100000x64 ![0, 1] bcast_S1x64_S100000x64_0_1 : (⟨S1x64, .f32⟩ : BufTy).Contents (Elt F) → (⟨S100000x64, .f32⟩ : BufTy).Contents (Elt F)),
    binary main_v156 main_v161 main_v162 (mulf : (⟨S100000x64, .f32⟩ : BufTy).Contents (Elt F) → (⟨S100000x64, .f32⟩ : BufTy).Contents (Elt F) → (⟨S100000x64, .f32⟩ : BufTy).Contents (Elt F)) ]
/-- The buffers stretch 35 writes. -/
abbrev w35 : List (Ref sig .tc) := [main_v154, main_v155, main_v156, main_cst_25, main_v157, main_v158, main_v159, main_v160, main_v161, main_v162]
theorem seg35_writes : (seg35 : List (HloOp τ sig (Elt F))).Forall fun op => op.writes ⊆ ((w35).map (Proc.devRef (τ := τ) .tc)).toFinset := by
  simp only [seg35, List.Forall, nullary_writes, unary_writes, binary_writes, ternary_writes, reshape_writes,
    Finset.singleton_subset_iff, List.mem_toFinset, List.mem_map]
  repeat' apply And.intro
  all_goals exact ⟨_, by decide, rfl⟩

/-- Operations 259 … 271 of 293: up to the one writing `main_v173`. -/
abbrev seg36 : List (HloOp τ sig (Elt F)) :=
  [ unary main_arg5 main_v163 ((extractStridedSlice S1x64 ![2, 0] · slices_S3x64_S1x64_2_0) : (⟨S3x64, .f32⟩ : BufTy).Contents (Elt F) → (⟨S1x64, .f32⟩ : BufTy).Contents (Elt F)),
    reshape main_v163 main_v164 rfl shapeCasts_S1x64_S64,
    unary main_v164 main_v165 (broadcastInDim S1x64 ![1] bcast_S64_S1x64_1 : (⟨S64, .f32⟩ : BufTy).Contents (Elt F) → (⟨S1x64, .f32⟩ : BufTy).Contents (Elt F)),
    unary main_v165 main_v166 (broadcastInDim S100000x64 ![0, 1] bcast_S1x64_S100000x64_0_1 : (⟨S1x64, .f32⟩ : BufTy).Contents (Elt F) → (⟨S100000x64, .f32⟩ : BufTy).Contents (Elt F)),
    binary main_v166 main_v162 main_v167 (mulf : (⟨S100000x64, .f32⟩ : BufTy).Contents (Elt F) → (⟨S100000x64, .f32⟩ : BufTy).Contents (Elt F) → (⟨S100000x64, .f32⟩ : BufTy).Contents (Elt F)),
    unary main_arg6 main_v168 ((extractStridedSlice S1x64 ![2, 0] · slices_S3x64_S1x64_2_0) : (⟨S3x64, .f32⟩ : BufTy).Contents (Elt F) → (⟨S1x64, .f32⟩ : BufTy).Contents (Elt F)),
    reshape main_v168 main_v169 rfl shapeCasts_S1x64_S64,
    unary main_v169 main_v170 (broadcastInDim S1x64 ![1] bcast_S64_S1x64_1 : (⟨S64, .f32⟩ : BufTy).Contents (Elt F) → (⟨S1x64, .f32⟩ : BufTy).Contents (Elt F)),
    unary main_v170 main_v171 (broadcastInDim S100000x64 ![0, 1] bcast_S1x64_S100000x64_0_1 : (⟨S1x64, .f32⟩ : BufTy).Contents (Elt F) → (⟨S100000x64, .f32⟩ : BufTy).Contents (Elt F)),
    binary main_v167 main_v171 main_v172 (addf : (⟨S100000x64, .f32⟩ : BufTy).Contents (Elt F) → (⟨S100000x64, .f32⟩ : BufTy).Contents (Elt F) → (⟨S100000x64, .f32⟩ : BufTy).Contents (Elt F)),
    TRef.nullary main_call5.cst (constant S_ .f32 0x00000000#32),
    TRef.unary main_call5.cst main_call5.v0 (broadcastInDim S100000x64 ![] bcast_S_S100000x64),
    TRef.binary (.of main_v172 : TRef sig ⟨S100000x64, .f32⟩) main_call5.v0 main_call5.v1 maximumf ]
/-- The buffers stretch 36 writes. -/
abbrev w36 : List (Ref sig .tc) := [main_v163, main_v164, main_v165, main_v166, main_v167, main_v168, main_v169, main_v170, main_v171, main_v172, main_call5_cst, main_call5_v0, main_v173]
theorem seg36_writes : (seg36 : List (HloOp τ sig (Elt F))).Forall fun op => op.writes ⊆ ((w36).map (Proc.devRef (τ := τ) .tc)).toFinset := by
  simp only [seg36, List.Forall, nullary_writes, unary_writes, binary_writes, ternary_writes, reshape_writes,
    Finset.singleton_subset_iff, List.mem_toFinset, List.mem_map]
  repeat' apply And.intro
  all_goals exact ⟨_, by decide, rfl⟩

/-- Operations 272 … 277 of 293: up to the one writing `main_v177`. -/
abbrev seg37 : List (HloOp τ sig (Elt F)) :=
  [ nullary main_cst_26 (constant S_ .f32 0x3F800000#32),
    unary main_cst_26 main_v174 (broadcastInDim S100000 ![] bcast_S_S100000 : (⟨S_, .f32⟩ : BufTy).Contents (Elt F) → (⟨S100000, .f32⟩ : BufTy).Contents (Elt F)),
    nullary main_cst_27 (constant S_ .f32 0x00000000#32),
    unary main_cst_27 main_v175 (broadcastInDim S512 ![] bcast_S_S512 : (⟨S_, .f32⟩ : BufTy).Contents (Elt F) → (⟨S512, .f32⟩ : BufTy).Contents (Elt F)),
    unary main_arg2 main_v176 (broadcastInDim S100000x1 ![0] bcast_S100000_S100000x1_0 : (⟨S100000, .i32⟩ : BufTy).Contents (Elt F) → (⟨S100000x1, .i32⟩ : BufTy).Contents (Elt F)),
    ternary main_v175 main_v176 main_v174 main_v177 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)) ]
/-- The buffers stretch 37 writes. -/
abbrev w37 : List (Ref sig .tc) := [main_cst_26, main_v174, main_cst_27, main_v175, main_v176, main_v177]
theorem seg37_writes : (seg37 : List (HloOp τ sig (Elt F))).Forall fun op => op.writes ⊆ ((w37).map (Proc.devRef (τ := τ) .tc)).toFinset := by
  simp only [seg37, List.Forall, nullary_writes, unary_writes, binary_writes, ternary_writes, reshape_writes,
    Finset.singleton_subset_iff, List.mem_toFinset, List.mem_map]
  repeat' apply And.intro
  all_goals exact ⟨_, by decide, rfl⟩

/-- Operations 278 … 281 of 293: up to the one writing `main_v180`. -/
abbrev seg38 : List (HloOp τ sig (Elt F)) :=
  [ nullary main_cst_28 (constant S_ .f32 0x00000000#32),
    unary main_cst_28 main_v178 (broadcastInDim S512x64 ![] bcast_S_S512x64 : (⟨S_, .f32⟩ : BufTy).Contents (Elt F) → (⟨S512x64, .f32⟩ : BufTy).Contents (Elt F)),
    unary main_arg2 main_v179 (broadcastInDim S100000x1 ![0] bcast_S100000_S100000x1_0 : (⟨S100000, .i32⟩ : BufTy).Contents (Elt F) → (⟨S100000x1, .i32⟩ : BufTy).Contents (Elt F)),
    ternary main_v178 main_v179 main_v173 main_v180 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)) ]
/-- The buffers stretch 38 writes. -/
abbrev w38 : List (Ref sig .tc) := [main_cst_28, main_v178, main_v179, main_v180]
theorem seg38_writes : (seg38 : List (HloOp τ sig (Elt F))).Forall fun op => op.writes ⊆ ((w38).map (Proc.devRef (τ := τ) .tc)).toFinset := by
  simp only [seg38, List.Forall, nullary_writes, unary_writes, binary_writes, ternary_writes, reshape_writes,
    Finset.singleton_subset_iff, List.mem_toFinset, List.mem_map]
  repeat' apply And.intro
  all_goals exact ⟨_, by decide, rfl⟩

/-- Operations 282 … 288 of 293: up to the one writing `main_v184`. -/
abbrev seg39 : List (HloOp τ sig (Elt F)) :=
  [ nullary main_cst_29 (constant S_ .f32 0x3F800000#32),
    TRef.unary (.of main_cst_29 : TRef sig ⟨S_, .f32⟩) main_call6.v0 id,
    TRef.unary main_call6.v0 main_call6.v1 (broadcastInDim S512 ![] bcast_S_S512),
    TRef.binary main_call6.v1 (.of main_v177 : TRef sig ⟨S512, .f32⟩) main_call6.v2 maximumf,
    unary main_v181 main_v182 (broadcastInDim S512x1 ![0] bcast_S512_S512x1_0 : (⟨S512, .f32⟩ : BufTy).Contents (Elt F) → (⟨S512x1, .f32⟩ : BufTy).Contents (Elt F)),
    unary main_v182 main_v183 (broadcastInDim S512x64 ![0, 1] bcast_S512x1_S512x64_0_1 : (⟨S512x1, .f32⟩ : BufTy).Contents (Elt F) → (⟨S512x64, .f32⟩ : BufTy).Contents (Elt F)),
    binary main_v180 main_v183 main_v184 (Host.divf : (⟨S512x64, .f32⟩ : BufTy).Contents (Elt F) → (⟨S512x64, .f32⟩ : BufTy).Contents (Elt F) → (⟨S512x64, .f32⟩ : BufTy).Contents (Elt F)) ]
/-- The buffers stretch 39 writes. -/
abbrev w39 : List (Ref sig .tc) := [main_cst_29, main_call6_v0, main_call6_v1, main_v181, main_v182, main_v183, main_v184]
theorem seg39_writes : (seg39 : List (HloOp τ sig (Elt F))).Forall fun op => op.writes ⊆ ((w39).map (Proc.devRef (τ := τ) .tc)).toFinset := by
  simp only [seg39, List.Forall, nullary_writes, unary_writes, binary_writes, ternary_writes, reshape_writes,
    Finset.singleton_subset_iff, List.mem_toFinset, List.mem_map]
  repeat' apply And.intro
  all_goals exact ⟨_, by decide, rfl⟩

/-- Operations 289 … 293 of 293: up to the one writing `main_v189`. -/
abbrev seg40 : List (HloOp τ sig (Elt F)) :=
  [ unary main_arg7 main_v185 ((transpose S64x64 [1, 0] · transposes_S64x64_S64x64_1_0) : (⟨S64x64, .f32⟩ : BufTy).Contents (Elt F) → (⟨S64x64, .f32⟩ : BufTy).Contents (Elt F)),
    binary main_v184 main_v185 main_v186 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg8 main_v187 (broadcastInDim S1x64 ![1] bcast_S64_S1x64_1 : (⟨S64, .f32⟩ : BufTy).Contents (Elt F) → (⟨S1x64, .f32⟩ : BufTy).Contents (Elt F)),
    unary main_v187 main_v188 (broadcastInDim S512x64 ![0, 1] bcast_S1x64_S512x64_0_1 : (⟨S1x64, .f32⟩ : BufTy).Contents (Elt F) → (⟨S512x64, .f32⟩ : BufTy).Contents (Elt F)),
    binary main_v186 main_v188 main_v189 (addf : (⟨S512x64, .f32⟩ : BufTy).Contents (Elt F) → (⟨S512x64, .f32⟩ : BufTy).Contents (Elt F) → (⟨S512x64, .f32⟩ : BufTy).Contents (Elt F)) ]
/-- The buffers stretch 40 writes. -/
abbrev w40 : List (Ref sig .tc) := [main_v185, main_v186, main_v187, main_v188, main_v189]
theorem seg40_writes : (seg40 : List (HloOp τ sig (Elt F))).Forall fun op => op.writes ⊆ ((w40).map (Proc.devRef (τ := τ) .tc)).toFinset := by
  simp only [seg40, List.Forall, nullary_writes, unary_writes, binary_writes, ternary_writes, reshape_writes,
    Finset.singleton_subset_iff, List.mem_toFinset, List.mem_map]
  repeat' apply And.intro
  all_goals exact ⟨_, by decide, rfl⟩

end Cert.ReferenceIdeal.RefStages

end
-- ==== Proof.RefStages.Chain.lean ====
/- The stretches chained: what is left of the line from each stretch on and the buffers it writes, the contents before each
   stretch, and the whole fold as the fold of what is left over the contents so far; a buffer the rest of the line does
   not write is read where it was last written. -/
import proofs.«125721_j19146964206336_2_alg».proof.Proof.RefStages.Segs

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- Two lines in a row write what either writes. -/
theorem writes_append {l₁ l₂ : List (HloOp τ sig (Elt F))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset :=
  List.forall_iff_forall_mem.mpr fun op h => by
    rw [List.map_append, List.toFinset_append]
    rcases List.mem_append.mp h with h | h
    · exact (List.forall_iff_forall_mem.mp h₁ op h).trans Finset.subset_union_left
    · exact (List.forall_iff_forall_mem.mp h₂ op h).trans Finset.subset_union_right

/-- Contents that are a line's fold over others agree with them at a buffer the line does not write. -/
theorem read_cut {l : List (HloOp τ sig (Elt F))} {Wl : List (Ref sig .tc)}
    (hl : l.Forall fun op => op.writes ⊆ (Wl.map (Proc.devRef (τ := τ) .tc)).toFinset)
    {A B : Valuation τ sig (Elt F)} (h : A = after l B) {r : Ref sig .tc} (hr : r ∉ Wl) :
    A (Proc.devRef .tc r) = B (Proc.devRef .tc r) := by
  subst h; exact after_of_writes_sub l B hl hr

/-! ## What is left of the line from stretch `j` on, and what it writes -/

abbrev rest41 : List (HloOp τ sig (Elt F)) := []
abbrev wrest41 : List (Ref sig .tc) := []
theorem rest41_writes : (rest41 : List (HloOp τ sig (Elt F))).Forall fun op => op.writes ⊆ ((wrest41).map (Proc.devRef (τ := τ) .tc)).toFinset := trivial
abbrev rest40 : List (HloOp τ sig (Elt F)) := seg40 ++ rest41
abbrev wrest40 : List (Ref sig .tc) := w40 ++ wrest41
theorem rest40_writes : (rest40 : List (HloOp τ sig (Elt F))).Forall fun op => op.writes ⊆ ((wrest40).map (Proc.devRef (τ := τ) .tc)).toFinset :=
  writes_append seg40_writes rest41_writes
abbrev rest39 : List (HloOp τ sig (Elt F)) := seg39 ++ rest40
abbrev wrest39 : List (Ref sig .tc) := w39 ++ wrest40
theorem rest39_writes : (rest39 : List (HloOp τ sig (Elt F))).Forall fun op => op.writes ⊆ ((wrest39).map (Proc.devRef (τ := τ) .tc)).toFinset :=
  writes_append seg39_writes rest40_writes
abbrev rest38 : List (HloOp τ sig (Elt F)) := seg38 ++ rest39
abbrev wrest38 : List (Ref sig .tc) := w38 ++ wrest39
theorem rest38_writes : (rest38 : List (HloOp τ sig (Elt F))).Forall fun op => op.writes ⊆ ((wrest38).map (Proc.devRef (τ := τ) .tc)).toFinset :=
  writes_append seg38_writes rest39_writes
abbrev rest37 : List (HloOp τ sig (Elt F)) := seg37 ++ rest38
abbrev wrest37 : List (Ref sig .tc) := w37 ++ wrest38
theorem rest37_writes : (rest37 : List (HloOp τ sig (Elt F))).Forall fun op => op.writes ⊆ ((wrest37).map (Proc.devRef (τ := τ) .tc)).toFinset :=
  writes_append seg37_writes rest38_writes
abbrev rest36 : List (HloOp τ sig (Elt F)) := seg36 ++ rest37
abbrev wrest36 : List (Ref sig .tc) := w36 ++ wrest37
theorem rest36_writes : (rest36 : List (HloOp τ sig (Elt F))).Forall fun op => op.writes ⊆ ((wrest36).map (Proc.devRef (τ := τ) .tc)).toFinset :=
  writes_append seg36_writes rest37_writes
abbrev rest35 : List (HloOp τ sig (Elt F)) := seg35 ++ rest36
abbrev wrest35 : List (Ref sig .tc) := w35 ++ wrest36
theorem rest35_writes : (rest35 : List (HloOp τ sig (Elt F))).Forall fun op => op.writes ⊆ ((wrest35).map (Proc.devRef (τ := τ) .tc)).toFinset :=
  writes_append seg35_writes rest36_writes
abbrev rest34 : List (HloOp τ sig (Elt F)) := seg34 ++ rest35
abbrev wrest34 : List (Ref sig .tc) := w34 ++ wrest35
theorem rest34_writes : (rest34 : List (HloOp τ sig (Elt F))).Forall fun op => op.writes ⊆ ((wrest34).map (Proc.devRef (τ := τ) .tc)).toFinset :=
  writes_append seg34_writes rest35_writes
abbrev rest33 : List (HloOp τ sig (Elt F)) := seg33 ++ rest34
abbrev wrest33 : List (Ref sig .tc) := w33 ++ wrest34
theorem rest33_writes : (rest33 : List (HloOp τ sig (Elt F))).Forall fun op => op.writes ⊆ ((wrest33).map (Proc.devRef (τ := τ) .tc)).toFinset :=
  writes_append seg33_writes rest34_writes
abbrev rest32 : List (HloOp τ sig (Elt F)) := seg32 ++ rest33
abbrev wrest32 : List (Ref sig .tc) := w32 ++ wrest33
theorem rest32_writes : (rest32 : List (HloOp τ sig (Elt F))).Forall fun op => op.writes ⊆ ((wrest32).map (Proc.devRef (τ := τ) .tc)).toFinset :=
  writes_append seg32_writes rest33_writes
abbrev rest31 : List (HloOp τ sig (Elt F)) := seg31 ++ rest32
abbrev wrest31 : List (Ref sig .tc) := w31 ++ wrest32
theorem rest31_writes : (rest31 : List (HloOp τ sig (Elt F))).Forall fun op => op.writes ⊆ ((wrest31).map (Proc.devRef (τ := τ) .tc)).toFinset :=
  writes_append seg31_writes rest32_writes
abbrev rest30 : List (HloOp τ sig (Elt F)) := seg30 ++ rest31
abbrev wrest30 : List (Ref sig .tc) := w30 ++ wrest31
theorem rest30_writes : (rest30 : List (HloOp τ sig (Elt F))).Forall fun op => op.writes ⊆ ((wrest30).map (Proc.devRef (τ := τ) .tc)).toFinset :=
  writes_append seg30_writes rest31_writes
abbrev rest29 : List (HloOp τ sig (Elt F)) := seg29 ++ rest30
abbrev wrest29 : List (Ref sig .tc) := w29 ++ wrest30
theorem rest29_writes : (rest29 : List (HloOp τ sig (Elt F))).Forall fun op => op.writes ⊆ ((wrest29).map (Proc.devRef (τ := τ) .tc)).toFinset :=
  writes_append seg29_writes rest30_writes
abbrev rest28 : List (HloOp τ sig (Elt F)) := seg28 ++ rest29
abbrev wrest28 : List (Ref sig .tc) := w28 ++ wrest29
theorem rest28_writes : (rest28 : List (HloOp τ sig (Elt F))).Forall fun op => op.writes ⊆ ((wrest28).map (Proc.devRef (τ := τ) .tc)).toFinset :=
  writes_append seg28_writes rest29_writes
abbrev rest27 : List (HloOp τ sig (Elt F)) := seg27 ++ rest28
abbrev wrest27 : List (Ref sig .tc) := w27 ++ wrest28
theorem rest27_writes : (rest27 : List (HloOp τ sig (Elt F))).Forall fun op => op.writes ⊆ ((wrest27).map (Proc.devRef (τ := τ) .tc)).toFinset :=
  writes_append seg27_writes rest28_writes
abbrev rest26 : List (HloOp τ sig (Elt F)) := seg26 ++ rest27
abbrev wrest26 : List (Ref sig .tc) := w26 ++ wrest27
theorem rest26_writes : (rest26 : List (HloOp τ sig (Elt F))).Forall fun op => op.writes ⊆ ((wrest26).map (Proc.devRef (τ := τ) .tc)).toFinset :=
  writes_append seg26_writes rest27_writes
abbrev rest25 : List (HloOp τ sig (Elt F)) := seg25 ++ rest26
abbrev wrest25 : List (Ref sig .tc) := w25 ++ wrest26
theorem rest25_writes : (rest25 : List (HloOp τ sig (Elt F))).Forall fun op => op.writes ⊆ ((wrest25).map (Proc.devRef (τ := τ) .tc)).toFinset :=
  writes_append seg25_writes rest26_writes
abbrev rest24 : List (HloOp τ sig (Elt F)) := seg24 ++ rest25
abbrev wrest24 : List (Ref sig .tc) := w24 ++ wrest25
theorem rest24_writes : (rest24 : List (HloOp τ sig (Elt F))).Forall fun op => op.writes ⊆ ((wrest24).map (Proc.devRef (τ := τ) .tc)).toFinset :=
  writes_append seg24_writes rest25_writes
abbrev rest23 : List (HloOp τ sig (Elt F)) := seg23 ++ rest24
abbrev wrest23 : List (Ref sig .tc) := w23 ++ wrest24
theorem rest23_writes : (rest23 : List (HloOp τ sig (Elt F))).Forall fun op => op.writes ⊆ ((wrest23).map (Proc.devRef (τ := τ) .tc)).toFinset :=
  writes_append seg23_writes rest24_writes
abbrev rest22 : List (HloOp τ sig (Elt F)) := seg22 ++ rest23
abbrev wrest22 : List (Ref sig .tc) := w22 ++ wrest23
theorem rest22_writes : (rest22 : List (HloOp τ sig (Elt F))).Forall fun op => op.writes ⊆ ((wrest22).map (Proc.devRef (τ := τ) .tc)).toFinset :=
  writes_append seg22_writes rest23_writes
abbrev rest21 : List (HloOp τ sig (Elt F)) := seg21 ++ rest22
abbrev wrest21 : List (Ref sig .tc) := w21 ++ wrest22
theorem rest21_writes : (rest21 : List (HloOp τ sig (Elt F))).Forall fun op => op.writes ⊆ ((wrest21).map (Proc.devRef (τ := τ) .tc)).toFinset :=
  writes_append seg21_writes rest22_writes
abbrev rest20 : List (HloOp τ sig (Elt F)) := seg20 ++ rest21
abbrev wrest20 : List (Ref sig .tc) := w20 ++ wrest21
theorem rest20_writes : (rest20 : List (HloOp τ sig (Elt F))).Forall fun op => op.writes ⊆ ((wrest20).map (Proc.devRef (τ := τ) .tc)).toFinset :=
  writes_append seg20_writes rest21_writes
abbrev rest19 : List (HloOp τ sig (Elt F)) := seg19 ++ rest20
abbrev wrest19 : List (Ref sig .tc) := w19 ++ wrest20
theorem rest19_writes : (rest19 : List (HloOp τ sig (Elt F))).Forall fun op => op.writes ⊆ ((wrest19).map (Proc.devRef (τ := τ) .tc)).toFinset :=
  writes_append seg19_writes rest20_writes
abbrev rest18 : List (HloOp τ sig (Elt F)) := seg18 ++ rest19
abbrev wrest18 : List (Ref sig .tc) := w18 ++ wrest19
theorem rest18_writes : (rest18 : List (HloOp τ sig (Elt F))).Forall fun op => op.writes ⊆ ((wrest18).map (Proc.devRef (τ := τ) .tc)).toFinset :=
  writes_append seg18_writes rest19_writes
abbrev rest17 : List (HloOp τ sig (Elt F)) := seg17 ++ rest18
abbrev wrest17 : List (Ref sig .tc) := w17 ++ wrest18
theorem rest17_writes : (rest17 : List (HloOp τ sig (Elt F))).Forall fun op => op.writes ⊆ ((wrest17).map (Proc.devRef (τ := τ) .tc)).toFinset :=
  writes_append seg17_writes rest18_writes
abbrev rest16 : List (HloOp τ sig (Elt F)) := seg16 ++ rest17
abbrev wrest16 : List (Ref sig .tc) := w16 ++ wrest17
theorem rest16_writes : (rest16 : List (HloOp τ sig (Elt F))).Forall fun op => op.writes ⊆ ((wrest16).map (Proc.devRef (τ := τ) .tc)).toFinset :=
  writes_append seg16_writes rest17_writes
abbrev rest15 : List (HloOp τ sig (Elt F)) := seg15 ++ rest16
abbrev wrest15 : List (Ref sig .tc) := w15 ++ wrest16
theorem rest15_writes : (rest15 : List (HloOp τ sig (Elt F))).Forall fun op => op.writes ⊆ ((wrest15).map (Proc.devRef (τ := τ) .tc)).toFinset :=
  writes_append seg15_writes rest16_writes
abbrev rest14 : List (HloOp τ sig (Elt F)) := seg14 ++ rest15
abbrev wrest14 : List (Ref sig .tc) := w14 ++ wrest15
theorem rest14_writes : (rest14 : List (HloOp τ sig (Elt F))).Forall fun op => op.writes ⊆ ((wrest14).map (Proc.devRef (τ := τ) .tc)).toFinset :=
  writes_append seg14_writes rest15_writes
abbrev rest13 : List (HloOp τ sig (Elt F)) := seg13 ++ rest14
abbrev wrest13 : List (Ref sig .tc) := w13 ++ wrest14
theorem rest13_writes : (rest13 : List (HloOp τ sig (Elt F))).Forall fun op => op.writes ⊆ ((wrest13).map (Proc.devRef (τ := τ) .tc)).toFinset :=
  writes_append seg13_writes rest14_writes
abbrev rest12 : List (HloOp τ sig (Elt F)) := seg12 ++ rest13
abbrev wrest12 : List (Ref sig .tc) := w12 ++ wrest13
theorem rest12_writes : (rest12 : List (HloOp τ sig (Elt F))).Forall fun op => op.writes ⊆ ((wrest12).map (Proc.devRef (τ := τ) .tc)).toFinset :=
  writes_append seg12_writes rest13_writes
abbrev rest11 : List (HloOp τ sig (Elt F)) := seg11 ++ rest12
abbrev wrest11 : List (Ref sig .tc) := w11 ++ wrest12
theorem rest11_writes : (rest11 : List (HloOp τ sig (Elt F))).Forall fun op => op.writes ⊆ ((wrest11).map (Proc.devRef (τ := τ) .tc)).toFinset :=
  writes_append seg11_writes rest12_writes
abbrev rest10 : List (HloOp τ sig (Elt F)) := seg10 ++ rest11
abbrev wrest10 : List (Ref sig .tc) := w10 ++ wrest11
theorem rest10_writes : (rest10 : List (HloOp τ sig (Elt F))).Forall fun op => op.writes ⊆ ((wrest10).map (Proc.devRef (τ := τ) .tc)).toFinset :=
  writes_append seg10_writes rest11_writes
abbrev rest9 : List (HloOp τ sig (Elt F)) := seg9 ++ rest10
abbrev wrest9 : List (Ref sig .tc) := w9 ++ wrest10
theorem rest9_writes : (rest9 : List (HloOp τ sig (Elt F))).Forall fun op => op.writes ⊆ ((wrest9).map (Proc.devRef (τ := τ) .tc)).toFinset :=
  writes_append seg9_writes rest10_writes
abbrev rest8 : List (HloOp τ sig (Elt F)) := seg8 ++ rest9
abbrev wrest8 : List (Ref sig .tc) := w8 ++ wrest9
theorem rest8_writes : (rest8 : List (HloOp τ sig (Elt F))).Forall fun op => op.writes ⊆ ((wrest8).map (Proc.devRef (τ := τ) .tc)).toFinset :=
  writes_append seg8_writes rest9_writes
abbrev rest7 : List (HloOp τ sig (Elt F)) := seg7 ++ rest8
abbrev wrest7 : List (Ref sig .tc) := w7 ++ wrest8
theorem rest7_writes : (rest7 : List (HloOp τ sig (Elt F))).Forall fun op => op.writes ⊆ ((wrest7).map (Proc.devRef (τ := τ) .tc)).toFinset :=
  writes_append seg7_writes rest8_writes
abbrev rest6 : List (HloOp τ sig (Elt F)) := seg6 ++ rest7
abbrev wrest6 : List (Ref sig .tc) := w6 ++ wrest7
theorem rest6_writes : (rest6 : List (HloOp τ sig (Elt F))).Forall fun op => op.writes ⊆ ((wrest6).map (Proc.devRef (τ := τ) .tc)).toFinset :=
  writes_append seg6_writes rest7_writes
abbrev rest5 : List (HloOp τ sig (Elt F)) := seg5 ++ rest6
abbrev wrest5 : List (Ref sig .tc) := w5 ++ wrest6
theorem rest5_writes : (rest5 : List (HloOp τ sig (Elt F))).Forall fun op => op.writes ⊆ ((wrest5).map (Proc.devRef (τ := τ) .tc)).toFinset :=
  writes_append seg5_writes rest6_writes
abbrev rest4 : List (HloOp τ sig (Elt F)) := seg4 ++ rest5
abbrev wrest4 : List (Ref sig .tc) := w4 ++ wrest5
theorem rest4_writes : (rest4 : List (HloOp τ sig (Elt F))).Forall fun op => op.writes ⊆ ((wrest4).map (Proc.devRef (τ := τ) .tc)).toFinset :=
  writes_append seg4_writes rest5_writes
abbrev rest3 : List (HloOp τ sig (Elt F)) := seg3 ++ rest4
abbrev wrest3 : List (Ref sig .tc) := w3 ++ wrest4
theorem rest3_writes : (rest3 : List (HloOp τ sig (Elt F))).Forall fun op => op.writes ⊆ ((wrest3).map (Proc.devRef (τ := τ) .tc)).toFinset :=
  writes_append seg3_writes rest4_writes
abbrev rest2 : List (HloOp τ sig (Elt F)) := seg2 ++ rest3
abbrev wrest2 : List (Ref sig .tc) := w2 ++ wrest3
theorem rest2_writes : (rest2 : List (HloOp τ sig (Elt F))).Forall fun op => op.writes ⊆ ((wrest2).map (Proc.devRef (τ := τ) .tc)).toFinset :=
  writes_append seg2_writes rest3_writes
abbrev rest1 : List (HloOp τ sig (Elt F)) := seg1 ++ rest2
abbrev wrest1 : List (Ref sig .tc) := w1 ++ wrest2
theorem rest1_writes : (rest1 : List (HloOp τ sig (Elt F))).Forall fun op => op.writes ⊆ ((wrest1).map (Proc.devRef (τ := τ) .tc)).toFinset :=
  writes_append seg1_writes rest2_writes
abbrev rest0 : List (HloOp τ sig (Elt F)) := seg0 ++ rest1
abbrev wrest0 : List (Ref sig .tc) := w0 ++ wrest1
theorem rest0_writes : (rest0 : List (HloOp τ sig (Elt F))).Forall fun op => op.writes ⊆ ((wrest0).map (Proc.devRef (τ := τ) .tc)).toFinset :=
  writes_append seg0_writes rest1_writes

/-! ## The contents before stretch `j` -/

/-- The contents before the first stretch: the given ones. -/
def val0 (V : Valuation τ sig (Elt F)) : Valuation τ sig (Elt F) := V
/-- The contents after stretch 0. -/
def val1 (V : Valuation τ sig (Elt F)) : Valuation τ sig (Elt F) := after seg0 (val0 V)
/-- The contents after stretch 1. -/
def val2 (V : Valuation τ sig (Elt F)) : Valuation τ sig (Elt F) := after seg1 (val1 V)
/-- The contents after stretch 2. -/
def val3 (V : Valuation τ sig (Elt F)) : Valuation τ sig (Elt F) := after seg2 (val2 V)
/-- The contents after stretch 3. -/
def val4 (V : Valuation τ sig (Elt F)) : Valuation τ sig (Elt F) := after seg3 (val3 V)
/-- The contents after stretch 4. -/
def val5 (V : Valuation τ sig (Elt F)) : Valuation τ sig (Elt F) := after seg4 (val4 V)
/-- The contents after stretch 5. -/
def val6 (V : Valuation τ sig (Elt F)) : Valuation τ sig (Elt F) := after seg5 (val5 V)
/-- The contents after stretch 6. -/
def val7 (V : Valuation τ sig (Elt F)) : Valuation τ sig (Elt F) := after seg6 (val6 V)
/-- The contents after stretch 7. -/
def val8 (V : Valuation τ sig (Elt F)) : Valuation τ sig (Elt F) := after seg7 (val7 V)
/-- The contents after stretch 8. -/
def val9 (V : Valuation τ sig (Elt F)) : Valuation τ sig (Elt F) := after seg8 (val8 V)
/-- The contents after stretch 9. -/
def val10 (V : Valuation τ sig (Elt F)) : Valuation τ sig (Elt F) := after seg9 (val9 V)
/-- The contents after stretch 10. -/
def val11 (V : Valuation τ sig (Elt F)) : Valuation τ sig (Elt F) := after seg10 (val10 V)
/-- The contents after stretch 11. -/
def val12 (V : Valuation τ sig (Elt F)) : Valuation τ sig (Elt F) := after seg11 (val11 V)
/-- The contents after stretch 12. -/
def val13 (V : Valuation τ sig (Elt F)) : Valuation τ sig (Elt F) := after seg12 (val12 V)
/-- The contents after stretch 13. -/
def val14 (V : Valuation τ sig (Elt F)) : Valuation τ sig (Elt F) := after seg13 (val13 V)
/-- The contents after stretch 14. -/
def val15 (V : Valuation τ sig (Elt F)) : Valuation τ sig (Elt F) := after seg14 (val14 V)
/-- The contents after stretch 15. -/
def val16 (V : Valuation τ sig (Elt F)) : Valuation τ sig (Elt F) := after seg15 (val15 V)
/-- The contents after stretch 16. -/
def val17 (V : Valuation τ sig (Elt F)) : Valuation τ sig (Elt F) := after seg16 (val16 V)
/-- The contents after stretch 17. -/
def val18 (V : Valuation τ sig (Elt F)) : Valuation τ sig (Elt F) := after seg17 (val17 V)
/-- The contents after stretch 18. -/
def val19 (V : Valuation τ sig (Elt F)) : Valuation τ sig (Elt F) := after seg18 (val18 V)
/-- The contents after stretch 19. -/
def val20 (V : Valuation τ sig (Elt F)) : Valuation τ sig (Elt F) := after seg19 (val19 V)
/-- The contents after stretch 20. -/
def val21 (V : Valuation τ sig (Elt F)) : Valuation τ sig (Elt F) := after seg20 (val20 V)
/-- The contents after stretch 21. -/
def val22 (V : Valuation τ sig (Elt F)) : Valuation τ sig (Elt F) := after seg21 (val21 V)
/-- The contents after stretch 22. -/
def val23 (V : Valuation τ sig (Elt F)) : Valuation τ sig (Elt F) := after seg22 (val22 V)
/-- The contents after stretch 23. -/
def val24 (V : Valuation τ sig (Elt F)) : Valuation τ sig (Elt F) := after seg23 (val23 V)
/-- The contents after stretch 24. -/
def val25 (V : Valuation τ sig (Elt F)) : Valuation τ sig (Elt F) := after seg24 (val24 V)
/-- The contents after stretch 25. -/
def val26 (V : Valuation τ sig (Elt F)) : Valuation τ sig (Elt F) := after seg25 (val25 V)
/-- The contents after stretch 26. -/
def val27 (V : Valuation τ sig (Elt F)) : Valuation τ sig (Elt F) := after seg26 (val26 V)
/-- The contents after stretch 27. -/
def val28 (V : Valuation τ sig (Elt F)) : Valuation τ sig (Elt F) := after seg27 (val27 V)
/-- The contents after stretch 28. -/
def val29 (V : Valuation τ sig (Elt F)) : Valuation τ sig (Elt F) := after seg28 (val28 V)
/-- The contents after stretch 29. -/
def val30 (V : Valuation τ sig (Elt F)) : Valuation τ sig (Elt F) := after seg29 (val29 V)
/-- The contents after stretch 30. -/
def val31 (V : Valuation τ sig (Elt F)) : Valuation τ sig (Elt F) := after seg30 (val30 V)
/-- The contents after stretch 31. -/
def val32 (V : Valuation τ sig (Elt F)) : Valuation τ sig (Elt F) := after seg31 (val31 V)
/-- The contents after stretch 32. -/
def val33 (V : Valuation τ sig (Elt F)) : Valuation τ sig (Elt F) := after seg32 (val32 V)
/-- The contents after stretch 33. -/
def val34 (V : Valuation τ sig (Elt F)) : Valuation τ sig (Elt F) := after seg33 (val33 V)
/-- The contents after stretch 34. -/
def val35 (V : Valuation τ sig (Elt F)) : Valuation τ sig (Elt F) := after seg34 (val34 V)
/-- The contents after stretch 35. -/
def val36 (V : Valuation τ sig (Elt F)) : Valuation τ sig (Elt F) := after seg35 (val35 V)
/-- The contents after stretch 36. -/
def val37 (V : Valuation τ sig (Elt F)) : Valuation τ sig (Elt F) := after seg36 (val36 V)
/-- The contents after stretch 37. -/
def val38 (V : Valuation τ sig (Elt F)) : Valuation τ sig (Elt F) := after seg37 (val37 V)
/-- The contents after stretch 38. -/
def val39 (V : Valuation τ sig (Elt F)) : Valuation τ sig (Elt F) := after seg38 (val38 V)
/-- The contents after stretch 39. -/
def val40 (V : Valuation τ sig (Elt F)) : Valuation τ sig (Elt F) := after seg39 (val39 V)
/-- The contents after stretch 40. -/
def val41 (V : Valuation τ sig (Elt F)) : Valuation τ sig (Elt F) := after seg40 (val40 V)

/-- The operation list is its stretches in order. -/
theorem ops_eq : (ops : List (HloOp τ sig (Elt F))) = rest0 := rfl

/-! ## The whole fold, from the contents before stretch `j` -/

theorem fin0 (V : Valuation τ sig (Elt F)) : after ops V = after rest0 (val0 V) := by rw [ops_eq]; rfl
theorem fin1 (V : Valuation τ sig (Elt F)) : after ops V = after rest1 (val1 V) :=
  (fin0 V).trans (after_append seg0 rest1 _)
theorem fin2 (V : Valuation τ sig (Elt F)) : after ops V = after rest2 (val2 V) :=
  (fin1 V).trans (after_append seg1 rest2 _)
theorem fin3 (V : Valuation τ sig (Elt F)) : after ops V = after rest3 (val3 V) :=
  (fin2 V).trans (after_append seg2 rest3 _)
theorem fin4 (V : Valuation τ sig (Elt F)) : after ops V = after rest4 (val4 V) :=
  (fin3 V).trans (after_append seg3 rest4 _)
theorem fin5 (V : Valuation τ sig (Elt F)) : after ops V = after rest5 (val5 V) :=
  (fin4 V).trans (after_append seg4 rest5 _)
theorem fin6 (V : Valuation τ sig (Elt F)) : after ops V = after rest6 (val6 V) :=
  (fin5 V).trans (after_append seg5 rest6 _)
theorem fin7 (V : Valuation τ sig (Elt F)) : after ops V = after rest7 (val7 V) :=
  (fin6 V).trans (after_append seg6 rest7 _)
theorem fin8 (V : Valuation τ sig (Elt F)) : after ops V = after rest8 (val8 V) :=
  (fin7 V).trans (after_append seg7 rest8 _)
theorem fin9 (V : Valuation τ sig (Elt F)) : after ops V = after rest9 (val9 V) :=
  (fin8 V).trans (after_append seg8 rest9 _)
theorem fin10 (V : Valuation τ sig (Elt F)) : after ops V = after rest10 (val10 V) :=
  (fin9 V).trans (after_append seg9 rest10 _)
theorem fin11 (V : Valuation τ sig (Elt F)) : after ops V = after rest11 (val11 V) :=
  (fin10 V).trans (after_append seg10 rest11 _)
theorem fin12 (V : Valuation τ sig (Elt F)) : after ops V = after rest12 (val12 V) :=
  (fin11 V).trans (after_append seg11 rest12 _)
theorem fin13 (V : Valuation τ sig (Elt F)) : after ops V = after rest13 (val13 V) :=
  (fin12 V).trans (after_append seg12 rest13 _)
theorem fin14 (V : Valuation τ sig (Elt F)) : after ops V = after rest14 (val14 V) :=
  (fin13 V).trans (after_append seg13 rest14 _)
theorem fin15 (V : Valuation τ sig (Elt F)) : after ops V = after rest15 (val15 V) :=
  (fin14 V).trans (after_append seg14 rest15 _)
theorem fin16 (V : Valuation τ sig (Elt F)) : after ops V = after rest16 (val16 V) :=
  (fin15 V).trans (after_append seg15 rest16 _)
theorem fin17 (V : Valuation τ sig (Elt F)) : after ops V = after rest17 (val17 V) :=
  (fin16 V).trans (after_append seg16 rest17 _)
theorem fin18 (V : Valuation τ sig (Elt F)) : after ops V = after rest18 (val18 V) :=
  (fin17 V).trans (after_append seg17 rest18 _)
theorem fin19 (V : Valuation τ sig (Elt F)) : after ops V = after rest19 (val19 V) :=
  (fin18 V).trans (after_append seg18 rest19 _)
theorem fin20 (V : Valuation τ sig (Elt F)) : after ops V = after rest20 (val20 V) :=
  (fin19 V).trans (after_append seg19 rest20 _)
theorem fin21 (V : Valuation τ sig (Elt F)) : after ops V = after rest21 (val21 V) :=
  (fin20 V).trans (after_append seg20 rest21 _)
theorem fin22 (V : Valuation τ sig (Elt F)) : after ops V = after rest22 (val22 V) :=
  (fin21 V).trans (after_append seg21 rest22 _)
theorem fin23 (V : Valuation τ sig (Elt F)) : after ops V = after rest23 (val23 V) :=
  (fin22 V).trans (after_append seg22 rest23 _)
theorem fin24 (V : Valuation τ sig (Elt F)) : after ops V = after rest24 (val24 V) :=
  (fin23 V).trans (after_append seg23 rest24 _)
theorem fin25 (V : Valuation τ sig (Elt F)) : after ops V = after rest25 (val25 V) :=
  (fin24 V).trans (after_append seg24 rest25 _)
theorem fin26 (V : Valuation τ sig (Elt F)) : after ops V = after rest26 (val26 V) :=
  (fin25 V).trans (after_append seg25 rest26 _)
theorem fin27 (V : Valuation τ sig (Elt F)) : after ops V = after rest27 (val27 V) :=
  (fin26 V).trans (after_append seg26 rest27 _)
theorem fin28 (V : Valuation τ sig (Elt F)) : after ops V = after rest28 (val28 V) :=
  (fin27 V).trans (after_append seg27 rest28 _)
theorem fin29 (V : Valuation τ sig (Elt F)) : after ops V = after rest29 (val29 V) :=
  (fin28 V).trans (after_append seg28 rest29 _)
theorem fin30 (V : Valuation τ sig (Elt F)) : after ops V = after rest30 (val30 V) :=
  (fin29 V).trans (after_append seg29 rest30 _)
theorem fin31 (V : Valuation τ sig (Elt F)) : after ops V = after rest31 (val31 V) :=
  (fin30 V).trans (after_append seg30 rest31 _)
theorem fin32 (V : Valuation τ sig (Elt F)) : after ops V = after rest32 (val32 V) :=
  (fin31 V).trans (after_append seg31 rest32 _)
theorem fin33 (V : Valuation τ sig (Elt F)) : after ops V = after rest33 (val33 V) :=
  (fin32 V).trans (after_append seg32 rest33 _)
theorem fin34 (V : Valuation τ sig (Elt F)) : after ops V = after rest34 (val34 V) :=
  (fin33 V).trans (after_append seg33 rest34 _)
theorem fin35 (V : Valuation τ sig (Elt F)) : after ops V = after rest35 (val35 V) :=
  (fin34 V).trans (after_append seg34 rest35 _)
theorem fin36 (V : Valuation τ sig (Elt F)) : after ops V = after rest36 (val36 V) :=
  (fin35 V).trans (after_append seg35 rest36 _)
theorem fin37 (V : Valuation τ sig (Elt F)) : after ops V = after rest37 (val37 V) :=
  (fin36 V).trans (after_append seg36 rest37 _)
theorem fin38 (V : Valuation τ sig (Elt F)) : after ops V = after rest38 (val38 V) :=
  (fin37 V).trans (after_append seg37 rest38 _)
theorem fin39 (V : Valuation τ sig (Elt F)) : after ops V = after rest39 (val39 V) :=
  (fin38 V).trans (after_append seg38 rest39 _)
theorem fin40 (V : Valuation τ sig (Elt F)) : after ops V = after rest40 (val40 V) :=
  (fin39 V).trans (after_append seg39 rest40 _)
theorem fin41 (V : Valuation τ sig (Elt F)) : after ops V = after rest41 (val41 V) :=
  (fin40 V).trans (after_append seg40 rest41 _)

end Cert.ReferenceIdeal.RefStages

end
-- ==== Proof.RefStages.lean ====
/- The reference's stage equations: after the whole line, each cut buffer holds the composition of the operations since the
   previous cut buffers, applied to those buffers' final contents and to the arguments' given contents. Each equation is read
   off the one stretch that ends at the buffer: the fold over the stretch computed at the buffer, the stretch's inputs being
   buffers that no later operation writes. -/
import proofs.«125721_j19146964206336_2_alg».proof.Proof.RefStages.Chain
import proofs.«125721_j19146964206336_2_alg».proof.Proof.RefRun.Args

noncomputable section

namespace Cert.ReferenceIdeal.RefStages

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The fold over stretch 0 at `main_v1`, from any contents. -/
theorem comp_main_v1 (W : Valuation τ sig (Elt F)) :
    after seg0 W (main_v1 : DevRef τ sig)
      = shapeCast S1600000 (extractStridedSlice S1x1600000 ![0, 0] (W (main_arg1 : DevRef τ sig)) slices_S2x1600000_S1x1600000_0_0) shapeCasts_S1x1600000_S1600000 := by
  after_results_simp <;> rfl

theorem stage_main_v1 (V : Valuation τ sig (Elt F)) :
    after ops V (main_v1 : DevRef τ sig)
      = shapeCast S1600000 (extractStridedSlice S1x1600000 ![0, 0] (V (main_arg1 : DevRef τ sig)) slices_S2x1600000_S1x1600000_0_0) shapeCasts_S1x1600000_S1600000 := by
  have hc : after ops V (main_v1 : DevRef τ sig) = val1 V (main_v1 : DevRef τ sig) :=
    read_cut rest1_writes (fin1 V) (r := main_v1) (by decide)
  have ha0 : val0 V (main_arg1 : DevRef τ sig) = V (main_arg1 : DevRef τ sig) :=
    (read_cut rest0_writes (fin0 V) (r := main_arg1) (by decide)).symm.trans (arg1_eq V)
  rw [hc, ← ha0]
  exact comp_main_v1 (val0 V)

/-- The fold over stretch 1 at `main_v3`, from any contents. -/
theorem comp_main_v3 (W : Valuation τ sig (Elt F)) :
    after seg1 W (main_v3 : DevRef τ sig)
      = shapeCast S1600000 (extractStridedSlice S1x1600000 ![1, 0] (W (main_arg1 : DevRef τ sig)) slices_S2x1600000_S1x1600000_1_0) shapeCasts_S1x1600000_S1600000 := by
  after_results_simp <;> rfl

theorem stage_main_v3 (V : Valuation τ sig (Elt F)) :
    after ops V (main_v3 : DevRef τ sig)
      = shapeCast S1600000 (extractStridedSlice S1x1600000 ![1, 0] (V (main_arg1 : DevRef τ sig)) slices_S2x1600000_S1x1600000_1_0) shapeCasts_S1x1600000_S1600000 := by
  have hc : after ops V (main_v3 : DevRef τ sig) = val2 V (main_v3 : DevRef τ sig) :=
    read_cut rest2_writes (fin2 V) (r := main_v3) (by decide)
  have ha0 : val1 V (main_arg1 : DevRef τ sig) = V (main_arg1 : DevRef τ sig) :=
    (read_cut rest1_writes (fin1 V) (r := main_arg1) (by decide)).symm.trans (arg1_eq V)
  rw [hc, ← ha0]
  exact comp_main_v3 (val1 V)

/-- The fold over stretch 2 at `main_v10`, from any contents. -/
theorem comp_main_v10 (W : Valuation τ sig (Elt F)) :
    after seg2 W (main_v10 : DevRef τ sig)
      = Host.rsqrt (addf (Host.scatterAdd scatter_S100000_S1600000x1_S1600000_n_0_0_1 (broadcastInDim S100000 ![] bcast_S_S100000 (constant S_ .f32 0x00000000#32)) (broadcastInDim S1600000x1 ![0] bcast_S1600000_S1600000x1_0 (W (main_v3 : DevRef τ sig))) (broadcastInDim S1600000 ![] bcast_S_S1600000 (constant S_ .f32 0x3F800000#32))) (broadcastInDim S100000 ![] bcast_S_S100000 (constant S_ .f32 0x3F800000#32))) := by
  after_results_simp <;> rfl

theorem stage_main_v10 (V : Valuation τ sig (Elt F)) :
    after ops V (main_v10 : DevRef τ sig)
      = Host.rsqrt (addf (Host.scatterAdd scatter_S100000_S1600000x1_S1600000_n_0_0_1 (broadcastInDim S100000 ![] bcast_S_S100000 (constant S_ .f32 0x00000000#32)) (broadcastInDim S1600000x1 ![0] bcast_S1600000_S1600000x1_0 (after ops V (main_v3 : DevRef τ sig))) (broadcastInDim S1600000 ![] bcast_S_S1600000 (constant S_ .f32 0x3F800000#32))) (broadcastInDim S100000 ![] bcast_S_S100000 (constant S_ .f32 0x3F800000#32))) := by
  have hc : after ops V (main_v10 : DevRef τ sig) = val3 V (main_v10 : DevRef τ sig) :=
    read_cut rest3_writes (fin3 V) (r := main_v10) (by decide)
  have hl0 : after ops V (main_v3 : DevRef τ sig) = val2 V (main_v3 : DevRef τ sig) :=
    read_cut rest2_writes (fin2 V) (r := main_v3) (by decide)
  rw [hc, hl0]
  exact comp_main_v10 (val2 V)

/-- The fold over stretch 3 at `main_v17`, from any contents. -/
theorem comp_main_v17 (W : Valuation τ sig (Elt F)) :
    after seg3 W (main_v17 : DevRef τ sig)
      = Host.gather gather_S100000_S1600000x1_S1600000_n_0_n_n_0_1_1 (W (main_v10 : DevRef τ sig)) (broadcastInDim S1600000x1 ![0] bcast_S1600000_S1600000x1_0 (select (cmpi .slt (W (main_v1 : DevRef τ sig)) (broadcastInDim S1600000 ![] bcast_S_S1600000 (constantI S_ 32 0#32))) (addi (W (main_v1 : DevRef τ sig)) (broadcastInDim S1600000 ![] bcast_S_S1600000 (constantI S_ 32 100000#32))) (W (main_v1 : DevRef τ sig)))) := by
  after_results_simp <;> rfl

theorem stage_main_v17 (V : Valuation τ sig (Elt F)) :
    after ops V (main_v17 : DevRef τ sig)
      = Host.gather gather_S100000_S1600000x1_S1600000_n_0_n_n_0_1_1 (after ops V (main_v10 : DevRef τ sig)) (broadcastInDim S1600000x1 ![0] bcast_S1600000_S1600000x1_0 (select (cmpi .slt (after ops V (main_v1 : DevRef τ sig)) (broadcastInDim S1600000 ![] bcast_S_S1600000 (constantI S_ 32 0#32))) (addi (after ops V (main_v1 : DevRef τ sig)) (broadcastInDim S1600000 ![] bcast_S_S1600000 (constantI S_ 32 100000#32))) (after ops V (main_v1 : DevRef τ sig)))) := by
  have hc : after ops V (main_v17 : DevRef τ sig) = val4 V (main_v17 : DevRef τ sig) :=
    read_cut rest4_writes (fin4 V) (r := main_v17) (by decide)
  have hl0 : after ops V (main_v10 : DevRef τ sig) = val3 V (main_v10 : DevRef τ sig) :=
    read_cut rest3_writes (fin3 V) (r := main_v10) (by decide)
  have hl1 : after ops V (main_v1 : DevRef τ sig) = val3 V (main_v1 : DevRef τ sig) :=
    read_cut rest3_writes (fin3 V) (r := main_v1) (by decide)
  rw [hc, hl0, hl1]
  exact comp_main_v17 (val3 V)

/-- The fold over stretch 4 at `main_v24`, from any contents. -/
theorem comp_main_v24 (W : Valuation τ sig (Elt F)) :
    after seg4 W (main_v24 : DevRef τ sig)
      = Host.gather gather_S100000_S1600000x1_S1600000_n_0_n_n_0_1_1 (W (main_v10 : DevRef τ sig)) (broadcastInDim S1600000x1 ![0] bcast_S1600000_S1600000x1_0 (select (cmpi .slt (W (main_v3 : DevRef τ sig)) (broadcastInDim S1600000 ![] bcast_S_S1600000 (constantI S_ 32 0#32))) (addi (W (main_v3 : DevRef τ sig)) (broadcastInDim S1600000 ![] bcast_S_S1600000 (constantI S_ 32 100000#32))) (W (main_v3 : DevRef τ sig)))) := by
  after_results_simp <;> rfl

theorem stage_main_v24 (V : Valuation τ sig (Elt F)) :
    after ops V (main_v24 : DevRef τ sig)
      = Host.gather gather_S100000_S1600000x1_S1600000_n_0_n_n_0_1_1 (after ops V (main_v10 : DevRef τ sig)) (broadcastInDim S1600000x1 ![0] bcast_S1600000_S1600000x1_0 (select (cmpi .slt (after ops V (main_v3 : DevRef τ sig)) (broadcastInDim S1600000 ![] bcast_S_S1600000 (constantI S_ 32 0#32))) (addi (after ops V (main_v3 : DevRef τ sig)) (broadcastInDim S1600000 ![] bcast_S_S1600000 (constantI S_ 32 100000#32))) (after ops V (main_v3 : DevRef τ sig)))) := by
  have hc : after ops V (main_v24 : DevRef τ sig) = val5 V (main_v24 : DevRef τ sig) :=
    read_cut rest5_writes (fin5 V) (r := main_v24) (by decide)
  have hl0 : after ops V (main_v10 : DevRef τ sig) = val4 V (main_v10 : DevRef τ sig) :=
    read_cut rest4_writes (fin4 V) (r := main_v10) (by decide)
  have hl1 : after ops V (main_v3 : DevRef τ sig) = val4 V (main_v3 : DevRef τ sig) :=
    read_cut rest4_writes (fin4 V) (r := main_v3) (by decide)
  rw [hc, hl0, hl1]
  exact comp_main_v24 (val4 V)

/-- The fold over stretch 5 at `main_v25`, from any contents. -/
theorem comp_main_v25 (W : Valuation τ sig (Elt F)) :
    after seg5 W (main_v25 : DevRef τ sig)
      = mulf (W (main_v17 : DevRef τ sig)) (W (main_v24 : DevRef τ sig)) := by
  after_results_simp <;> rfl

theorem stage_main_v25 (V : Valuation τ sig (Elt F)) :
    after ops V (main_v25 : DevRef τ sig)
      = mulf (after ops V (main_v17 : DevRef τ sig)) (after ops V (main_v24 : DevRef τ sig)) := by
  have hc : after ops V (main_v25 : DevRef τ sig) = val6 V (main_v25 : DevRef τ sig) :=
    read_cut rest6_writes (fin6 V) (r := main_v25) (by decide)
  have hl0 : after ops V (main_v17 : DevRef τ sig) = val5 V (main_v17 : DevRef τ sig) :=
    read_cut rest5_writes (fin5 V) (r := main_v17) (by decide)
  have hl1 : after ops V (main_v24 : DevRef τ sig) = val5 V (main_v24 : DevRef τ sig) :=
    read_cut rest5_writes (fin5 V) (r := main_v24) (by decide)
  rw [hc, hl0, hl1]
  exact comp_main_v25 (val5 V)

/-- The fold over stretch 6 at `main_v26`, from any contents. -/
theorem comp_main_v26 (W : Valuation τ sig (Elt F)) :
    after seg6 W (main_v26 : DevRef τ sig)
      = mulf (W (main_v10 : DevRef τ sig)) (W (main_v10 : DevRef τ sig)) := by
  after_results_simp <;> rfl

theorem stage_main_v26 (V : Valuation τ sig (Elt F)) :
    after ops V (main_v26 : DevRef τ sig)
      = mulf (after ops V (main_v10 : DevRef τ sig)) (after ops V (main_v10 : DevRef τ sig)) := by
  have hc : after ops V (main_v26 : DevRef τ sig) = val7 V (main_v26 : DevRef τ sig) :=
    read_cut rest7_writes (fin7 V) (r := main_v26) (by decide)
  have hl0 : after ops V (main_v10 : DevRef τ sig) = val6 V (main_v10 : DevRef τ sig) :=
    read_cut rest6_writes (fin6 V) (r := main_v10) (by decide)
  rw [hc, hl0]
  exact comp_main_v26 (val6 V)

/-- The fold over stretch 7 at `main_v29`, from any contents. -/
theorem comp_main_v29 (W : Valuation τ sig (Elt F)) :
    after seg7 W (main_v29 : DevRef τ sig)
      = Host.dotGeneral dot_S100000x64_S64x64_S100000x64_1_0_0_1_n_n none (W (main_arg0 : DevRef τ sig)) (shapeCast S64x64 (extractStridedSlice S1x64x64 ![0, 0, 0] (W (main_arg3 : DevRef τ sig)) slices_S3x64x64_S1x64x64_0_0_0) shapeCasts_S1x64x64_S64x64) := by
  after_results_simp <;> rfl

theorem stage_main_v29 (V : Valuation τ sig (Elt F)) :
    after ops V (main_v29 : DevRef τ sig)
      = Host.dotGeneral dot_S100000x64_S64x64_S100000x64_1_0_0_1_n_n none (V (main_arg0 : DevRef τ sig)) (shapeCast S64x64 (extractStridedSlice S1x64x64 ![0, 0, 0] (V (main_arg3 : DevRef τ sig)) slices_S3x64x64_S1x64x64_0_0_0) shapeCasts_S1x64x64_S64x64) := by
  have hc : after ops V (main_v29 : DevRef τ sig) = val8 V (main_v29 : DevRef τ sig) :=
    read_cut rest8_writes (fin8 V) (r := main_v29) (by decide)
  have ha0 : val7 V (main_arg0 : DevRef τ sig) = V (main_arg0 : DevRef τ sig) :=
    (read_cut rest7_writes (fin7 V) (r := main_arg0) (by decide)).symm.trans (arg0_eq V)
  have ha1 : val7 V (main_arg3 : DevRef τ sig) = V (main_arg3 : DevRef τ sig) :=
    (read_cut rest7_writes (fin7 V) (r := main_arg3) (by decide)).symm.trans (arg3_eq V)
  rw [hc, ← ha0, ← ha1]
  exact comp_main_v29 (val7 V)

/-- The fold over stretch 8 at `main_v36`, from any contents. -/
theorem comp_main_v36 (W : Valuation τ sig (Elt F)) :
    after seg8 W (main_v36 : DevRef τ sig)
      = Host.gather gather_S100000x64_S1600000x1_S1600000x64_1_0_n_n_0_1_164 (W (main_v29 : DevRef τ sig)) (broadcastInDim S1600000x1 ![0] bcast_S1600000_S1600000x1_0 (select (cmpi .slt (W (main_v1 : DevRef τ sig)) (broadcastInDim S1600000 ![] bcast_S_S1600000 (constantI S_ 32 0#32))) (addi (W (main_v1 : DevRef τ sig)) (broadcastInDim S1600000 ![] bcast_S_S1600000 (constantI S_ 32 100000#32))) (W (main_v1 : DevRef τ sig)))) := by
  after_results_simp <;> rfl

theorem stage_main_v36 (V : Valuation τ sig (Elt F)) :
    after ops V (main_v36 : DevRef τ sig)
      = Host.gather gather_S100000x64_S1600000x1_S1600000x64_1_0_n_n_0_1_164 (after ops V (main_v29 : DevRef τ sig)) (broadcastInDim S1600000x1 ![0] bcast_S1600000_S1600000x1_0 (select (cmpi .slt (after ops V (main_v1 : DevRef τ sig)) (broadcastInDim S1600000 ![] bcast_S_S1600000 (constantI S_ 32 0#32))) (addi (after ops V (main_v1 : DevRef τ sig)) (broadcastInDim S1600000 ![] bcast_S_S1600000 (constantI S_ 32 100000#32))) (after ops V (main_v1 : DevRef τ sig)))) := by
  have hc : after ops V (main_v36 : DevRef τ sig) = val9 V (main_v36 : DevRef τ sig) :=
    read_cut rest9_writes (fin9 V) (r := main_v36) (by decide)
  have hl0 : after ops V (main_v29 : DevRef τ sig) = val8 V (main_v29 : DevRef τ sig) :=
    read_cut rest8_writes (fin8 V) (r := main_v29) (by decide)
  have hl1 : after ops V (main_v1 : DevRef τ sig) = val8 V (main_v1 : DevRef τ sig) :=
    read_cut rest8_writes (fin8 V) (r := main_v1) (by decide)
  rw [hc, hl0, hl1]
  exact comp_main_v36 (val8 V)

/-- The fold over stretch 9 at `main_v42`, from any contents. -/
theorem comp_main_v42 (W : Valuation τ sig (Elt F)) :
    after seg9 W (main_v42 : DevRef τ sig)
      = Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (W (main_v3 : DevRef τ sig))) (mulf (W (main_v36 : DevRef τ sig)) (broadcastInDim S1600000x64 ![0, 1] bcast_S1600000x1_S1600000x64_0_1 (broadcastInDim S1600000x1 ![0] bcast_S1600000_S1600000x1_0 (W (main_v25 : DevRef τ sig))))) := by
  after_results_simp <;> rfl

theorem stage_main_v42 (V : Valuation τ sig (Elt F)) :
    after ops V (main_v42 : DevRef τ sig)
      = Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (after ops V (main_v3 : DevRef τ sig))) (mulf (after ops V (main_v36 : DevRef τ sig)) (broadcastInDim S1600000x64 ![0, 1] bcast_S1600000x1_S1600000x64_0_1 (broadcastInDim S1600000x1 ![0] bcast_S1600000_S1600000x1_0 (after ops V (main_v25 : DevRef τ sig))))) := by
  have hc : after ops V (main_v42 : DevRef τ sig) = val10 V (main_v42 : DevRef τ sig) :=
    read_cut rest10_writes (fin10 V) (r := main_v42) (by decide)
  have hl0 : after ops V (main_v3 : DevRef τ sig) = val9 V (main_v3 : DevRef τ sig) :=
    read_cut rest9_writes (fin9 V) (r := main_v3) (by decide)
  have hl1 : after ops V (main_v36 : DevRef τ sig) = val9 V (main_v36 : DevRef τ sig) :=
    read_cut rest9_writes (fin9 V) (r := main_v36) (by decide)
  have hl2 : after ops V (main_v25 : DevRef τ sig) = val9 V (main_v25 : DevRef τ sig) :=
    read_cut rest9_writes (fin9 V) (r := main_v25) (by decide)
  rw [hc, hl0, hl1, hl2]
  exact comp_main_v42 (val9 V)

/-- The fold over stretch 10 at `main_v51`, from any contents. -/
theorem comp_main_v51 (W : Valuation τ sig (Elt F)) :
    after seg10 W (main_v51 : DevRef τ sig)
      = addf (addf (W (main_v42 : DevRef τ sig)) (mulf (W (main_v29 : DevRef τ sig)) (broadcastInDim S100000x64 ![0, 1] bcast_S100000x1_S100000x64_0_1 (broadcastInDim S100000x1 ![0] bcast_S100000_S100000x1_0 (W (main_v26 : DevRef τ sig)))))) (broadcastInDim S100000x64 ![0, 1] bcast_S1x64_S100000x64_0_1 (broadcastInDim S1x64 ![1] bcast_S64_S1x64_1 (shapeCast S64 (extractStridedSlice S1x64 ![0, 0] (W (main_arg4 : DevRef τ sig)) slices_S3x64_S1x64_0_0) shapeCasts_S1x64_S64))) := by
  after_results_simp <;> rfl

theorem stage_main_v51 (V : Valuation τ sig (Elt F)) :
    after ops V (main_v51 : DevRef τ sig)
      = addf (addf (after ops V (main_v42 : DevRef τ sig)) (mulf (after ops V (main_v29 : DevRef τ sig)) (broadcastInDim S100000x64 ![0, 1] bcast_S100000x1_S100000x64_0_1 (broadcastInDim S100000x1 ![0] bcast_S100000_S100000x1_0 (after ops V (main_v26 : DevRef τ sig)))))) (broadcastInDim S100000x64 ![0, 1] bcast_S1x64_S100000x64_0_1 (broadcastInDim S1x64 ![1] bcast_S64_S1x64_1 (shapeCast S64 (extractStridedSlice S1x64 ![0, 0] (V (main_arg4 : DevRef τ sig)) slices_S3x64_S1x64_0_0) shapeCasts_S1x64_S64))) := by
  have hc : after ops V (main_v51 : DevRef τ sig) = val11 V (main_v51 : DevRef τ sig) :=
    read_cut rest11_writes (fin11 V) (r := main_v51) (by decide)
  have hl0 : after ops V (main_v42 : DevRef τ sig) = val10 V (main_v42 : DevRef τ sig) :=
    read_cut rest10_writes (fin10 V) (r := main_v42) (by decide)
  have hl1 : after ops V (main_v29 : DevRef τ sig) = val10 V (main_v29 : DevRef τ sig) :=
    read_cut rest10_writes (fin10 V) (r := main_v29) (by decide)
  have hl2 : after ops V (main_v26 : DevRef τ sig) = val10 V (main_v26 : DevRef τ sig) :=
    read_cut rest10_writes (fin10 V) (r := main_v26) (by decide)
  have ha3 : val10 V (main_arg4 : DevRef τ sig) = V (main_arg4 : DevRef τ sig) :=
    (read_cut rest10_writes (fin10 V) (r := main_arg4) (by decide)).symm.trans (arg4_eq V)
  rw [hc, hl0, hl1, hl2, ← ha3]
  exact comp_main_v51 (val10 V)

/-- The fold over stretch 11 at `main_v54`, from any contents. -/
theorem comp_main_v54 (W : Valuation τ sig (Elt F)) :
    after seg11 W (main_v54 : DevRef τ sig)
      = Host.divf (Host.reduceAdd (W (main_v51 : DevRef τ sig)) (constant S_ .f32 0x00000000#32) reducesTo_S100000x64_S64_d0 h_S_) (broadcastInDim S64 ![] bcast_S_S64 (constant S_ .f32 0x47C35000#32)) := by
  after_results_simp <;> rfl

theorem stage_main_v54 (V : Valuation τ sig (Elt F)) :
    after ops V (main_v54 : DevRef τ sig)
      = Host.divf (Host.reduceAdd (after ops V (main_v51 : DevRef τ sig)) (constant S_ .f32 0x00000000#32) reducesTo_S100000x64_S64_d0 h_S_) (broadcastInDim S64 ![] bcast_S_S64 (constant S_ .f32 0x47C35000#32)) := by
  have hc : after ops V (main_v54 : DevRef τ sig) = val12 V (main_v54 : DevRef τ sig) :=
    read_cut rest12_writes (fin12 V) (r := main_v54) (by decide)
  have hl0 : after ops V (main_v51 : DevRef τ sig) = val11 V (main_v51 : DevRef τ sig) :=
    read_cut rest11_writes (fin11 V) (r := main_v51) (by decide)
  rw [hc, hl0]
  exact comp_main_v54 (val11 V)

/-- The fold over stretch 12 at `main_c_10`, from any contents. -/
theorem comp_main_c_10 (W : Valuation τ sig (Elt F)) :
    after seg12 W (main_c_10 : DevRef τ sig)
      = (constantI S_ 32 0#32) := by
  after_results_simp <;> rfl

theorem stage_main_c_10 (V : Valuation τ sig (Elt F)) :
    after ops V (main_c_10 : DevRef τ sig)
      = (constantI S_ 32 0#32) := by
  have hc : after ops V (main_c_10 : DevRef τ sig) = val13 V (main_c_10 : DevRef τ sig) :=
    read_cut rest13_writes (fin13 V) (r := main_c_10) (by decide)
  rw [hc]
  exact comp_main_c_10 (val12 V)

/-- The fold over stretch 13 at `main_call0_v5`, from any contents. -/
theorem comp_main_call0_v5 (W : Valuation τ sig (Elt F)) :
    after seg13 W (main_call0_v5 : DevRef τ sig)
      = subf (W (main_v51 : DevRef τ sig)) (broadcastInDim S100000x64 ![0, 1] bcast_S1x64_S100000x64_0_1 (Host.divf (broadcastInDim S1x64 ![1] bcast_S64_S1x64_1 (Host.reduceAdd (W (main_v51 : DevRef τ sig)) (constant S_ .f32 0x00000000#32) reducesTo_S100000x64_S64_d0 h_S_)) (broadcastInDim S1x64 ![] bcast_S_S1x64 (constant S_ .f32 0x47C35000#32)))) := by
  after_results_simp <;> rfl

theorem stage_main_call0_v5 (V : Valuation τ sig (Elt F)) :
    after ops V (main_call0_v5 : DevRef τ sig)
      = subf (after ops V (main_v51 : DevRef τ sig)) (broadcastInDim S100000x64 ![0, 1] bcast_S1x64_S100000x64_0_1 (Host.divf (broadcastInDim S1x64 ![1] bcast_S64_S1x64_1 (Host.reduceAdd (after ops V (main_v51 : DevRef τ sig)) (constant S_ .f32 0x00000000#32) reducesTo_S100000x64_S64_d0 h_S_)) (broadcastInDim S1x64 ![] bcast_S_S1x64 (constant S_ .f32 0x47C35000#32)))) := by
  have hc : after ops V (main_call0_v5 : DevRef τ sig) = val14 V (main_call0_v5 : DevRef τ sig) :=
    read_cut rest14_writes (fin14 V) (r := main_call0_v5) (by decide)
  have hl0 : after ops V (main_v51 : DevRef τ sig) = val13 V (main_v51 : DevRef τ sig) :=
    read_cut rest13_writes (fin13 V) (r := main_v51) (by decide)
  rw [hc, hl0]
  exact comp_main_call0_v5 (val13 V)

/-- The fold over stretch 14 at `main_v55`, from any contents. -/
theorem comp_main_v55 (W : Valuation τ sig (Elt F)) :
    after seg14 W (main_v55 : DevRef τ sig)
      = select (broadcastInDim S64 ![] bcast_S_S64 (cmpf .ogt (subf (constant S_ .f32 0x47C35000#32) (sitofp (F := F) .f32 (W (main_c_10 : DevRef τ sig)))) (constant S_ .f32 0x00000000#32))) (Host.divf (Host.reduceAdd (mulf (W (main_call0_v5 : DevRef τ sig)) (W (main_call0_v5 : DevRef τ sig))) (constant S_ .f32 0x00000000#32) reducesTo_S100000x64_S64_d0 h_S_) (broadcastInDim S64 ![] bcast_S_S64 (subf (constant S_ .f32 0x47C35000#32) (sitofp (F := F) .f32 (W (main_c_10 : DevRef τ sig)))))) (broadcastInDim S64 ![] bcast_S_S64 (id (constant S_ .f32 0x7FC00000#32))) := by
  after_results_simp <;> rfl

theorem stage_main_v55_raw (V : Valuation τ sig (Elt F)) :
    after ops V (main_v55 : DevRef τ sig)
      = select (broadcastInDim S64 ![] bcast_S_S64 (cmpf .ogt (subf (constant S_ .f32 0x47C35000#32) (sitofp (F := F) .f32 (after ops V (main_c_10 : DevRef τ sig)))) (constant S_ .f32 0x00000000#32))) (Host.divf (Host.reduceAdd (mulf (after ops V (main_call0_v5 : DevRef τ sig)) (after ops V (main_call0_v5 : DevRef τ sig))) (constant S_ .f32 0x00000000#32) reducesTo_S100000x64_S64_d0 h_S_) (broadcastInDim S64 ![] bcast_S_S64 (subf (constant S_ .f32 0x47C35000#32) (sitofp (F := F) .f32 (after ops V (main_c_10 : DevRef τ sig)))))) (broadcastInDim S64 ![] bcast_S_S64 (id (constant S_ .f32 0x7FC00000#32))) := by
  have hc : after ops V (main_v55 : DevRef τ sig) = val15 V (main_v55 : DevRef τ sig) :=
    read_cut rest15_writes (fin15 V) (r := main_v55) (by decide)
  have hl0 : after ops V (main_c_10 : DevRef τ sig) = val14 V (main_c_10 : DevRef τ sig) :=
    read_cut rest14_writes (fin14 V) (r := main_c_10) (by decide)
  have hl1 : after ops V (main_call0_v5 : DevRef τ sig) = val14 V (main_call0_v5 : DevRef τ sig) :=
    read_cut rest14_writes (fin14 V) (r := main_call0_v5) (by decide)
  rw [hc, hl0, hl1]
  exact comp_main_v55 (val14 V)

/-- The same with the scalar constant written out. -/
theorem stage_main_v55 (V : Valuation τ sig (Elt F)) :
    after ops V (main_v55 : DevRef τ sig)
      = select (broadcastInDim S64 ![] bcast_S_S64 (cmpf .ogt (subf (constant S_ .f32 0x47C35000#32) (sitofp (F := F) .f32 (constantI S_ 32 0#32))) (constant S_ .f32 0x00000000#32))) (Host.divf (Host.reduceAdd (mulf (after ops V (main_call0_v5 : DevRef τ sig)) (after ops V (main_call0_v5 : DevRef τ sig))) (constant S_ .f32 0x00000000#32) reducesTo_S100000x64_S64_d0 h_S_) (broadcastInDim S64 ![] bcast_S_S64 (subf (constant S_ .f32 0x47C35000#32) (sitofp (F := F) .f32 (constantI S_ 32 0#32))))) (broadcastInDim S64 ![] bcast_S_S64 (id (constant S_ .f32 0x7FC00000#32))) := by
  rw [stage_main_v55_raw, stage_main_c_10]

/-- The fold over stretch 15 at `main_v64`, from any contents. -/
theorem comp_main_v64 (W : Valuation τ sig (Elt F)) :
    after seg15 W (main_v64 : DevRef τ sig)
      = mulf (subf (W (main_v51 : DevRef τ sig)) (broadcastInDim S100000x64 ![0, 1] bcast_S1x64_S100000x64_0_1 (broadcastInDim S1x64 ![1] bcast_S64_S1x64_1 (W (main_v54 : DevRef τ sig))))) (broadcastInDim S100000x64 ![0, 1] bcast_S1x64_S100000x64_0_1 (broadcastInDim S1x64 ![1] bcast_S64_S1x64_1 (Host.rsqrt (addf (W (main_v55 : DevRef τ sig)) (broadcastInDim S64 ![] bcast_S_S64 (constant S_ .f32 0x3727C5AC#32)))))) := by
  after_results_simp <;> rfl

theorem stage_main_v64 (V : Valuation τ sig (Elt F)) :
    after ops V (main_v64 : DevRef τ sig)
      = mulf (subf (after ops V (main_v51 : DevRef τ sig)) (broadcastInDim S100000x64 ![0, 1] bcast_S1x64_S100000x64_0_1 (broadcastInDim S1x64 ![1] bcast_S64_S1x64_1 (after ops V (main_v54 : DevRef τ sig))))) (broadcastInDim S100000x64 ![0, 1] bcast_S1x64_S100000x64_0_1 (broadcastInDim S1x64 ![1] bcast_S64_S1x64_1 (Host.rsqrt (addf (after ops V (main_v55 : DevRef τ sig)) (broadcastInDim S64 ![] bcast_S_S64 (constant S_ .f32 0x3727C5AC#32)))))) := by
  have hc : after ops V (main_v64 : DevRef τ sig) = val16 V (main_v64 : DevRef τ sig) :=
    read_cut rest16_writes (fin16 V) (r := main_v64) (by decide)
  have hl0 : after ops V (main_v51 : DevRef τ sig) = val15 V (main_v51 : DevRef τ sig) :=
    read_cut rest15_writes (fin15 V) (r := main_v51) (by decide)
  have hl1 : after ops V (main_v54 : DevRef τ sig) = val15 V (main_v54 : DevRef τ sig) :=
    read_cut rest15_writes (fin15 V) (r := main_v54) (by decide)
  have hl2 : after ops V (main_v55 : DevRef τ sig) = val15 V (main_v55 : DevRef τ sig) :=
    read_cut rest15_writes (fin15 V) (r := main_v55) (by decide)
  rw [hc, hl0, hl1, hl2]
  exact comp_main_v64 (val15 V)

/-- The fold over stretch 16 at `main_v75`, from any contents. -/
theorem comp_main_v75 (W : Valuation τ sig (Elt F)) :
    after seg16 W (main_v75 : DevRef τ sig)
      = maximumf (addf (mulf (broadcastInDim S100000x64 ![0, 1] bcast_S1x64_S100000x64_0_1 (broadcastInDim S1x64 ![1] bcast_S64_S1x64_1 (shapeCast S64 (extractStridedSlice S1x64 ![0, 0] (W (main_arg5 : DevRef τ sig)) slices_S3x64_S1x64_0_0) shapeCasts_S1x64_S64))) (W (main_v64 : DevRef τ sig))) (broadcastInDim S100000x64 ![0, 1] bcast_S1x64_S100000x64_0_1 (broadcastInDim S1x64 ![1] bcast_S64_S1x64_1 (shapeCast S64 (extractStridedSlice S1x64 ![0, 0] (W (main_arg6 : DevRef τ sig)) slices_S3x64_S1x64_0_0) shapeCasts_S1x64_S64)))) (broadcastInDim S100000x64 ![] bcast_S_S100000x64 (constant S_ .f32 0x00000000#32)) := by
  after_results_simp <;> rfl

theorem stage_main_v75 (V : Valuation τ sig (Elt F)) :
    after ops V (main_v75 : DevRef τ sig)
      = maximumf (addf (mulf (broadcastInDim S100000x64 ![0, 1] bcast_S1x64_S100000x64_0_1 (broadcastInDim S1x64 ![1] bcast_S64_S1x64_1 (shapeCast S64 (extractStridedSlice S1x64 ![0, 0] (V (main_arg5 : DevRef τ sig)) slices_S3x64_S1x64_0_0) shapeCasts_S1x64_S64))) (after ops V (main_v64 : DevRef τ sig))) (broadcastInDim S100000x64 ![0, 1] bcast_S1x64_S100000x64_0_1 (broadcastInDim S1x64 ![1] bcast_S64_S1x64_1 (shapeCast S64 (extractStridedSlice S1x64 ![0, 0] (V (main_arg6 : DevRef τ sig)) slices_S3x64_S1x64_0_0) shapeCasts_S1x64_S64)))) (broadcastInDim S100000x64 ![] bcast_S_S100000x64 (constant S_ .f32 0x00000000#32)) := by
  have hc : after ops V (main_v75 : DevRef τ sig) = val17 V (main_v75 : DevRef τ sig) :=
    read_cut rest17_writes (fin17 V) (r := main_v75) (by decide)
  have ha0 : val16 V (main_arg5 : DevRef τ sig) = V (main_arg5 : DevRef τ sig) :=
    (read_cut rest16_writes (fin16 V) (r := main_arg5) (by decide)).symm.trans (arg5_eq V)
  have hl1 : after ops V (main_v64 : DevRef τ sig) = val16 V (main_v64 : DevRef τ sig) :=
    read_cut rest16_writes (fin16 V) (r := main_v64) (by decide)
  have ha2 : val16 V (main_arg6 : DevRef τ sig) = V (main_arg6 : DevRef τ sig) :=
    (read_cut rest16_writes (fin16 V) (r := main_arg6) (by decide)).symm.trans (arg6_eq V)
  rw [hc, hl1, ← ha0, ← ha2]
  exact comp_main_v75 (val16 V)

/-- The fold over stretch 17 at `main_v78`, from any contents. -/
theorem comp_main_v78 (W : Valuation τ sig (Elt F)) :
    after seg17 W (main_v78 : DevRef τ sig)
      = Host.dotGeneral dot_S100000x64_S64x64_S100000x64_1_0_0_1_n_n none (W (main_v75 : DevRef τ sig)) (shapeCast S64x64 (extractStridedSlice S1x64x64 ![1, 0, 0] (W (main_arg3 : DevRef τ sig)) slices_S3x64x64_S1x64x64_1_0_0) shapeCasts_S1x64x64_S64x64) := by
  after_results_simp <;> rfl

theorem stage_main_v78 (V : Valuation τ sig (Elt F)) :
    after ops V (main_v78 : DevRef τ sig)
      = Host.dotGeneral dot_S100000x64_S64x64_S100000x64_1_0_0_1_n_n none (after ops V (main_v75 : DevRef τ sig)) (shapeCast S64x64 (extractStridedSlice S1x64x64 ![1, 0, 0] (V (main_arg3 : DevRef τ sig)) slices_S3x64x64_S1x64x64_1_0_0) shapeCasts_S1x64x64_S64x64) := by
  have hc : after ops V (main_v78 : DevRef τ sig) = val18 V (main_v78 : DevRef τ sig) :=
    read_cut rest18_writes (fin18 V) (r := main_v78) (by decide)
  have hl0 : after ops V (main_v75 : DevRef τ sig) = val17 V (main_v75 : DevRef τ sig) :=
    read_cut rest17_writes (fin17 V) (r := main_v75) (by decide)
  have ha1 : val17 V (main_arg3 : DevRef τ sig) = V (main_arg3 : DevRef τ sig) :=
    (read_cut rest17_writes (fin17 V) (r := main_arg3) (by decide)).symm.trans (arg3_eq V)
  rw [hc, hl0, ← ha1]
  exact comp_main_v78 (val17 V)

/-- The fold over stretch 18 at `main_v85`, from any contents. -/
theorem comp_main_v85 (W : Valuation τ sig (Elt F)) :
    after seg18 W (main_v85 : DevRef τ sig)
      = Host.gather gather_S100000x64_S1600000x1_S1600000x64_1_0_n_n_0_1_164 (W (main_v78 : DevRef τ sig)) (broadcastInDim S1600000x1 ![0] bcast_S1600000_S1600000x1_0 (select (cmpi .slt (W (main_v1 : DevRef τ sig)) (broadcastInDim S1600000 ![] bcast_S_S1600000 (constantI S_ 32 0#32))) (addi (W (main_v1 : DevRef τ sig)) (broadcastInDim S1600000 ![] bcast_S_S1600000 (constantI S_ 32 100000#32))) (W (main_v1 : DevRef τ sig)))) := by
  after_results_simp <;> rfl

theorem stage_main_v85 (V : Valuation τ sig (Elt F)) :
    after ops V (main_v85 : DevRef τ sig)
      = Host.gather gather_S100000x64_S1600000x1_S1600000x64_1_0_n_n_0_1_164 (after ops V (main_v78 : DevRef τ sig)) (broadcastInDim S1600000x1 ![0] bcast_S1600000_S1600000x1_0 (select (cmpi .slt (after ops V (main_v1 : DevRef τ sig)) (broadcastInDim S1600000 ![] bcast_S_S1600000 (constantI S_ 32 0#32))) (addi (after ops V (main_v1 : DevRef τ sig)) (broadcastInDim S1600000 ![] bcast_S_S1600000 (constantI S_ 32 100000#32))) (after ops V (main_v1 : DevRef τ sig)))) := by
  have hc : after ops V (main_v85 : DevRef τ sig) = val19 V (main_v85 : DevRef τ sig) :=
    read_cut rest19_writes (fin19 V) (r := main_v85) (by decide)
  have hl0 : after ops V (main_v78 : DevRef τ sig) = val18 V (main_v78 : DevRef τ sig) :=
    read_cut rest18_writes (fin18 V) (r := main_v78) (by decide)
  have hl1 : after ops V (main_v1 : DevRef τ sig) = val18 V (main_v1 : DevRef τ sig) :=
    read_cut rest18_writes (fin18 V) (r := main_v1) (by decide)
  rw [hc, hl0, hl1]
  exact comp_main_v85 (val18 V)

/-- The fold over stretch 19 at `main_v91`, from any contents. -/
theorem comp_main_v91 (W : Valuation τ sig (Elt F)) :
    after seg19 W (main_v91 : DevRef τ sig)
      = Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (W (main_v3 : DevRef τ sig))) (mulf (W (main_v85 : DevRef τ sig)) (broadcastInDim S1600000x64 ![0, 1] bcast_S1600000x1_S1600000x64_0_1 (broadcastInDim S1600000x1 ![0] bcast_S1600000_S1600000x1_0 (W (main_v25 : DevRef τ sig))))) := by
  after_results_simp <;> rfl

theorem stage_main_v91 (V : Valuation τ sig (Elt F)) :
    after ops V (main_v91 : DevRef τ sig)
      = Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (after ops V (main_v3 : DevRef τ sig))) (mulf (after ops V (main_v85 : DevRef τ sig)) (broadcastInDim S1600000x64 ![0, 1] bcast_S1600000x1_S1600000x64_0_1 (broadcastInDim S1600000x1 ![0] bcast_S1600000_S1600000x1_0 (after ops V (main_v25 : DevRef τ sig))))) := by
  have hc : after ops V (main_v91 : DevRef τ sig) = val20 V (main_v91 : DevRef τ sig) :=
    read_cut rest20_writes (fin20 V) (r := main_v91) (by decide)
  have hl0 : after ops V (main_v3 : DevRef τ sig) = val19 V (main_v3 : DevRef τ sig) :=
    read_cut rest19_writes (fin19 V) (r := main_v3) (by decide)
  have hl1 : after ops V (main_v85 : DevRef τ sig) = val19 V (main_v85 : DevRef τ sig) :=
    read_cut rest19_writes (fin19 V) (r := main_v85) (by decide)
  have hl2 : after ops V (main_v25 : DevRef τ sig) = val19 V (main_v25 : DevRef τ sig) :=
    read_cut rest19_writes (fin19 V) (r := main_v25) (by decide)
  rw [hc, hl0, hl1, hl2]
  exact comp_main_v91 (val19 V)

/-- The fold over stretch 20 at `main_v100`, from any contents. -/
theorem comp_main_v100 (W : Valuation τ sig (Elt F)) :
    after seg20 W (main_v100 : DevRef τ sig)
      = addf (addf (W (main_v91 : DevRef τ sig)) (mulf (W (main_v78 : DevRef τ sig)) (broadcastInDim S100000x64 ![0, 1] bcast_S100000x1_S100000x64_0_1 (broadcastInDim S100000x1 ![0] bcast_S100000_S100000x1_0 (W (main_v26 : DevRef τ sig)))))) (broadcastInDim S100000x64 ![0, 1] bcast_S1x64_S100000x64_0_1 (broadcastInDim S1x64 ![1] bcast_S64_S1x64_1 (shapeCast S64 (extractStridedSlice S1x64 ![1, 0] (W (main_arg4 : DevRef τ sig)) slices_S3x64_S1x64_1_0) shapeCasts_S1x64_S64))) := by
  after_results_simp <;> rfl

theorem stage_main_v100 (V : Valuation τ sig (Elt F)) :
    after ops V (main_v100 : DevRef τ sig)
      = addf (addf (after ops V (main_v91 : DevRef τ sig)) (mulf (after ops V (main_v78 : DevRef τ sig)) (broadcastInDim S100000x64 ![0, 1] bcast_S100000x1_S100000x64_0_1 (broadcastInDim S100000x1 ![0] bcast_S100000_S100000x1_0 (after ops V (main_v26 : DevRef τ sig)))))) (broadcastInDim S100000x64 ![0, 1] bcast_S1x64_S100000x64_0_1 (broadcastInDim S1x64 ![1] bcast_S64_S1x64_1 (shapeCast S64 (extractStridedSlice S1x64 ![1, 0] (V (main_arg4 : DevRef τ sig)) slices_S3x64_S1x64_1_0) shapeCasts_S1x64_S64))) := by
  have hc : after ops V (main_v100 : DevRef τ sig) = val21 V (main_v100 : DevRef τ sig) :=
    read_cut rest21_writes (fin21 V) (r := main_v100) (by decide)
  have hl0 : after ops V (main_v91 : DevRef τ sig) = val20 V (main_v91 : DevRef τ sig) :=
    read_cut rest20_writes (fin20 V) (r := main_v91) (by decide)
  have hl1 : after ops V (main_v78 : DevRef τ sig) = val20 V (main_v78 : DevRef τ sig) :=
    read_cut rest20_writes (fin20 V) (r := main_v78) (by decide)
  have hl2 : after ops V (main_v26 : DevRef τ sig) = val20 V (main_v26 : DevRef τ sig) :=
    read_cut rest20_writes (fin20 V) (r := main_v26) (by decide)
  have ha3 : val20 V (main_arg4 : DevRef τ sig) = V (main_arg4 : DevRef τ sig) :=
    (read_cut rest20_writes (fin20 V) (r := main_arg4) (by decide)).symm.trans (arg4_eq V)
  rw [hc, hl0, hl1, hl2, ← ha3]
  exact comp_main_v100 (val20 V)

/-- The fold over stretch 21 at `main_v103`, from any contents. -/
theorem comp_main_v103 (W : Valuation τ sig (Elt F)) :
    after seg21 W (main_v103 : DevRef τ sig)
      = Host.divf (Host.reduceAdd (W (main_v100 : DevRef τ sig)) (constant S_ .f32 0x00000000#32) reducesTo_S100000x64_S64_d0 h_S_) (broadcastInDim S64 ![] bcast_S_S64 (constant S_ .f32 0x47C35000#32)) := by
  after_results_simp <;> rfl

theorem stage_main_v103 (V : Valuation τ sig (Elt F)) :
    after ops V (main_v103 : DevRef τ sig)
      = Host.divf (Host.reduceAdd (after ops V (main_v100 : DevRef τ sig)) (constant S_ .f32 0x00000000#32) reducesTo_S100000x64_S64_d0 h_S_) (broadcastInDim S64 ![] bcast_S_S64 (constant S_ .f32 0x47C35000#32)) := by
  have hc : after ops V (main_v103 : DevRef τ sig) = val22 V (main_v103 : DevRef τ sig) :=
    read_cut rest22_writes (fin22 V) (r := main_v103) (by decide)
  have hl0 : after ops V (main_v100 : DevRef τ sig) = val21 V (main_v100 : DevRef τ sig) :=
    read_cut rest21_writes (fin21 V) (r := main_v100) (by decide)
  rw [hc, hl0]
  exact comp_main_v103 (val21 V)

/-- The fold over stretch 22 at `main_c_17`, from any contents. -/
theorem comp_main_c_17 (W : Valuation τ sig (Elt F)) :
    after seg22 W (main_c_17 : DevRef τ sig)
      = (constantI S_ 32 0#32) := by
  after_results_simp <;> rfl

theorem stage_main_c_17 (V : Valuation τ sig (Elt F)) :
    after ops V (main_c_17 : DevRef τ sig)
      = (constantI S_ 32 0#32) := by
  have hc : after ops V (main_c_17 : DevRef τ sig) = val23 V (main_c_17 : DevRef τ sig) :=
    read_cut rest23_writes (fin23 V) (r := main_c_17) (by decide)
  rw [hc]
  exact comp_main_c_17 (val22 V)

/-- The fold over stretch 23 at `main_call2_v5`, from any contents. -/
theorem comp_main_call2_v5 (W : Valuation τ sig (Elt F)) :
    after seg23 W (main_call2_v5 : DevRef τ sig)
      = subf (W (main_v100 : DevRef τ sig)) (broadcastInDim S100000x64 ![0, 1] bcast_S1x64_S100000x64_0_1 (Host.divf (broadcastInDim S1x64 ![1] bcast_S64_S1x64_1 (Host.reduceAdd (W (main_v100 : DevRef τ sig)) (constant S_ .f32 0x00000000#32) reducesTo_S100000x64_S64_d0 h_S_)) (broadcastInDim S1x64 ![] bcast_S_S1x64 (constant S_ .f32 0x47C35000#32)))) := by
  after_results_simp <;> rfl

theorem stage_main_call2_v5 (V : Valuation τ sig (Elt F)) :
    after ops V (main_call2_v5 : DevRef τ sig)
      = subf (after ops V (main_v100 : DevRef τ sig)) (broadcastInDim S100000x64 ![0, 1] bcast_S1x64_S100000x64_0_1 (Host.divf (broadcastInDim S1x64 ![1] bcast_S64_S1x64_1 (Host.reduceAdd (after ops V (main_v100 : DevRef τ sig)) (constant S_ .f32 0x00000000#32) reducesTo_S100000x64_S64_d0 h_S_)) (broadcastInDim S1x64 ![] bcast_S_S1x64 (constant S_ .f32 0x47C35000#32)))) := by
  have hc : after ops V (main_call2_v5 : DevRef τ sig) = val24 V (main_call2_v5 : DevRef τ sig) :=
    read_cut rest24_writes (fin24 V) (r := main_call2_v5) (by decide)
  have hl0 : after ops V (main_v100 : DevRef τ sig) = val23 V (main_v100 : DevRef τ sig) :=
    read_cut rest23_writes (fin23 V) (r := main_v100) (by decide)
  rw [hc, hl0]
  exact comp_main_call2_v5 (val23 V)

/-- The fold over stretch 24 at `main_v104`, from any contents. -/
theorem comp_main_v104 (W : Valuation τ sig (Elt F)) :
    after seg24 W (main_v104 : DevRef τ sig)
      = select (broadcastInDim S64 ![] bcast_S_S64 (cmpf .ogt (subf (constant S_ .f32 0x47C35000#32) (sitofp (F := F) .f32 (W (main_c_17 : DevRef τ sig)))) (constant S_ .f32 0x00000000#32))) (Host.divf (Host.reduceAdd (mulf (W (main_call2_v5 : DevRef τ sig)) (W (main_call2_v5 : DevRef τ sig))) (constant S_ .f32 0x00000000#32) reducesTo_S100000x64_S64_d0 h_S_) (broadcastInDim S64 ![] bcast_S_S64 (subf (constant S_ .f32 0x47C35000#32) (sitofp (F := F) .f32 (W (main_c_17 : DevRef τ sig)))))) (broadcastInDim S64 ![] bcast_S_S64 (id (constant S_ .f32 0x7FC00000#32))) := by
  after_results_simp <;> rfl

theorem stage_main_v104_raw (V : Valuation τ sig (Elt F)) :
    after ops V (main_v104 : DevRef τ sig)
      = select (broadcastInDim S64 ![] bcast_S_S64 (cmpf .ogt (subf (constant S_ .f32 0x47C35000#32) (sitofp (F := F) .f32 (after ops V (main_c_17 : DevRef τ sig)))) (constant S_ .f32 0x00000000#32))) (Host.divf (Host.reduceAdd (mulf (after ops V (main_call2_v5 : DevRef τ sig)) (after ops V (main_call2_v5 : DevRef τ sig))) (constant S_ .f32 0x00000000#32) reducesTo_S100000x64_S64_d0 h_S_) (broadcastInDim S64 ![] bcast_S_S64 (subf (constant S_ .f32 0x47C35000#32) (sitofp (F := F) .f32 (after ops V (main_c_17 : DevRef τ sig)))))) (broadcastInDim S64 ![] bcast_S_S64 (id (constant S_ .f32 0x7FC00000#32))) := by
  have hc : after ops V (main_v104 : DevRef τ sig) = val25 V (main_v104 : DevRef τ sig) :=
    read_cut rest25_writes (fin25 V) (r := main_v104) (by decide)
  have hl0 : after ops V (main_c_17 : DevRef τ sig) = val24 V (main_c_17 : DevRef τ sig) :=
    read_cut rest24_writes (fin24 V) (r := main_c_17) (by decide)
  have hl1 : after ops V (main_call2_v5 : DevRef τ sig) = val24 V (main_call2_v5 : DevRef τ sig) :=
    read_cut rest24_writes (fin24 V) (r := main_call2_v5) (by decide)
  rw [hc, hl0, hl1]
  exact comp_main_v104 (val24 V)

/-- The same with the scalar constant written out. -/
theorem stage_main_v104 (V : Valuation τ sig (Elt F)) :
    after ops V (main_v104 : DevRef τ sig)
      = select (broadcastInDim S64 ![] bcast_S_S64 (cmpf .ogt (subf (constant S_ .f32 0x47C35000#32) (sitofp (F := F) .f32 (constantI S_ 32 0#32))) (constant S_ .f32 0x00000000#32))) (Host.divf (Host.reduceAdd (mulf (after ops V (main_call2_v5 : DevRef τ sig)) (after ops V (main_call2_v5 : DevRef τ sig))) (constant S_ .f32 0x00000000#32) reducesTo_S100000x64_S64_d0 h_S_) (broadcastInDim S64 ![] bcast_S_S64 (subf (constant S_ .f32 0x47C35000#32) (sitofp (F := F) .f32 (constantI S_ 32 0#32))))) (broadcastInDim S64 ![] bcast_S_S64 (id (constant S_ .f32 0x7FC00000#32))) := by
  rw [stage_main_v104_raw, stage_main_c_17]

/-- The fold over stretch 25 at `main_v113`, from any contents. -/
theorem comp_main_v113 (W : Valuation τ sig (Elt F)) :
    after seg25 W (main_v113 : DevRef τ sig)
      = mulf (subf (W (main_v100 : DevRef τ sig)) (broadcastInDim S100000x64 ![0, 1] bcast_S1x64_S100000x64_0_1 (broadcastInDim S1x64 ![1] bcast_S64_S1x64_1 (W (main_v103 : DevRef τ sig))))) (broadcastInDim S100000x64 ![0, 1] bcast_S1x64_S100000x64_0_1 (broadcastInDim S1x64 ![1] bcast_S64_S1x64_1 (Host.rsqrt (addf (W (main_v104 : DevRef τ sig)) (broadcastInDim S64 ![] bcast_S_S64 (constant S_ .f32 0x3727C5AC#32)))))) := by
  after_results_simp <;> rfl

theorem stage_main_v113 (V : Valuation τ sig (Elt F)) :
    after ops V (main_v113 : DevRef τ sig)
      = mulf (subf (after ops V (main_v100 : DevRef τ sig)) (broadcastInDim S100000x64 ![0, 1] bcast_S1x64_S100000x64_0_1 (broadcastInDim S1x64 ![1] bcast_S64_S1x64_1 (after ops V (main_v103 : DevRef τ sig))))) (broadcastInDim S100000x64 ![0, 1] bcast_S1x64_S100000x64_0_1 (broadcastInDim S1x64 ![1] bcast_S64_S1x64_1 (Host.rsqrt (addf (after ops V (main_v104 : DevRef τ sig)) (broadcastInDim S64 ![] bcast_S_S64 (constant S_ .f32 0x3727C5AC#32)))))) := by
  have hc : after ops V (main_v113 : DevRef τ sig) = val26 V (main_v113 : DevRef τ sig) :=
    read_cut rest26_writes (fin26 V) (r := main_v113) (by decide)
  have hl0 : after ops V (main_v100 : DevRef τ sig) = val25 V (main_v100 : DevRef τ sig) :=
    read_cut rest25_writes (fin25 V) (r := main_v100) (by decide)
  have hl1 : after ops V (main_v103 : DevRef τ sig) = val25 V (main_v103 : DevRef τ sig) :=
    read_cut rest25_writes (fin25 V) (r := main_v103) (by decide)
  have hl2 : after ops V (main_v104 : DevRef τ sig) = val25 V (main_v104 : DevRef τ sig) :=
    read_cut rest25_writes (fin25 V) (r := main_v104) (by decide)
  rw [hc, hl0, hl1, hl2]
  exact comp_main_v113 (val25 V)

/-- The fold over stretch 26 at `main_v124`, from any contents. -/
theorem comp_main_v124 (W : Valuation τ sig (Elt F)) :
    after seg26 W (main_v124 : DevRef τ sig)
      = maximumf (addf (mulf (broadcastInDim S100000x64 ![0, 1] bcast_S1x64_S100000x64_0_1 (broadcastInDim S1x64 ![1] bcast_S64_S1x64_1 (shapeCast S64 (extractStridedSlice S1x64 ![1, 0] (W (main_arg5 : DevRef τ sig)) slices_S3x64_S1x64_1_0) shapeCasts_S1x64_S64))) (W (main_v113 : DevRef τ sig))) (broadcastInDim S100000x64 ![0, 1] bcast_S1x64_S100000x64_0_1 (broadcastInDim S1x64 ![1] bcast_S64_S1x64_1 (shapeCast S64 (extractStridedSlice S1x64 ![1, 0] (W (main_arg6 : DevRef τ sig)) slices_S3x64_S1x64_1_0) shapeCasts_S1x64_S64)))) (broadcastInDim S100000x64 ![] bcast_S_S100000x64 (constant S_ .f32 0x00000000#32)) := by
  after_results_simp <;> rfl

theorem stage_main_v124 (V : Valuation τ sig (Elt F)) :
    after ops V (main_v124 : DevRef τ sig)
      = maximumf (addf (mulf (broadcastInDim S100000x64 ![0, 1] bcast_S1x64_S100000x64_0_1 (broadcastInDim S1x64 ![1] bcast_S64_S1x64_1 (shapeCast S64 (extractStridedSlice S1x64 ![1, 0] (V (main_arg5 : DevRef τ sig)) slices_S3x64_S1x64_1_0) shapeCasts_S1x64_S64))) (after ops V (main_v113 : DevRef τ sig))) (broadcastInDim S100000x64 ![0, 1] bcast_S1x64_S100000x64_0_1 (broadcastInDim S1x64 ![1] bcast_S64_S1x64_1 (shapeCast S64 (extractStridedSlice S1x64 ![1, 0] (V (main_arg6 : DevRef τ sig)) slices_S3x64_S1x64_1_0) shapeCasts_S1x64_S64)))) (broadcastInDim S100000x64 ![] bcast_S_S100000x64 (constant S_ .f32 0x00000000#32)) := by
  have hc : after ops V (main_v124 : DevRef τ sig) = val27 V (main_v124 : DevRef τ sig) :=
    read_cut rest27_writes (fin27 V) (r := main_v124) (by decide)
  have ha0 : val26 V (main_arg5 : DevRef τ sig) = V (main_arg5 : DevRef τ sig) :=
    (read_cut rest26_writes (fin26 V) (r := main_arg5) (by decide)).symm.trans (arg5_eq V)
  have hl1 : after ops V (main_v113 : DevRef τ sig) = val26 V (main_v113 : DevRef τ sig) :=
    read_cut rest26_writes (fin26 V) (r := main_v113) (by decide)
  have ha2 : val26 V (main_arg6 : DevRef τ sig) = V (main_arg6 : DevRef τ sig) :=
    (read_cut rest26_writes (fin26 V) (r := main_arg6) (by decide)).symm.trans (arg6_eq V)
  rw [hc, hl1, ← ha0, ← ha2]
  exact comp_main_v124 (val26 V)

/-- The fold over stretch 27 at `main_v127`, from any contents. -/
theorem comp_main_v127 (W : Valuation τ sig (Elt F)) :
    after seg27 W (main_v127 : DevRef τ sig)
      = Host.dotGeneral dot_S100000x64_S64x64_S100000x64_1_0_0_1_n_n none (W (main_v124 : DevRef τ sig)) (shapeCast S64x64 (extractStridedSlice S1x64x64 ![2, 0, 0] (W (main_arg3 : DevRef τ sig)) slices_S3x64x64_S1x64x64_2_0_0) shapeCasts_S1x64x64_S64x64) := by
  after_results_simp <;> rfl

theorem stage_main_v127 (V : Valuation τ sig (Elt F)) :
    after ops V (main_v127 : DevRef τ sig)
      = Host.dotGeneral dot_S100000x64_S64x64_S100000x64_1_0_0_1_n_n none (after ops V (main_v124 : DevRef τ sig)) (shapeCast S64x64 (extractStridedSlice S1x64x64 ![2, 0, 0] (V (main_arg3 : DevRef τ sig)) slices_S3x64x64_S1x64x64_2_0_0) shapeCasts_S1x64x64_S64x64) := by
  have hc : after ops V (main_v127 : DevRef τ sig) = val28 V (main_v127 : DevRef τ sig) :=
    read_cut rest28_writes (fin28 V) (r := main_v127) (by decide)
  have hl0 : after ops V (main_v124 : DevRef τ sig) = val27 V (main_v124 : DevRef τ sig) :=
    read_cut rest27_writes (fin27 V) (r := main_v124) (by decide)
  have ha1 : val27 V (main_arg3 : DevRef τ sig) = V (main_arg3 : DevRef τ sig) :=
    (read_cut rest27_writes (fin27 V) (r := main_arg3) (by decide)).symm.trans (arg3_eq V)
  rw [hc, hl0, ← ha1]
  exact comp_main_v127 (val27 V)

/-- The fold over stretch 28 at `main_v134`, from any contents. -/
theorem comp_main_v134 (W : Valuation τ sig (Elt F)) :
    after seg28 W (main_v134 : DevRef τ sig)
      = Host.gather gather_S100000x64_S1600000x1_S1600000x64_1_0_n_n_0_1_164 (W (main_v127 : DevRef τ sig)) (broadcastInDim S1600000x1 ![0] bcast_S1600000_S1600000x1_0 (select (cmpi .slt (W (main_v1 : DevRef τ sig)) (broadcastInDim S1600000 ![] bcast_S_S1600000 (constantI S_ 32 0#32))) (addi (W (main_v1 : DevRef τ sig)) (broadcastInDim S1600000 ![] bcast_S_S1600000 (constantI S_ 32 100000#32))) (W (main_v1 : DevRef τ sig)))) := by
  after_results_simp <;> rfl

theorem stage_main_v134 (V : Valuation τ sig (Elt F)) :
    after ops V (main_v134 : DevRef τ sig)
      = Host.gather gather_S100000x64_S1600000x1_S1600000x64_1_0_n_n_0_1_164 (after ops V (main_v127 : DevRef τ sig)) (broadcastInDim S1600000x1 ![0] bcast_S1600000_S1600000x1_0 (select (cmpi .slt (after ops V (main_v1 : DevRef τ sig)) (broadcastInDim S1600000 ![] bcast_S_S1600000 (constantI S_ 32 0#32))) (addi (after ops V (main_v1 : DevRef τ sig)) (broadcastInDim S1600000 ![] bcast_S_S1600000 (constantI S_ 32 100000#32))) (after ops V (main_v1 : DevRef τ sig)))) := by
  have hc : after ops V (main_v134 : DevRef τ sig) = val29 V (main_v134 : DevRef τ sig) :=
    read_cut rest29_writes (fin29 V) (r := main_v134) (by decide)
  have hl0 : after ops V (main_v127 : DevRef τ sig) = val28 V (main_v127 : DevRef τ sig) :=
    read_cut rest28_writes (fin28 V) (r := main_v127) (by decide)
  have hl1 : after ops V (main_v1 : DevRef τ sig) = val28 V (main_v1 : DevRef τ sig) :=
    read_cut rest28_writes (fin28 V) (r := main_v1) (by decide)
  rw [hc, hl0, hl1]
  exact comp_main_v134 (val28 V)

/-- The fold over stretch 29 at `main_v140`, from any contents. -/
theorem comp_main_v140 (W : Valuation τ sig (Elt F)) :
    after seg29 W (main_v140 : DevRef τ sig)
      = Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (W (main_v3 : DevRef τ sig))) (mulf (W (main_v134 : DevRef τ sig)) (broadcastInDim S1600000x64 ![0, 1] bcast_S1600000x1_S1600000x64_0_1 (broadcastInDim S1600000x1 ![0] bcast_S1600000_S1600000x1_0 (W (main_v25 : DevRef τ sig))))) := by
  after_results_simp <;> rfl

theorem stage_main_v140 (V : Valuation τ sig (Elt F)) :
    after ops V (main_v140 : DevRef τ sig)
      = Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (after ops V (main_v3 : DevRef τ sig))) (mulf (after ops V (main_v134 : DevRef τ sig)) (broadcastInDim S1600000x64 ![0, 1] bcast_S1600000x1_S1600000x64_0_1 (broadcastInDim S1600000x1 ![0] bcast_S1600000_S1600000x1_0 (after ops V (main_v25 : DevRef τ sig))))) := by
  have hc : after ops V (main_v140 : DevRef τ sig) = val30 V (main_v140 : DevRef τ sig) :=
    read_cut rest30_writes (fin30 V) (r := main_v140) (by decide)
  have hl0 : after ops V (main_v3 : DevRef τ sig) = val29 V (main_v3 : DevRef τ sig) :=
    read_cut rest29_writes (fin29 V) (r := main_v3) (by decide)
  have hl1 : after ops V (main_v134 : DevRef τ sig) = val29 V (main_v134 : DevRef τ sig) :=
    read_cut rest29_writes (fin29 V) (r := main_v134) (by decide)
  have hl2 : after ops V (main_v25 : DevRef τ sig) = val29 V (main_v25 : DevRef τ sig) :=
    read_cut rest29_writes (fin29 V) (r := main_v25) (by decide)
  rw [hc, hl0, hl1, hl2]
  exact comp_main_v140 (val29 V)

/-- The fold over stretch 30 at `main_v149`, from any contents. -/
theorem comp_main_v149 (W : Valuation τ sig (Elt F)) :
    after seg30 W (main_v149 : DevRef τ sig)
      = addf (addf (W (main_v140 : DevRef τ sig)) (mulf (W (main_v127 : DevRef τ sig)) (broadcastInDim S100000x64 ![0, 1] bcast_S100000x1_S100000x64_0_1 (broadcastInDim S100000x1 ![0] bcast_S100000_S100000x1_0 (W (main_v26 : DevRef τ sig)))))) (broadcastInDim S100000x64 ![0, 1] bcast_S1x64_S100000x64_0_1 (broadcastInDim S1x64 ![1] bcast_S64_S1x64_1 (shapeCast S64 (extractStridedSlice S1x64 ![2, 0] (W (main_arg4 : DevRef τ sig)) slices_S3x64_S1x64_2_0) shapeCasts_S1x64_S64))) := by
  after_results_simp <;> rfl

theorem stage_main_v149 (V : Valuation τ sig (Elt F)) :
    after ops V (main_v149 : DevRef τ sig)
      = addf (addf (after ops V (main_v140 : DevRef τ sig)) (mulf (after ops V (main_v127 : DevRef τ sig)) (broadcastInDim S100000x64 ![0, 1] bcast_S100000x1_S100000x64_0_1 (broadcastInDim S100000x1 ![0] bcast_S100000_S100000x1_0 (after ops V (main_v26 : DevRef τ sig)))))) (broadcastInDim S100000x64 ![0, 1] bcast_S1x64_S100000x64_0_1 (broadcastInDim S1x64 ![1] bcast_S64_S1x64_1 (shapeCast S64 (extractStridedSlice S1x64 ![2, 0] (V (main_arg4 : DevRef τ sig)) slices_S3x64_S1x64_2_0) shapeCasts_S1x64_S64))) := by
  have hc : after ops V (main_v149 : DevRef τ sig) = val31 V (main_v149 : DevRef τ sig) :=
    read_cut rest31_writes (fin31 V) (r := main_v149) (by decide)
  have hl0 : after ops V (main_v140 : DevRef τ sig) = val30 V (main_v140 : DevRef τ sig) :=
    read_cut rest30_writes (fin30 V) (r := main_v140) (by decide)
  have hl1 : after ops V (main_v127 : DevRef τ sig) = val30 V (main_v127 : DevRef τ sig) :=
    read_cut rest30_writes (fin30 V) (r := main_v127) (by decide)
  have hl2 : after ops V (main_v26 : DevRef τ sig) = val30 V (main_v26 : DevRef τ sig) :=
    read_cut rest30_writes (fin30 V) (r := main_v26) (by decide)
  have ha3 : val30 V (main_arg4 : DevRef τ sig) = V (main_arg4 : DevRef τ sig) :=
    (read_cut rest30_writes (fin30 V) (r := main_arg4) (by decide)).symm.trans (arg4_eq V)
  rw [hc, hl0, hl1, hl2, ← ha3]
  exact comp_main_v149 (val30 V)

/-- The fold over stretch 31 at `main_v152`, from any contents. -/
theorem comp_main_v152 (W : Valuation τ sig (Elt F)) :
    after seg31 W (main_v152 : DevRef τ sig)
      = Host.divf (Host.reduceAdd (W (main_v149 : DevRef τ sig)) (constant S_ .f32 0x00000000#32) reducesTo_S100000x64_S64_d0 h_S_) (broadcastInDim S64 ![] bcast_S_S64 (constant S_ .f32 0x47C35000#32)) := by
  after_results_simp <;> rfl

theorem stage_main_v152 (V : Valuation τ sig (Elt F)) :
    after ops V (main_v152 : DevRef τ sig)
      = Host.divf (Host.reduceAdd (after ops V (main_v149 : DevRef τ sig)) (constant S_ .f32 0x00000000#32) reducesTo_S100000x64_S64_d0 h_S_) (broadcastInDim S64 ![] bcast_S_S64 (constant S_ .f32 0x47C35000#32)) := by
  have hc : after ops V (main_v152 : DevRef τ sig) = val32 V (main_v152 : DevRef τ sig) :=
    read_cut rest32_writes (fin32 V) (r := main_v152) (by decide)
  have hl0 : after ops V (main_v149 : DevRef τ sig) = val31 V (main_v149 : DevRef τ sig) :=
    read_cut rest31_writes (fin31 V) (r := main_v149) (by decide)
  rw [hc, hl0]
  exact comp_main_v152 (val31 V)

/-- The fold over stretch 32 at `main_c_24`, from any contents. -/
theorem comp_main_c_24 (W : Valuation τ sig (Elt F)) :
    after seg32 W (main_c_24 : DevRef τ sig)
      = (constantI S_ 32 0#32) := by
  after_results_simp <;> rfl

theorem stage_main_c_24 (V : Valuation τ sig (Elt F)) :
    after ops V (main_c_24 : DevRef τ sig)
      = (constantI S_ 32 0#32) := by
  have hc : after ops V (main_c_24 : DevRef τ sig) = val33 V (main_c_24 : DevRef τ sig) :=
    read_cut rest33_writes (fin33 V) (r := main_c_24) (by decide)
  rw [hc]
  exact comp_main_c_24 (val32 V)

/-- The fold over stretch 33 at `main_call4_v5`, from any contents. -/
theorem comp_main_call4_v5 (W : Valuation τ sig (Elt F)) :
    after seg33 W (main_call4_v5 : DevRef τ sig)
      = subf (W (main_v149 : DevRef τ sig)) (broadcastInDim S100000x64 ![0, 1] bcast_S1x64_S100000x64_0_1 (Host.divf (broadcastInDim S1x64 ![1] bcast_S64_S1x64_1 (Host.reduceAdd (W (main_v149 : DevRef τ sig)) (constant S_ .f32 0x00000000#32) reducesTo_S100000x64_S64_d0 h_S_)) (broadcastInDim S1x64 ![] bcast_S_S1x64 (constant S_ .f32 0x47C35000#32)))) := by
  after_results_simp <;> rfl

theorem stage_main_call4_v5 (V : Valuation τ sig (Elt F)) :
    after ops V (main_call4_v5 : DevRef τ sig)
      = subf (after ops V (main_v149 : DevRef τ sig)) (broadcastInDim S100000x64 ![0, 1] bcast_S1x64_S100000x64_0_1 (Host.divf (broadcastInDim S1x64 ![1] bcast_S64_S1x64_1 (Host.reduceAdd (after ops V (main_v149 : DevRef τ sig)) (constant S_ .f32 0x00000000#32) reducesTo_S100000x64_S64_d0 h_S_)) (broadcastInDim S1x64 ![] bcast_S_S1x64 (constant S_ .f32 0x47C35000#32)))) := by
  have hc : after ops V (main_call4_v5 : DevRef τ sig) = val34 V (main_call4_v5 : DevRef τ sig) :=
    read_cut rest34_writes (fin34 V) (r := main_call4_v5) (by decide)
  have hl0 : after ops V (main_v149 : DevRef τ sig) = val33 V (main_v149 : DevRef τ sig) :=
    read_cut rest33_writes (fin33 V) (r := main_v149) (by decide)
  rw [hc, hl0]
  exact comp_main_call4_v5 (val33 V)

/-- The fold over stretch 34 at `main_v153`, from any contents. -/
theorem comp_main_v153 (W : Valuation τ sig (Elt F)) :
    after seg34 W (main_v153 : DevRef τ sig)
      = select (broadcastInDim S64 ![] bcast_S_S64 (cmpf .ogt (subf (constant S_ .f32 0x47C35000#32) (sitofp (F := F) .f32 (W (main_c_24 : DevRef τ sig)))) (constant S_ .f32 0x00000000#32))) (Host.divf (Host.reduceAdd (mulf (W (main_call4_v5 : DevRef τ sig)) (W (main_call4_v5 : DevRef τ sig))) (constant S_ .f32 0x00000000#32) reducesTo_S100000x64_S64_d0 h_S_) (broadcastInDim S64 ![] bcast_S_S64 (subf (constant S_ .f32 0x47C35000#32) (sitofp (F := F) .f32 (W (main_c_24 : DevRef τ sig)))))) (broadcastInDim S64 ![] bcast_S_S64 (id (constant S_ .f32 0x7FC00000#32))) := by
  after_results_simp <;> rfl

theorem stage_main_v153_raw (V : Valuation τ sig (Elt F)) :
    after ops V (main_v153 : DevRef τ sig)
      = select (broadcastInDim S64 ![] bcast_S_S64 (cmpf .ogt (subf (constant S_ .f32 0x47C35000#32) (sitofp (F := F) .f32 (after ops V (main_c_24 : DevRef τ sig)))) (constant S_ .f32 0x00000000#32))) (Host.divf (Host.reduceAdd (mulf (after ops V (main_call4_v5 : DevRef τ sig)) (after ops V (main_call4_v5 : DevRef τ sig))) (constant S_ .f32 0x00000000#32) reducesTo_S100000x64_S64_d0 h_S_) (broadcastInDim S64 ![] bcast_S_S64 (subf (constant S_ .f32 0x47C35000#32) (sitofp (F := F) .f32 (after ops V (main_c_24 : DevRef τ sig)))))) (broadcastInDim S64 ![] bcast_S_S64 (id (constant S_ .f32 0x7FC00000#32))) := by
  have hc : after ops V (main_v153 : DevRef τ sig) = val35 V (main_v153 : DevRef τ sig) :=
    read_cut rest35_writes (fin35 V) (r := main_v153) (by decide)
  have hl0 : after ops V (main_c_24 : DevRef τ sig) = val34 V (main_c_24 : DevRef τ sig) :=
    read_cut rest34_writes (fin34 V) (r := main_c_24) (by decide)
  have hl1 : after ops V (main_call4_v5 : DevRef τ sig) = val34 V (main_call4_v5 : DevRef τ sig) :=
    read_cut rest34_writes (fin34 V) (r := main_call4_v5) (by decide)
  rw [hc, hl0, hl1]
  exact comp_main_v153 (val34 V)

/-- The same with the scalar constant written out. -/
theorem stage_main_v153 (V : Valuation τ sig (Elt F)) :
    after ops V (main_v153 : DevRef τ sig)
      = select (broadcastInDim S64 ![] bcast_S_S64 (cmpf .ogt (subf (constant S_ .f32 0x47C35000#32) (sitofp (F := F) .f32 (constantI S_ 32 0#32))) (constant S_ .f32 0x00000000#32))) (Host.divf (Host.reduceAdd (mulf (after ops V (main_call4_v5 : DevRef τ sig)) (after ops V (main_call4_v5 : DevRef τ sig))) (constant S_ .f32 0x00000000#32) reducesTo_S100000x64_S64_d0 h_S_) (broadcastInDim S64 ![] bcast_S_S64 (subf (constant S_ .f32 0x47C35000#32) (sitofp (F := F) .f32 (constantI S_ 32 0#32))))) (broadcastInDim S64 ![] bcast_S_S64 (id (constant S_ .f32 0x7FC00000#32))) := by
  rw [stage_main_v153_raw, stage_main_c_24]

/-- The fold over stretch 35 at `main_v162`, from any contents. -/
theorem comp_main_v162 (W : Valuation τ sig (Elt F)) :
    after seg35 W (main_v162 : DevRef τ sig)
      = mulf (subf (W (main_v149 : DevRef τ sig)) (broadcastInDim S100000x64 ![0, 1] bcast_S1x64_S100000x64_0_1 (broadcastInDim S1x64 ![1] bcast_S64_S1x64_1 (W (main_v152 : DevRef τ sig))))) (broadcastInDim S100000x64 ![0, 1] bcast_S1x64_S100000x64_0_1 (broadcastInDim S1x64 ![1] bcast_S64_S1x64_1 (Host.rsqrt (addf (W (main_v153 : DevRef τ sig)) (broadcastInDim S64 ![] bcast_S_S64 (constant S_ .f32 0x3727C5AC#32)))))) := by
  after_results_simp <;> rfl

theorem stage_main_v162 (V : Valuation τ sig (Elt F)) :
    after ops V (main_v162 : DevRef τ sig)
      = mulf (subf (after ops V (main_v149 : DevRef τ sig)) (broadcastInDim S100000x64 ![0, 1] bcast_S1x64_S100000x64_0_1 (broadcastInDim S1x64 ![1] bcast_S64_S1x64_1 (after ops V (main_v152 : DevRef τ sig))))) (broadcastInDim S100000x64 ![0, 1] bcast_S1x64_S100000x64_0_1 (broadcastInDim S1x64 ![1] bcast_S64_S1x64_1 (Host.rsqrt (addf (after ops V (main_v153 : DevRef τ sig)) (broadcastInDim S64 ![] bcast_S_S64 (constant S_ .f32 0x3727C5AC#32)))))) := by
  have hc : after ops V (main_v162 : DevRef τ sig) = val36 V (main_v162 : DevRef τ sig) :=
    read_cut rest36_writes (fin36 V) (r := main_v162) (by decide)
  have hl0 : after ops V (main_v149 : DevRef τ sig) = val35 V (main_v149 : DevRef τ sig) :=
    read_cut rest35_writes (fin35 V) (r := main_v149) (by decide)
  have hl1 : after ops V (main_v152 : DevRef τ sig) = val35 V (main_v152 : DevRef τ sig) :=
    read_cut rest35_writes (fin35 V) (r := main_v152) (by decide)
  have hl2 : after ops V (main_v153 : DevRef τ sig) = val35 V (main_v153 : DevRef τ sig) :=
    read_cut rest35_writes (fin35 V) (r := main_v153) (by decide)
  rw [hc, hl0, hl1, hl2]
  exact comp_main_v162 (val35 V)

/-- The fold over stretch 36 at `main_v173`, from any contents. -/
theorem comp_main_v173 (W : Valuation τ sig (Elt F)) :
    after seg36 W (main_v173 : DevRef τ sig)
      = maximumf (addf (mulf (broadcastInDim S100000x64 ![0, 1] bcast_S1x64_S100000x64_0_1 (broadcastInDim S1x64 ![1] bcast_S64_S1x64_1 (shapeCast S64 (extractStridedSlice S1x64 ![2, 0] (W (main_arg5 : DevRef τ sig)) slices_S3x64_S1x64_2_0) shapeCasts_S1x64_S64))) (W (main_v162 : DevRef τ sig))) (broadcastInDim S100000x64 ![0, 1] bcast_S1x64_S100000x64_0_1 (broadcastInDim S1x64 ![1] bcast_S64_S1x64_1 (shapeCast S64 (extractStridedSlice S1x64 ![2, 0] (W (main_arg6 : DevRef τ sig)) slices_S3x64_S1x64_2_0) shapeCasts_S1x64_S64)))) (broadcastInDim S100000x64 ![] bcast_S_S100000x64 (constant S_ .f32 0x00000000#32)) := by
  after_results_simp <;> rfl

theorem stage_main_v173 (V : Valuation τ sig (Elt F)) :
    after ops V (main_v173 : DevRef τ sig)
      = maximumf (addf (mulf (broadcastInDim S100000x64 ![0, 1] bcast_S1x64_S100000x64_0_1 (broadcastInDim S1x64 ![1] bcast_S64_S1x64_1 (shapeCast S64 (extractStridedSlice S1x64 ![2, 0] (V (main_arg5 : DevRef τ sig)) slices_S3x64_S1x64_2_0) shapeCasts_S1x64_S64))) (after ops V (main_v162 : DevRef τ sig))) (broadcastInDim S100000x64 ![0, 1] bcast_S1x64_S100000x64_0_1 (broadcastInDim S1x64 ![1] bcast_S64_S1x64_1 (shapeCast S64 (extractStridedSlice S1x64 ![2, 0] (V (main_arg6 : DevRef τ sig)) slices_S3x64_S1x64_2_0) shapeCasts_S1x64_S64)))) (broadcastInDim S100000x64 ![] bcast_S_S100000x64 (constant S_ .f32 0x00000000#32)) := by
  have hc : after ops V (main_v173 : DevRef τ sig) = val37 V (main_v173 : DevRef τ sig) :=
    read_cut rest37_writes (fin37 V) (r := main_v173) (by decide)
  have ha0 : val36 V (main_arg5 : DevRef τ sig) = V (main_arg5 : DevRef τ sig) :=
    (read_cut rest36_writes (fin36 V) (r := main_arg5) (by decide)).symm.trans (arg5_eq V)
  have hl1 : after ops V (main_v162 : DevRef τ sig) = val36 V (main_v162 : DevRef τ sig) :=
    read_cut rest36_writes (fin36 V) (r := main_v162) (by decide)
  have ha2 : val36 V (main_arg6 : DevRef τ sig) = V (main_arg6 : DevRef τ sig) :=
    (read_cut rest36_writes (fin36 V) (r := main_arg6) (by decide)).symm.trans (arg6_eq V)
  rw [hc, hl1, ← ha0, ← ha2]
  exact comp_main_v173 (val36 V)

/-- The fold over stretch 37 at `main_v177`, from any contents. -/
theorem comp_main_v177 (W : Valuation τ sig (Elt F)) :
    after seg37 W (main_v177 : DevRef τ sig)
      = Host.scatterAdd scatter_S512_S100000x1_S100000_n_0_0_1 (broadcastInDim S512 ![] bcast_S_S512 (constant S_ .f32 0x00000000#32)) (broadcastInDim S100000x1 ![0] bcast_S100000_S100000x1_0 (W (main_arg2 : DevRef τ sig))) (broadcastInDim S100000 ![] bcast_S_S100000 (constant S_ .f32 0x3F800000#32)) := by
  after_results_simp <;> rfl

theorem stage_main_v177 (V : Valuation τ sig (Elt F)) :
    after ops V (main_v177 : DevRef τ sig)
      = Host.scatterAdd scatter_S512_S100000x1_S100000_n_0_0_1 (broadcastInDim S512 ![] bcast_S_S512 (constant S_ .f32 0x00000000#32)) (broadcastInDim S100000x1 ![0] bcast_S100000_S100000x1_0 (V (main_arg2 : DevRef τ sig))) (broadcastInDim S100000 ![] bcast_S_S100000 (constant S_ .f32 0x3F800000#32)) := by
  have hc : after ops V (main_v177 : DevRef τ sig) = val38 V (main_v177 : DevRef τ sig) :=
    read_cut rest38_writes (fin38 V) (r := main_v177) (by decide)
  have ha0 : val37 V (main_arg2 : DevRef τ sig) = V (main_arg2 : DevRef τ sig) :=
    (read_cut rest37_writes (fin37 V) (r := main_arg2) (by decide)).symm.trans (arg2_eq V)
  rw [hc, ← ha0]
  exact comp_main_v177 (val37 V)

/-- The fold over stretch 38 at `main_v180`, from any contents. -/
theorem comp_main_v180 (W : Valuation τ sig (Elt F)) :
    after seg38 W (main_v180 : DevRef τ sig)
      = Host.scatterAdd scatter_S512x64_S100000x1_S100000x64_1_0_0_1 (broadcastInDim S512x64 ![] bcast_S_S512x64 (constant S_ .f32 0x00000000#32)) (broadcastInDim S100000x1 ![0] bcast_S100000_S100000x1_0 (W (main_arg2 : DevRef τ sig))) (W (main_v173 : DevRef τ sig)) := by
  after_results_simp <;> rfl

theorem stage_main_v180 (V : Valuation τ sig (Elt F)) :
    after ops V (main_v180 : DevRef τ sig)
      = Host.scatterAdd scatter_S512x64_S100000x1_S100000x64_1_0_0_1 (broadcastInDim S512x64 ![] bcast_S_S512x64 (constant S_ .f32 0x00000000#32)) (broadcastInDim S100000x1 ![0] bcast_S100000_S100000x1_0 (V (main_arg2 : DevRef τ sig))) (after ops V (main_v173 : DevRef τ sig)) := by
  have hc : after ops V (main_v180 : DevRef τ sig) = val39 V (main_v180 : DevRef τ sig) :=
    read_cut rest39_writes (fin39 V) (r := main_v180) (by decide)
  have ha0 : val38 V (main_arg2 : DevRef τ sig) = V (main_arg2 : DevRef τ sig) :=
    (read_cut rest38_writes (fin38 V) (r := main_arg2) (by decide)).symm.trans (arg2_eq V)
  have hl1 : after ops V (main_v173 : DevRef τ sig) = val38 V (main_v173 : DevRef τ sig) :=
    read_cut rest38_writes (fin38 V) (r := main_v173) (by decide)
  rw [hc, hl1, ← ha0]
  exact comp_main_v180 (val38 V)

/-- The fold over stretch 39 at `main_v184`, from any contents. -/
theorem comp_main_v184 (W : Valuation τ sig (Elt F)) :
    after seg39 W (main_v184 : DevRef τ sig)
      = Host.divf (W (main_v180 : DevRef τ sig)) (broadcastInDim S512x64 ![0, 1] bcast_S512x1_S512x64_0_1 (broadcastInDim S512x1 ![0] bcast_S512_S512x1_0 (maximumf (broadcastInDim S512 ![] bcast_S_S512 (id (constant S_ .f32 0x3F800000#32))) (W (main_v177 : DevRef τ sig))))) := by
  after_results_simp <;> rfl

theorem stage_main_v184 (V : Valuation τ sig (Elt F)) :
    after ops V (main_v184 : DevRef τ sig)
      = Host.divf (after ops V (main_v180 : DevRef τ sig)) (broadcastInDim S512x64 ![0, 1] bcast_S512x1_S512x64_0_1 (broadcastInDim S512x1 ![0] bcast_S512_S512x1_0 (maximumf (broadcastInDim S512 ![] bcast_S_S512 (id (constant S_ .f32 0x3F800000#32))) (after ops V (main_v177 : DevRef τ sig))))) := by
  have hc : after ops V (main_v184 : DevRef τ sig) = val40 V (main_v184 : DevRef τ sig) :=
    read_cut rest40_writes (fin40 V) (r := main_v184) (by decide)
  have hl0 : after ops V (main_v180 : DevRef τ sig) = val39 V (main_v180 : DevRef τ sig) :=
    read_cut rest39_writes (fin39 V) (r := main_v180) (by decide)
  have hl1 : after ops V (main_v177 : DevRef τ sig) = val39 V (main_v177 : DevRef τ sig) :=
    read_cut rest39_writes (fin39 V) (r := main_v177) (by decide)
  rw [hc, hl0, hl1]
  exact comp_main_v184 (val39 V)

/-- The fold over stretch 40 at `main_v189`, from any contents. -/
theorem comp_main_v189 (W : Valuation τ sig (Elt F)) :
    after seg40 W (main_v189 : DevRef τ sig)
      = addf (Host.dotGeneral dot_S512x64_S64x64_S512x64_1_0_0_1_n_n none (W (main_v184 : DevRef τ sig)) (transpose S64x64 [1, 0] (W (main_arg7 : DevRef τ sig)) transposes_S64x64_S64x64_1_0)) (broadcastInDim S512x64 ![0, 1] bcast_S1x64_S512x64_0_1 (broadcastInDim S1x64 ![1] bcast_S64_S1x64_1 (W (main_arg8 : DevRef τ sig)))) := by
  after_results_simp <;> rfl

theorem stage_main_v189 (V : Valuation τ sig (Elt F)) :
    after ops V (main_v189 : DevRef τ sig)
      = addf (Host.dotGeneral dot_S512x64_S64x64_S512x64_1_0_0_1_n_n none (after ops V (main_v184 : DevRef τ sig)) (transpose S64x64 [1, 0] (V (main_arg7 : DevRef τ sig)) transposes_S64x64_S64x64_1_0)) (broadcastInDim S512x64 ![0, 1] bcast_S1x64_S512x64_0_1 (broadcastInDim S1x64 ![1] bcast_S64_S1x64_1 (V (main_arg8 : DevRef τ sig)))) := by
  have hc : after ops V (main_v189 : DevRef τ sig) = val41 V (main_v189 : DevRef τ sig) :=
    read_cut rest41_writes (fin41 V) (r := main_v189) (by decide)
  have hl0 : after ops V (main_v184 : DevRef τ sig) = val40 V (main_v184 : DevRef τ sig) :=
    read_cut rest40_writes (fin40 V) (r := main_v184) (by decide)
  have ha1 : val40 V (main_arg7 : DevRef τ sig) = V (main_arg7 : DevRef τ sig) :=
    (read_cut rest40_writes (fin40 V) (r := main_arg7) (by decide)).symm.trans (arg7_eq V)
  have ha2 : val40 V (main_arg8 : DevRef τ sig) = V (main_arg8 : DevRef τ sig) :=
    (read_cut rest40_writes (fin40 V) (r := main_arg8) (by decide)).symm.trans (arg8_eq V)
  rw [hc, hl0, ← ha1, ← ha2]
  exact comp_main_v189 (val40 V)

end Cert.ReferenceIdeal.RefStages

end
-- ==== Proof.LibCast.lean ====
/-
  Two reshapes read at an index, as functions: an array of shape [a] reshaped to the row shape [1, a] reads,
  at (u, j), its entry j; reshaped to the column shape [a, 1] it reads, at (r, u), its entry r. Stated for any
  proof of the reshape's shape condition, so that either program's own fact can be passed.
-/
import Idealize.ShloMosaic.Lib.ValueLayout

namespace Cert.LibCast

open Idealize.ShloMosaic Idealize.ShloMosaic.ValueIdx

variable {α : Type}

/-- An [a] array reshaped to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a] array reshaped to the row shape [1, a], as a function of the row index. -/
theorem shapeCast_row {a : ℕ} (s : (⟨1, ![a]⟩ : Shape).Idx → α) (h : (⟨1, ![a]⟩ : Shape).ShapeCasts ⟨2, ![1, a]⟩) :
    shapeCast ⟨2, ![1, a]⟩ s h = fun i => s (ix1 (i 1)) := by
  funext i
  exact (congrArg (shapeCast ⟨2, ![1, a]⟩ s h) (eq_ix2 i)).trans (shapeCast_a_1a_apply s h (i 0) (i 1))

/-- An [a] array reshaped to the column shape [a, 1], as a function of the column index. -/
theorem shapeCast_col {a : ℕ} (d : (⟨1, ![a]⟩ : Shape).Idx → α) (h : (⟨1, ![a]⟩ : Shape).ShapeCasts ⟨2, ![a, 1]⟩) :
    shapeCast ⟨2, ![a, 1]⟩ d h = fun i => d (ix1 (i 0)) := by
  funext i
  exact (congrArg (shapeCast ⟨2, ![a, 1]⟩ d h) (eq_ix2 i)).trans (shapeCast_a_a1_apply d h (i 0) (i 1))

end Cert.LibCast
-- ==== Proof.RefLayerSpec.lean ====
/-
  One layer of the reference, operation sequence by operation sequence, as the layer's specification
  functions: for ARBITRARY arrays (no memory, no run), the nested operations the program applies are, index by
  index, the aggregation `agg + h · snorm + bias`, the column mean, the two-pass column variance, and the
  normalised, affinely mapped and rectified activations; and the host's contraction is the matrix product.

  Every broadcast here reads its operand at an index that drops or repeats coordinates; the auxiliary lemmas
  state which, once per broadcast shape, and the layer lemmas rewrite with them.
-/
import proofs.«125721_j19146964206336_2_alg».proof.ReferenceIdeal
import proofs.«125721_j19146964206336_2_alg».proof.Proof.LibLayer
import proofs.«125721_j19146964206336_2_alg».proof.Proof.LibCast

noncomputable section

open scoped BigOperators

namespace Cert.ReferenceIdeal.LayerSpec

open Idealize.ShloMosaic Idealize.ShloMosaic.ValueIdx Cert.ReferenceIdeal Cert.ReferenceIdeal.Facts₀ Cert.LibFinite

variable [Cert.ReferenceIdeal.Facts]

/-- A [64] array read as a [1, 64] row. -/
abbrev rowOf {α : Type} (v : S64.Idx → α) : Cert.LibLayer.SRow.Idx → α := fun i => v (ix1 (i 1))
/-- A [100000] array read as a [100000, 1] column. -/
abbrev colOf {α : Type} (v : S100000.Idx → α) : Cert.LibLayer.SCol.Idx → α := fun i => v (ix1 (i 0))

/-! ### What each broadcast reads -/

section Bcast
variable {α : Type}

/-- A scalar broadcast reads the scalar's one element. -/
theorem bcast_scalar_apply {t : Shape} (h : S_.BroadcastsInDim t (![] : Fin 0 → Fin t.rank)) (v : S_.Idx → α) (i : t.Idx) :
    broadcastInDim t ![] h v i = v ix0 := by
  show v _ = v _
  congr 1
  funext a
  exact a.elim0

/-- [64] → [1, 64] along axis 1: entry (·, j) reads entry j. -/
theorem bcast_64_row_apply (v : S64.Idx → α) (q : S1x64.Idx) :
    broadcastInDim S1x64 ![1] bcast_S64_S1x64_1 v q = v (ix1 (q 1)) := by
  show v _ = v _
  congr 1
  funext a
  match a with
  | ⟨0, _⟩ => rfl

/-- [1, 64] → [100000, 64]: entry (r, j) reads entry (0, j). -/
theorem bcast_row_NF_apply (v : S1x64.Idx → α) (i : S100000x64.Idx) :
    broadcastInDim S100000x64 ![0, 1] bcast_S1x64_S100000x64_0_1 v i = v (ix2 (0 : Fin 1) (i 1)) := by
  show v _ = v _
  congr 1
  funext a
  match a with
  | ⟨0, _⟩ => rfl
  | ⟨1, _⟩ => rfl

/-- [100000] → [100000, 1] along axis 0: entry (r, ·) reads entry r. -/
theorem bcast_N_col_apply (v : S100000.Idx → α) (q : S100000x1.Idx) :
    broadcastInDim S100000x1 ![0] bcast_S100000_S100000x1_0 v q = v (ix1 (q 0)) := by
  show v _ = v _
  congr 1
  funext a
  match a with
  | ⟨0, _⟩ => rfl

/-- [100000, 1] → [100000, 64]: entry (r, j) reads entry (r, 0). -/
theorem bcast_col_NF_apply (v : S100000x1.Idx → α) (i : S100000x64.Idx) :
    broadcastInDim S100000x64 ![0, 1] bcast_S100000x1_S100000x64_0_1 v i = v (ix2 (i 0) (0 : Fin 1)) := by
  show v _ = v _
  congr 1
  funext a
  match a with
  | ⟨0, _⟩ => rfl
  | ⟨1, _⟩ => rfl

/-- The two broadcasts [64] → [1, 64] → [100000, 64]: entry (r, j) reads entry j. -/
theorem bb_apply (v : S64.Idx → α) (i : S100000x64.Idx) :
    broadcastInDim S100000x64 ![0, 1] bcast_S1x64_S100000x64_0_1 (broadcastInDim S1x64 ![1] bcast_S64_S1x64_1 v) i
      = v (ix1 (i 1)) := by
  rw [bcast_row_NF_apply, bcast_64_row_apply]

/-- The two broadcasts [100000] → [100000, 1] → [100000, 64]: entry (r, j) reads entry r. -/
theorem cc_apply (v : S100000.Idx → α) (i : S100000x64.Idx) :
    broadcastInDim S100000x64 ![0, 1] bcast_S100000x1_S100000x64_0_1 (broadcastInDim S100000x1 ![0] bcast_S100000_S100000x1_0 v) i
      = v (ix1 (i 0)) := by
  rw [bcast_col_NF_apply, bcast_N_col_apply]

end Bcast

/-! ### (e) The contraction is the matrix product -/

theorem dot_eq_MM (x : FVec Ideal S100000x64 .f32) (w : FVec Ideal S64x64 .f32) :
    Host.dotGeneral dot_S100000x64_S64x64_S100000x64_1_0_0_1_n_n none x w = Cert.LibMatmul.MM x w :=
  Cert.LibMatmul.dotGeneral_eq dot_S100000x64_S64x64_S100000x64_1_0_0_1_n_n rfl rfl rfl rfl rfl rfl none .single x w

/-! ### (a) The aggregation -/

theorem agg2_eq (agg h : FVec Ideal S100000x64 .f32) (snorm : FVec Ideal S100000 .f32) (bias : FVec Ideal S64 .f32) :
    addf (addf agg (mulf h (broadcastInDim S100000x64 ![0, 1] bcast_S100000x1_S100000x64_0_1
        (broadcastInDim S100000x1 ![0] bcast_S100000_S100000x1_0 snorm))))
      (broadcastInDim S100000x64 ![0, 1] bcast_S1x64_S100000x64_0_1 (broadcastInDim S1x64 ![1] bcast_S64_S1x64_1 bias))
      = Cert.LibLayer.agg2G agg h (fun i => snorm (ix1 (i 0))) (fun i => bias (ix1 (i 1))) := by
  funext i
  show agg i + h i * _ + _ = _
  rw [cc_apply snorm i, bb_apply bias i]
  rfl

/-! ### The column sum -/

theorem reduces_d0 : S100000x64.Reduces [0] S64 := by decide

theorem lift_eq (j : S64.Idx) (k : Fin 100000) : reduces_d0.lift j k = ix2 k (j 0) := by
  funext a
  match a with
  | ⟨0, _⟩ => rfl
  | ⟨1, _⟩ => rfl

/-- The host's sum over the rows from the zero constant is the column sum. -/
theorem reduceAdd_eq_colSum (A : FVec Ideal S100000x64 .f32) (j : S64.Idx) :
    Host.reduceAdd A (constant S_ .f32 0x00000000#32) reducesTo_S100000x64_S64_d0 h_S_ j = Cert.LibLayer.colSum A (j 0) := by
  rw [hostReduceAdd_constant_zero_single A reducesTo_S100000x64_S64_d0 reduces_d0 h_S_ j]
  show ∑ k : Fin 100000, A (reduces_d0.lift j k) = ∑ r : Fin 100000, A (ix2 r (j 0))
  exact Finset.sum_congr rfl fun k _ => by rw [lift_eq]; rfl

/-! ### (b) The mean -/

theorem mean_eq (A : FVec Ideal S100000x64 .f32) :
    Host.divf (Host.reduceAdd A (constant S_ .f32 0x00000000#32) reducesTo_S100000x64_S64_d0 h_S_)
        (broadcastInDim S64 ![] bcast_S_S64 (constant S_ .f32 0x47C35000#32))
      = fun j => Cert.LibLayer.meanRow A (Cert.LibApply.row (j 0)) := by
  funext j
  show Ideal.div _ _ = _
  rw [reduceAdd_eq_colSum, bcast_scalar_apply, constant_apply, ofBits_100000]
  rfl

/-! ### (c) The two-pass variance -/

/-- The deviations from the column mean, as the variance function prints them (the mean taken through a
    [1, 64] row): entry (r, j) is `A (r, j) - mean_j`. -/
theorem dev_eq (A : FVec Ideal S100000x64 .f32) :
    subf A (broadcastInDim S100000x64 ![0, 1] bcast_S1x64_S100000x64_0_1
        (Host.divf (broadcastInDim S1x64 ![1] bcast_S64_S1x64_1
            (Host.reduceAdd A (constant S_ .f32 0x00000000#32) reducesTo_S100000x64_S64_d0 h_S_))
          (broadcastInDim S1x64 ![] bcast_S_S1x64 (constant S_ .f32 0x47C35000#32))))
      = fun i => A i - Cert.LibLayer.meanRow A (Cert.LibApply.row (i 1)) := by
  funext i
  show A i - _ = _
  rw [bcast_row_NF_apply]
  show A i - Ideal.div _ _ = _
  rw [bcast_64_row_apply, reduceAdd_eq_colSum, bcast_scalar_apply, constant_apply, ofBits_100000]
  rfl

/-- The guard's mask, broadcast over the columns, is set everywhere: `100000 - float(0) > 0`. -/
theorem guard_mask :
    (broadcastInDim S64 ![] bcast_S_S64
        (cmpf .ogt (subf (constant S_ .f32 0x47C35000#32) (sitofp (F := Ideal) .f32 (constantI S_ 32 0#32)))
          (constant S_ .f32 0x00000000#32)) : IVec S64 1)
      = fun _ => 1#1 := by
  funext j
  rw [bcast_scalar_apply, cmpf_ogt_100000_zero]

/-- From ARBITRARY deviations `D`: the guarded quotient the variance function ends with is, at column `j`, the
    column sum of `D · D` over `100000` (the guard holds, so the select is its first branch). -/
theorem var_of_dev (D : FVec Ideal S100000x64 .f32) :
    select (broadcastInDim S64 ![] bcast_S_S64
        (cmpf .ogt (subf (constant S_ .f32 0x47C35000#32) (sitofp (F := Ideal) .f32 (constantI S_ 32 0#32)))
          (constant S_ .f32 0x00000000#32)))
      (Host.divf (Host.reduceAdd (mulf D D) (constant S_ .f32 0x00000000#32) reducesTo_S100000x64_S64_d0 h_S_)
        (broadcastInDim S64 ![] bcast_S_S64
          (subf (constant S_ .f32 0x47C35000#32) (sitofp (F := Ideal) .f32 (constantI S_ 32 0#32)))))
      (broadcastInDim S64 ![] bcast_S_S64 (id (constant (F := Ideal) S_ .f32 0x7FC00000#32)))
      = fun j => Ideal.div (Cert.LibLayer.colSum (fun k => D k * D k) (j 0)) ((100000 : ℝ) : EReal) := by
  rw [guard_mask, select_of_one (c := fun _ => 1#1) (fun _ => rfl)]
  funext j
  show Ideal.div _ _ = _
  rw [reduceAdd_eq_colSum, bcast_scalar_apply, subf_100000_sitofp_zero]
  rfl

/-- The whole variance function over its operand `A`: the two-pass variance row. -/
theorem var_eq (A : FVec Ideal S100000x64 .f32) :
    select (broadcastInDim S64 ![] bcast_S_S64
        (cmpf .ogt (subf (constant S_ .f32 0x47C35000#32) (sitofp (F := Ideal) .f32 (constantI S_ 32 0#32)))
          (constant S_ .f32 0x00000000#32)))
      (Host.divf (Host.reduceAdd
          (mulf
            (subf A (broadcastInDim S100000x64 ![0, 1] bcast_S1x64_S100000x64_0_1
              (Host.divf (broadcastInDim S1x64 ![1] bcast_S64_S1x64_1
                  (Host.reduceAdd A (constant S_ .f32 0x00000000#32) reducesTo_S100000x64_S64_d0 h_S_))
                (broadcastInDim S1x64 ![] bcast_S_S1x64 (constant S_ .f32 0x47C35000#32)))))
            (subf A (broadcastInDim S100000x64 ![0, 1] bcast_S1x64_S100000x64_0_1
              (Host.divf (broadcastInDim S1x64 ![1] bcast_S64_S1x64_1
                  (Host.reduceAdd A (constant S_ .f32 0x00000000#32) reducesTo_S100000x64_S64_d0 h_S_))
                (broadcastInDim S1x64 ![] bcast_S_S1x64 (constant S_ .f32 0x47C35000#32))))))
          (constant S_ .f32 0x00000000#32) reducesTo_S100000x64_S64_d0 h_S_)
        (broadcastInDim S64 ![] bcast_S_S64
          (subf (constant S_ .f32 0x47C35000#32) (sitofp (F := Ideal) .f32 (constantI S_ 32 0#32)))))
      (broadcastInDim S64 ![] bcast_S_S64 (id (constant (F := Ideal) S_ .f32 0x7FC00000#32)))
      = fun j => Cert.LibLayer.var2Row A (Cert.LibApply.row (j 0)) := by
  rw [dev_eq A, var_of_dev]
  rfl

/-- The same with the deviations given by an equation (a buffer that holds them). -/
theorem var_eq_of_dev (A D : FVec Ideal S100000x64 .f32)
    (hD : D = fun i => A i - Cert.LibLayer.meanRow A (Cert.LibApply.row (i 1))) :
    (fun j : S64.Idx => Ideal.div (Cert.LibLayer.colSum (fun k => D k * D k) (j 0)) ((100000 : ℝ) : EReal))
      = fun j => Cert.LibLayer.var2Row A (Cert.LibApply.row (j 0)) := by
  subst hD
  rfl

/-! ### (d) The normalised, affinely mapped and rectified activations -/

/-- The normalised activations: `(A (r, j) - mean_j) · rsqrt (var_j + ε)`. -/
theorem xn_eq (A : FVec Ideal S100000x64 .f32) (mean var : FVec Ideal S64 .f32) :
    mulf (subf A (broadcastInDim S100000x64 ![0, 1] bcast_S1x64_S100000x64_0_1 (broadcastInDim S1x64 ![1] bcast_S64_S1x64_1 mean)))
      (broadcastInDim S100000x64 ![0, 1] bcast_S1x64_S100000x64_0_1 (broadcastInDim S1x64 ![1] bcast_S64_S1x64_1
        (Host.rsqrt (addf var (broadcastInDim S64 ![] bcast_S_S64 (constant S_ .f32 0x3727C5AC#32))))))
      = fun i => (A i - mean (ix1 (i 1))) * Ideal.rsqrt (var (ix1 (i 1)) + Ideal.ofBits .f32 0x3727C5AC#32) := by
  funext i
  show (A i - _) * _ = _
  rw [bb_apply mean i, bb_apply (Host.rsqrt _) i]
  show (A i - mean (ix1 (i 1))) * Ideal.rsqrt (var (ix1 (i 1)) + _) = _
  rw [bcast_scalar_apply, constant_apply]

/-- The layer's output over the normalised activations `X`: `max (γ_j · X (r, j) + β_j) 0`. -/
theorem out_of_xn (X : FVec Ideal S100000x64 .f32) (g b : FVec Ideal S64 .f32) :
    maximumf (addf (mulf (broadcastInDim S100000x64 ![0, 1] bcast_S1x64_S100000x64_0_1 (broadcastInDim S1x64 ![1] bcast_S64_S1x64_1 g)) X)
        (broadcastInDim S100000x64 ![0, 1] bcast_S1x64_S100000x64_0_1 (broadcastInDim S1x64 ![1] bcast_S64_S1x64_1 b)))
      (broadcastInDim S100000x64 ![] bcast_S_S100000x64 (constant S_ .f32 0x00000000#32))
      = fun i => max (g (ix1 (i 1)) * X i + b (ix1 (i 1))) (Ideal.ofBits .f32 0x00000000#32) := by
  funext i
  show max (_ * X i + _) _ = _
  rw [bb_apply g i, bb_apply b i, bcast_scalar_apply, constant_apply]

/-- The whole output sequence: the normalisation with the mean, variance, scale and shift read as rows. -/
theorem out_eq (A : FVec Ideal S100000x64 .f32) (mean var g b : FVec Ideal S64 .f32) :
    maximumf (addf (mulf (broadcastInDim S100000x64 ![0, 1] bcast_S1x64_S100000x64_0_1 (broadcastInDim S1x64 ![1] bcast_S64_S1x64_1 g))
          (mulf (subf A (broadcastInDim S100000x64 ![0, 1] bcast_S1x64_S100000x64_0_1 (broadcastInDim S1x64 ![1] bcast_S64_S1x64_1 mean)))
            (broadcastInDim S100000x64 ![0, 1] bcast_S1x64_S100000x64_0_1 (broadcastInDim S1x64 ![1] bcast_S64_S1x64_1
              (Host.rsqrt (addf var (broadcastInDim S64 ![] bcast_S_S64 (constant S_ .f32 0x3727C5AC#32))))))))
        (broadcastInDim S100000x64 ![0, 1] bcast_S1x64_S100000x64_0_1 (broadcastInDim S1x64 ![1] bcast_S64_S1x64_1 b)))
      (broadcastInDim S100000x64 ![] bcast_S_S100000x64 (constant S_ .f32 0x00000000#32))
      = Cert.LibApply.applyG A (rowOf mean) (rowOf var) (rowOf g) (rowOf b) := by
  rw [xn_eq, out_of_xn]
  rfl

/-! ### Rows and columns: the same arrays in the other program's spelling -/

/-- A [64] array read as a row is its reshape to [1, 64] (for any proof of the reshape's shape condition). -/
theorem rowOf_eq_shapeCast {α : Type} (s : S64.Idx → α) (h : S64.ShapeCasts S1x64) : rowOf s = shapeCast S1x64 s h :=
  (Cert.LibCast.shapeCast_row s h).symm

/-- A [100000] array read as a column is its reshape to [100000, 1]. -/
theorem colOf_eq_shapeCast {α : Type} (d : S100000.Idx → α) (h : S100000.ShapeCasts S100000x1) :
    colOf d = shapeCast S100000x1 d h :=
  (Cert.LibCast.shapeCast_col d h).symm

/-- A row read back through `rowOf` at a row index: `rowOf (fun j => f (row (j 0))) (row k) = f (row k)`. -/
theorem rowOf_row_apply {α : Type} (f : Cert.LibLayer.SRow.Idx → α) (k : Fin 64) :
    rowOf (fun j : S64.Idx => f (Cert.LibApply.row (j 0))) (Cert.LibApply.row k) = f (Cert.LibApply.row k) := rfl

/-- Every index of a [1, 64] row is `row` of its second coordinate. -/
theorem eq_row (i : Cert.LibLayer.SRow.Idx) : i = Cert.LibApply.row (i 1) := by
  funext a
  match a with
  | ⟨0, _⟩ => exact Fin.ext (by have h0 : (i 0).val < 1 := idx2_lt0 i; show (i 0).val = 0; omega)
  | ⟨1, _⟩ => rfl

/-- So a row function read through [64] and back is itself. -/
theorem rowOf_row {α : Type} (f : Cert.LibLayer.SRow.Idx → α) :
    rowOf (fun j : S64.Idx => f (Cert.LibApply.row (j 0))) = f := by
  funext i
  show f (Cert.LibApply.row (i 1)) = f i
  rw [← eq_row i]

/-- The normalisation with the statistics read through [64] arrays is the normalisation with the statistics rows. -/
theorem applyG_rowOf_stats (A : FVec Ideal S100000x64 .f32) (g b : Cert.LibLayer.SRow.Idx → EReal) :
    Cert.LibApply.applyG A (rowOf (fun j : S64.Idx => Cert.LibLayer.meanRow A (Cert.LibApply.row (j 0))))
        (rowOf (fun j : S64.Idx => Cert.LibLayer.var2Row A (Cert.LibApply.row (j 0)))) g b
      = Cert.LibApply.applyG A (Cert.LibLayer.meanRow A) (Cert.LibLayer.var2Row A) g b := by
  rw [rowOf_row, rowOf_row]

end Cert.ReferenceIdeal.LayerSpec

end
-- ==== Proof.RefChain.lean ====
/- The reference's result as the network's specification function of the nine arguments: the stage equations read in order —
   the edge columns and the normalisation factors, the three layers (dense transform, aggregation, column statistics,
   normalisation), the mean pool and the final linear map — each a composition the specification spells the same way, up
   to the reshapes and broadcasts read at an index. -/
import proofs.«125721_j19146964206336_2_alg».proof.Proof.RefStages
import proofs.«125721_j19146964206336_2_alg».proof.Proof.KSpec
import proofs.«125721_j19146964206336_2_alg».proof.Proof.RefLayerSpec
import Idealize.ShloMosaic.Lib.ValueLayout

set_option maxRecDepth 16384

noncomputable section

namespace Cert.ReferenceIdeal.RefChain

open Cert.ReferenceIdeal Cert.ReferenceIdeal.Gen Cert.ReferenceIdeal.RefRun Cert.ReferenceIdeal.RefStages
open Idealize.ShloMosaic Idealize.ShloMosaic.TcCoe Idealize.ShloMosaic.ValueIdx Idealize.SL.Sem Idealize.ShloMosaic.StableHlo
open Cert.KernelIdeal.KSpec Cert.LibLayer Cert.LibApply Cert.LibMatmul

variable (V : Valuation τ sig (Elt Ideal))

/-! ## Reads of the two reshapes the specification uses, and of the broadcasts of the last stage -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An index of a rank-two shape is the pair of its coordinates. -/
theorem idx_eta {n0 n1 : ℕ} (i : (⟨2, ![n0, n1]⟩ : Shape).Idx) : ix2 (i 0) (i 1) = i := by
  funext a
  match a with
  | ⟨0, _⟩ => rfl
  | ⟨1, _⟩ => rfl

/-- A vector over the nodes read as a column is its cast to `[100000, 1]`. -/
theorem col_eq (s : (⟨1, ![100000]⟩ : Shape).Idx → EReal) (h : (⟨1, ![100000]⟩ : Shape).ShapeCasts ⟨2, ![100000, 1]⟩) :
    (fun i : SCol.Idx => s (ix1 (i 0))) = shapeCast ⟨2, ![100000, 1]⟩ s h := by
  funext i
  calc s (ix1 (i 0)) = shapeCast ⟨2, ![100000, 1]⟩ s h (ix2 (i 0) (i 1)) := (shapeCast_a_a1_apply s h (i 0) (i 1)).symm
    _ = shapeCast ⟨2, ![100000, 1]⟩ s h i := congrArg (shapeCast ⟨2, ![100000, 1]⟩ s h) (idx_eta i)

/-- A vector over the features read as a row is its cast to `[1, 64]`. -/
theorem row_eq (s : (⟨1, ![64]⟩ : Shape).Idx → EReal) (h : (⟨1, ![64]⟩ : Shape).ShapeCasts ⟨2, ![1, 64]⟩) :
    (fun i : SRow.Idx => s (ix1 (i 1))) = shapeCast ⟨2, ![1, 64]⟩ s h := by
  funext i
  calc s (ix1 (i 1)) = shapeCast ⟨2, ![1, 64]⟩ s h (ix2 (i 0) (i 1)) := (shapeCast_a_1a_apply s h (i 0) (i 1)).symm
    _ = shapeCast ⟨2, ![1, 64]⟩ s h i := congrArg (shapeCast ⟨2, ![1, 64]⟩ s h) (idx_eta i)

/-- The aggregation sequence, with the self-loop factor and the bias as the column and the row the specification casts. -/
theorem pre_of (agg h : FVec Ideal S100000x64 .f32) (s : FVec Ideal S100000 .f32) (b : FVec Ideal S64 .f32) :
    addf (addf agg (mulf h (broadcastInDim S100000x64 ![0, 1] bcast_S100000x1_S100000x64_0_1
        (broadcastInDim S100000x1 ![0] bcast_S100000_S100000x1_0 s))))
      (broadcastInDim S100000x64 ![0, 1] bcast_S1x64_S100000x64_0_1 (broadcastInDim S1x64 ![1] bcast_S64_S1x64_1 b))
      = agg2G agg h (shapeCast Cert.KernelIdeal.S100000x1 s Cert.KernelIdeal.Gen.shapeCasts_S100000_S100000x1)
          (shapeCast Cert.KernelIdeal.S1x64 b Cert.KernelIdeal.Gen.shapeCasts_S64_S1x64) :=
  (LayerSpec.agg2_eq agg h s b).trans (by rw [col_eq s Cert.KernelIdeal.Gen.shapeCasts_S100000_S100000x1, row_eq b Cert.KernelIdeal.Gen.shapeCasts_S64_S1x64])

/-- The normalisation sequence, the mean and the variance given as the column statistics of the activations, the scale
    and the shift as the rows the specification casts. -/
theorem layer_out (A : FVec Ideal S100000x64 .f32) (mean var g b : FVec Ideal S64 .f32)
    (hm : mean = fun j => meanRow A (row (j 0))) (hv : var = fun j => var2Row A (row (j 0))) :
    maximumf (addf (mulf (broadcastInDim S100000x64 ![0, 1] bcast_S1x64_S100000x64_0_1 (broadcastInDim S1x64 ![1] bcast_S64_S1x64_1 g))
          (mulf (subf A (broadcastInDim S100000x64 ![0, 1] bcast_S1x64_S100000x64_0_1 (broadcastInDim S1x64 ![1] bcast_S64_S1x64_1 mean)))
            (broadcastInDim S100000x64 ![0, 1] bcast_S1x64_S100000x64_0_1 (broadcastInDim S1x64 ![1] bcast_S64_S1x64_1
              (Host.rsqrt (addf var (broadcastInDim S64 ![] bcast_S_S64 (constant S_ .f32 0x3727C5AC#32))))))))
        (broadcastInDim S100000x64 ![0, 1] bcast_S1x64_S100000x64_0_1 (broadcastInDim S1x64 ![1] bcast_S64_S1x64_1 b)))
      (broadcastInDim S100000x64 ![] bcast_S_S100000x64 (constant S_ .f32 0x00000000#32))
      = applyG A (meanRow A) (var2Row A) (shapeCast Cert.KernelIdeal.S1x64 g Cert.KernelIdeal.Gen.shapeCasts_S64_S1x64)
          (shapeCast Cert.KernelIdeal.S1x64 b Cert.KernelIdeal.Gen.shapeCasts_S64_S1x64) := by
  rw [LayerSpec.out_eq A mean var g b, ← row_eq g Cert.KernelIdeal.Gen.shapeCasts_S64_S1x64, ← row_eq b Cert.KernelIdeal.Gen.shapeCasts_S64_S1x64]
  subst hm hv
  rfl
/-- The source column. -/
theorem ref_src : after ops V (main_v1 : DevRef τ sig) = src (V (main_arg1 : DevRef τ sig)) := by
  rw [stage_main_v1]; rfl

/-- The destination column. -/
theorem ref_dst : after ops V (main_v3 : DevRef τ sig) = dst (V (main_arg1 : DevRef τ sig)) := by
  rw [stage_main_v3]; rfl

/-- The reciprocal square root of the degree. -/
theorem ref_dinv : after ops V (main_v10 : DevRef τ sig) = dinv (V (main_arg1 : DevRef τ sig)) := by
  rw [stage_main_v10, ref_dst]; rfl

/-- The per-edge factor. -/
theorem ref_enorm : after ops V (main_v25 : DevRef τ sig) = enorm (V (main_arg1 : DevRef τ sig)) := by
  rw [stage_main_v25, stage_main_v17, stage_main_v24, ref_dinv, ref_src, ref_dst]; rfl

/-- The self-loop factor, as a vector over the nodes. -/
theorem ref_snormVec : after ops V (main_v26 : DevRef τ sig)
    = mulf (dinv (V (main_arg1 : DevRef τ sig))) (dinv (V (main_arg1 : DevRef τ sig))) := by
  rw [stage_main_v26, ref_dinv]

/-! ## Layer 0 -/

/-- The dense transform. -/
theorem ref_h0 : after ops V (main_v29 : DevRef τ sig) = MM (V (main_arg0 : DevRef τ sig)) (w0 (V (main_arg3 : DevRef τ sig))) := by
  rw [stage_main_v29]; exact LayerSpec.dot_eq_MM _ _

/-- The scaled messages summed at their destinations. -/
theorem ref_agg0 : after ops V (main_v42 : DevRef τ sig) = agg (V (main_arg1 : DevRef τ sig)) (MM (V (main_arg0 : DevRef τ sig)) (w0 (V (main_arg3 : DevRef τ sig)))) := by
  rw [stage_main_v42, stage_main_v36, ref_h0, ref_enorm, ref_src, ref_dst]; rfl

/-- The activations before the normalisation. -/
theorem ref_pre0 : after ops V (main_v51 : DevRef τ sig) = pre (V (main_arg1 : DevRef τ sig)) (V (main_arg0 : DevRef τ sig)) (w0 (V (main_arg3 : DevRef τ sig))) (row0 (V (main_arg4 : DevRef τ sig))) := by
  rw [stage_main_v51, ref_agg0, ref_h0, ref_snormVec, pre_of]; rfl

/-- The column means of the activations `A`. -/
theorem mean0 (A : FVec Ideal S100000x64 .f32) (hA : after ops V (main_v51 : DevRef τ sig) = A) :
    after ops V (main_v54 : DevRef τ sig) = fun j => meanRow A (row (j 0)) := by
  subst hA; rw [stage_main_v54]; exact LayerSpec.mean_eq _

/-- The deviations from the column means. -/
theorem dev0 (A : FVec Ideal S100000x64 .f32) (hA : after ops V (main_v51 : DevRef τ sig) = A) :
    after ops V (main_call0_v5 : DevRef τ sig) = fun i => A i - meanRow A (row (i 1)) := by
  subst hA; rw [stage_main_call0_v5]; exact LayerSpec.dev_eq _

/-- The two-pass column variances. -/
theorem var0 (A : FVec Ideal S100000x64 .f32) (hA : after ops V (main_v51 : DevRef τ sig) = A) :
    after ops V (main_v55 : DevRef τ sig) = fun j => var2Row A (row (j 0)) := by
  rw [stage_main_v55, LayerSpec.var_of_dev]; exact LayerSpec.var_eq_of_dev A _ (dev0 V A hA)

/-- The layer's output. -/
theorem ref_y1 : after ops V (main_v75 : DevRef τ sig) = y1 (V (main_arg0 : DevRef τ sig)) (V (main_arg1 : DevRef τ sig)) (V (main_arg3 : DevRef τ sig)) (V (main_arg4 : DevRef τ sig)) (V (main_arg5 : DevRef τ sig)) (V (main_arg6 : DevRef τ sig)) := by
  rw [stage_main_v75, stage_main_v64, layer_out _ _ _ _ _ (mean0 V _ rfl) (var0 V _ rfl), ref_pre0]; rfl

/-! ## Layer 1 -/

/-- The dense transform. -/
theorem ref_h1 : after ops V (main_v78 : DevRef τ sig) = MM (y1 (V (main_arg0 : DevRef τ sig)) (V (main_arg1 : DevRef τ sig)) (V (main_arg3 : DevRef τ sig)) (V (main_arg4 : DevRef τ sig)) (V (main_arg5 : DevRef τ sig)) (V (main_arg6 : DevRef τ sig))) (w1 (V (main_arg3 : DevRef τ sig))) := by
  rw [stage_main_v78, ref_y1]; exact LayerSpec.dot_eq_MM _ _

/-- The scaled messages summed at their destinations. -/
theorem ref_agg1 : after ops V (main_v91 : DevRef τ sig) = agg (V (main_arg1 : DevRef τ sig)) (MM (y1 (V (main_arg0 : DevRef τ sig)) (V (main_arg1 : DevRef τ sig)) (V (main_arg3 : DevRef τ sig)) (V (main_arg4 : DevRef τ sig)) (V (main_arg5 : DevRef τ sig)) (V (main_arg6 : DevRef τ sig))) (w1 (V (main_arg3 : DevRef τ sig)))) := by
  rw [stage_main_v91, stage_main_v85, ref_h1, ref_enorm, ref_src, ref_dst]; rfl

/-- The activations before the normalisation. -/
theorem ref_pre1 : after ops V (main_v100 : DevRef τ sig) = pre (V (main_arg1 : DevRef τ sig)) (y1 (V (main_arg0 : DevRef τ sig)) (V (main_arg1 : DevRef τ sig)) (V (main_arg3 : DevRef τ sig)) (V (main_arg4 : DevRef τ sig)) (V (main_arg5 : DevRef τ sig)) (V (main_arg6 : DevRef τ sig))) (w1 (V (main_arg3 : DevRef τ sig))) (row1 (V (main_arg4 : DevRef τ sig))) := by
  rw [stage_main_v100, ref_agg1, ref_h1, ref_snormVec, pre_of]; rfl

/-- The column means of the activations `A`. -/
theorem mean1 (A : FVec Ideal S100000x64 .f32) (hA : after ops V (main_v100 : DevRef τ sig) = A) :
    after ops V (main_v103 : DevRef τ sig) = fun j => meanRow A (row (j 0)) := by
  subst hA; rw [stage_main_v103]; exact LayerSpec.mean_eq _

/-- The deviations from the column means. -/
theorem dev1 (A : FVec Ideal S100000x64 .f32) (hA : after ops V (main_v100 : DevRef τ sig) = A) :
    after ops V (main_call2_v5 : DevRef τ sig) = fun i => A i - meanRow A (row (i 1)) := by
  subst hA; rw [stage_main_call2_v5]; exact LayerSpec.dev_eq _

/-- The two-pass column variances. -/
theorem var1 (A : FVec Ideal S100000x64 .f32) (hA : after ops V (main_v100 : DevRef τ sig) = A) :
    after ops V (main_v104 : DevRef τ sig) = fun j => var2Row A (row (j 0)) := by
  rw [stage_main_v104, LayerSpec.var_of_dev]; exact LayerSpec.var_eq_of_dev A _ (dev1 V A hA)

/-- The layer's output. -/
theorem ref_y2 : after ops V (main_v124 : DevRef τ sig) = y2 (V (main_arg0 : DevRef τ sig)) (V (main_arg1 : DevRef τ sig)) (V (main_arg3 : DevRef τ sig)) (V (main_arg4 : DevRef τ sig)) (V (main_arg5 : DevRef τ sig)) (V (main_arg6 : DevRef τ sig)) := by
  rw [stage_main_v124, stage_main_v113, layer_out _ _ _ _ _ (mean1 V _ rfl) (var1 V _ rfl), ref_pre1]; rfl

/-! ## Layer 2 -/

/-- The dense transform. -/
theorem ref_h2 : after ops V (main_v127 : DevRef τ sig) = MM (y2 (V (main_arg0 : DevRef τ sig)) (V (main_arg1 : DevRef τ sig)) (V (main_arg3 : DevRef τ sig)) (V (main_arg4 : DevRef τ sig)) (V (main_arg5 : DevRef τ sig)) (V (main_arg6 : DevRef τ sig))) (w2 (V (main_arg3 : DevRef τ sig))) := by
  rw [stage_main_v127, ref_y2]; exact LayerSpec.dot_eq_MM _ _

/-- The scaled messages summed at their destinations. -/
theorem ref_agg2 : after ops V (main_v140 : DevRef τ sig) = agg (V (main_arg1 : DevRef τ sig)) (MM (y2 (V (main_arg0 : DevRef τ sig)) (V (main_arg1 : DevRef τ sig)) (V (main_arg3 : DevRef τ sig)) (V (main_arg4 : DevRef τ sig)) (V (main_arg5 : DevRef τ sig)) (V (main_arg6 : DevRef τ sig))) (w2 (V (main_arg3 : DevRef τ sig)))) := by
  rw [stage_main_v140, stage_main_v134, ref_h2, ref_enorm, ref_src, ref_dst]; rfl

/-- The activations before the normalisation. -/
theorem ref_pre2 : after ops V (main_v149 : DevRef τ sig) = pre (V (main_arg1 : DevRef τ sig)) (y2 (V (main_arg0 : DevRef τ sig)) (V (main_arg1 : DevRef τ sig)) (V (main_arg3 : DevRef τ sig)) (V (main_arg4 : DevRef τ sig)) (V (main_arg5 : DevRef τ sig)) (V (main_arg6 : DevRef τ sig))) (w2 (V (main_arg3 : DevRef τ sig))) (row2 (V (main_arg4 : DevRef τ sig))) := by
  rw [stage_main_v149, ref_agg2, ref_h2, ref_snormVec, pre_of]; rfl

/-- The column means of the activations `A`. -/
theorem mean2 (A : FVec Ideal S100000x64 .f32) (hA : after ops V (main_v149 : DevRef τ sig) = A) :
    after ops V (main_v152 : DevRef τ sig) = fun j => meanRow A (row (j 0)) := by
  subst hA; rw [stage_main_v152]; exact LayerSpec.mean_eq _

/-- The deviations from the column means. -/
theorem dev2 (A : FVec Ideal S100000x64 .f32) (hA : after ops V (main_v149 : DevRef τ sig) = A) :
    after ops V (main_call4_v5 : DevRef τ sig) = fun i => A i - meanRow A (row (i 1)) := by
  subst hA; rw [stage_main_call4_v5]; exact LayerSpec.dev_eq _

/-- The two-pass column variances. -/
theorem var2 (A : FVec Ideal S100000x64 .f32) (hA : after ops V (main_v149 : DevRef τ sig) = A) :
    after ops V (main_v153 : DevRef τ sig) = fun j => var2Row A (row (j 0)) := by
  rw [stage_main_v153, LayerSpec.var_of_dev]; exact LayerSpec.var_eq_of_dev A _ (dev2 V A hA)

/-- The layer's output. -/
theorem ref_y3 : after ops V (main_v173 : DevRef τ sig) = y3 (V (main_arg0 : DevRef τ sig)) (V (main_arg1 : DevRef τ sig)) (V (main_arg3 : DevRef τ sig)) (V (main_arg4 : DevRef τ sig)) (V (main_arg5 : DevRef τ sig)) (V (main_arg6 : DevRef τ sig)) := by
  rw [stage_main_v173, stage_main_v162, layer_out _ _ _ _ _ (mean2 V _ rfl) (var2 V _ rfl), ref_pre2]; rfl

/-! ## The pooling and the final linear map -/

/-- [1, 64] → [512, 64]: entry (r, j) reads entry (0, j). -/
theorem bcast_row_GF_apply {α : Type} (v : S1x64.Idx → α) (i : S512x64.Idx) :
    broadcastInDim S512x64 ![0, 1] bcast_S1x64_S512x64_0_1 v i = v (ix2 (0 : Fin 1) (i 1)) := by
  show v _ = v _
  congr 1
  funext a
  match a with
  | ⟨0, _⟩ => rfl
  | ⟨1, _⟩ => rfl

/-- The last contraction is the matrix product. -/
theorem dot512_eq_MM (x : FVec Ideal S512x64 .f32) (w : FVec Ideal S64x64 .f32) :
    Host.dotGeneral dot_S512x64_S64x64_S512x64_1_0_0_1_n_n none x w = MM x w :=
  dotGeneral_eq dot_S512x64_S64x64_S512x64_1_0_0_1_n_n rfl rfl rfl rfl rfl rfl none .single x w

/-- The mean pool over the graphs. -/
theorem ref_pooled : after ops V (main_v184 : DevRef τ sig) = pooled (V (main_arg2 : DevRef τ sig)) (y3 (V (main_arg0 : DevRef τ sig)) (V (main_arg1 : DevRef τ sig)) (V (main_arg3 : DevRef τ sig)) (V (main_arg4 : DevRef τ sig)) (V (main_arg5 : DevRef τ sig)) (V (main_arg6 : DevRef τ sig))) := by
  rw [stage_main_v184, stage_main_v180, stage_main_v177, ref_y3]; rfl

/-- The bias row of the last stage, read at an index. -/
theorem bias_apply (b : FVec Ideal S64 .f32) (i : S512x64.Idx) :
    broadcastInDim S512x64 ![0, 1] bcast_S1x64_S512x64_0_1 (broadcastInDim S1x64 ![1] bcast_S64_S1x64_1 b) i
      = (shapeCast Cert.KernelIdeal.S1x64 b Cert.KernelIdeal.Gen.shapeCasts_S64_S1x64 : FVec Ideal Cert.KernelIdeal.S1x64 .f32) (ix2 (0 : Fin 1) (i 1)) := by
  rw [bcast_row_GF_apply, LayerSpec.bcast_64_row_apply]
  exact (shapeCast_a_1a_apply b Cert.KernelIdeal.Gen.shapeCasts_S64_S1x64 (0 : Fin 1) (i 1)).symm

/-- The reference's result is the network's specification function of the nine arguments. -/
theorem ref_out : after ops V (main_v189 : DevRef τ sig) = out2 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  rw [stage_main_v189, ref_pooled, dot512_eq_MM]
  funext i
  show _ + _ = _ + _
  rw [bias_apply]

end Cert.ReferenceIdeal.RefChain

end
-- ==== Proof.KBridge.lean ====
/-
  The two spellings of the network agree on finite inputs.  The degree-plus-one of every node is a real that is
  at least one (zeros, plus a scatter-add of ones, plus one — whatever the integer indices are), so its
  reciprocal square root is a positive real, and the per-edge and the self-loop normalisations are finite.  A
  layer's dense product, the messages gathered along the edges and scaled, their scatter-add, the self loop and
  the bias are then finite whenever the layer's input, weights and bias are; on a finite pre-activation array
  the clamped one-pass variance is the two-pass variance, so the two spellings of the layer are the same
  function, and its value is again finite.  Three such steps, then the same pool and the same final map.
-/
import proofs.«125721_j19146964206336_2_alg».proof.Proof.KSpec
import proofs.«125721_j19146964206336_2_alg».proof.Proof.LibFinite
import proofs.«125721_j19146964206336_2_alg».proof.Proof.LibLayer

set_option maxRecDepth 16384

noncomputable section

namespace Cert.KernelIdeal.KBridge

open Cert.KernelIdeal Cert.KernelIdeal.Gen
open Idealize.ShloMosaic Idealize.ShloMosaic.TcCoe Idealize.ShloMosaic.ValueIdx
open Cert.LibLayer Cert.LibApply Cert.LibMatmul Cert.LibFinite
open Cert.KernelIdeal.KSpec

variable (a1 : IVec S2x1600000 32)

/-! ### The normalisations -/

/-- deg^{-1/2} is a positive real at every node: the degree-plus-one is a real ≥ 1. -/
theorem isFinPos_dinv : IsFinPos (dinv a1) := by
  unfold dinv
  exact isFinPos_hostRsqrt
    ((isFinGe_one_of_scatter_ones _ _ (isFinGe_broadcastInDim isFinGe_constant_zero _ _)
      (isFinGe_broadcastInDim (IsFinGe.mono zero_le_one isFinGe_constant_one) _ _)
      (isFinGe_broadcastInDim isFinGe_constant_one _ _)).pos one_pos)

theorem isFin_dinv : IsFin (dinv a1) := (isFinPos_dinv a1).isFin

/-- The per-edge normalisation: a product of two gathered entries of deg^{-1/2}. -/
theorem isFin_enorm : IsFin (KSpec.enorm a1) := by
  unfold KSpec.enorm
  exact isFin_mulf (isFin_hostGather _ (isFin_dinv a1) _) (isFin_hostGather _ (isFin_dinv a1) _)

/-- The self-loop normalisation: the square of deg^{-1/2}, as a column. -/
theorem isFin_snorm : IsFin (snorm a1) := by
  unfold snorm
  exact isFin_shapeCast (isFin_mulf (isFin_dinv a1) (isFin_dinv a1)) _

/-! ### The parameters' slices -/

section Params
variable {a3 : FVec Ideal S3x64x64 .f32} {v : FVec Ideal S3x64 .f32}

theorem isFin_w0 (h3 : IsFin a3) : IsFin (w0 a3) := by
  unfold w0; exact isFin_shapeCast (isFin_extractStridedSlice h3 _ _) _
theorem isFin_w1 (h3 : IsFin a3) : IsFin (w1 a3) := by
  unfold w1; exact isFin_shapeCast (isFin_extractStridedSlice h3 _ _) _
theorem isFin_w2 (h3 : IsFin a3) : IsFin (w2 a3) := by
  unfold w2; exact isFin_shapeCast (isFin_extractStridedSlice h3 _ _) _

theorem isFin_row0 (hv : IsFin v) : IsFin (row0 v) := by
  unfold row0; exact isFin_shapeCast (isFin_shapeCast (isFin_extractStridedSlice hv _ _) _) _
theorem isFin_row1 (hv : IsFin v) : IsFin (row1 v) := by
  unfold row1; exact isFin_shapeCast (isFin_shapeCast (isFin_extractStridedSlice hv _ _) _) _
theorem isFin_row2 (hv : IsFin v) : IsFin (row2 v) := by
  unfold row2; exact isFin_shapeCast (isFin_shapeCast (isFin_extractStridedSlice hv _ _) _) _

end Params

/-! ### One layer -/

section Layer
variable {h x : FVec Ideal S100000x64 .f32} {w : FVec Ideal S64x64 .f32} {b g be : FVec Ideal S1x64 .f32}

/-- The messages gathered along the edges, scaled by the finite edge normalisation and summed onto zeros. -/
theorem isFin_agg (hh : IsFin h) : IsFin (agg a1 h) := by
  unfold agg
  exact isFin_hostScatterAdd _ _ (isFin_broadcastInDim isFin_constant_zero _ _)
    (isFin_mulf (isFin_hostGather _ hh _)
      (isFin_broadcastInDim (isFin_broadcastInDim (isFin_enorm a1) _ _) _ _))

/-- The pre-normalisation activations of a layer with finite input, weights and bias are finite. -/
theorem isFin_pre (hx : IsFin x) (hw : IsFin w) (hb : IsFin b) : IsFin (pre a1 x w b) := by
  unfold pre
  exact isFin_agg2G (isFin_agg a1 (isFin_MM hx hw)) (isFin_MM hx hw) (isFin_snorm a1) hb

/-- On finite input, weights and bias the two spellings of the layer are the same function. -/
theorem layer_eq (hx : IsFin x) (hw : IsFin w) (hb : IsFin b) : layer1 a1 x w b g be = layer2 a1 x w b g be := by
  unfold layer1 layer2
  exact applyG_var1_eq_var2 (isFin_pre a1 hx hw hb) g be

/-- … and with finite scale and shift its value is finite. -/
theorem layer_fin (hx : IsFin x) (hw : IsFin w) (hb : IsFin b) (hg : IsFin g) (hbe : IsFin be) :
    IsFin (layer2 a1 x w b g be) := by
  unfold layer2
  exact isFin_applyG_layer (isFin_pre a1 hx hw hb) hg hbe

end Layer

/-! ### The three layers and the network -/

section Net
variable (a0 : FVec Ideal S100000x64 .f32) (a2 : IVec S100000 32) (a3 : FVec Ideal S3x64x64 .f32)
  (a4 a5 a6 : FVec Ideal S3x64 .f32) (a7 : FVec Ideal S64x64 .f32) (a8 : FVec Ideal S64 .f32)
  (h0 : IsFin a0) (h3 : IsFin a3) (h4 : IsFin a4) (h5 : IsFin a5) (h6 : IsFin a6)

include h0 h3 h4 in
theorem x1_eq_y1 : x1 a0 a1 a3 a4 a5 a6 = y1 a0 a1 a3 a4 a5 a6 := by
  unfold x1 y1
  exact layer_eq a1 h0 (isFin_w0 h3) (isFin_row0 h4)

include h0 h3 h4 h5 h6 in
theorem isFin_y1 : IsFin (y1 a0 a1 a3 a4 a5 a6) := by
  unfold y1
  exact layer_fin a1 h0 (isFin_w0 h3) (isFin_row0 h4) (isFin_row0 h5) (isFin_row0 h6)

include h0 h3 h4 h5 h6 in
theorem x2_eq_y2 : x2 a0 a1 a3 a4 a5 a6 = y2 a0 a1 a3 a4 a5 a6 := by
  unfold x2 y2
  rw [x1_eq_y1 a1 a0 a3 a4 a5 a6 h0 h3 h4]
  exact layer_eq a1 (isFin_y1 a1 a0 a3 a4 a5 a6 h0 h3 h4 h5 h6) (isFin_w1 h3) (isFin_row1 h4)

include h0 h3 h4 h5 h6 in
theorem isFin_y2 : IsFin (y2 a0 a1 a3 a4 a5 a6) := by
  unfold y2
  exact layer_fin a1 (isFin_y1 a1 a0 a3 a4 a5 a6 h0 h3 h4 h5 h6) (isFin_w1 h3) (isFin_row1 h4) (isFin_row1 h5) (isFin_row1 h6)

include h0 h3 h4 h5 h6 in
theorem x3_eq_y3 : x3 a0 a1 a3 a4 a5 a6 = y3 a0 a1 a3 a4 a5 a6 := by
  unfold x3 y3
  rw [x2_eq_y2 a1 a0 a3 a4 a5 a6 h0 h3 h4 h5 h6]
  exact layer_eq a1 (isFin_y2 a1 a0 a3 a4 a5 a6 h0 h3 h4 h5 h6) (isFin_w2 h3) (isFin_row2 h4)

include h0 h3 h4 h5 h6 in
theorem isFin_y3 : IsFin (y3 a0 a1 a3 a4 a5 a6) := by
  unfold y3
  exact layer_fin a1 (isFin_y2 a1 a0 a3 a4 a5 a6 h0 h3 h4 h5 h6) (isFin_w2 h3) (isFin_row2 h4) (isFin_row2 h5) (isFin_row2 h6)

end Net

/-- On finite inputs the network in the clamped one-pass spelling is the network in the two-pass spelling. -/
theorem out1_eq_out2 (a0 : FVec Ideal S100000x64 .f32) (a1 : IVec S2x1600000 32) (a2 : IVec S100000 32)
    (a3 : FVec Ideal S3x64x64 .f32) (a4 a5 a6 : FVec Ideal S3x64 .f32) (a7 : FVec Ideal S64x64 .f32) (a8 : FVec Ideal S64 .f32)
    (h0 : IsFin a0) (h3 : IsFin a3) (h4 : IsFin a4) (h5 : IsFin a5) (h6 : IsFin a6) (h7 : IsFin a7) (h8 : IsFin a8) :
    KSpec.out1 a0 a1 a2 a3 a4 a5 a6 a7 a8 = KSpec.out2 a0 a1 a2 a3 a4 a5 a6 a7 a8 := by
  unfold KSpec.out1 KSpec.out2
  rw [x3_eq_y3 a1 a0 a3 a4 a5 a6 h0 h3 h4 h5 h6]

end Cert.KernelIdeal.KBridge

end
-- ==== Proof.lean ====
/-
  The certificate of a three-layer graph-convolution network with training-mode batch normalisation, a mean pool
  over graphs and a final linear map: a kernel program of ten tiled regions (dense transform; self-loop, bias and
  batch statistics accumulated over row blocks; normalisation; final linear map) among host gathers and
  scatter-adds, against a plain reference.

  The three frames: the two kernel programs' are the generated frame certificates; the reference is a host
  program whose run is read back operation by operation.  The idealization rewrote nothing.

  The value claim.  At the ideal values both programs compute, layer by layer, the same pre-normalisation
  activations A = scatter-add of the gathered, edge-normalised messages of x·W, plus the self loop and the bias
  (a tiled matrix product into a zero accumulator is the host's product; a sum over ten row blocks is the sum over
  all rows).  They differ in one law only: the kernel takes the per-feature variance in one pass, as
  max (Σ A² / n − (Σ A / n)², 0), the reference in two passes, as Σ (A − Σ A / n)² / n.  On extended reals these
  differ at infinities; on finite reals they are equal and the clamp is idle.  The precondition makes every float
  input finite, and finiteness is carried through the network: the in-degree plus one is a real ≥ 1, so its
  reciprocal square root is real; gathers read entries of a finite array, scatter-adds are finite sums of finite
  values; the variance is a real ≥ 0 and ε > 0, so the normalisation is finite.  Hence the two networks agree.
-/
import proofs.«125721_j19146964206336_2_alg».proof.Defs
import proofs.«125721_j19146964206336_2_alg».proof.Proof.Gen.Kernel
import proofs.«125721_j19146964206336_2_alg».proof.Proof.Gen.Kernel.Frame
import proofs.«125721_j19146964206336_2_alg».proof.Proof.Gen.KernelIdeal
import proofs.«125721_j19146964206336_2_alg».proof.Proof.Gen.KernelIdeal.Frame
import proofs.«125721_j19146964206336_2_alg».proof.Proof.Gen.ReferenceIdeal
import proofs.«125721_j19146964206336_2_alg».proof.Proof.Gen.Pre_finite_inputs
import proofs.«125721_j19146964206336_2_alg».proof.Proof.RefRunFrame
import proofs.«125721_j19146964206336_2_alg».proof.Proof.Assemble
import proofs.«125721_j19146964206336_2_alg».proof.Proof.KChain
import proofs.«125721_j19146964206336_2_alg».proof.Proof.RefChain
import proofs.«125721_j19146964206336_2_alg».proof.Proof.KBridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.ReferenceIdeal.RefRun.frame_ri,
    trivial,
    Cert.Proof.Assemble.algebraic_of Cert.KernelIdeal.KChain.kchain Cert.ReferenceIdeal.RefChain.ref_out
      Cert.KernelIdeal.KBridge.out1_eq_out2⟩

end Cert.Proof

end
